-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v12_2)) (v3 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_v21) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_v47) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S128x256 : Shape := ⟨2, ![128, 256]⟩
abbrev S256 : Shape := ⟨1, ![256]⟩
abbrev S256x256 : Shape := ⟨2, ![256, 256]⟩
abbrev S256x6144 : Shape := ⟨2, ![256, 6144]⟩
abbrev S6144 : Shape := ⟨1, ![6144]⟩
abbrev S256x3 : Shape := ⟨2, ![256, 3]⟩
abbrev S3 : Shape := ⟨1, ![3]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x6144 : S_.BroadcastsInDim S256x6144 (![] : Fin 0 → Fin S256x6144.rank)
  reducesTo_S256x6144_S_d0_1 : S256x6144.ReducesTo [0, 1] S_
  bcast_S_S6144 : S_.BroadcastsInDim S6144 (![] : Fin 0 → Fin S6144.rank)
  reducesTo_S6144_S_d0 : S6144.ReducesTo [0] S_
  bcast_S_S256x3 : S_.BroadcastsInDim S256x3 (![] : Fin 0 → Fin S256x3.rank)
  reducesTo_S256x3_S_d0_1 : S256x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_arg11 : FVec F S256x3 .f32) (main_arg12 : FVec F S3 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x3 .f32 := Host.absf main_arg11
  let main_cst_20 : FVec F S_ .f32 := constant S_ .f32 0x7F800000#32
  let main_v55 : FVec F S256x3 .f32 := broadcastInDim S256x3 ![] bcast_S_S256x3 main_cst_20
  let main_v56 : IVec S256x3 1 := cmpf .olt main_v54 main_v55
  let main_c_21 : IVec S_ 1 := constantI S_ 1 1#1
  let main_v57 : IVec S_ 1 := (fun x v => Host.reduce IntOp.andi x v reducesTo_S256x3_S_d0_1 h_S_) main_v56 main_c_21
  let main_v58 : IVec S_ 1 := andi main_v53 main_v57
  let main_v59 : FVec F S3 .f32 := Host.absf main_arg12
  let main_cst_22 : FVec F S_ .f32 := constant S_ .f32 0x7F800000#32
  let main_v60 : FVec F S3 .f32 := broadcastInDim S3 ![] bcast_S_S3 main_cst_22
  let main_v61 : IVec S3 1 := cmpf .olt main_v59 main_v60
  let main_c_23 : IVec S_ 1 := constantI S_ 1 1#1
  let main_v62 : IVec S_ 1 := (fun x v => Host.reduce IntOp.andi x v reducesTo_S3_S_d0 h_S_) main_v61 main_c_23
  let main_v63 : IVec S_ 1 := andi main_v58 main_v62
  main_v63

def fn_part2 {F : FTy → Type} [FloatOps F] (main_arg7 : FVec F S128x256 .f32) (main_arg8 : FVec F S256 .f32) (main_arg9 : FVec F S256x256 .f32) (main_arg10 : FVec F S256 .f32) (main_arg11 : FVec F S256x3 .f32) (main_arg12 : FVec F S3 .f32) (main_v33 : IVec S_ 1) : IVec S_ 1 :=
  let main_v34 : FVec F S128x256 .f32 := Host.absf main_arg7
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S256 .f32) (main_arg5 : FVec F S256x6144 .f32) (main_arg6 : FVec F S6144 .f32) (main_arg7 : FVec F S128x256 .f32) (main_arg8 : FVec F S256 .f32) (main_arg9 : FVec F S256x256 .f32) (main_arg10 : FVec F S256 .f32) (main_arg11 : FVec F S256x3 .f32) (main_arg12 : FVec F S3 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x6144 .f32 := Host.absf main_arg5
  let main_cst_8 : FVec F S_ .f32 := constant S_ .f32 0x7F800000#32
  let main_v25 : FVec F S256x6144 .f32 := broadcastInDim S256x6144 ![] bcast_S_S256x6144 main_cst_8
  let main_v26 : IVec S256x6144 1 := cmpf .olt main_v24 main_v25
  let main_c_9 : IVec S_ 1 := constantI S_ 1 1#1
  let main_v27 : IVec S_ 1 := (fun x v => Host.reduce IntOp.andi x v reducesTo_S256x6144_S_d0_1 h_S_) main_v26 main_c_9
  let main_v28 : IVec S_ 1 := andi main_v23 main_v27
  let main_v29 : FVec F S6144 .f32 := Host.absf main_arg6
  let main_cst_10 : FVec F S_ .f32 := constant S_ .f32 0x7F800000#32
  let main_v30 : FVec F S6144 .f32 := broadcastInDim S6144 ![] bcast_S_S6144 main_cst_10
  let main_v31 : IVec S6144 1 := cmpf .olt main_v29 main_v30
  let main_c_11 : IVec S_ 1 := constantI S_ 1 1#1
  let main_v32 : IVec S_ 1 := (fun x v => Host.reduce IntOp.andi x v reducesTo_S6144_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4096x128 .f32) (main_arg1 : FVec F S128x256 .f32) (main_arg2 : FVec F S256 .f32) (main_arg3 : FVec F S256x256 .f32) (main_arg4 : FVec F S256 .f32) (main_arg5 : FVec F S256x6144 .f32) (main_arg6 : FVec F S6144 .f32) (main_arg7 : FVec F S128x256 .f32) (main_arg8 : FVec F S256 .f32) (main_arg9 : FVec F S256x256 .f32) (main_arg10 : FVec F S256 .f32) (main_arg11 : FVec F S256x3 .f32) (main_arg12 : FVec F S3 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_v13 main_v16
-- ==== Kernel.lean ====
abbrev S4096x128 : Shape := ⟨2, ![4096, 128]⟩
abbrev S128x256 : Shape := ⟨2, ![128, 256]⟩
abbrev S256 : Shape := ⟨1, ![256]⟩
abbrev S256x256 : Shape := ⟨2, ![256, 256]⟩
abbrev S256x6144 : Shape := ⟨2, ![256, 6144]⟩
abbrev S6144 : Shape := ⟨1, ![6144]⟩
abbrev S256x3 : Shape := ⟨2, ![256, 3]⟩
abbrev S3 : Shape := ⟨1, ![3]⟩
abbrev S1x256 : Shape := ⟨2, ![1, 256]⟩
abbrev S1x6144 : Shape := ⟨2, ![1, 6144]⟩
abbrev S1x3 : Shape := ⟨2, ![1, 3]⟩
abbrev S4096x6144 : Shape := ⟨2, ![4096, 6144]⟩
abbrev S4096x1 : Shape := ⟨2, ![4096, 1]⟩
abbrev S4096x3 : Shape := ⟨2, ![4096, 3]⟩
abbrev S256x128 : Shape := ⟨2, ![256, 128]⟩
abbrev S256x1 : Shape := ⟨2, ![256, 1]⟩
abbrev S256x512 : Shape := ⟨2, ![256, 512]⟩
abbrev S1x512 : Shape := ⟨2, ![1, 512]⟩
abbrev S4096x3x2048 : Shape := ⟨3, ![4096, 3, 2048]⟩
abbrev S4096 : Shape := ⟨1, ![4096]⟩
abbrev S3x3 : Shape := ⟨2, ![3, 3]⟩
abbrev S_ : Shape := ⟨0, ![]⟩
abbrev S4096x3x3 : Shape := ⟨3, ![4096, 3, 3]⟩

abbrev nBuf : Space → Nat
  | .hbm => 38
  | .vmem => 20
  | .smem => 0
  | _ => 0

abbrev bufTy : (tb : Table) → Fin (tcTables nBuf tb) → BufTy
  | .hbm, ⟨0, _⟩ => ⟨S4096x128, .f32⟩
  | .hbm, ⟨1, _⟩ => ⟨S128x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x6144, .f32⟩
  | .hbm, ⟨6, _⟩ => ⟨S6144, .f32⟩
  | .hbm, ⟨7, _⟩ => ⟨S128x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x3, .f32⟩
  | .hbm, ⟨12, _⟩ => ⟨S3, .f32⟩
  | .hbm, ⟨13, _⟩ => ⟨S1x256, .f32⟩
  | .hbm, ⟨14, _⟩ => ⟨S1x256, .f32⟩
  | .hbm, ⟨15, _⟩ => ⟨S1x6144, .f32⟩
  | .hbm, ⟨16, _⟩ => ⟨S1x256, .f32⟩
  | .hbm, ⟨17, _⟩ => ⟨S1x256, .f32⟩
  | .hbm, ⟨18, _⟩ => ⟨S1x3, .f32⟩
  | .hbm, ⟨19, _⟩ => ⟨S128x256, .bf16⟩
  | .hbm, ⟨20, _⟩ => ⟨S256x256, .bf16⟩
  | .hbm, ⟨21, _⟩ => ⟨S256x6144, .bf16⟩
  | .hbm, ⟨22, _⟩ => ⟨S128x256, .bf16⟩
  | .hbm, ⟨23, _⟩ => ⟨S256x256, .bf16⟩
  | .hbm, ⟨24, _⟩ => ⟨S256x3, .bf16⟩
  | .hbm, ⟨25, _⟩ => ⟨S4096x6144, .f32⟩
  | .hbm, ⟨26, _⟩ => ⟨S4096x1, .f32⟩
  | .hbm, ⟨27, _⟩ => ⟨S4096x3, .f32⟩
  | .hbm, ⟨28, _⟩ => ⟨S4096x3x2048, .f32⟩
  | .hbm, ⟨29, _⟩ => ⟨S4096, .f32⟩
  | .hbm, ⟨30, _⟩ => ⟨S3x3, .i32⟩
  | .hbm, ⟨31, _⟩ => ⟨S3x3, .i32⟩
  | .hbm, ⟨32, _⟩ => ⟨S_, .i32⟩
  | .hbm, ⟨33, _⟩ => ⟨S3x3, .i32⟩
  | .hbm, ⟨34, _⟩ => ⟨S3x3, .i32⟩
  | .hbm, ⟨35, _⟩ => ⟨S3x3, .i1⟩
  | .hbm, ⟨36, _⟩ => ⟨S3x3, .f32⟩
  | .hbm, ⟨37, _⟩ => ⟨S4096x3x3, .f32⟩
  | .local _ .vmem, ⟨0, _⟩ => ⟨S256x128, .f32⟩
  | .local _ .vmem, ⟨1, _⟩ => ⟨S256x128, .f32⟩
  | .local _ .vmem, ⟨2, _⟩ => ⟨S128x256, .bf16⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S256x6144, .bf16⟩
  | .local _ .vmem, ⟨7, _⟩ => ⟨S1x6144, .f32⟩
  | .local _ .vmem, ⟨8, _⟩ => ⟨S128x256, .bf16⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S256x3, .bf16⟩
  | .local _ .vmem, ⟨13, _⟩ => ⟨S1x3, .f32⟩
  | .local _ .vmem, ⟨14, _⟩ => ⟨S256x6144, .f32⟩
  | .local _ .vmem, ⟨15, _⟩ => ⟨S256x6144, .f32⟩
  | .local _ .vmem, ⟨16, _⟩ => ⟨S256x1, .f32⟩
  | .local _ .vmem, ⟨17, _⟩ => ⟨S256x1, .f32⟩
  | .local _ .vmem, ⟨18, _⟩ => ⟨S256x3, .f32⟩
  | .local _ .vmem, ⟨19, _⟩ => ⟨S256x3, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v12_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c512_i32 : BitVec 32 := 512#32
  let v67 : BitVec 32 := Scalar.muli c0_i32 c512_i32
  v67
def k0_mult2 : BitVec 32 :=
  let c0_i32 : BitVec 32 := 0#32
  let c512_i32 : BitVec 32 := 512#32
  let v67 : BitVec 32 := Scalar.muli c0_i32 c512_i32
  let c2048_i32 : BitVec 32 := 2048#32
  let v69 : BitVec 32 := Scalar.addi v67 c2048_i32
  v69
def k0_mult3 : BitVec 32 :=
  let c0_i32 : BitVec 32 := 0#32
  let c512_i32 : BitVec 32 := 512#32
  let v67 : BitVec 32 := Scalar.muli c0_i32 c512_i32
  let c4096_i32 : BitVec 32 := 4096#32
  let v71 : BitVec 32 := Scalar.addi v67 c4096_i32
  v71
def k0_off1 (c0_i32 : BitVec 32) : Fin 2 → Nat :=
  let c0_36 : Index := 0#32
  let c512_i32 : BitVec 32 := 512#32
  let v67 : BitVec 32 := Scalar.muli c0_i32 c512_i32
  let v68 : BitVec 32 := v67
  let v73 : Index := Scalar.indexCast v68
  ![0, v73.toNat]
def k0_off2 (c0_i32 : BitVec 32) : Fin 2 → Nat :=
  let c0_37 : Index := 0#32
  let c512_i32 : BitVec 32 := 512#32
  let v67 : BitVec 32 := Scalar.muli c0_i32 c512_i32
  let v68 : BitVec 32 := v67
  let v76 : Index := Scalar.indexCast v68
  ![0, v76.toNat]
def k0_off3 (c0_i32 : BitVec 32) (c2048_i32 : BitVec 32) : Fin 2 → Nat :=
  let c0_39 : Index := 0#32
  let c512_i32 : BitVec 32 := 512#32
  let v67 : BitVec 32 := Scalar.muli c0_i32 c512_i32
  let v69 : BitVec 32 := Scalar.addi v67 c2048_i32
  let v70 : BitVec 32 := v69
  let v83 : Index := Scalar.indexCast v70
  ![0, v83.toNat]
def k0_off4 (c0_i32 : BitVec 32) (c2048_i32 : BitVec 32) : Fin 2 → Nat :=
  let c0_40 : Index := 0#32
  let c512_i32 : BitVec 32 := 512#32
  let v67 : BitVec 32 := Scalar.muli c0_i32 c512_i32
  let v69 : BitVec 32 := Scalar.addi v67 c2048_i32
  let v70 : BitVec 32 := v69
  let v86 : Index := Scalar.indexCast v70
  ![0, v86.toNat]
def k0_mult4 : BitVec 32 :=
  let c1_i32 : BitVec 32 := 1#32
  let c512_i32_53 : BitVec 32 := 512#32
  let v154 : BitVec 32 := Scalar.muli c1_i32 c512_i32_53
  v154
def k0_mult5 : BitVec 32 :=
  let c1_i32 : BitVec 32 := 1#32
  let c512_i32_53 : BitVec 32 := 512#32
  let v154 : BitVec 32 := Scalar.muli c1_i32 c512_i32_53
  let c2048_i32_54 : BitVec 32 := 2048#32
  let v156 : BitVec 32 := Scalar.addi v154 c2048_i32_54
  v156
def k0_mult6 : BitVec 32 :=
  let c1_i32 : BitVec 32 := 1#32
  let c512_i32_53 : BitVec 32 := 512#32
  let v154 : BitVec 32 := Scalar.muli c1_i32 c512_i32_53
  let c4096_i32_55 : BitVec 32 := 4096#32
  let v158 : BitVec 32 := Scalar.addi v154 c4096_i32_55
  v158
def k0_mult7 : BitVec 32 :=
  let c2_i32 : BitVec 32 := 2#32
  let c512_i32_73 : BitVec 32 := 512#32
  let v241 : BitVec 32 := Scalar.muli c2_i32 c512_i32_73
  v241
def k0_mult8 : BitVec 32 :=
  let c2_i32 : BitVec 32 := 2#32
  let c512_i32_73 : BitVec 32 := 512#32
  let v241 : BitVec 32 := Scalar.muli c2_i32 c512_i32_73
  let c2048_i32_74 : BitVec 32 := 2048#32
  let v243 : BitVec 32 := Scalar.addi v241 c2048_i32_74
  v243
def k0_mult9 : BitVec 32 :=
  let c2_i32 : BitVec 32 := 2#32
  let c512_i32_73 : BitVec 32 := 512#32
  let v241 : BitVec 32 := Scalar.muli c2_i32 c512_i32_73
  let c4096_i32_75 : BitVec 32 := 4096#32
  let v245 : BitVec 32 := Scalar.addi v241 c4096_i32_75
  v245
def k0_mult10 : BitVec 32 :=
  let c3_i32 : BitVec 32 := 3#32
  let c512_i32_93 : BitVec 32 := 512#32
  let v328 : BitVec 32 := Scalar.muli c3_i32 c512_i32_93
  v328
def k0_mult11 : BitVec 32 :=
  let c3_i32 : BitVec 32 := 3#32
  let c512_i32_93 : BitVec 32 := 512#32
  let v328 : BitVec 32 := Scalar.muli c3_i32 c512_i32_93
  let c2048_i32_94 : BitVec 32 := 2048#32
  let v330 : BitVec 32 := Scalar.addi v328 c2048_i32_94
  v330
def k0_mult12 : BitVec 32 :=
  let c3_i32 : BitVec 32 := 3#32
  let c512_i32_93 : BitVec 32 := 512#32
  let v328 : BitVec 32 := Scalar.muli c3_i32 c512_i32_93
  let c4096_i32_95 : BitVec 32 := 4096#32
  let v332 : BitVec 32 := Scalar.addi v328 c4096_i32_95
  v332
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x6144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x3 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x3 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x6144 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x3 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  shapeCasts_S256_S1x256 : S256.ShapeCasts S1x256
  shapeCasts_S6144_S1x6144 : S6144.ShapeCasts S1x6144
  shapeCasts_S3_S1x3 : S3.ShapeCasts S1x3
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x3_S256x3_0_0 : ∀ a, (![0, 0] : Fin 2 → Nat) a + S256x3.size a ≤ S256x3.size a
  h_S256x3 : 0 < S256x3.numel
  shapeCasts_S256x3_S256x3 : S256x3.ShapeCasts S256x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S256x3 : S1x3.Broadcasts S256x3
  slices_S256x3_o0_0_S256x1 : S256x3.Slices ![0, 0] S256x1
  slices_S256x3_o0_1_S256x1 : S256x3.Slices ![0, 1] S256x1
  slices_S256x3_o0_2_S256x1 : S256x3.Slices ![0, 2] S256x1
  h_S256x512 : 0 < S256x512.numel
  shapeCasts_S256x512_S256x512 : S256x512.ShapeCasts S256x512
  h_S1x512 : 0 < S1x512.numel
  shapeCasts_S1x512_S1x512 : S1x512.ShapeCasts S1x512
  broadcasts_S1x512_S256x512 : S1x512.Broadcasts S256x512
  broadcasts_S256x1_S256x512 : S256x1.Broadcasts S256x512
  natLt_1_32 : 1 < 32
  reduces_S256x512_S256 : S256x512.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S4096x6144_S4096x3x2048 : S4096x6144.ShapeCasts S4096x3x2048
  shapeCasts_S4096x1_S4096 : S4096x1.ShapeCasts S4096
  bcast_S_S3x3 : S_.BroadcastsInDim S3x3 (![] : Fin 0 → Fin S3x3.rank)
  bcast_S3x3_S4096x3x3_1_2 : S3x3.BroadcastsInDim S4096x3x3 (![1, 2] : Fin 2 → Fin S4096x3x3.rank)
  dot_S256x128_S128x256_S256x256_1_0_0_1_n_n_wf : DotDims.WF S256x128 S128x256 S256x256 [1] [0] [0] [1] [] []
  dot_S256x256_S256x256_S256x256_1_0_0_1_n_n_wf : DotDims.WF S256x256 S256x256 S256x256 [1] [0] [0] [1] [] []
  dot_S256x256_S256x3_S256x3_1_0_0_1_n_n_wf : DotDims.WF S256x256 S256x3 S256x3 [1] [0] [0] [1] [] []
  dot_S256x256_S256x512_S256x512_1_0_0_1_n_n_wf : DotDims.WF S256x256 S256x512 S256x512 [1] [0] [0] [1] [] []
  hrank0 : 0 < grid0.rank
  k0_mult1_dvd : 512 ∣ k0_mult1.toNat
  k0_mult2_dvd : 512 ∣ k0_mult2.toNat
  k0_mult3_dvd : 512 ∣ k0_mult3.toNat
  k0_off1_inb : ∀ (r : Fin 4), ∀ a, (k0_off1 (BitVec.ofNat 32 r.val)) a + S256x512.size a ≤ S256x6144.size a
  k0_off2_inb : ∀ (r : Fin 4), ∀ a, (k0_off2 (BitVec.ofNat 32 r.val)) a + S1x512.size a ≤ S1x6144.size a
  k0_off3_inb : ∀ (r₁ : Fin 4) (r₂ : Fin 2), ∀ a, (k0_off3 (BitVec.ofNat 32 r₁.val) (BitVec.ofNat 32 (2048 + 2048 * r₂.val))) a + S256x512.size a ≤ S256x6144.size a
  k0_off4_inb : ∀ (r₁ : Fin 4) (r₂ : Fin 2), ∀ a, (k0_off4 (BitVec.ofNat 32 r₁.val) (BitVec.ofNat 32 (2048 + 2048 * r₂.val))) a + S1x512.size a ≤ S1x6144.size a
  k0_mult4_dvd : 512 ∣ k0_mult4.toNat
  k0_mult5_dvd : 512 ∣ k0_mult5.toNat
  k0_mult6_dvd : 512 ∣ k0_mult6.toNat
  k0_mult7_dvd : 512 ∣ k0_mult7.toNat
  k0_mult8_dvd : 512 ∣ k0_mult8.toNat
  k0_mult9_dvd : 512 ∣ k0_mult9.toNat
  k0_mult10_dvd : 512 ∣ k0_mult10.toNat
  k0_mult11_dvd : 512 ∣ k0_mult11.toNat
  k0_mult12_dvd : 512 ∣ k0_mult12.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S4096x128.size a
  hwx0_0 : ∀ i : grid0.Coords, EltTy.bits .f32 = 32 ∨ (Rect.block (s := S4096x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x6144.size a ≤ S256x6144.size a
  hwx0_5 : ∀ i : grid0.Coords, EltTy.bits .bf16 = 32 ∨ (Rect.block (s := S256x6144) S256x6144.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x6144.size a ≤ S1x6144.size a
  hwx0_6 : ∀ i : grid0.Coords, EltTy.bits .f32 = 32 ∨ (Rect.block (s := S1x6144) S1x6144.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x256.size a
  hwx0_7 : ∀ i : grid0.Coords, EltTy.bits .bf16 = 32 ∨ (Rect.block (s := S128x256) S128x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x3.size a ≤ S256x3.size a
  hwx0_11 : ∀ i : grid0.Coords, EltTy.bits .bf16 = 32 ∨ (Rect.block (s := S256x3) S256x3.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x3.size a ≤ S1x3.size a
  hwx0_12 : ∀ i : grid0.Coords, EltTy.bits .f32 = 32 ∨ (Rect.block (s := S1x3) S1x3.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x6144.size a ≤ S4096x6144.size a
  hwx0_13 : ∀ i : grid0.Coords, EltTy.bits .f32 = 32 ∨ (Rect.block (s := S4096x6144) S256x6144.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S256x1.size a ≤ S4096x1.size a
  hwx0_14 : ∀ i : grid0.Coords, EltTy.bits .f32 = 32 ∨ (Rect.block (s := S4096x1) S256x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x3.size a ≤ S4096x3.size a
  hwx0_15 : ∀ i : grid0.Coords, EltTy.bits .f32 = 32 ∨ (Rect.block (s := S4096x3) S256x3.size (cc0_transform_15 i) (hinb0_15 i)).WholeWords (EltTy.packing .f32)

variable [Facts₀]

def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x3_S256x3_1_0_0_1_n_n : DotDims S256x256 S256x3 S256x3 where
  lhsContracting := [1]
  rhsContracting := [0]
  lhsNonContracting := [0]
  rhsNonContracting := [1]
  lhsBatch := []
  rhsBatch := []
  wf := dot_S256x256_S256x3_S256x3_1_0_0_1_n_n_wf
def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S256x6144.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x6144.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S128x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S256x3.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1x3.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12_0) S256x6144.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v12_1) S256x1.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v12_2) S256x3.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S4096x128 : Shape := ⟨2, ![4096, 128]⟩
abbrev S128x256 : Shape := ⟨2, ![128, 256]⟩
abbrev S256 : Shape := ⟨1, ![256]⟩
abbrev S256x256 : Shape := ⟨2, ![256, 256]⟩
abbrev S256x6144 : Shape := ⟨2, ![256, 6144]⟩
abbrev S6144 : Shape := ⟨1, ![6144]⟩
abbrev S256x3 : Shape := ⟨2, ![256, 3]⟩
abbrev S3 : Shape := ⟨1, ![3]⟩
abbrev S4096x256 : Shape := ⟨2, ![4096, 256]⟩
abbrev S1x256 : Shape := ⟨2, ![1, 256]⟩
abbrev S_ : Shape := ⟨0, ![]⟩
abbrev S4096x6144 : Shape := ⟨2, ![4096, 6144]⟩
abbrev S1x6144 : Shape := ⟨2, ![1, 6144]⟩
abbrev S4096x3x2048 : Shape := ⟨3, ![4096, 3, 2048]⟩
abbrev S4096x3 : Shape := ⟨2, ![4096, 3]⟩
abbrev S1x3 : Shape := ⟨2, ![1, 3]⟩
abbrev S3x3 : Shape := ⟨2, ![3, 3]⟩
abbrev S4096x3x3 : Shape := ⟨3, ![4096, 3, 3]⟩
abbrev S4096x3x1 : Shape := ⟨3, ![4096, 3, 1]⟩
abbrev S4096x3x2048x1 : Shape := ⟨4, ![4096, 3, 2048, 1]⟩
abbrev S4096x3x2048x2 : Shape := ⟨4, ![4096, 3, 2048, 2]⟩
abbrev S4096x2048 : Shape := ⟨2, ![4096, 2048]⟩
abbrev S4096 : Shape := ⟨1, ![4096]⟩

abbrev nBuf : Space → Nat
  | .hbm => 138
  | .vmem => 0
  | .smem => 0
  | _ => 0

abbrev hbmTy0_0 (i : Nat) : BufTy := match i % 128 with
  | 0 => ⟨S4096x128, .f32⟩
  | 1 => ⟨S128x256, .f32⟩
  | 2 => ⟨S256, .f32⟩
  | 3 => ⟨S256x256, .f32⟩
  | 4 => ⟨S256, .f32⟩
  | 5 => ⟨S256x6144, .f32⟩
  | 6 => ⟨S6144, .f32⟩
  | 7 => ⟨S128x256, .f32⟩
  | 8 => ⟨S256, .f32⟩
  | 9 => ⟨S256x256, .f32⟩
  | 10 => ⟨S256, .f32⟩
  | 11 => ⟨S256x3, .f32⟩
  | 12 => ⟨S3, .f32⟩
  | 13 => ⟨S4096x256, .f32⟩
  | 14 => ⟨S1x256, .f32⟩
  | 15 => ⟨S4096x256, .f32⟩
  | 16 => ⟨S4096x256, .f32⟩
  | 17 => ⟨S_, .f32⟩
  | 18 => ⟨S_, .f32⟩
  | 19 => ⟨S4096x256, .f32⟩
  | 20 => ⟨S4096x256, .i1⟩
  | 21 => ⟨S_, .f32⟩
  | 22 => ⟨S4096x256, .f32⟩
  | 23 => ⟨S4096x256, .f32⟩
  | 24 => ⟨S4096x256, .f32⟩
  | 25 => ⟨S4096x256, .f32⟩
  | 26 => ⟨S1x256, .f32⟩
  | 27 => ⟨S4096x256, .f32⟩
  | 28 => ⟨S4096x256, .f32⟩
  | 29 => ⟨S_, .f32⟩
  | 30 => ⟨S_, .f32⟩
  | 31 => ⟨S4096x256, .f32⟩
  | 32 => ⟨S4096x256, .i1⟩
  | 33 => ⟨S_, .f32⟩
  | 34 => ⟨S4096x256, .f32⟩
  | 35 => ⟨S4096x256, .f32⟩
  | 36 => ⟨S4096x256, .f32⟩
  | 37 => ⟨S4096x6144, .f32⟩
  | 38 => ⟨S1x6144, .f32⟩
  | 39 => ⟨S4096x6144, .f32⟩
  | 40 => ⟨S4096x6144, .f32⟩
  | 41 => ⟨S4096x6144, .f32⟩
  | 42 => ⟨S4096x6144, .f32⟩
  | 43 => ⟨S_, .f32⟩
  | 44 => ⟨S4096x6144, .f32⟩
  | 45 => ⟨S4096x6144, .f32⟩
  | 46 => ⟨S_, .f32⟩
  | 47 => ⟨S4096x6144, .f32⟩
  | 48 => ⟨S4096x6144, .f32⟩
  | 49 => ⟨S4096x3x2048, .f32⟩
  | 50 => ⟨S4096x256, .f32⟩
  | 51 => ⟨S1x256, .f32⟩
  | 52 => ⟨S4096x256, .f32⟩
  | 53 => ⟨S4096x256, .f32⟩
  | 54 => ⟨S_, .f32⟩
  | 55 => ⟨S_, .f32⟩
  | 56 => ⟨S4096x256, .f32⟩
  | 57 => ⟨S4096x256, .i1⟩
  | 58 => ⟨S_, .f32⟩
  | 59 => ⟨S4096x256, .f32⟩
  | 60 => ⟨S4096x256, .f32⟩
  | 61 => ⟨S4096x256, .f32⟩
  | 62 => ⟨S4096x256, .f32⟩
  | 63 => ⟨S1x256, .f32⟩
  | 64 => ⟨S4096x256, .f32⟩
  | 65 => ⟨S4096x256, .f32⟩
  | 66 => ⟨S_, .f32⟩
  | 67 => ⟨S_, .f32⟩
  | 68 => ⟨S4096x256, .f32⟩
  | 69 => ⟨S4096x256, .i1⟩
  | 70 => ⟨S_, .f32⟩
  | 71 => ⟨S4096x256, .f32⟩
  | 72 => ⟨S4096x256, .f32⟩
  | 73 => ⟨S4096x256, .f32⟩
  | 74 => ⟨S4096x3, .f32⟩
  | 75 => ⟨S1x3, .f32⟩
  | 76 => ⟨S4096x3, .f32⟩
  | 77 => ⟨S4096x3, .f32⟩
  | 78 => ⟨S4096x3, .f32⟩
  | 79 => ⟨S4096x3, .f32⟩
  | 80 => ⟨S_, .f32⟩
  | 81 => ⟨S4096x3, .f32⟩
  | 82 => ⟨S4096x3, .f32⟩
  | 83 => ⟨S_, .f32⟩
  | 84 => ⟨S4096x3, .f32⟩
  | 85 => ⟨S4096x3, .f32⟩
  | 86 => ⟨S3x3, .i32⟩
  | 87 => ⟨S3x3, .i32⟩
  | 88 => ⟨S_, .i32⟩
  | 89 => ⟨S3x3, .i32⟩
  | 90 => ⟨S3x3, .i32⟩
  | 91 => ⟨S3x3, .i1⟩
  | 92 => ⟨S3x3, .f32⟩
  | 93 => ⟨S4096x3x3, .f32⟩
  | 94 => ⟨S4096x3x1, .f32⟩
  | 95 => ⟨S4096x3x2048, .f32⟩
  | 96 => ⟨S4096x3x2048, .f32⟩
  | 97 => ⟨S4096x3x2048, .f32⟩
  | 98 => ⟨S4096x3x2048x1, .f32⟩
  | 99 => ⟨S4096x3x2048x1, .f32⟩
  | 100 => ⟨S4096x3x2048x2, .f32⟩
  | 101 => ⟨S4096x3x2048, .f32⟩
  | 102 => ⟨S4096x3x2048, .i1⟩
  | 103 => ⟨S4096x3x2048, .f32⟩
  | 104 => ⟨S_, .f32⟩
  | 105 => ⟨S4096x2048, .f32⟩
  | 106 => ⟨S_, .f32⟩
  | 107 => ⟨S4096x2048, .f32⟩
  | 108 => ⟨S4096x2048, .i1⟩
  | 109 => ⟨S4096x2048, .f32⟩
  | 110 => ⟨S4096x3x2048x1, .f32⟩
  | 111 => ⟨S_, .f32⟩
  | 112 => ⟨S4096x3x2048x1, .f32⟩
  | 113 => ⟨S4096x3x2048x1, .i1⟩
  | 114 => ⟨S_, .f32⟩
  | 115 => ⟨S_, .f32⟩
  | 116 => ⟨S4096x3x2048x2, .i1⟩
  | 117 => ⟨S4096x3x2048x2, .f32⟩
  | 118 => ⟨S4096x3x2048x2, .f32⟩
  | 119 => ⟨S_, .f32⟩
  | 120 => ⟨S4096x3x2048, .f32⟩
  | 121 => ⟨S_, .f32⟩
  | 122 => ⟨S4096x2048, .f32⟩
  | 123 => ⟨S_, .f32⟩
  | 124 => ⟨S4096x3x2048, .f32⟩
  | 125 => ⟨S_, .f32⟩
  | 126 => ⟨S4096x2048, .f32⟩
  | 127 => ⟨S4096x2048, .f32⟩
  | _ => ⟨S4096x128, .f32⟩

abbrev hbmTy0_1 (i : Nat) : BufTy := match i % 128 with
  | 0 => ⟨S_, .f32⟩
  | 1 => ⟨S4096x2048, .f32⟩
  | 2 => ⟨S4096x2048, .f32⟩
  | 3 => ⟨S4096x2048, .f32⟩
  | 4 => ⟨S4096x2048, .f32⟩
  | 5 => ⟨S_, .f32⟩
  | 6 => ⟨S4096, .f32⟩
  | 7 => ⟨S_, .f32⟩
  | 8 => ⟨S4096, .f32⟩
  | 9 => ⟨S4096, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_0 : Ref sig .tc := ⟨.hbm, 29, rfl⟩
abbrev main_call1_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_1 : Ref sig .tc := ⟨.hbm, 43, rfl⟩
abbrev main_v16 : Ref sig .tc := ⟨.hbm, 44, rfl⟩
abbrev main_v17 : Ref sig .tc := ⟨.hbm, 45, rfl⟩
abbrev main_cst_2 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_3 : Ref sig .tc := ⟨.hbm, 54, rfl⟩
abbrev main_call2_cst : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_4 : Ref sig .tc := ⟨.hbm, 66, rfl⟩
abbrev main_call3_cst : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_cst_5 : Ref sig .tc := ⟨.hbm, 80, rfl⟩
abbrev main_v37 : Ref sig .tc := ⟨.hbm, 81, rfl⟩
abbrev main_v38 : Ref sig .tc := ⟨.hbm, 82, rfl⟩
abbrev main_cst_6 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_c : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_cst_7 : Ref sig .tc := ⟨.hbm, 104, rfl⟩
abbrev main_v58 : Ref sig .tc := ⟨.hbm, 105, rfl⟩
abbrev main_cst_8 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_cst_9 : Ref sig .tc := ⟨.hbm, 111, rfl⟩
abbrev main_v63 : Ref sig .tc := ⟨.hbm, 112, rfl⟩
abbrev main_v64 : Ref sig .tc := ⟨.hbm, 113, rfl⟩
abbrev main_cst_10 : Ref sig .tc := ⟨.hbm, 114, rfl⟩
abbrev main_call4_v0 : Ref sig .tc := ⟨.hbm, 115, rfl⟩
abbrev main_call4_v1 : Ref sig .tc := ⟨.hbm, 116, rfl⟩
abbrev main_call4_v2 : Ref sig .tc := ⟨.hbm, 117, rfl⟩
abbrev main_v65 : Ref sig .tc := ⟨.hbm, 118, rfl⟩
abbrev main_cst_11 : Ref sig .tc := ⟨.hbm, 119, rfl⟩
abbrev main_v66 : Ref sig .tc := ⟨.hbm, 120, rfl⟩
abbrev main_cst_12 : Ref sig .tc := ⟨.hbm, 121, rfl⟩
abbrev main_v67 : Ref sig .tc := ⟨.hbm, 122, rfl⟩
abbrev main_cst_13 : Ref sig .tc := ⟨.hbm, 123, rfl⟩
abbrev main_v68 : Ref sig .tc := ⟨.hbm, 124, rfl⟩
abbrev main_cst_14 : Ref sig .tc := ⟨.hbm, 125, rfl⟩
abbrev main_v69 : Ref sig .tc := ⟨.hbm, 126, rfl⟩
abbrev main_v70 : Ref sig .tc := ⟨.hbm, 127, rfl⟩
abbrev main_cst_15 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_cst_16 : Ref sig .tc := ⟨.hbm, 133, rfl⟩
abbrev main_v75 : Ref sig .tc := ⟨.hbm, 134, rfl⟩
abbrev main_cst_17 : Ref sig .tc := ⟨.hbm, 135, rfl⟩
abbrev main_v76 : Ref sig .tc := ⟨.hbm, 136, rfl⟩
abbrev main_v77 : Ref sig .tc := ⟨.hbm, 137, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S6144_S1x6144_1 : S6144.BroadcastsInDim S1x6144 (![1] : Fin 1 → Fin S1x6144.rank)
  bcast_S1x6144_S4096x6144_0_1 : S1x6144.BroadcastsInDim S4096x6144 (![0, 1] : Fin 2 → Fin S4096x6144.rank)
  bcast_S_S4096x6144 : S_.BroadcastsInDim S4096x6144 (![] : Fin 0 → Fin S4096x6144.rank)
  shapeCasts_S4096x6144_S4096x3x2048 : S4096x6144.ShapeCasts S4096x3x2048
  bcast_S3_S1x3_1 : S3.BroadcastsInDim S1x3 (![1] : Fin 1 → Fin S1x3.rank)
  bcast_S1x3_S4096x3_0_1 : S1x3.BroadcastsInDim S4096x3 (![0, 1] : Fin 2 → Fin S4096x3.rank)
  bcast_S_S4096x3 : S_.BroadcastsInDim S4096x3 (![] : Fin 0 → Fin S4096x3.rank)
  bcast_S_S3x3 : S_.BroadcastsInDim S3x3 (![] : Fin 0 → Fin S3x3.rank)
  bcast_S3x3_S4096x3x3_1_2 : S3x3.BroadcastsInDim S4096x3x3 (![1, 2] : Fin 2 → Fin S4096x3x3.rank)
  bcast_S4096x3_S4096x3x1_0_1 : S4096x3.BroadcastsInDim S4096x3x1 (![0, 1] : Fin 2 → Fin S4096x3x1.rank)
  bcast_S4096x3x1_S4096x3x2048_0_1_2 : S4096x3x1.BroadcastsInDim S4096x3x2048 (![0, 1, 2] : Fin 3 → Fin S4096x3x2048.rank)
  bcast_S4096x3x2048_S4096x3x2048x1_0_1_2 : S4096x3x2048.BroadcastsInDim S4096x3x2048x1 (![0, 1, 2] : Fin 3 → Fin S4096x3x2048x1.rank)
  concatenates_S4096x3x2048x1_S4096x3x2048x1_S4096x3x2048x2_d3 : Shape.Concatenates [S4096x3x2048x1, S4096x3x2048x1] S4096x3x2048x2 3
  reducesTo_S4096x3x2048_S4096x2048_d1 : S4096x3x2048.ReducesTo [1] S4096x2048
  h_S_ : 0 < S_.numel
  bcast_S_S4096x2048 : S_.BroadcastsInDim S4096x2048 (![] : Fin 0 → Fin S4096x2048.rank)
  bcast_S_S4096x3x2048x1 : S_.BroadcastsInDim S4096x3x2048x1 (![] : Fin 0 → Fin S4096x3x2048x1.rank)
  bcast_S4096x3x2048x1_S4096x3x2048x2_0_1_2_3 : S4096x3x2048x1.BroadcastsInDim S4096x3x2048x2 (![0, 1, 2, 3] : Fin 4 → Fin S4096x3x2048x2.rank)
  bcast_S_S4096x3x2048x2 : S_.BroadcastsInDim S4096x3x2048x2 (![] : Fin 0 → Fin S4096x3x2048x2.rank)
  reducesTo_S4096x3x2048x2_S4096x3x2048_d3 : S4096x3x2048x2.ReducesTo [3] S4096x3x2048
  reducesTo_S4096x2048_S4096_d1 : S4096x2048.ReducesTo [1] S4096
  bcast_S_S4096 : S_.BroadcastsInDim S4096 (![] : Fin 0 → Fin S4096.rank)
  dot_S4096x128_S128x256_S4096x256_1_0_0_1_n_n_wf : DotDims.WF S4096x128 S128x256 S4096x256 [1] [0] [0] [1] [] []
  dot_S4096x256_S256x256_S4096x256_1_0_0_1_n_n_wf : DotDims.WF S4096x256 S256x256 S4096x256 [1] [0] [0] [1] [] []
  dot_S4096x256_S256x6144_S4096x6144_1_0_0_1_n_n_wf : DotDims.WF S4096x256 S256x6144 S4096x6144 [1] [0] [0] [1] [] []
  dot_S4096x256_S256x3_S4096x3_1_0_0_1_n_n_wf : DotDims.WF S4096x256 S256x3 S4096x3 [1] [0] [0] [1] [] []

variable [Facts₀]

def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x6144_S4096x6144_1_0_0_1_n_n : DotDims S4096x256 S256x6144 S4096x6144 where
  lhsContracting := [1]
  rhsContracting := [0]
  lhsNonContracting := [0]
  rhsNonContracting := [1]
  lhsBatch := []
  rhsBatch := []
  wf := dot_S4096x256_S256x6144_S4096x6144_1_0_0_1_n_n_wf
def dot_S4096x256_S256x3_S4096x3_1_0_0_1_n_n : DotDims S4096x256 S256x3 S4096x3 where
  lhsContracting := [1]
  rhsContracting := [0]
  lhsNonContracting := [0]
  rhsNonContracting := [1]
  lhsBatch := []
  rhsBatch := []
  wf := dot_S4096x256_S256x3_S4096x3_1_0_0_1_n_n_wf

class Facts : Prop extends Facts₀ where

variable [Facts]
-- ==== Proof.BodyRunB.lean ====
/-
  The kernel body run once, symbolically, on whole staging buffers: the thirteen input buffers at any contents,
  the three output buffers at anything.  What the run finds is, for each output buffer, the list of rectangles the
  body stores into it together with the value stored in each (last store first): twelve 256×512 rectangles of the
  points block, the whole 256×1 distance block, the whole 256×3 extents block.  The inputs are handed back as they came.
-/
import proofs.«169947_j35682588295463_2_alg».proof.Proof.Gen.Kernel.Frame
import proofs.«169947_j35682588295463_2_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The rectangles and values the body's stores leave in the three output buffers, with the proof that the body,
    started on whole buffers, runs to its continuation with every input buffer as it was and every output buffer
    overwritten by exactly those stores. -/
noncomputable def bodyRun (c : Dev nD) (i : grid0.Coords) (arg1 : Memref sig .tc .vmem S256x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x6144 .bf16) (harg6 : arg6.IsWhole) (arg7 : Memref sig .tc .vmem S1x6144 .f32) (harg7 : arg7.IsWhole) (arg8 : Memref sig .tc .vmem S128x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S1x256 .f32) (harg11 : arg11.IsWhole) (arg12 : Memref sig .tc .vmem S256x3 .bf16) (harg12 : arg12.IsWhole) (arg13 : Memref sig .tc .vmem S1x3 .f32) (harg13 : arg13.IsWhole) (arg14 : Memref sig .tc .vmem S256x6144 .f32) (harg14 : arg14.IsWhole) (arg15 : Memref sig .tc .vmem S256x1 .f32) (harg15 : arg15.IsWhole) (arg16 : Memref sig .tc .vmem S256x3 .f32) (harg16 : arg16.IsWhole)
    (x0 : Vec F S256x128 .f32) (x1 : Vec F S128x256 .bf16) (x2 : Vec F S1x256 .f32) (x3 : Vec F S256x256 .bf16) (x4 : Vec F S1x256 .f32) (x5 : Vec F S256x6144 .bf16) (x6 : Vec F S1x6144 .f32) (x7 : Vec F S128x256 .bf16) (x8 : Vec F S1x256 .f32) (x9 : Vec F S256x256 .bf16) (x10 : Vec F S1x256 .f32) (x11 : Vec F S256x3 .bf16) (x12 : Vec F S1x3 .f32) :
    Σ' (L13 : List (View.Piece (Elt F) S256x6144 .f32)), Σ' (L14 : List (View.Piece (Elt F) S256x1 .f32)), { L15 : List (View.Piece (Elt F) S256x3 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15)) -∗ K ⟨⟩))
          ⊢ wp frame (wpE (defs₀ (F := F)) Variants.none c none) E (cc0__decoder_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0__decoder_kernel_eq_skeleton]; unfold cc0__decoder_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; iexact H13
    isplitl [H14]
    · iexists _; iexact H14
    iexists _; iexact H15

end Cert.Kernel.Hand

end
-- ==== Proof.FrameB.lean ====
/-
  The frame of the program from the body's run: after the body at a grid point each input buffer still holds its
  block, and each output buffer holds what the body's stores, which tile the buffer's whole block, left there.
  With that as the data of the pipeline, the library's theorem for a program whose host lines continue after the
  one kernel launch gives the run: every array of the pipeline ends at what the write-backs assembled, every other
  buffer at the host lines' result; in particular every argument array ends unchanged.
-/
import proofs.«169947_j35682588295463_2_alg».proof.Proof.BodyRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point, and a fixed whole view of each output's block -/

abbrev ms0_0 (t : Fin cfg0.N) : Memref sig .tc .vmem S256x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x6144 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x6144 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x3 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x3 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x6144 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x1 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x3 .f32 := win0_15.stage (cfg0.slots t 15)
abbrev hs0_15 (t : Fin cfg0.N) : (ms0_15 t).IsWhole := hstage0_15 ((cfg0.slots t 15).cast nbuf0_15)

abbrev VO13 : View sig .tc .vmem S256x6144 .f32 := (Memref.whole cc0_stg13_0 : Memref sig .tc .vmem S256x6144 .f32).view
abbrev VO14 : View sig .tc .vmem S256x1 .f32 := (Memref.whole cc0_stg14_0 : Memref sig .tc .vmem S256x1 .f32).view
abbrev VO15 : View sig .tc .vmem S256x3 .f32 := (Memref.whole cc0_stg15_0 : Memref sig .tc .vmem S256x3 .f32).view

/-! ## The stores cover each output block -/

/-- The stores into output 13's buffer tile its whole block, so every position of the block is in one of them. -/
theorem cover13 (c : Dev nD) (i : grid0.Coords) (arg1 : Memref sig .tc .vmem S256x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x6144 .bf16) (harg6 : arg6.IsWhole) (arg7 : Memref sig .tc .vmem S1x6144 .f32) (harg7 : arg7.IsWhole) (arg8 : Memref sig .tc .vmem S128x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S1x256 .f32) (harg11 : arg11.IsWhole) (arg12 : Memref sig .tc .vmem S256x3 .bf16) (harg12 : arg12.IsWhole) (arg13 : Memref sig .tc .vmem S1x3 .f32) (harg13 : arg13.IsWhole) (arg14 : Memref sig .tc .vmem S256x6144 .f32) (harg14 : arg14.IsWhole) (arg15 : Memref sig .tc .vmem S256x1 .f32) (harg15 : arg15.IsWhole) (arg16 : Memref sig .tc .vmem S256x3 .f32) (harg16 : arg16.IsWhole)
    (x0 : Vec F S256x128 .f32) (x1 : Vec F S128x256 .bf16) (x2 : Vec F S1x256 .f32) (x3 : Vec F S256x256 .bf16) (x4 : Vec F S1x256 .f32) (x5 : Vec F S256x6144 .bf16) (x6 : Vec F S1x6144 .f32) (x7 : Vec F S128x256 .bf16) (x8 : Vec F S1x256 .f32) (x9 : Vec F S256x256 .bf16) (x10 : Vec F S1x256 .f32) (x11 : Vec F S256x3 .bf16) (x12 : Vec F S1x3 .f32) (y : S256x6144.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12).1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12).1 S256x512.size (by sl_kernel_rfl) y

/-- What the body leaves in output 13's buffer: its stores read back (over arbitrary earlier contents, all overwritten). -/
def out13 (c : Dev nD) (i : grid0.Coords) (arg1 : Memref sig .tc .vmem S256x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x6144 .bf16) (harg6 : arg6.IsWhole) (arg7 : Memref sig .tc .vmem S1x6144 .f32) (harg7 : arg7.IsWhole) (arg8 : Memref sig .tc .vmem S128x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S1x256 .f32) (harg11 : arg11.IsWhole) (arg12 : Memref sig .tc .vmem S256x3 .bf16) (harg12 : arg12.IsWhole) (arg13 : Memref sig .tc .vmem S1x3 .f32) (harg13 : arg13.IsWhole) (arg14 : Memref sig .tc .vmem S256x6144 .f32) (harg14 : arg14.IsWhole) (arg15 : Memref sig .tc .vmem S256x1 .f32) (harg15 : arg15.IsWhole) (arg16 : Memref sig .tc .vmem S256x3 .f32) (harg16 : arg16.IsWhole)
    (x0 : Vec F S256x128 .f32) (x1 : Vec F S128x256 .bf16) (x2 : Vec F S1x256 .f32) (x3 : Vec F S256x256 .bf16) (x4 : Vec F S1x256 .f32) (x5 : Vec F S256x6144 .bf16) (x6 : Vec F S1x6144 .f32) (x7 : Vec F S128x256 .bf16) (x8 : Vec F S1x256 .f32) (x9 : Vec F S256x256 .bf16) (x10 : Vec F S1x256 .f32) (x11 : Vec F S256x3 .bf16) (x12 : Vec F S1x3 .f32) : Vec F S256x6144 .f32 :=
  VO13.read (Elt F) (VO13.writes (Elt F) VO13.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12).1)

/-- The stores into output 14's buffer tile its whole block, so every position of the block is in one of them. -/
theorem cover14 (c : Dev nD) (i : grid0.Coords) (arg1 : Memref sig .tc .vmem S256x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x6144 .bf16) (harg6 : arg6.IsWhole) (arg7 : Memref sig .tc .vmem S1x6144 .f32) (harg7 : arg7.IsWhole) (arg8 : Memref sig .tc .vmem S128x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S1x256 .f32) (harg11 : arg11.IsWhole) (arg12 : Memref sig .tc .vmem S256x3 .bf16) (harg12 : arg12.IsWhole) (arg13 : Memref sig .tc .vmem S1x3 .f32) (harg13 : arg13.IsWhole) (arg14 : Memref sig .tc .vmem S256x6144 .f32) (harg14 : arg14.IsWhole) (arg15 : Memref sig .tc .vmem S256x1 .f32) (harg15 : arg15.IsWhole) (arg16 : Memref sig .tc .vmem S256x3 .f32) (harg16 : arg16.IsWhole)
    (x0 : Vec F S256x128 .f32) (x1 : Vec F S128x256 .bf16) (x2 : Vec F S1x256 .f32) (x3 : Vec F S256x256 .bf16) (x4 : Vec F S1x256 .f32) (x5 : Vec F S256x6144 .bf16) (x6 : Vec F S1x6144 .f32) (x7 : Vec F S128x256 .bf16) (x8 : Vec F S1x256 .f32) (x9 : Vec F S256x256 .bf16) (x10 : Vec F S1x256 .f32) (x11 : Vec F S256x3 .bf16) (x12 : Vec F S1x3 .f32) (y : S256x1.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12).2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12).2.1 S256x1.size (by sl_kernel_rfl) y

/-- What the body leaves in output 14's buffer: its stores read back (over arbitrary earlier contents, all overwritten). -/
def out14 (c : Dev nD) (i : grid0.Coords) (arg1 : Memref sig .tc .vmem S256x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x6144 .bf16) (harg6 : arg6.IsWhole) (arg7 : Memref sig .tc .vmem S1x6144 .f32) (harg7 : arg7.IsWhole) (arg8 : Memref sig .tc .vmem S128x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S1x256 .f32) (harg11 : arg11.IsWhole) (arg12 : Memref sig .tc .vmem S256x3 .bf16) (harg12 : arg12.IsWhole) (arg13 : Memref sig .tc .vmem S1x3 .f32) (harg13 : arg13.IsWhole) (arg14 : Memref sig .tc .vmem S256x6144 .f32) (harg14 : arg14.IsWhole) (arg15 : Memref sig .tc .vmem S256x1 .f32) (harg15 : arg15.IsWhole) (arg16 : Memref sig .tc .vmem S256x3 .f32) (harg16 : arg16.IsWhole)
    (x0 : Vec F S256x128 .f32) (x1 : Vec F S128x256 .bf16) (x2 : Vec F S1x256 .f32) (x3 : Vec F S256x256 .bf16) (x4 : Vec F S1x256 .f32) (x5 : Vec F S256x6144 .bf16) (x6 : Vec F S1x6144 .f32) (x7 : Vec F S128x256 .bf16) (x8 : Vec F S1x256 .f32) (x9 : Vec F S256x256 .bf16) (x10 : Vec F S1x256 .f32) (x11 : Vec F S256x3 .bf16) (x12 : Vec F S1x3 .f32) : Vec F S256x1 .f32 :=
  VO14.read (Elt F) (VO14.writes (Elt F) VO14.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12).2.1)

/-- The stores into output 15's buffer tile its whole block, so every position of the block is in one of them. -/
theorem cover15 (c : Dev nD) (i : grid0.Coords) (arg1 : Memref sig .tc .vmem S256x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x6144 .bf16) (harg6 : arg6.IsWhole) (arg7 : Memref sig .tc .vmem S1x6144 .f32) (harg7 : arg7.IsWhole) (arg8 : Memref sig .tc .vmem S128x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S1x256 .f32) (harg11 : arg11.IsWhole) (arg12 : Memref sig .tc .vmem S256x3 .bf16) (harg12 : arg12.IsWhole) (arg13 : Memref sig .tc .vmem S1x3 .f32) (harg13 : arg13.IsWhole) (arg14 : Memref sig .tc .vmem S256x6144 .f32) (harg14 : arg14.IsWhole) (arg15 : Memref sig .tc .vmem S256x1 .f32) (harg15 : arg15.IsWhole) (arg16 : Memref sig .tc .vmem S256x3 .f32) (harg16 : arg16.IsWhole)
    (x0 : Vec F S256x128 .f32) (x1 : Vec F S128x256 .bf16) (x2 : Vec F S1x256 .f32) (x3 : Vec F S256x256 .bf16) (x4 : Vec F S1x256 .f32) (x5 : Vec F S256x6144 .bf16) (x6 : Vec F S1x6144 .f32) (x7 : Vec F S128x256 .bf16) (x8 : Vec F S1x256 .f32) (x9 : Vec F S256x256 .bf16) (x10 : Vec F S1x256 .f32) (x11 : Vec F S256x3 .bf16) (x12 : Vec F S1x3 .f32) (y : S256x3.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12).2.2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12).2.2.1 S256x3.size (by sl_kernel_rfl) y

/-- What the body leaves in output 15's buffer: its stores read back (over arbitrary earlier contents, all overwritten). -/
def out15 (c : Dev nD) (i : grid0.Coords) (arg1 : Memref sig .tc .vmem S256x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x6144 .bf16) (harg6 : arg6.IsWhole) (arg7 : Memref sig .tc .vmem S1x6144 .f32) (harg7 : arg7.IsWhole) (arg8 : Memref sig .tc .vmem S128x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S1x256 .f32) (harg11 : arg11.IsWhole) (arg12 : Memref sig .tc .vmem S256x3 .bf16) (harg12 : arg12.IsWhole) (arg13 : Memref sig .tc .vmem S1x3 .f32) (harg13 : arg13.IsWhole) (arg14 : Memref sig .tc .vmem S256x6144 .f32) (harg14 : arg14.IsWhole) (arg15 : Memref sig .tc .vmem S256x1 .f32) (harg15 : arg15.IsWhole) (arg16 : Memref sig .tc .vmem S256x3 .f32) (harg16 : arg16.IsWhole)
    (x0 : Vec F S256x128 .f32) (x1 : Vec F S128x256 .bf16) (x2 : Vec F S1x256 .f32) (x3 : Vec F S256x256 .bf16) (x4 : Vec F S1x256 .f32) (x5 : Vec F S256x6144 .bf16) (x6 : Vec F S1x6144 .f32) (x7 : Vec F S128x256 .bf16) (x8 : Vec F S1x256 .f32) (x9 : Vec F S256x256 .bf16) (x10 : Vec F S1x256 .f32) (x11 : Vec F S256x3 .bf16) (x12 : Vec F S1x3 .f32) : Vec F S256x3 .f32 :=
  VO15.read (Elt F) (VO15.writes (Elt F) VO15.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12).2.2.1)

/-! ## The pipeline's data -/

/-- The arrays as the launch finds them; after the body at point t each input buffer at its block and each output
    buffer at what the body's stores left; the invariant the plain one; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => out14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨15, _⟩ => out15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_14 (c : Dev nD) (t : Fin cfg0.N) : (dats m 0 c).after 14 t = out14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_15 (c : Dev nD) (t : Fin cfg0.N) : (dats m 0 c).after 15 t = out15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body at a generic point -/

/-- What the body is called with at point t, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t))

set_option maxHeartbeats 3200000 in
/-- The body at any point: the inputs' buffers hold their blocks, so the run applies; each output buffer, overwritten
    by stores that cover it, holds their read-back whatever it held before. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  unfold out13 out14 out15
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  iintro ⟨H0, H1, H2, H3, H4, H5, H6, H7, H8, H9, H10, H11, H12, ⟨%e13, H13⟩, ⟨%e14, H14⟩, ⟨%e15, H15⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact View.read_writes_of_cover _ _ _ _ _ (cover13 _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover14 _ _ _ _ _ _ _ _ _ _ _ _ _ _ _ _ _ _ _ _ _ _ _ _ _ _ _ _ _ _ _ _ _ _ _ _ _ _ _ _ _ _ _ _ _ _ _)
  unfold owns; iexists _; isplitr
  swap; · iexact H15
  ipureintro; exact View.read_writes_of_cover _ _ _ _ _ (cover15 _ _ _ _ _ _ _ _ _ _ _ _ _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, every array of the pipeline at what the write-backs
    assembled from the data above, every other unscoped buffer at the result of the host lines after the launch. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the thirteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.Kernel.Hand

end
-- ==== Proof.BodyRunI.lean ====
/-
  The kernel body run once, symbolically, on whole staging buffers: the thirteen input buffers at any contents,
  the three output buffers at anything.  What the run finds is, for each output buffer, the list of rectangles the
  body stores into it together with the value stored in each (last store first): twelve 256×512 rectangles of the
  points block, the whole 256×1 distance block, the whole 256×3 extents block.  The inputs are handed back as they came.
-/
import proofs.«169947_j35682588295463_2_alg».proof.Proof.Gen.KernelIdeal.Frame
import proofs.«169947_j35682588295463_2_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The rectangles and values the body's stores leave in the three output buffers, with the proof that the body,
    started on whole buffers, runs to its continuation with every input buffer as it was and every output buffer
    overwritten by exactly those stores. -/
noncomputable def bodyRun (c : Dev nD) (i : grid0.Coords) (arg1 : Memref sig .tc .vmem S256x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x6144 .bf16) (harg6 : arg6.IsWhole) (arg7 : Memref sig .tc .vmem S1x6144 .f32) (harg7 : arg7.IsWhole) (arg8 : Memref sig .tc .vmem S128x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S1x256 .f32) (harg11 : arg11.IsWhole) (arg12 : Memref sig .tc .vmem S256x3 .bf16) (harg12 : arg12.IsWhole) (arg13 : Memref sig .tc .vmem S1x3 .f32) (harg13 : arg13.IsWhole) (arg14 : Memref sig .tc .vmem S256x6144 .f32) (harg14 : arg14.IsWhole) (arg15 : Memref sig .tc .vmem S256x1 .f32) (harg15 : arg15.IsWhole) (arg16 : Memref sig .tc .vmem S256x3 .f32) (harg16 : arg16.IsWhole)
    (x0 : Vec F S256x128 .f32) (x1 : Vec F S128x256 .bf16) (x2 : Vec F S1x256 .f32) (x3 : Vec F S256x256 .bf16) (x4 : Vec F S1x256 .f32) (x5 : Vec F S256x6144 .bf16) (x6 : Vec F S1x6144 .f32) (x7 : Vec F S128x256 .bf16) (x8 : Vec F S1x256 .f32) (x9 : Vec F S256x256 .bf16) (x10 : Vec F S1x256 .f32) (x11 : Vec F S256x3 .bf16) (x12 : Vec F S1x3 .f32) :
    Σ' (L13 : List (View.Piece (Elt F) S256x6144 .f32)), Σ' (L14 : List (View.Piece (Elt F) S256x1 .f32)), { L15 : List (View.Piece (Elt F) S256x3 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15)) -∗ K ⟨⟩))
          ⊢ wp frame (wpE (defs₀ (F := F)) Variants.none c none) E (cc0__decoder_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0__decoder_kernel_eq_skeleton]; unfold cc0__decoder_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; iexact H13
    isplitl [H14]
    · iexists _; iexact H14
    iexists _; iexact H15

end Cert.KernelIdeal.Hand

end
-- ==== Proof.FrameI.lean ====
/-
  The frame of the program from the body's run: after the body at a grid point each input buffer still holds its
  block, and each output buffer holds what the body's stores, which tile the buffer's whole block, left there.
  With that as the data of the pipeline, the library's theorem for a program whose host lines continue after the
  one kernel launch gives the run: every array of the pipeline ends at what the write-backs assembled, every other
  buffer at the host lines' result; in particular every argument array ends unchanged.
-/
import proofs.«169947_j35682588295463_2_alg».proof.Proof.BodyRunI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point, and a fixed whole view of each output's block -/

abbrev ms0_0 (t : Fin cfg0.N) : Memref sig .tc .vmem S256x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x6144 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x6144 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x3 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x3 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x6144 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x1 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x3 .f32 := win0_15.stage (cfg0.slots t 15)
abbrev hs0_15 (t : Fin cfg0.N) : (ms0_15 t).IsWhole := hstage0_15 ((cfg0.slots t 15).cast nbuf0_15)

abbrev VO13 : View sig .tc .vmem S256x6144 .f32 := (Memref.whole cc0_stg13_0 : Memref sig .tc .vmem S256x6144 .f32).view
abbrev VO14 : View sig .tc .vmem S256x1 .f32 := (Memref.whole cc0_stg14_0 : Memref sig .tc .vmem S256x1 .f32).view
abbrev VO15 : View sig .tc .vmem S256x3 .f32 := (Memref.whole cc0_stg15_0 : Memref sig .tc .vmem S256x3 .f32).view

/-! ## The stores cover each output block -/

/-- The stores into output 13's buffer tile its whole block, so every position of the block is in one of them. -/
theorem cover13 (c : Dev nD) (i : grid0.Coords) (arg1 : Memref sig .tc .vmem S256x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x6144 .bf16) (harg6 : arg6.IsWhole) (arg7 : Memref sig .tc .vmem S1x6144 .f32) (harg7 : arg7.IsWhole) (arg8 : Memref sig .tc .vmem S128x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S1x256 .f32) (harg11 : arg11.IsWhole) (arg12 : Memref sig .tc .vmem S256x3 .bf16) (harg12 : arg12.IsWhole) (arg13 : Memref sig .tc .vmem S1x3 .f32) (harg13 : arg13.IsWhole) (arg14 : Memref sig .tc .vmem S256x6144 .f32) (harg14 : arg14.IsWhole) (arg15 : Memref sig .tc .vmem S256x1 .f32) (harg15 : arg15.IsWhole) (arg16 : Memref sig .tc .vmem S256x3 .f32) (harg16 : arg16.IsWhole)
    (x0 : Vec F S256x128 .f32) (x1 : Vec F S128x256 .bf16) (x2 : Vec F S1x256 .f32) (x3 : Vec F S256x256 .bf16) (x4 : Vec F S1x256 .f32) (x5 : Vec F S256x6144 .bf16) (x6 : Vec F S1x6144 .f32) (x7 : Vec F S128x256 .bf16) (x8 : Vec F S1x256 .f32) (x9 : Vec F S256x256 .bf16) (x10 : Vec F S1x256 .f32) (x11 : Vec F S256x3 .bf16) (x12 : Vec F S1x3 .f32) (y : S256x6144.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12).1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12).1 S256x512.size (by sl_kernel_rfl) y

/-- What the body leaves in output 13's buffer: its stores read back (over arbitrary earlier contents, all overwritten). -/
def out13 (c : Dev nD) (i : grid0.Coords) (arg1 : Memref sig .tc .vmem S256x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x6144 .bf16) (harg6 : arg6.IsWhole) (arg7 : Memref sig .tc .vmem S1x6144 .f32) (harg7 : arg7.IsWhole) (arg8 : Memref sig .tc .vmem S128x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S1x256 .f32) (harg11 : arg11.IsWhole) (arg12 : Memref sig .tc .vmem S256x3 .bf16) (harg12 : arg12.IsWhole) (arg13 : Memref sig .tc .vmem S1x3 .f32) (harg13 : arg13.IsWhole) (arg14 : Memref sig .tc .vmem S256x6144 .f32) (harg14 : arg14.IsWhole) (arg15 : Memref sig .tc .vmem S256x1 .f32) (harg15 : arg15.IsWhole) (arg16 : Memref sig .tc .vmem S256x3 .f32) (harg16 : arg16.IsWhole)
    (x0 : Vec F S256x128 .f32) (x1 : Vec F S128x256 .bf16) (x2 : Vec F S1x256 .f32) (x3 : Vec F S256x256 .bf16) (x4 : Vec F S1x256 .f32) (x5 : Vec F S256x6144 .bf16) (x6 : Vec F S1x6144 .f32) (x7 : Vec F S128x256 .bf16) (x8 : Vec F S1x256 .f32) (x9 : Vec F S256x256 .bf16) (x10 : Vec F S1x256 .f32) (x11 : Vec F S256x3 .bf16) (x12 : Vec F S1x3 .f32) : Vec F S256x6144 .f32 :=
  VO13.read (Elt F) (VO13.writes (Elt F) VO13.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12).1)

/-- The stores into output 14's buffer tile its whole block, so every position of the block is in one of them. -/
theorem cover14 (c : Dev nD) (i : grid0.Coords) (arg1 : Memref sig .tc .vmem S256x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x6144 .bf16) (harg6 : arg6.IsWhole) (arg7 : Memref sig .tc .vmem S1x6144 .f32) (harg7 : arg7.IsWhole) (arg8 : Memref sig .tc .vmem S128x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S1x256 .f32) (harg11 : arg11.IsWhole) (arg12 : Memref sig .tc .vmem S256x3 .bf16) (harg12 : arg12.IsWhole) (arg13 : Memref sig .tc .vmem S1x3 .f32) (harg13 : arg13.IsWhole) (arg14 : Memref sig .tc .vmem S256x6144 .f32) (harg14 : arg14.IsWhole) (arg15 : Memref sig .tc .vmem S256x1 .f32) (harg15 : arg15.IsWhole) (arg16 : Memref sig .tc .vmem S256x3 .f32) (harg16 : arg16.IsWhole)
    (x0 : Vec F S256x128 .f32) (x1 : Vec F S128x256 .bf16) (x2 : Vec F S1x256 .f32) (x3 : Vec F S256x256 .bf16) (x4 : Vec F S1x256 .f32) (x5 : Vec F S256x6144 .bf16) (x6 : Vec F S1x6144 .f32) (x7 : Vec F S128x256 .bf16) (x8 : Vec F S1x256 .f32) (x9 : Vec F S256x256 .bf16) (x10 : Vec F S1x256 .f32) (x11 : Vec F S256x3 .bf16) (x12 : Vec F S1x3 .f32) (y : S256x1.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12).2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12).2.1 S256x1.size (by sl_kernel_rfl) y

/-- What the body leaves in output 14's buffer: its stores read back (over arbitrary earlier contents, all overwritten). -/
def out14 (c : Dev nD) (i : grid0.Coords) (arg1 : Memref sig .tc .vmem S256x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x6144 .bf16) (harg6 : arg6.IsWhole) (arg7 : Memref sig .tc .vmem S1x6144 .f32) (harg7 : arg7.IsWhole) (arg8 : Memref sig .tc .vmem S128x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S1x256 .f32) (harg11 : arg11.IsWhole) (arg12 : Memref sig .tc .vmem S256x3 .bf16) (harg12 : arg12.IsWhole) (arg13 : Memref sig .tc .vmem S1x3 .f32) (harg13 : arg13.IsWhole) (arg14 : Memref sig .tc .vmem S256x6144 .f32) (harg14 : arg14.IsWhole) (arg15 : Memref sig .tc .vmem S256x1 .f32) (harg15 : arg15.IsWhole) (arg16 : Memref sig .tc .vmem S256x3 .f32) (harg16 : arg16.IsWhole)
    (x0 : Vec F S256x128 .f32) (x1 : Vec F S128x256 .bf16) (x2 : Vec F S1x256 .f32) (x3 : Vec F S256x256 .bf16) (x4 : Vec F S1x256 .f32) (x5 : Vec F S256x6144 .bf16) (x6 : Vec F S1x6144 .f32) (x7 : Vec F S128x256 .bf16) (x8 : Vec F S1x256 .f32) (x9 : Vec F S256x256 .bf16) (x10 : Vec F S1x256 .f32) (x11 : Vec F S256x3 .bf16) (x12 : Vec F S1x3 .f32) : Vec F S256x1 .f32 :=
  VO14.read (Elt F) (VO14.writes (Elt F) VO14.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12).2.1)

/-- The stores into output 15's buffer tile its whole block, so every position of the block is in one of them. -/
theorem cover15 (c : Dev nD) (i : grid0.Coords) (arg1 : Memref sig .tc .vmem S256x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x6144 .bf16) (harg6 : arg6.IsWhole) (arg7 : Memref sig .tc .vmem S1x6144 .f32) (harg7 : arg7.IsWhole) (arg8 : Memref sig .tc .vmem S128x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S1x256 .f32) (harg11 : arg11.IsWhole) (arg12 : Memref sig .tc .vmem S256x3 .bf16) (harg12 : arg12.IsWhole) (arg13 : Memref sig .tc .vmem S1x3 .f32) (harg13 : arg13.IsWhole) (arg14 : Memref sig .tc .vmem S256x6144 .f32) (harg14 : arg14.IsWhole) (arg15 : Memref sig .tc .vmem S256x1 .f32) (harg15 : arg15.IsWhole) (arg16 : Memref sig .tc .vmem S256x3 .f32) (harg16 : arg16.IsWhole)
    (x0 : Vec F S256x128 .f32) (x1 : Vec F S128x256 .bf16) (x2 : Vec F S1x256 .f32) (x3 : Vec F S256x256 .bf16) (x4 : Vec F S1x256 .f32) (x5 : Vec F S256x6144 .bf16) (x6 : Vec F S1x6144 .f32) (x7 : Vec F S128x256 .bf16) (x8 : Vec F S1x256 .f32) (x9 : Vec F S256x256 .bf16) (x10 : Vec F S1x256 .f32) (x11 : Vec F S256x3 .bf16) (x12 : Vec F S1x3 .f32) (y : S256x3.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12).2.2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12).2.2.1 S256x3.size (by sl_kernel_rfl) y

/-- What the body leaves in output 15's buffer: its stores read back (over arbitrary earlier contents, all overwritten). -/
def out15 (c : Dev nD) (i : grid0.Coords) (arg1 : Memref sig .tc .vmem S256x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x6144 .bf16) (harg6 : arg6.IsWhole) (arg7 : Memref sig .tc .vmem S1x6144 .f32) (harg7 : arg7.IsWhole) (arg8 : Memref sig .tc .vmem S128x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S1x256 .f32) (harg11 : arg11.IsWhole) (arg12 : Memref sig .tc .vmem S256x3 .bf16) (harg12 : arg12.IsWhole) (arg13 : Memref sig .tc .vmem S1x3 .f32) (harg13 : arg13.IsWhole) (arg14 : Memref sig .tc .vmem S256x6144 .f32) (harg14 : arg14.IsWhole) (arg15 : Memref sig .tc .vmem S256x1 .f32) (harg15 : arg15.IsWhole) (arg16 : Memref sig .tc .vmem S256x3 .f32) (harg16 : arg16.IsWhole)
    (x0 : Vec F S256x128 .f32) (x1 : Vec F S128x256 .bf16) (x2 : Vec F S1x256 .f32) (x3 : Vec F S256x256 .bf16) (x4 : Vec F S1x256 .f32) (x5 : Vec F S256x6144 .bf16) (x6 : Vec F S1x6144 .f32) (x7 : Vec F S128x256 .bf16) (x8 : Vec F S1x256 .f32) (x9 : Vec F S256x256 .bf16) (x10 : Vec F S1x256 .f32) (x11 : Vec F S256x3 .bf16) (x12 : Vec F S1x3 .f32) : Vec F S256x3 .f32 :=
  VO15.read (Elt F) (VO15.writes (Elt F) VO15.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12).2.2.1)

/-! ## The pipeline's data -/

/-- The arrays as the launch finds them; after the body at point t each input buffer at its block and each output
    buffer at what the body's stores left; the invariant the plain one; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => out14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨15, _⟩ => out15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_14 (c : Dev nD) (t : Fin cfg0.N) : (dats m 0 c).after 14 t = out14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_15 (c : Dev nD) (t : Fin cfg0.N) : (dats m 0 c).after 15 t = out15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body at a generic point -/

/-- What the body is called with at point t, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t))

set_option maxHeartbeats 3200000 in
/-- The body at any point: the inputs' buffers hold their blocks, so the run applies; each output buffer, overwritten
    by stores that cover it, holds their read-back whatever it held before. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  unfold out13 out14 out15
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  iintro ⟨H0, H1, H2, H3, H4, H5, H6, H7, H8, H9, H10, H11, H12, ⟨%e13, H13⟩, ⟨%e14, H14⟩, ⟨%e15, H15⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact View.read_writes_of_cover _ _ _ _ _ (cover13 _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover14 _ _ _ _ _ _ _ _ _ _ _ _ _ _ _ _ _ _ _ _ _ _ _ _ _ _ _ _ _ _ _ _ _ _ _ _ _ _ _ _ _ _ _ _ _ _ _)
  unfold owns; iexists _; isplitr
  swap; · iexact H15
  ipureintro; exact View.read_writes_of_cover _ _ _ _ _ (cover15 _ _ _ _ _ _ _ _ _ _ _ _ _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, every array of the pipeline at what the write-backs
    assembled from the data above, every other unscoped buffer at the result of the host lines after the launch. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the thirteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.KernelIdeal.Hand

end
-- ==== Proof.BlkI.lean ====
/-
  The blocks the body is called on: at grid point t the input window holds rows 256·t … 256·t + 255 of the input
  array, and each weight and bias window holds its whole array, the same at every point.
-/
import proofs.«169947_j35682588295463_2_alg».proof.Proof.FrameI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- The input rows' window moves one block of 256 rows per point. -/
theorem idx0_0 : ∀ t : Fin cfg0.N, win0_0.index t 0 = t.val ∧ win0_0.index t 1 = 0 := by
  intro t; rcases fin_N0 t with rfl | rfl | rfl | rfl | rfl | rfl | rfl | rfl | rfl | rfl | rfl | rfl | rfl | rfl | rfl | rfl <;> decide

/-- Entry (r, k) of the input block at point t is entry (256·t + r, k) of the input array. -/
theorem iblk_0 (c : Dev nD) (t : Fin cfg0.N) (y : S256x128.Idx) (k : S4096x128.Idx)
    (hk0 : (k 0).val = 256 * t.val + (y 0).val) (hk1 : (k 1).val = (y 1).val) :
    (iblk m c 0 t : Vec F S256x128 .f32) y = (V m c main_arg0 : S4096x128.Idx → Elt F .f32) k := by
  have hi := idx0_0 t
  unfold iblk
  rw [View.read_apply]
  show V m c main_arg0 _ = V m c main_arg0 _
  refine congrArg (V m c main_arg0) ?_
  funext a
  apply Fin.ext
  match a with
  | ⟨0, _⟩ => show win0_0.index t 0 * 256 + 1 * (y 0).val = (k 0).val; rw [hi.1, hk0]; omega
  | ⟨1, _⟩ => show win0_0.index t 1 * 128 + 1 * (y 1).val = (k 1).val; rw [hi.2, hk1]; omega

/-- Window 1 stages its whole array at every point. -/
theorem idx0_1 : ∀ t : Fin cfg0.N, win0_1.index t 0 = 0 ∧ win0_1.index t 1 = 0 := by
  intro t; rcases fin_N0 t with rfl | rfl | rfl | rfl | rfl | rfl | rfl | rfl | rfl | rfl | rfl | rfl | rfl | rfl | rfl | rfl <;> decide
theorem iblk_1 (c : Dev nD) (t : Fin cfg0.N) (y : S128x256.Idx) :
    (iblk m c 1 t : Vec F S128x256 .bf16) y = (V m c main_v6 : S128x256.Idx → Elt F .bf16) y := by
  have hi := idx0_1 t
  unfold iblk
  rw [View.read_apply]
  show V m c main_v6 _ = V m c main_v6 _
  refine congrArg (V m c main_v6) ?_
  funext a
  apply Fin.ext
  match a with
  | ⟨0, _⟩ => show win0_1.index t 0 * 128 + 1 * (y 0).val = (y 0).val; rw [hi.1]; omega
  | ⟨1, _⟩ => show win0_1.index t 1 * 256 + 1 * (y 1).val = (y 1).val; rw [hi.2]; omega

/-- Window 2 stages its whole array at every point. -/
theorem idx0_2 : ∀ t : Fin cfg0.N, win0_2.index t 0 = 0 ∧ win0_2.index t 1 = 0 := by
  intro t; rcases fin_N0 t with rfl | rfl | rfl | rfl | rfl | rfl | rfl | rfl | rfl | rfl | rfl | rfl | rfl | rfl | rfl | rfl <;> decide
theorem iblk_2 (c : Dev nD) (t : Fin cfg0.N) (y : S1x256.Idx) :
    (iblk m c 2 t : Vec F S1x256 .f32) y = (V m c main_v0 : S1x256.Idx → Elt F .f32) y := by
  have hi := idx0_2 t
  unfold iblk
  rw [View.read_apply]
  show V m c main_v0 _ = V m c main_v0 _
  refine congrArg (V m c main_v0) ?_
  funext a
  apply Fin.ext
  match a with
  | ⟨0, _⟩ => show win0_2.index t 0 * 1 + 1 * (y 0).val = (y 0).val; rw [hi.1]; omega
  | ⟨1, _⟩ => show win0_2.index t 1 * 256 + 1 * (y 1).val = (y 1).val; rw [hi.2]; omega

/-- Window 3 stages its whole array at every point. -/
theorem idx0_3 : ∀ t : Fin cfg0.N, win0_3.index t 0 = 0 ∧ win0_3.index t 1 = 0 := by
  intro t; rcases fin_N0 t with rfl | rfl | rfl | rfl | rfl | rfl | rfl | rfl | rfl | rfl | rfl | rfl | rfl | rfl | rfl | rfl <;> decide
theorem iblk_3 (c : Dev nD) (t : Fin cfg0.N) (y : S256x256.Idx) :
    (iblk m c 3 t : Vec F S256x256 .bf16) y = (V m c main_v7 : S256x256.Idx → Elt F .bf16) y := by
  have hi := idx0_3 t
  unfold iblk
  rw [View.read_apply]
  show V m c main_v7 _ = V m c main_v7 _
  refine congrArg (V m c main_v7) ?_
  funext a
  apply Fin.ext
  match a with
  | ⟨0, _⟩ => show win0_3.index t 0 * 256 + 1 * (y 0).val = (y 0).val; rw [hi.1]; omega
  | ⟨1, _⟩ => show win0_3.index t 1 * 256 + 1 * (y 1).val = (y 1).val; rw [hi.2]; omega

/-- Window 4 stages its whole array at every point. -/
theorem idx0_4 : ∀ t : Fin cfg0.N, win0_4.index t 0 = 0 ∧ win0_4.index t 1 = 0 := by
  intro t; rcases fin_N0 t with rfl | rfl | rfl | rfl | rfl | rfl | rfl | rfl | rfl | rfl | rfl | rfl | rfl | rfl | rfl | rfl <;> decide
theorem iblk_4 (c : Dev nD) (t : Fin cfg0.N) (y : S1x256.Idx) :
    (iblk m c 4 t : Vec F S1x256 .f32) y = (V m c main_v1 : S1x256.Idx → Elt F .f32) y := by
  have hi := idx0_4 t
  unfold iblk
  rw [View.read_apply]
  show V m c main_v1 _ = V m c main_v1 _
  refine congrArg (V m c main_v1) ?_
  funext a
  apply Fin.ext
  match a with
  | ⟨0, _⟩ => show win0_4.index t 0 * 1 + 1 * (y 0).val = (y 0).val; rw [hi.1]; omega
  | ⟨1, _⟩ => show win0_4.index t 1 * 256 + 1 * (y 1).val = (y 1).val; rw [hi.2]; omega

/-- Window 5 stages its whole array at every point. -/
theorem idx0_5 : ∀ t : Fin cfg0.N, win0_5.index t 0 = 0 ∧ win0_5.index t 1 = 0 := by
  intro t; rcases fin_N0 t with rfl | rfl | rfl | rfl | rfl | rfl | rfl | rfl | rfl | rfl | rfl | rfl | rfl | rfl | rfl | rfl <;> decide
theorem iblk_5 (c : Dev nD) (t : Fin cfg0.N) (y : S256x6144.Idx) :
    (iblk m c 5 t : Vec F S256x6144 .bf16) y = (V m c main_v8 : S256x6144.Idx → Elt F .bf16) y := by
  have hi := idx0_5 t
  unfold iblk
  rw [View.read_apply]
  show V m c main_v8 _ = V m c main_v8 _
  refine congrArg (V m c main_v8) ?_
  funext a
  apply Fin.ext
  match a with
  | ⟨0, _⟩ => show win0_5.index t 0 * 256 + 1 * (y 0).val = (y 0).val; rw [hi.1]; omega
  | ⟨1, _⟩ => show win0_5.index t 1 * 6144 + 1 * (y 1).val = (y 1).val; rw [hi.2]; omega

/-- Window 6 stages its whole array at every point. -/
theorem idx0_6 : ∀ t : Fin cfg0.N, win0_6.index t 0 = 0 ∧ win0_6.index t 1 = 0 := by
  intro t; rcases fin_N0 t with rfl | rfl | rfl | rfl | rfl | rfl | rfl | rfl | rfl | rfl | rfl | rfl | rfl | rfl | rfl | rfl <;> decide
theorem iblk_6 (c : Dev nD) (t : Fin cfg0.N) (y : S1x6144.Idx) :
    (iblk m c 6 t : Vec F S1x6144 .f32) y = (V m c main_v2 : S1x6144.Idx → Elt F .f32) y := by
  have hi := idx0_6 t
  unfold iblk
  rw [View.read_apply]
  show V m c main_v2 _ = V m c main_v2 _
  refine congrArg (V m c main_v2) ?_
  funext a
  apply Fin.ext
  match a with
  | ⟨0, _⟩ => show win0_6.index t 0 * 1 + 1 * (y 0).val = (y 0).val; rw [hi.1]; omega
  | ⟨1, _⟩ => show win0_6.index t 1 * 6144 + 1 * (y 1).val = (y 1).val; rw [hi.2]; omega

/-- Window 7 stages its whole array at every point. -/
theorem idx0_7 : ∀ t : Fin cfg0.N, win0_7.index t 0 = 0 ∧ win0_7.index t 1 = 0 := by
  intro t; rcases fin_N0 t with rfl | rfl | rfl | rfl | rfl | rfl | rfl | rfl | rfl | rfl | rfl | rfl | rfl | rfl | rfl | rfl <;> decide
theorem iblk_7 (c : Dev nD) (t : Fin cfg0.N) (y : S128x256.Idx) :
    (iblk m c 7 t : Vec F S128x256 .bf16) y = (V m c main_v9 : S128x256.Idx → Elt F .bf16) y := by
  have hi := idx0_7 t
  unfold iblk
  rw [View.read_apply]
  show V m c main_v9 _ = V m c main_v9 _
  refine congrArg (V m c main_v9) ?_
  funext a
  apply Fin.ext
  match a with
  | ⟨0, _⟩ => show win0_7.index t 0 * 128 + 1 * (y 0).val = (y 0).val; rw [hi.1]; omega
  | ⟨1, _⟩ => show win0_7.index t 1 * 256 + 1 * (y 1).val = (y 1).val; rw [hi.2]; omega

/-- Window 8 stages its whole array at every point. -/
theorem idx0_8 : ∀ t : Fin cfg0.N, win0_8.index t 0 = 0 ∧ win0_8.index t 1 = 0 := by
  intro t; rcases fin_N0 t with rfl | rfl | rfl | rfl | rfl | rfl | rfl | rfl | rfl | rfl | rfl | rfl | rfl | rfl | rfl | rfl <;> decide
theorem iblk_8 (c : Dev nD) (t : Fin cfg0.N) (y : S1x256.Idx) :
    (iblk m c 8 t : Vec F S1x256 .f32) y = (V m c main_v3 : S1x256.Idx → Elt F .f32) y := by
  have hi := idx0_8 t
  unfold iblk
  rw [View.read_apply]
  show V m c main_v3 _ = V m c main_v3 _
  refine congrArg (V m c main_v3) ?_
  funext a
  apply Fin.ext
  match a with
  | ⟨0, _⟩ => show win0_8.index t 0 * 1 + 1 * (y 0).val = (y 0).val; rw [hi.1]; omega
  | ⟨1, _⟩ => show win0_8.index t 1 * 256 + 1 * (y 1).val = (y 1).val; rw [hi.2]; omega

/-- Window 9 stages its whole array at every point. -/
theorem idx0_9 : ∀ t : Fin cfg0.N, win0_9.index t 0 = 0 ∧ win0_9.index t 1 = 0 := by
  intro t; rcases fin_N0 t with rfl | rfl | rfl | rfl | rfl | rfl | rfl | rfl | rfl | rfl | rfl | rfl | rfl | rfl | rfl | rfl <;> decide
theorem iblk_9 (c : Dev nD) (t : Fin cfg0.N) (y : S256x256.Idx) :
    (iblk m c 9 t : Vec F S256x256 .bf16) y = (V m c main_v10 : S256x256.Idx → Elt F .bf16) y := by
  have hi := idx0_9 t
  unfold iblk
  rw [View.read_apply]
  show V m c main_v10 _ = V m c main_v10 _
  refine congrArg (V m c main_v10) ?_
  funext a
  apply Fin.ext
  match a with
  | ⟨0, _⟩ => show win0_9.index t 0 * 256 + 1 * (y 0).val = (y 0).val; rw [hi.1]; omega
  | ⟨1, _⟩ => show win0_9.index t 1 * 256 + 1 * (y 1).val = (y 1).val; rw [hi.2]; omega

/-- Window 10 stages its whole array at every point. -/
theorem idx0_10 : ∀ t : Fin cfg0.N, win0_10.index t 0 = 0 ∧ win0_10.index t 1 = 0 := by
  intro t; rcases fin_N0 t with rfl | rfl | rfl | rfl | rfl | rfl | rfl | rfl | rfl | rfl | rfl | rfl | rfl | rfl | rfl | rfl <;> decide
theorem iblk_10 (c : Dev nD) (t : Fin cfg0.N) (y : S1x256.Idx) :
    (iblk m c 10 t : Vec F S1x256 .f32) y = (V m c main_v4 : S1x256.Idx → Elt F .f32) y := by
  have hi := idx0_10 t
  unfold iblk
  rw [View.read_apply]
  show V m c main_v4 _ = V m c main_v4 _
  refine congrArg (V m c main_v4) ?_
  funext a
  apply Fin.ext
  match a with
  | ⟨0, _⟩ => show win0_10.index t 0 * 1 + 1 * (y 0).val = (y 0).val; rw [hi.1]; omega
  | ⟨1, _⟩ => show win0_10.index t 1 * 256 + 1 * (y 1).val = (y 1).val; rw [hi.2]; omega

/-- Window 11 stages its whole array at every point. -/
theorem idx0_11 : ∀ t : Fin cfg0.N, win0_11.index t 0 = 0 ∧ win0_11.index t 1 = 0 := by
  intro t; rcases fin_N0 t with rfl | rfl | rfl | rfl | rfl | rfl | rfl | rfl | rfl | rfl | rfl | rfl | rfl | rfl | rfl | rfl <;> decide
theorem iblk_11 (c : Dev nD) (t : Fin cfg0.N) (y : S256x3.Idx) :
    (iblk m c 11 t : Vec F S256x3 .bf16) y = (V m c main_v11 : S256x3.Idx → Elt F .bf16) y := by
  have hi := idx0_11 t
  unfold iblk
  rw [View.read_apply]
  show V m c main_v11 _ = V m c main_v11 _
  refine congrArg (V m c main_v11) ?_
  funext a
  apply Fin.ext
  match a with
  | ⟨0, _⟩ => show win0_11.index t 0 * 256 + 1 * (y 0).val = (y 0).val; rw [hi.1]; omega
  | ⟨1, _⟩ => show win0_11.index t 1 * 3 + 1 * (y 1).val = (y 1).val; rw [hi.2]; omega

/-- Window 12 stages its whole array at every point. -/
theorem idx0_12 : ∀ t : Fin cfg0.N, win0_12.index t 0 = 0 ∧ win0_12.index t 1 = 0 := by
  intro t; rcases fin_N0 t with rfl | rfl | rfl | rfl | rfl | rfl | rfl | rfl | rfl | rfl | rfl | rfl | rfl | rfl | rfl | rfl <;> decide
theorem iblk_12 (c : Dev nD) (t : Fin cfg0.N) (y : S1x3.Idx) :
    (iblk m c 12 t : Vec F S1x3 .f32) y = (V m c main_v5 : S1x3.Idx → Elt F .f32) y := by
  have hi := idx0_12 t
  unfold iblk
  rw [View.read_apply]
  show V m c main_v5 _ = V m c main_v5 _
  refine congrArg (V m c main_v5) ?_
  funext a
  apply Fin.ext
  match a with
  | ⟨0, _⟩ => show win0_12.index t 0 * 1 + 1 * (y 0).val = (y 0).val; rw [hi.1]; omega
  | ⟨1, _⟩ => show win0_12.index t 1 * 3 + 1 * (y 1).val = (y 1).val; rw [hi.2]; omega

end Cert.KernelIdeal.Hand

end
-- ==== Proof.Spec.lean ====
/-
  The decoder with a cuboid head, as ONE function of its thirteen argument arrays on the extended reals.

  A row x of the input (128 numbers) goes through two three-layer perceptrons with the leaky rectifier
  v ↦ v for 0 ≤ v, slope·v otherwise:
    points : 128 → 256 → 256 → 6144, then the logistic function, read as three channels of 2048 points;
    cuboid : 128 → 256 → 256 → 3,    then the logistic function, the cuboid's three half-extents.
  For each of the 2048 points p of a row, with P a the point's coordinate in channel a, C a the cuboid's extent and
  D a = |C a − P a|:  a coordinate is an inlier when P a ≤ C a; the point is an inlier when all three are
  (their indicator sum exceeds 2.5).  An inlier point contributes min over a of min (P a) (D a); any other point
  contributes max over a of (0 if coordinate a is an inlier, else max (P a) (D a)).  The row's distance is the sum of
  the 2048 contributions divided by 2048.
  The four results: the points (row, channel, point), the distances (row), the extents (row, channel), and the
  3×3 identity repeated for every row.
-/
import Idealize.ShloMosaic.PureOps.Ideal
import Idealize.ShloMosaic.Lib.ValueIdx

noncomputable section

namespace Cert.Spec

open Idealize.ShloMosaic Idealize.ShloMosaic.ValueIdx

/-- The rectifier's slope, the binary number nearest to one hundredth, the same word in both programs. -/
abbrev slope : EReal := Ideal.ofBits .f32 0x3C23D70A#32
/-- The zero word. -/
abbrev zeroW : EReal := Ideal.ofBits .f32 0x00000000#32

/-- The leaky rectifier: v when 0 ≤ v, slope · v otherwise. -/
def lrelu (v : EReal) : EReal := Scalar.select (Ideal.cmp .oge v zeroW) v (slope * v)

/-- One output of a dense layer: the row against a column of the weights, plus the bias. -/
def dense {n : ℕ} (a : Fin n → EReal) (w : Fin n → EReal) (b : EReal) : EReal := (∑ k : Fin n, a k * w k) + b

section layers
variable (x : Fin 128 → EReal)
variable (W1 : Fin 128 → Fin 256 → EReal) (b1 : Fin 256 → EReal)
variable (W2 : Fin 256 → Fin 256 → EReal) (b2 : Fin 256 → EReal)

/-- The first hidden layer of a perceptron on the row x. -/
def hid1 (j : Fin 256) : EReal := lrelu (dense x (fun k => W1 k j) (b1 j))
/-- The second hidden layer. -/
def hid2 (j : Fin 256) : EReal := lrelu (dense (hid1 x W1 b1) (fun k => W2 k j) (b2 j))

/-- A point coordinate before the logistic function: column q of the third layer. -/
def logit {n : ℕ} (W3 : Fin 256 → Fin n → EReal) (b3 : Fin n → EReal) (q : Fin n) : EReal :=
  dense (hid2 x W1 b1 W2 b2) (fun k => W3 k q) (b3 q)

/-- A perceptron's output at column q: the logistic function of the third layer. -/
def head {n : ℕ} (W3 : Fin 256 → Fin n → EReal) (b3 : Fin n → EReal) (q : Fin n) : EReal :=
  Ideal.logistic (logit x W1 b1 W2 b2 W3 b3 q)
end layers

/-- An indicator as a number: the one-bit word widened to 32 bits and read as a signed integer. -/
def ind (b : BitVec 1) : EReal := (((b.setWidth 32).toInt : ℝ) : EReal)

/-- The contribution of ONE point, from its three coordinates P and the cuboid's three extents C. -/
def contrib (P C : Fin 3 → EReal) : EReal :=
  let D : Fin 3 → EReal := fun a => max (C a - P a) (-(C a - P a))
  let inl : Fin 3 → BitVec 1 := fun a => Ideal.cmp .ole (P a) (C a)
  let cnt : EReal := (ind (inl 0) + ind (inl 1)) + ind (inl 2)
  let all : BitVec 1 := Ideal.cmp .ogt cnt (Ideal.ofBits .f32 0x40200000#32)
  let far : Fin 3 → EReal := fun a => Scalar.select (inl a) zeroW (max (P a) (D a))
  let near : Fin 3 → EReal := fun a => min (P a) (D a)
  Scalar.select all (min (min (near 0) (near 1)) (near 2)) (max (max (far 0) (far 1)) (far 2))

/-- Column of the flat 6144-wide points row that holds channel a, point p. -/
def col (a : Fin 3) (p : Fin 2048) : Fin 6144 := ⟨a.val * 2048 + p.val, by have := a.isLt; have := p.isLt; omega⟩

/-- A row's distance from its 6144 point coordinates and 3 extents: the mean contribution of its 2048 points. -/
def rowDist (pts : Fin 6144 → EReal) (cub : Fin 3 → EReal) : EReal :=
  Ideal.div (∑ p : Fin 2048, contrib (fun a => pts (col a p)) cub) (Ideal.ofBits .f32 0x45000000#32)

/-! ## The four results as functions of the argument arrays -/

section results
variable (X : (⟨2, ![4096, 128]⟩ : Shape).Idx → EReal)
variable (W1 : (⟨2, ![128, 256]⟩ : Shape).Idx → EReal) (B1 : (⟨1, ![256]⟩ : Shape).Idx → EReal)
variable (W2 : (⟨2, ![256, 256]⟩ : Shape).Idx → EReal) (B2 : (⟨1, ![256]⟩ : Shape).Idx → EReal)
variable (W3 : (⟨2, ![256, 6144]⟩ : Shape).Idx → EReal) (B3 : (⟨1, ![6144]⟩ : Shape).Idx → EReal)
variable (V1 : (⟨2, ![128, 256]⟩ : Shape).Idx → EReal) (C1 : (⟨1, ![256]⟩ : Shape).Idx → EReal)
variable (V2 : (⟨2, ![256, 256]⟩ : Shape).Idx → EReal) (C2 : (⟨1, ![256]⟩ : Shape).Idx → EReal)
variable (V3 : (⟨2, ![256, 3]⟩ : Shape).Idx → EReal) (C3 : (⟨1, ![3]⟩ : Shape).Idx → EReal)

/-- Row r's 6144 point coordinates. -/
def ptsRow (r : Fin 4096) (q : Fin 6144) : EReal :=
  head (fun k => X (ix2 r k)) (fun k j => W1 (ix2 k j)) (fun j => B1 (ix1 j)) (fun k j => W2 (ix2 k j)) (fun j => B2 (ix1 j))
    (fun k q => W3 (ix2 k q)) (fun q => B3 (ix1 q)) q

/-- Row r's 3 extents. -/
def cubRow (r : Fin 4096) (a : Fin 3) : EReal :=
  head (fun k => X (ix2 r k)) (fun k j => V1 (ix2 k j)) (fun j => C1 (ix1 j)) (fun k j => V2 (ix2 k j)) (fun j => C2 (ix1 j))
    (fun k a => V3 (ix2 k a)) (fun a => C3 (ix1 a)) a

/-- Result 0: the points, (row, channel, point). -/
def points : (⟨3, ![4096, 3, 2048]⟩ : Shape).Idx → EReal :=
  fun i => ptsRow X W1 B1 W2 B2 W3 B3 (i 0) (col (i 1) (i 2))

/-- Result 2: the extents, (row, channel). -/
def extents : (⟨2, ![4096, 3]⟩ : Shape).Idx → EReal :=
  fun i => cubRow X V1 C1 V2 C2 V3 C3 (i 0) (i 1)

/-- Result 1: the distances, one per row. -/
def dists : (⟨1, ![4096]⟩ : Shape).Idx → EReal :=
  fun i => rowDist (ptsRow X W1 B1 W2 B2 W3 B3 (i 0)) (cubRow X V1 C1 V2 C2 V3 C3 (i 0))
end results

end Cert.Spec

end
-- ==== Proof.LibDotSingle.lean ====
/-
  A matrix product with ONE contracted axis, accumulated into the zero splat and read at the ideal values, as a sum over
  the contracted axis's coordinates `k : Fin n`: the product's own contraction index is a one-coordinate multi-index, and the
  sum is re-indexed through the bijection between such multi-indices and `Fin n`. The caller names what each operand reads
  at contraction coordinate `k` (`L k`, `R k`); at literal dimension numbers the operand indices' coordinates are
  `rfl` on a kept axis and `DotDims.lhsIdx_val_of_single` / `rhsIdx_val_of_single` with `contrEquiv1_symm_val` on the contracted one.
-/
import Idealize.ShloMosaic.PureOps.Ideal
import Idealize.ShloMosaic.PureOps.Ideal.Laws
import Idealize.ShloMosaic.Lib.ValueIdx

noncomputable section

open scoped BigOperators

namespace Cert.LibDotSingle

open Idealize.ShloMosaic Idealize.ShloMosaic.ValueIdx

/-- The product at result index `j` is `∑ k : Fin n, L k * R k` once each operand, at the operand index of `j` and of the
    contraction multi-index with coordinate `k`, is known to read `L k`, respectively `R k`. -/
theorem matmul_zero_single {sl sr so : Shape} {φ₁ φ₂ : FTy} (d : DotDims sl sr so) (prec : Option ContractPrecision)
    (n : Nat) (hr : d.contr.rank = 1) (hs : d.contr.size ⟨0, by omega⟩ = n)
    (lhs : FVec Ideal sl φ₁) (rhs : FVec Ideal sr φ₂) (j : so.Idx) (L R : Fin n → EReal)
    (hl : ∀ k : Fin n, lhs (d.lhsIdx j ((contrEquiv1 d n hr hs).symm k)) = L k)
    (hR : ∀ k : Fin n, rhs (d.rhsIdx j ((contrEquiv1 d n hr hs).symm k)) = R k) :
    FloatOps.matmul d prec lhs rhs (constant so .f32 0x00000000#32) j = ∑ k : Fin n, L k * R k := by
  rw [Ideal.matmul_constant_zero_apply, ← Equiv.sum_comp (contrEquiv1 d n hr hs).symm]
  exact Finset.sum_congr rfl fun k _ => by rw [hl k, hR k]

end Cert.LibDotSingle

end
-- ==== Proof.PayDot.lean ====
/-
  Each matrix product of the decoder contracts one axis: the left operand's columns against the right operand's rows.
  Accumulated into the zero splat and read on the extended reals, the product at row r, column c is the sum over the
  contracted coordinate k of (left at (r, k)) times (right at (k, c)). One statement per pair of operand shapes.
-/
import proofs.«169947_j35682588295463_2_alg».proof.Proof.Gen.KernelIdeal.Skeleton
import proofs.«169947_j35682588295463_2_alg».proof.Proof.LibDotSingle

noncomputable section

open scoped BigOperators

namespace Cert.KernelIdeal.PayValue

open Idealize.ShloMosaic Idealize.ShloMosaic.ValueIdx Cert.KernelIdeal

/-- The first layer, 256x128 by 128x256: entry (r, c) is the sum over k of A (r, k) · B (k, c). -/
theorem matmul_256_128_256 (A : FVec Ideal S256x128 .bf16) (B : FVec Ideal S128x256 .bf16) (r : Fin 256) (c : Fin 256) :
    matmul dot_S256x128_S128x256_S256x256_1_0_0_1_n_n none A B (constant (F := Ideal) S256x256 .f32 0x00000000#32) (ix2 r c)
      = ∑ k : Fin 128, A (ix2 r k) * B (ix2 k c) := by
  refine Cert.LibDotSingle.matmul_zero_single dot_S256x128_S128x256_S256x256_1_0_0_1_n_n none 128 rfl rfl A B (ix2 r c)
    (fun k => A (ix2 r k)) (fun k => B (ix2 k c)) (fun k => congrArg A ?_) (fun k => congrArg B ?_)
  · funext ax; apply Fin.ext
    match ax with
    | ⟨0, _⟩ => simp [DotDims.lhsIdx, dot_S256x128_S128x256_S256x256_1_0_0_1_n_n]; rfl
    | ⟨1, _⟩ =>
      exact (DotDims.lhsIdx_val_of_single dot_S256x128_S128x256_S256x256_1_0_0_1_n_n (cl := 1) rfl (ix2 r c) _).trans
        (contrEquiv1_symm_val dot_S256x128_S128x256_S256x256_1_0_0_1_n_n 128 rfl rfl k)
  · funext ax; apply Fin.ext
    match ax with
    | ⟨0, _⟩ =>
      exact (DotDims.rhsIdx_val_of_single dot_S256x128_S128x256_S256x256_1_0_0_1_n_n (cr := 0) rfl (ix2 r c) _).trans
        (contrEquiv1_symm_val dot_S256x128_S128x256_S256x256_1_0_0_1_n_n 128 rfl rfl k)
    | ⟨1, _⟩ => simp [DotDims.rhsIdx, dot_S256x128_S128x256_S256x256_1_0_0_1_n_n]; rfl

/-- The second layer, 256x256 by 256x256: entry (r, c) is the sum over k of A (r, k) · B (k, c). -/
theorem matmul_256_256_256 (A : FVec Ideal S256x256 .bf16) (B : FVec Ideal S256x256 .bf16) (r : Fin 256) (c : Fin 256) :
    matmul dot_S256x256_S256x256_S256x256_1_0_0_1_n_n none A B (constant (F := Ideal) S256x256 .f32 0x00000000#32) (ix2 r c)
      = ∑ k : Fin 256, A (ix2 r k) * B (ix2 k c) := by
  refine Cert.LibDotSingle.matmul_zero_single dot_S256x256_S256x256_S256x256_1_0_0_1_n_n none 256 rfl rfl A B (ix2 r c)
    (fun k => A (ix2 r k)) (fun k => B (ix2 k c)) (fun k => congrArg A ?_) (fun k => congrArg B ?_)
  · funext ax; apply Fin.ext
    match ax with
    | ⟨0, _⟩ => simp [DotDims.lhsIdx, dot_S256x256_S256x256_S256x256_1_0_0_1_n_n]; rfl
    | ⟨1, _⟩ =>
      exact (DotDims.lhsIdx_val_of_single dot_S256x256_S256x256_S256x256_1_0_0_1_n_n (cl := 1) rfl (ix2 r c) _).trans
        (contrEquiv1_symm_val dot_S256x256_S256x256_S256x256_1_0_0_1_n_n 256 rfl rfl k)
  · funext ax; apply Fin.ext
    match ax with
    | ⟨0, _⟩ =>
      exact (DotDims.rhsIdx_val_of_single dot_S256x256_S256x256_S256x256_1_0_0_1_n_n (cr := 0) rfl (ix2 r c) _).trans
        (contrEquiv1_symm_val dot_S256x256_S256x256_S256x256_1_0_0_1_n_n 256 rfl rfl k)
    | ⟨1, _⟩ => simp [DotDims.rhsIdx, dot_S256x256_S256x256_S256x256_1_0_0_1_n_n]; rfl

/-- The cuboid's third layer, 256x256 by 256x3: entry (r, c) is the sum over k of A (r, k) · B (k, c). -/
theorem matmul_256_256_3 (A : FVec Ideal S256x256 .bf16) (B : FVec Ideal S256x3 .bf16) (r : Fin 256) (c : Fin 3) :
    matmul dot_S256x256_S256x3_S256x3_1_0_0_1_n_n none A B (constant (F := Ideal) S256x3 .f32 0x00000000#32) (ix2 r c)
      = ∑ k : Fin 256, A (ix2 r k) * B (ix2 k c) := by
  refine Cert.LibDotSingle.matmul_zero_single dot_S256x256_S256x3_S256x3_1_0_0_1_n_n none 256 rfl rfl A B (ix2 r c)
    (fun k => A (ix2 r k)) (fun k => B (ix2 k c)) (fun k => congrArg A ?_) (fun k => congrArg B ?_)
  · funext ax; apply Fin.ext
    match ax with
    | ⟨0, _⟩ => simp [DotDims.lhsIdx, dot_S256x256_S256x3_S256x3_1_0_0_1_n_n]; rfl
    | ⟨1, _⟩ =>
      exact (DotDims.lhsIdx_val_of_single dot_S256x256_S256x3_S256x3_1_0_0_1_n_n (cl := 1) rfl (ix2 r c) _).trans
        (contrEquiv1_symm_val dot_S256x256_S256x3_S256x3_1_0_0_1_n_n 256 rfl rfl k)
  · funext ax; apply Fin.ext
    match ax with
    | ⟨0, _⟩ =>
      exact (DotDims.rhsIdx_val_of_single dot_S256x256_S256x3_S256x3_1_0_0_1_n_n (cr := 0) rfl (ix2 r c) _).trans
        (contrEquiv1_symm_val dot_S256x256_S256x3_S256x3_1_0_0_1_n_n 256 rfl rfl k)
    | ⟨1, _⟩ => simp [DotDims.rhsIdx, dot_S256x256_S256x3_S256x3_1_0_0_1_n_n]; rfl

/-- A slice of the points' third layer, 256x256 by 256x512: entry (r, c) is the sum over k of A (r, k) · B (k, c). -/
theorem matmul_256_256_512 (A : FVec Ideal S256x256 .bf16) (B : FVec Ideal S256x512 .bf16) (r : Fin 256) (c : Fin 512) :
    matmul dot_S256x256_S256x512_S256x512_1_0_0_1_n_n none A B (constant (F := Ideal) S256x512 .f32 0x00000000#32) (ix2 r c)
      = ∑ k : Fin 256, A (ix2 r k) * B (ix2 k c) := by
  refine Cert.LibDotSingle.matmul_zero_single dot_S256x256_S256x512_S256x512_1_0_0_1_n_n none 256 rfl rfl A B (ix2 r c)
    (fun k => A (ix2 r k)) (fun k => B (ix2 k c)) (fun k => congrArg A ?_) (fun k => congrArg B ?_)
  · funext ax; apply Fin.ext
    match ax with
    | ⟨0, _⟩ => simp [DotDims.lhsIdx, dot_S256x256_S256x512_S256x512_1_0_0_1_n_n]; rfl
    | ⟨1, _⟩ =>
      exact (DotDims.lhsIdx_val_of_single dot_S256x256_S256x512_S256x512_1_0_0_1_n_n (cl := 1) rfl (ix2 r c) _).trans
        (contrEquiv1_symm_val dot_S256x256_S256x512_S256x512_1_0_0_1_n_n 256 rfl rfl k)
  · funext ax; apply Fin.ext
    match ax with
    | ⟨0, _⟩ =>
      exact (DotDims.rhsIdx_val_of_single dot_S256x256_S256x512_S256x512_1_0_0_1_n_n (cr := 0) rfl (ix2 r c) _).trans
        (contrEquiv1_symm_val dot_S256x256_S256x512_S256x512_1_0_0_1_n_n 256 rfl rfl k)
    | ⟨1, _⟩ => simp [DotDims.rhsIdx, dot_S256x256_S256x512_S256x512_1_0_0_1_n_n]; rfl

end Cert.KernelIdeal.PayValue

end
-- ==== Proof.PayPiece.lean ====
/-
  One piece of the points block: 512 columns of the third layer, read at the ideal values.

  The piece is the logistic function of (second hidden layer, as a 256x256 block) times (a 256x512 slice of the third
  layer's weights) plus (a 1x512 slice of its bias, repeated down the rows). At row r, column c this is the logistic
  function of the dense-layer expression: the sum over k of hidden (r, k) · weight (k, c), plus bias (0, c).
  Every logistic piece of the kernel body is this expression with the slice variables renamed.
-/
import proofs.«169947_j35682588295463_2_alg».proof.Proof.Gen.KernelIdeal.Skeleton
import proofs.«169947_j35682588295463_2_alg».proof.Proof.Spec
import proofs.«169947_j35682588295463_2_alg».proof.Proof.PayDot
import Idealize.ShloMosaic.Lib.ValueLayout

noncomputable section

open scoped BigOperators

namespace Cert.KernelIdeal.PayValue

open Idealize.ShloMosaic Idealize.ShloMosaic.ValueIdx Cert.KernelIdeal

/-- The third layer before the logistic function, on a slice given as already-cast vectors. -/
theorem preact_apply (h : FVec Ideal S256x256 .bf16) (w : FVec Ideal S256x512 .bf16) (b : FVec Ideal S1x512 .f32)
    (r : Fin 256) (c : Fin 512) :
    addf (matmul dot_S256x256_S256x512_S256x512_1_0_0_1_n_n none h w (constant (F := Ideal) S256x512 .f32 0x00000000#32))
        (broadcastTo S256x512 b Gen.broadcasts_S1x512_S256x512) (ix2 r c)
      = Cert.Spec.dense (fun k => h (ix2 r k)) (fun k => w (ix2 k c)) (b (ix2 0 c)) := by
  show matmul dot_S256x256_S256x512_S256x512_1_0_0_1_n_n none h w (constant (F := Ideal) S256x512 .f32 0x00000000#32) (ix2 r c)
      + broadcastTo S256x512 b Gen.broadcasts_S1x512_S256x512 (ix2 r c) = _
  rw [matmul_256_256_512 h w r c, broadcastTo_1b_ab_apply b Gen.broadcasts_S1x512_S256x512 r c]
  rfl

/-- The piece on already-cast vectors. -/
theorem piece_cast_apply (h : FVec Ideal S256x256 .bf16) (w : FVec Ideal S256x512 .bf16) (b : FVec Ideal S1x512 .f32)
    (r : Fin 256) (c : Fin 512) :
    logistic (addf (matmul dot_S256x256_S256x512_S256x512_1_0_0_1_n_n none h w (constant (F := Ideal) S256x512 .f32 0x00000000#32))
        (broadcastTo S256x512 b Gen.broadcasts_S1x512_S256x512)) (ix2 r c)
      = Ideal.logistic (Cert.Spec.dense (fun k => h (ix2 r k)) (fun k => w (ix2 k c)) (b (ix2 0 c))) :=
  congrArg Ideal.logistic (preact_apply h w b r c)

/-- The piece on loaded slices, through the identity shape casts the body applies to them. -/
theorem piece_apply (h : FVec Ideal S256x256 .bf16) (w : Vec Ideal S256x512 .bf16) (b : Vec Ideal S1x512 .f32)
    (r : Fin 256) (c : Fin 512) :
    logistic (addf (matmul dot_S256x256_S256x512_S256x512_1_0_0_1_n_n none h
          (shapeCast S256x512 w Gen.shapeCasts_S256x512_S256x512 : FVec Ideal S256x512 .bf16)
          (constant (F := Ideal) S256x512 .f32 0x00000000#32))
        (broadcastTo S256x512 (shapeCast S1x512 b Gen.shapeCasts_S1x512_S1x512 : FVec Ideal S1x512 .f32)
          Gen.broadcasts_S1x512_S256x512)) (ix2 r c)
      = Ideal.logistic (Cert.Spec.dense (fun k => h (ix2 r k)) (fun k => w (ix2 k c)) (b (ix2 0 c))) := by
  rw [shapeCast_self w, shapeCast_self b]
  exact piece_cast_apply h w b r c

end Cert.KernelIdeal.PayValue

end
-- ==== Proof.PayPieces.lean ====
/-
  The twelve pieces of the points block, four chunks of 512 points by three channels. Each is the logistic function of
  the dense-layer expression on its own slice of the third layer's weights and bias; the slices differ only in which
  columns were loaded, so each statement is the generic one with the slice variables renamed. In three places the
  body casts a slice (an identity cast) or adds the bias in one stretch and applies the logistic function in the next.
-/
import proofs.«169947_j35682588295463_2_alg».proof.Proof.Gen.KernelIdeal.Skeleton
import proofs.«169947_j35682588295463_2_alg».proof.Proof.Spec
import proofs.«169947_j35682588295463_2_alg».proof.Proof.PayPiece

noncomputable section

open scoped BigOperators

namespace Cert.KernelIdeal.PayValue

open Idealize.ShloMosaic Idealize.ShloMosaic.ValueIdx Cert.KernelIdeal

/-- Chunk 0, channel 0. -/
theorem pay11_apply (v27 : FVec Ideal S256x256 .bf16) (w : Vec Ideal S256x512 .bf16) (b : Vec Ideal S1x512 .f32)
    (r : Fin 256) (c : Fin 512) :
    Gen.k0_pay11 v27 w b (ix2 r c)
      = Ideal.logistic (Cert.Spec.dense (fun k => v27 (ix2 r k)) (fun k => w (ix2 k c)) (b (ix2 0 c))) := by
  unfold Gen.k0_pay11
  exact piece_apply v27 w b r c

/-- Chunk 0, channel 1. -/
theorem pay12_apply (v27 : FVec Ideal S256x256 .bf16) (w : Vec Ideal S256x512 .bf16) (b : Vec Ideal S1x512 .f32)
    (r : Fin 256) (c : Fin 512) :
    Gen.k0_pay12 v27 w b (ix2 r c)
      = Ideal.logistic (Cert.Spec.dense (fun k => v27 (ix2 r k)) (fun k => w (ix2 k c)) (b (ix2 0 c))) := by
  unfold Gen.k0_pay12
  exact piece_apply v27 w b r c

/-- Chunk 0, channel 2. -/
theorem pay13_apply (v27 : FVec Ideal S256x256 .bf16) (w : Vec Ideal S256x512 .bf16) (b : Vec Ideal S1x512 .f32)
    (r : Fin 256) (c : Fin 512) :
    Gen.k0_pay13 v27 w b (ix2 r c)
      = Ideal.logistic (Cert.Spec.dense (fun k => v27 (ix2 r k)) (fun k => w (ix2 k c)) (b (ix2 0 c))) := by
  unfold Gen.k0_pay13
  exact piece_apply v27 w b r c

/-- Chunk 1, channel 0: the bias is added in one stretch, the logistic function applied in the next. -/
theorem pay21_pay20_apply (v27 : FVec Ideal S256x256 .bf16) (w : Vec Ideal S256x512 .bf16) (b : Vec Ideal S1x512 .f32)
    (r : Fin 256) (c : Fin 512) :
    Gen.k0_pay21 (Gen.k0_pay20 v27 w b) (ix2 r c)
      = Ideal.logistic (Cert.Spec.dense (fun k => v27 (ix2 r k)) (fun k => w (ix2 k c)) (b (ix2 0 c))) := by
  unfold Gen.k0_pay21 Gen.k0_pay20
  exact piece_apply v27 w b r c

/-- Chunk 1, channel 1. -/
theorem pay22_apply (v27 : FVec Ideal S256x256 .bf16) (w : Vec Ideal S256x512 .bf16) (b : Vec Ideal S1x512 .f32)
    (r : Fin 256) (c : Fin 512) :
    Gen.k0_pay22 v27 w b (ix2 r c)
      = Ideal.logistic (Cert.Spec.dense (fun k => v27 (ix2 r k)) (fun k => w (ix2 k c)) (b (ix2 0 c))) := by
  unfold Gen.k0_pay22
  exact piece_apply v27 w b r c

/-- Chunk 1, channel 2. -/
theorem pay23_apply (v27 : FVec Ideal S256x256 .bf16) (w : Vec Ideal S256x512 .bf16) (b : Vec Ideal S1x512 .f32)
    (r : Fin 256) (c : Fin 512) :
    Gen.k0_pay23 v27 w b (ix2 r c)
      = Ideal.logistic (Cert.Spec.dense (fun k => v27 (ix2 r k)) (fun k => w (ix2 k c)) (b (ix2 0 c))) := by
  unfold Gen.k0_pay23
  exact piece_apply v27 w b r c

/-- Chunk 2, channel 0. -/
theorem pay33_apply (v27 : FVec Ideal S256x256 .bf16) (w : Vec Ideal S256x512 .bf16) (b : Vec Ideal S1x512 .f32)
    (r : Fin 256) (c : Fin 512) :
    Gen.k0_pay33 v27 w b (ix2 r c)
      = Ideal.logistic (Cert.Spec.dense (fun k => v27 (ix2 r k)) (fun k => w (ix2 k c)) (b (ix2 0 c))) := by
  unfold Gen.k0_pay33
  exact piece_apply v27 w b r c

/-- Chunk 2, channel 1: the two slices are cast (identity casts) in the stretch before. -/
theorem pay36_apply (v27 : FVec Ideal S256x256 .bf16) (w : Vec Ideal S256x512 .bf16) (b : Vec Ideal S1x512 .f32)
    (r : Fin 256) (c : Fin 512) :
    Gen.k0_pay36 v27 (Gen.k0_pay34 w) (Gen.k0_pay35 b) (ix2 r c)
      = Ideal.logistic (Cert.Spec.dense (fun k => v27 (ix2 r k)) (fun k => w (ix2 k c)) (b (ix2 0 c))) := by
  unfold Gen.k0_pay36 Gen.k0_pay34 Gen.k0_pay35
  exact piece_apply v27 w b r c

/-- Chunk 2, channel 2. -/
theorem pay37_apply (v27 : FVec Ideal S256x256 .bf16) (w : Vec Ideal S256x512 .bf16) (b : Vec Ideal S1x512 .f32)
    (r : Fin 256) (c : Fin 512) :
    Gen.k0_pay37 v27 w b (ix2 r c)
      = Ideal.logistic (Cert.Spec.dense (fun k => v27 (ix2 r k)) (fun k => w (ix2 k c)) (b (ix2 0 c))) := by
  unfold Gen.k0_pay37
  exact piece_apply v27 w b r c

/-- Chunk 3, channel 0. -/
theorem pay47_apply (v27 : FVec Ideal S256x256 .bf16) (w : Vec Ideal S256x512 .bf16) (b : Vec Ideal S1x512 .f32)
    (r : Fin 256) (c : Fin 512) :
    Gen.k0_pay47 v27 w b (ix2 r c)
      = Ideal.logistic (Cert.Spec.dense (fun k => v27 (ix2 r k)) (fun k => w (ix2 k c)) (b (ix2 0 c))) := by
  unfold Gen.k0_pay47
  exact piece_apply v27 w b r c

/-- Chunk 3, channel 1. -/
theorem pay48_apply (v27 : FVec Ideal S256x256 .bf16) (w : Vec Ideal S256x512 .bf16) (b : Vec Ideal S1x512 .f32)
    (r : Fin 256) (c : Fin 512) :
    Gen.k0_pay48 v27 w b (ix2 r c)
      = Ideal.logistic (Cert.Spec.dense (fun k => v27 (ix2 r k)) (fun k => w (ix2 k c)) (b (ix2 0 c))) := by
  unfold Gen.k0_pay48
  exact piece_apply v27 w b r c

/-- Chunk 3, channel 2: the weight slice is cast (an identity cast) in the stretch before. -/
theorem pay50_apply (v27 : FVec Ideal S256x256 .bf16) (w : Vec Ideal S256x512 .bf16) (b : Vec Ideal S1x512 .f32)
    (r : Fin 256) (c : Fin 512) :
    Gen.k0_pay50 v27 (Gen.k0_pay49 w) b (ix2 r c)
      = Ideal.logistic (Cert.Spec.dense (fun k => v27 (ix2 r k)) (fun k => w (ix2 k c)) (b (ix2 0 c))) := by
  unfold Gen.k0_pay50 Gen.k0_pay49
  exact piece_apply v27 w b r c

end Cert.KernelIdeal.PayValue

end
-- ==== Proof.PayHidden.lean ====
/-
  The hidden layers of a perceptron on a block of 256 rows, read at the ideal values.

  A layer is (input block) times (weights) plus (bias row repeated down the rows), then the leaky rectifier spelt as a
  select between v and slope · v on the comparison 0 ≤ v. A change of float format is the identity on the extended reals,
  so at row r, column j the first layer reads hid1 of row r and the second layer reads hid2 of row r.
-/
import proofs.«169947_j35682588295463_2_alg».proof.Proof.Gen.KernelIdeal.Skeleton
import proofs.«169947_j35682588295463_2_alg».proof.Proof.Spec
import proofs.«169947_j35682588295463_2_alg».proof.Proof.PayDot
import Idealize.ShloMosaic.Lib.ValueLayout

noncomputable section

open scoped BigOperators

namespace Cert.KernelIdeal.PayValue

open Idealize.ShloMosaic Idealize.ShloMosaic.ValueIdx Cert.KernelIdeal

/-- The leaky rectifier as the body spells it on a vector, at an index. -/
theorem lrelu_vec_apply {s : Shape} (v : FVec Ideal s .f32) (i : s.Idx) :
    select (cmpf .oge v (broadcast s (Scalar.ofBits (F := Ideal) .f32 0x00000000#32))) v
        (mulf (broadcast s (Scalar.ofBits (F := Ideal) .f32 0x3C23D70A#32)) v) i
      = Cert.Spec.lrelu (v i) := rfl

/-- First layer before the rectifier: 256x128 input, 128x256 weights, 1x256 bias. -/
theorem dense1_apply (x : FVec Ideal S256x128 .bf16) (w : FVec Ideal S128x256 .bf16) (b : FVec Ideal S1x256 .f32)
    (r j : Fin 256) :
    addf (matmul dot_S256x128_S128x256_S256x256_1_0_0_1_n_n none x w (constant (F := Ideal) S256x256 .f32 0x00000000#32))
        (broadcastTo S256x256 b Gen.broadcasts_S1x256_S256x256) (ix2 r j)
      = Cert.Spec.dense (fun k => x (ix2 r k)) (fun k => w (ix2 k j)) (b (ix2 0 j)) := by
  show matmul dot_S256x128_S128x256_S256x256_1_0_0_1_n_n none x w (constant (F := Ideal) S256x256 .f32 0x00000000#32) (ix2 r j)
      + broadcastTo S256x256 b Gen.broadcasts_S1x256_S256x256 (ix2 r j) = _
  rw [matmul_256_128_256 x w r j, broadcastTo_1b_ab_apply b Gen.broadcasts_S1x256_S256x256 r j]
  rfl

/-- Second layer before the rectifier: 256x256 input, 256x256 weights, 1x256 bias. -/
theorem dense2_apply (x : FVec Ideal S256x256 .bf16) (w : FVec Ideal S256x256 .bf16) (b : FVec Ideal S1x256 .f32)
    (r j : Fin 256) :
    addf (matmul dot_S256x256_S256x256_S256x256_1_0_0_1_n_n none x w (constant (F := Ideal) S256x256 .f32 0x00000000#32))
        (broadcastTo S256x256 b Gen.broadcasts_S1x256_S256x256) (ix2 r j)
      = Cert.Spec.dense (fun k => x (ix2 r k)) (fun k => w (ix2 k j)) (b (ix2 0 j)) := by
  show matmul dot_S256x256_S256x256_S256x256_1_0_0_1_n_n none x w (constant (F := Ideal) S256x256 .f32 0x00000000#32) (ix2 r j)
      + broadcastTo S256x256 b Gen.broadcasts_S1x256_S256x256 (ix2 r j) = _
  rw [matmul_256_256_256 x w r j, broadcastTo_1b_ab_apply b Gen.broadcasts_S1x256_S256x256 r j]
  rfl

/-- The first layer's pre-activation on the loaded block, weights and bias (the body's value 8 / 34) at (r, j):
    the dense expression of row r. -/
theorem pay4_apply (x0 : Vec Ideal S256x128 .f32) (w1 : Vec Ideal S128x256 .bf16) (bb1 : Vec Ideal S1x256 .f32)
    (r j : Fin 256) :
    Gen.k0_pay4 x0 w1 bb1 (ix2 r j)
      = Cert.Spec.dense (fun k => x0 (ix2 r k)) (fun k => w1 (ix2 k j)) (bb1 (ix2 0 j)) := by
  unfold Gen.k0_pay4 Gen.k0_pay2
  refine (dense1_apply _ _ _ r j).trans ?_
  rw [shapeCast_self w1, shapeCast_self bb1]
  rfl

/-- The first hidden layer, as the body's select on the pre-activation, at (r, j). -/
theorem hid1_apply (x0 : Vec Ideal S256x128 .f32) (w1 : Vec Ideal S128x256 .bf16) (bb1 : Vec Ideal S1x256 .f32)
    (r j : Fin 256) :
    select (cmpf .oge (Gen.k0_pay4 x0 w1 bb1) (broadcast S256x256 (Scalar.ofBits (F := Ideal) .f32 0x00000000#32)))
        (Gen.k0_pay4 x0 w1 bb1)
        (mulf (broadcast S256x256 (Scalar.ofBits (F := Ideal) .f32 0x3C23D70A#32)) (Gen.k0_pay4 x0 w1 bb1)) (ix2 r j)
      = Cert.Spec.hid1 (fun k => x0 (ix2 r k)) (fun k j => w1 (ix2 k j)) (fun j => bb1 (ix2 0 j)) j :=
  (lrelu_vec_apply (Gen.k0_pay4 x0 w1 bb1) (ix2 r j)).trans (congrArg Cert.Spec.lrelu (pay4_apply x0 w1 bb1 r j))

/-- The second hidden layer of the points perceptron (the body's value 27) at (r, j): hid2 of row r. -/
theorem pay3_apply (x0 : Vec Ideal S256x128 .f32) (w1 : Vec Ideal S128x256 .bf16) (bb1 : Vec Ideal S1x256 .f32)
    (w2 : Vec Ideal S256x256 .bf16) (bb2 : Vec Ideal S1x256 .f32) (r j : Fin 256) :
    Gen.k0_pay3 x0 w1 bb1 w2 bb2 (ix2 r j)
      = Cert.Spec.hid2 (fun k => x0 (ix2 r k)) (fun k j => w1 (ix2 k j)) (fun j => bb1 (ix2 0 j))
          (fun k j => w2 (ix2 k j)) (fun j => bb2 (ix2 0 j)) j := by
  unfold Gen.k0_pay3
  refine (lrelu_vec_apply _ (ix2 r j)).trans (congrArg Cert.Spec.lrelu ?_)
  refine (dense2_apply _ _ _ r j).trans ?_
  rw [shapeCast_self w2, shapeCast_self bb2]
  show Cert.Spec.dense _ (fun k => w2 (ix2 k j)) (bb2 (ix2 0 j)) = Cert.Spec.dense _ (fun k => w2 (ix2 k j)) (bb2 (ix2 0 j))
  congr 1
  funext k
  exact hid1_apply x0 w1 bb1 r k

end Cert.KernelIdeal.PayValue

end
-- ==== Proof.PtsBlkI.lean ====
/-
  The points block the body leaves, as ONE function of the block index: entry (r, q) of the 256×6144 block is the
  points perceptron of row r of the input block at column q.  The body stores it in twelve 256×512 rectangles, the
  rectangle at column offset o computed from columns o … o + 511 of the third layer's weights and bias; each store's
  value at (r, c) is therefore the function at (r, o + c), and the stores tile the block.
-/
import proofs.«169947_j35682588295463_2_alg».proof.Proof.FrameI
import proofs.«169947_j35682588295463_2_alg».proof.Proof.Spec
import proofs.«169947_j35682588295463_2_alg».proof.Proof.PayPieces
import proofs.«169947_j35682588295463_2_alg».proof.Proof.PayHidden
import Idealize.ShloMosaic.Lib.Pipeline.Value
import Idealize.ShloMosaic.PureOps.Ideal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx

theorem hz2 : (![0, 0] : Fin 2 → Nat) = fun _ => 0 := funext fun a => by fin_cases a <;> rfl

/-- The points perceptron of row r of an input block at column q, from the loaded blocks. -/
def ptsAt (x0 : Vec Ideal S256x128 .f32) (x1 : Vec Ideal S128x256 .bf16) (x2 : Vec Ideal S1x256 .f32) (x3 : Vec Ideal S256x256 .bf16) (x4 : Vec Ideal S1x256 .f32) (x5 : Vec Ideal S256x6144 .bf16) (x6 : Vec Ideal S1x6144 .f32) (r : Fin 256) (q : Fin 6144) : EReal :=
  Cert.Spec.head (fun k => x0 (ix2 r k)) (fun k j => x1 (ix2 k j)) (fun j => x2 (ix2 0 j)) (fun k j => x3 (ix2 k j)) (fun j => x4 (ix2 0 j))
    (fun k q => x5 (ix2 k q)) (fun q => x6 (ix2 0 q)) q

/-- The same over an index of the block. -/
def ptsBlk (x0 : Vec Ideal S256x128 .f32) (x1 : Vec Ideal S128x256 .bf16) (x2 : Vec Ideal S1x256 .f32) (x3 : Vec Ideal S256x256 .bf16) (x4 : Vec Ideal S1x256 .f32) (x5 : Vec Ideal S256x6144 .bf16) (x6 : Vec Ideal S1x6144 .f32) : S256x6144.Idx → EReal := fun y =>
  ptsAt x0 x1 x2 x3 x4 x5 x6 ⟨(y 0).val, idx2_lt0 y⟩ ⟨(y 1).val, idx2_lt1 y⟩

/-- A 256×512 slice of the weights at column offset o reads, at (k, c), the weights at (k, o + c). -/
theorem slice5 (arg6 : Memref sig .tc .vmem S256x6144 .bf16) (harg6 : arg6.IsWhole) (x5 : Vec Ideal S256x6144 .bf16) (o : ℕ) (ho : o + 512 ≤ 6144)
    (inb : ∀ a, (![0, o] : Fin 2 → ℕ) a + (![256, 512] : Fin 2 → ℕ) a ≤ S256x6144.size a) (k : Fin 256) (cc : Fin 512) :
    View.readAt (Elt Ideal) arg6.view (Rect.unit (s := S256x6144) ![0, o] ![256, 512] inb).toLoadRect (harg6.unread x5) (ix2 k cc)
      = x5 (ix2 k ⟨o + cc.val, by omega⟩) := by
  rw [View.readAt_eq_ld, harg6.read_unread]
  show x5 _ = x5 _
  refine congrArg x5 (funext fun a => Fin.ext ?_)
  match a with
  | ⟨0, _⟩ => show 0 + 1 * k.val = k.val; omega
  | ⟨1, _⟩ => show o + 1 * cc.val = o + cc.val; omega

/-- A 1×512 slice of the bias row at column offset o reads, at (0, c), the bias at (0, o + c). -/
theorem slice6 (arg7 : Memref sig .tc .vmem S1x6144 .f32) (harg7 : arg7.IsWhole) (x6 : Vec Ideal S1x6144 .f32) (o : ℕ) (ho : o + 512 ≤ 6144)
    (inb : ∀ a, (![0, o] : Fin 2 → ℕ) a + (![1, 512] : Fin 2 → ℕ) a ≤ S1x6144.size a) (cc : Fin 512) :
    View.readAt (Elt Ideal) arg7.view (Rect.unit (s := S1x6144) ![0, o] ![1, 512] inb).toLoadRect (harg7.unread x6) (ix2 0 cc)
      = x6 (ix2 0 ⟨o + cc.val, by omega⟩) := by
  rw [View.readAt_eq_ld, harg7.read_unread]
  show x6 _ = x6 _
  refine congrArg x6 (funext fun a => Fin.ext ?_)
  match a with
  | ⟨0, _⟩ => show 0 + 1 * (0 : Fin 1).val = (0 : Fin 1).val; rfl
  | ⟨1, _⟩ => show o + 1 * cc.val = o + cc.val; omega

/-- The block function at the index a rectangle at column offset o embeds (r, c) to: row r, column o + c. -/
theorem ptsBlk_emb (x0 : Vec Ideal S256x128 .f32) (x1 : Vec Ideal S128x256 .bf16) (x2 : Vec Ideal S1x256 .f32) (x3 : Vec Ideal S256x256 .bf16) (x4 : Vec Ideal S1x256 .f32) (x5 : Vec Ideal S256x6144 .bf16) (x6 : Vec Ideal S1x6144 .f32) (o : ℕ) (ho : o + 512 ≤ 6144)
    (inb : ∀ a, (![0, o] : Fin 2 → ℕ) a + (![256, 512] : Fin 2 → ℕ) a ≤ S256x6144.size a) (r : Fin 256) (cc : Fin 512) :
    ptsBlk x0 x1 x2 x3 x4 x5 x6 ((Rect.unit (s := S256x6144) ![0, o] ![256, 512] inb).emb (ix2 r cc)) = ptsAt x0 x1 x2 x3 x4 x5 x6 r ⟨o + cc.val, by omega⟩ := by
  unfold ptsBlk
  congr 1
  · exact Fin.ext (show 0 + 1 * r.val = r.val by omega)
  · exact Fin.ext (show o + 1 * cc.val = o + cc.val by omega)

end Cert.KernelIdeal.Hand

end
-- ==== Proof.PayCub.lean ====
/-
  The cuboid block: the second perceptron's output on a block of 256 rows, read at the ideal values.

  Its first layer's pre-activation is computed in one stretch of the body and handed on together with the rectifier's
  slope and the zero splat; the next stretch applies the rectifier, the second layer, the third layer (256 -> 3) and the
  logistic function. At row r, channel a this is the perceptron's head on row r. The three extents used by the distance
  are the block's three columns, each taken as a 256x1 slice.
-/
import proofs.«169947_j35682588295463_2_alg».proof.Proof.Gen.KernelIdeal.Skeleton
import proofs.«169947_j35682588295463_2_alg».proof.Proof.Spec
import proofs.«169947_j35682588295463_2_alg».proof.Proof.PayDot
import proofs.«169947_j35682588295463_2_alg».proof.Proof.PayHidden
import Idealize.ShloMosaic.Lib.ValueLayout

noncomputable section

open scoped BigOperators

namespace Cert.KernelIdeal.PayValue

open Idealize.ShloMosaic Idealize.ShloMosaic.ValueIdx Cert.KernelIdeal

/-- Third layer of the cuboid perceptron before the logistic function: 256x256 input, 256x3 weights, 1x3 bias. -/
theorem dense3_apply (x : FVec Ideal S256x256 .bf16) (w : FVec Ideal S256x3 .bf16) (b : FVec Ideal S1x3 .f32)
    (r : Fin 256) (a : Fin 3) :
    addf (matmul dot_S256x256_S256x3_S256x3_1_0_0_1_n_n none x w (constant (F := Ideal) S256x3 .f32 0x00000000#32))
        (broadcastTo S256x3 b Gen.broadcasts_S1x3_S256x3) (ix2 r a)
      = Cert.Spec.dense (fun k => x (ix2 r k)) (fun k => w (ix2 k a)) (b (ix2 0 a)) := by
  show matmul dot_S256x256_S256x3_S256x3_1_0_0_1_n_n none x w (constant (F := Ideal) S256x3 .f32 0x00000000#32) (ix2 r a)
      + broadcastTo S256x3 b Gen.broadcasts_S1x3_S256x3 (ix2 r a) = _
  rw [matmul_256_256_3 x w r a, broadcastTo_1b_ab_apply b Gen.broadcasts_S1x3_S256x3 r a]
  rfl

/-- The cuboid block (the body's value 61) at (r, a): the cuboid perceptron's head on row r, channel a. -/
theorem pay6_apply (x0 : Vec Ideal S256x128 .f32) (cw1 : Vec Ideal S128x256 .bf16) (cb1 : Vec Ideal S1x256 .f32)
    (cw2 : Vec Ideal S256x256 .bf16) (cb2 : Vec Ideal S1x256 .f32) (cw3 : Vec Ideal S256x3 .bf16) (cb3 : Vec Ideal S1x3 .f32)
    (r : Fin 256) (a : Fin 3) :
    Gen.k0_pay6 (Gen.k0_pay4 x0 cw1 cb1) (Scalar.ofBits (F := Ideal) .f32 0x3C23D70A#32) (Gen.k0_pay5 (F := Ideal))
        cw2 cb2 cw3 cb3 (ix2 r a)
      = Cert.Spec.head (fun k => x0 (ix2 r k)) (fun k j => cw1 (ix2 k j)) (fun j => cb1 (ix2 0 j))
          (fun k j => cw2 (ix2 k j)) (fun j => cb2 (ix2 0 j)) (fun k a => cw3 (ix2 k a)) (fun a => cb3 (ix2 0 a)) a := by
  unfold Gen.k0_pay6
  show Ideal.logistic _ = Ideal.logistic _
  refine congrArg Ideal.logistic ?_
  refine (dense3_apply _ _ _ r a).trans ?_
  rw [shapeCast_self cw3, shapeCast_self cb3]
  show Cert.Spec.dense _ (fun k => cw3 (ix2 k a)) (cb3 (ix2 0 a)) = Cert.Spec.dense _ (fun k => cw3 (ix2 k a)) (cb3 (ix2 0 a))
  congr 1
  funext k
  refine (lrelu_vec_apply _ (ix2 r k)).trans (congrArg Cert.Spec.lrelu ?_)
  refine (dense2_apply _ _ _ r k).trans ?_
  rw [shapeCast_self cw2, shapeCast_self cb2]
  show Cert.Spec.dense _ (fun k' => cw2 (ix2 k' k)) (cb2 (ix2 0 k)) = Cert.Spec.dense _ (fun k' => cw2 (ix2 k' k)) (cb2 (ix2 0 k))
  congr 1
  funext k'
  exact hid1_apply x0 cw1 cb1 r k'

section columns
variable (v34 : FVec Ideal S256x256 .f32) (cst_19 : Ideal .f32) (v35 : FVec Ideal S256x256 .f32)
variable (v41 : Vec Ideal S256x256 .bf16) (v44 : Vec Ideal S1x256 .f32) (v54 : Vec Ideal S256x3 .bf16) (v57 : Vec Ideal S1x3 .f32)

/-- Column 0 of the cuboid block, as a 256x1 slice, reads the block at (r, 0). -/
theorem pay7_apply (r : Fin 256) (u : Fin 1) :
    Gen.k0_pay7 v34 cst_19 v35 v41 v44 v54 v57 (ix2 r u) = Gen.k0_pay6 v34 cst_19 v35 v41 v44 v54 v57 (ix2 r (0 : Fin 3)) := by
  unfold Gen.k0_pay7
  exact slice2_axis1_apply 0 _ Gen.slices_S256x3_o0_0_S256x1 r u (0 : Fin 3) (by have := u.isLt; show (0 : ℕ) = 0 + u.val; omega)

/-- Column 1 of the cuboid block, as a 256x1 slice, reads the block at (r, 1). -/
theorem pay8_apply (r : Fin 256) (u : Fin 1) :
    Gen.k0_pay8 v34 cst_19 v35 v41 v44 v54 v57 (ix2 r u) = Gen.k0_pay6 v34 cst_19 v35 v41 v44 v54 v57 (ix2 r (1 : Fin 3)) := by
  unfold Gen.k0_pay8
  exact slice2_axis1_apply 1 _ Gen.slices_S256x3_o0_1_S256x1 r u (1 : Fin 3) (by have := u.isLt; show (1 : ℕ) = 1 + u.val; omega)

/-- Column 2 of the cuboid block, as a 256x1 slice, reads the block at (r, 2). -/
theorem pay9_apply (r : Fin 256) (u : Fin 1) :
    Gen.k0_pay9 v34 cst_19 v35 v41 v44 v54 v57 (ix2 r u) = Gen.k0_pay6 v34 cst_19 v35 v41 v44 v54 v57 (ix2 r (2 : Fin 3)) := by
  unfold Gen.k0_pay9
  exact slice2_axis1_apply 2 _ Gen.slices_S256x3_o0_2_S256x1 r u (2 : Fin 3) (by have := u.isLt; show (2 : ℕ) = 2 + u.val; omega)
end columns

section extents
variable (x0 : Vec Ideal S256x128 .f32) (cw1 : Vec Ideal S128x256 .bf16) (cb1 : Vec Ideal S1x256 .f32)
variable (cw2 : Vec Ideal S256x256 .bf16) (cb2 : Vec Ideal S1x256 .f32) (cw3 : Vec Ideal S256x3 .bf16) (cb3 : Vec Ideal S1x3 .f32)

/-- Row r's three extents, from the loaded block and the cuboid perceptron's parameters. -/
abbrev cubOf (r : Fin 256) (a : Fin 3) : EReal :=
  Cert.Spec.head (fun k => x0 (ix2 r k)) (fun k j => cw1 (ix2 k j)) (fun j => cb1 (ix2 0 j))
    (fun k j => cw2 (ix2 k j)) (fun j => cb2 (ix2 0 j)) (fun k a => cw3 (ix2 k a)) (fun a => cb3 (ix2 0 a)) a

/-- The first extent column at (r, 0). -/
theorem pay7_head (r : Fin 256) (u : Fin 1) :
    Gen.k0_pay7 (Gen.k0_pay4 x0 cw1 cb1) (Scalar.ofBits (F := Ideal) .f32 0x3C23D70A#32) (Gen.k0_pay5 (F := Ideal))
        cw2 cb2 cw3 cb3 (ix2 r u) = cubOf x0 cw1 cb1 cw2 cb2 cw3 cb3 r 0 :=
  (pay7_apply _ _ _ cw2 cb2 cw3 cb3 r u).trans (pay6_apply x0 cw1 cb1 cw2 cb2 cw3 cb3 r 0)

/-- The second extent column at (r, 0). -/
theorem pay8_head (r : Fin 256) (u : Fin 1) :
    Gen.k0_pay8 (Gen.k0_pay4 x0 cw1 cb1) (Scalar.ofBits (F := Ideal) .f32 0x3C23D70A#32) (Gen.k0_pay5 (F := Ideal))
        cw2 cb2 cw3 cb3 (ix2 r u) = cubOf x0 cw1 cb1 cw2 cb2 cw3 cb3 r 1 :=
  (pay8_apply _ _ _ cw2 cb2 cw3 cb3 r u).trans (pay6_apply x0 cw1 cb1 cw2 cb2 cw3 cb3 r 1)

/-- The third extent column at (r, 0). -/
theorem pay9_head (r : Fin 256) (u : Fin 1) :
    Gen.k0_pay9 (Gen.k0_pay4 x0 cw1 cb1) (Scalar.ofBits (F := Ideal) .f32 0x3C23D70A#32) (Gen.k0_pay5 (F := Ideal))
        cw2 cb2 cw3 cb3 (ix2 r u) = cubOf x0 cw1 cb1 cw2 cb2 cw3 cb3 r 2 :=
  (pay9_apply _ _ _ cw2 cb2 cw3 cb3 r u).trans (pay6_apply x0 cw1 cb1 cw2 cb2 cw3 cb3 r 2)
end extents

end Cert.KernelIdeal.PayValue

end
-- ==== Proof.OutCubI.lean ====
/-
  What the body leaves in the extents block: entry (r, a) is the cuboid perceptron of row r of the input block at
  channel a.  One store fills the whole block.
-/
import proofs.«169947_j35682588295463_2_alg».proof.Proof.FrameI
import proofs.«169947_j35682588295463_2_alg».proof.Proof.Spec
import proofs.«169947_j35682588295463_2_alg».proof.Proof.PayCub
import Idealize.ShloMosaic.Lib.Pipeline.Value
import Idealize.ShloMosaic.PureOps.Ideal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx

theorem hz2c : (![0, 0] : Fin 2 → Nat) = fun _ => 0 := funext fun a => by fin_cases a <;> rfl

/-- The cuboid perceptron of row r of an input block at channel a, from the loaded blocks. -/
def cubAt (x0 : Vec Ideal S256x128 .f32) (x7 : Vec Ideal S128x256 .bf16) (x8 : Vec Ideal S1x256 .f32) (x9 : Vec Ideal S256x256 .bf16) (x10 : Vec Ideal S1x256 .f32) (x11 : Vec Ideal S256x3 .bf16) (x12 : Vec Ideal S1x3 .f32)
    (r : Fin 256) (a : Fin 3) : EReal :=
  Cert.Spec.head (fun k => x0 (ix2 r k)) (fun k j => x7 (ix2 k j)) (fun j => x8 (ix2 0 j)) (fun k j => x9 (ix2 k j)) (fun j => x10 (ix2 0 j))
    (fun k a => x11 (ix2 k a)) (fun a => x12 (ix2 0 a)) a

set_option maxHeartbeats 800000 in
theorem out15_apply (c : Dev nD) (i : grid0.Coords) (arg1 : Memref sig .tc .vmem S256x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x6144 .bf16) (harg6 : arg6.IsWhole) (arg7 : Memref sig .tc .vmem S1x6144 .f32) (harg7 : arg7.IsWhole) (arg8 : Memref sig .tc .vmem S128x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S1x256 .f32) (harg11 : arg11.IsWhole) (arg12 : Memref sig .tc .vmem S256x3 .bf16) (harg12 : arg12.IsWhole) (arg13 : Memref sig .tc .vmem S1x3 .f32) (harg13 : arg13.IsWhole) (arg14 : Memref sig .tc .vmem S256x6144 .f32) (harg14 : arg14.IsWhole) (arg15 : Memref sig .tc .vmem S256x1 .f32) (harg15 : arg15.IsWhole) (arg16 : Memref sig .tc .vmem S256x3 .f32) (harg16 : arg16.IsWhole)
    (x0 : Vec Ideal S256x128 .f32) (x1 : Vec Ideal S128x256 .bf16) (x2 : Vec Ideal S1x256 .f32) (x3 : Vec Ideal S256x256 .bf16) (x4 : Vec Ideal S1x256 .f32) (x5 : Vec Ideal S256x6144 .bf16) (x6 : Vec Ideal S1x6144 .f32) (x7 : Vec Ideal S128x256 .bf16) (x8 : Vec Ideal S1x256 .f32) (x9 : Vec Ideal S256x256 .bf16) (x10 : Vec Ideal S1x256 .f32) (x11 : Vec Ideal S256x3 .bf16) (x12 : Vec Ideal S1x3 .f32) (r : Fin 256) (a : Fin 3) :
    out15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 (ix2 r a) = cubAt x0 x7 x8 x9 x10 x11 x12 r a := by
  unfold out15
  rw [View.read_writes_eq_canon _ _ _ (cover15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12)]
  unfold bodyRun
  dsimp only
  sl_unfold_run_names
  rw [View.canon_unit_zero hz2c]
  simp only [View.readAt_eq_ld, harg1.read_unread, harg8.read_unread, harg9.read_unread, harg10.read_unread, harg11.read_unread, harg12.read_unread, harg13.read_unread, View.ld_unit_zero (S := S256x128) hz2c, View.ld_unit_zero (S := S128x256) hz2c, View.ld_unit_zero (S := S1x256) hz2c, View.ld_unit_zero (S := S256x256) hz2c, View.ld_unit_zero (S := S256x3) hz2c, View.ld_unit_zero (S := S1x3) hz2c]
  exact Cert.KernelIdeal.PayValue.pay6_apply x0 x7 x8 x9 x10 x11 x12 r a

end Cert.KernelIdeal.Hand

end
-- ==== Proof.RowsI.lean ====
/-
  The rows behind the blocks.  Row R of the input array, the weights and the biases as the launch finds them, give
  row R's 6144 point coordinates and 3 extents; the block functions of a grid point t are these rows for
  R = 256·t + r, because the input window holds rows 256·t … 256·t + 255 and every other window its whole array.
-/
import proofs.«169947_j35682588295463_2_alg».proof.Proof.BlkI
import proofs.«169947_j35682588295463_2_alg».proof.Proof.PtsBlkI
import proofs.«169947_j35682588295463_2_alg».proof.Proof.OutCubI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx

variable (m : (ℓ : Loc nD τ sig) → Buf (Elt Ideal) ℓ)

/-- Row R's point coordinate at column q, from the arrays the launch finds. -/
def rowPts (c : Dev nD) (R : Fin 4096) (q : Fin 6144) : EReal :=
  Cert.Spec.head (fun k => (V m c main_arg0 : S4096x128.Idx → EReal) (ix2 R k))
    (fun k j => (V m c main_v6 : S128x256.Idx → EReal) (ix2 k j)) (fun j => (V m c main_v0 : S1x256.Idx → EReal) (ix2 0 j))
    (fun k j => (V m c main_v7 : S256x256.Idx → EReal) (ix2 k j)) (fun j => (V m c main_v1 : S1x256.Idx → EReal) (ix2 0 j))
    (fun k q => (V m c main_v8 : S256x6144.Idx → EReal) (ix2 k q)) (fun q => (V m c main_v2 : S1x6144.Idx → EReal) (ix2 0 q)) q

/-- Row R's extent at channel a, from the arrays the launch finds. -/
def rowCub (c : Dev nD) (R : Fin 4096) (a : Fin 3) : EReal :=
  Cert.Spec.head (fun k => (V m c main_arg0 : S4096x128.Idx → EReal) (ix2 R k))
    (fun k j => (V m c main_v9 : S128x256.Idx → EReal) (ix2 k j)) (fun j => (V m c main_v3 : S1x256.Idx → EReal) (ix2 0 j))
    (fun k j => (V m c main_v10 : S256x256.Idx → EReal) (ix2 k j)) (fun j => (V m c main_v4 : S1x256.Idx → EReal) (ix2 0 j))
    (fun k a => (V m c main_v11 : S256x3.Idx → EReal) (ix2 k a)) (fun a => (V m c main_v5 : S1x3.Idx → EReal) (ix2 0 a)) a

/-- The points block function at point t, row r: row 256·t + r of the array. -/
theorem ptsAt_iblk (c : Dev nD) (t : Fin cfg0.N) (r : Fin 256) (R : Fin 4096) (hR : R.val = 256 * t.val + r.val) (q : Fin 6144) :
    ptsAt (iblk m c 0 t) (iblk m c 1 t) (iblk m c 2 t) (iblk m c 3 t) (iblk m c 4 t) (iblk m c 5 t) (iblk m c 6 t) r q = rowPts m c R q := by
  have h0 : ∀ k : Fin 128, (iblk m c 0 t : Vec Ideal S256x128 .f32) (ix2 r k) = (V m c main_arg0 : S4096x128.Idx → EReal) (ix2 R k) :=
    fun k => iblk_0 m c t (ix2 r k) (ix2 R k) hR rfl
  unfold ptsAt rowPts
  simp only [h0, iblk_1, iblk_2, iblk_3, iblk_4, iblk_5, iblk_6]

/-- The extents block function at point t, row r: row 256·t + r of the array. -/
theorem cubAt_iblk (c : Dev nD) (t : Fin cfg0.N) (r : Fin 256) (R : Fin 4096) (hR : R.val = 256 * t.val + r.val) (a : Fin 3) :
    cubAt (iblk m c 0 t) (iblk m c 7 t) (iblk m c 8 t) (iblk m c 9 t) (iblk m c 10 t) (iblk m c 11 t) (iblk m c 12 t) r a = rowCub m c R a := by
  have h0 : ∀ k : Fin 128, (iblk m c 0 t : Vec Ideal S256x128 .f32) (ix2 r k) = (V m c main_arg0 : S4096x128.Idx → EReal) (ix2 R k) :=
    fun k => iblk_0 m c t (ix2 r k) (ix2 R k) hR rfl
  unfold cubAt rowCub
  simp only [h0, iblk_7, iblk_8, iblk_9, iblk_10, iblk_11, iblk_12]

end Cert.KernelIdeal.Hand

end
-- ==== Proof.PtsPieceI.lean ====
/-
  One store of the points block, read at an index: the slices of the third layer's weights and bias at column offset
  o read the whole arrays at column o + c, so the store's value at (r, c) is the points perceptron of row r at column o + c.
-/
import proofs.«169947_j35682588295463_2_alg».proof.Proof.PtsBlkI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx

/-- A 256×512 slice of the weights at column offset o reads, at (k, c), the weights at (k, o + c). -/
theorem ld5 (x5 : Vec Ideal S256x6144 .bf16) (o : ℕ) (ho : o + 512 ≤ 6144)
    (inb : ∀ a, (![0, o] : Fin 2 → ℕ) a + (![256, 512] : Fin 2 → ℕ) a ≤ S256x6144.size a) (k : Fin 256) (cc : Fin 512) :
    View.ld x5 (Rect.unit (s := S256x6144) ![0, o] ![256, 512] inb) (ix2 k cc) = x5 (ix2 k ⟨o + cc.val, by omega⟩) := by
  show x5 _ = x5 _
  refine congrArg x5 (funext fun a => Fin.ext ?_)
  match a with
  | ⟨0, _⟩ => show 0 + 1 * k.val = k.val; omega
  | ⟨1, _⟩ => show o + 1 * cc.val = o + cc.val; omega

/-- A 1×512 slice of the bias row at column offset o reads, at (0, c), the bias at (0, o + c). -/
theorem ld6 (x6 : Vec Ideal S1x6144 .f32) (o : ℕ) (ho : o + 512 ≤ 6144)
    (inb : ∀ a, (![0, o] : Fin 2 → ℕ) a + (![1, 512] : Fin 2 → ℕ) a ≤ S1x6144.size a) (cc : Fin 512) :
    View.ld x6 (Rect.unit (s := S1x6144) ![0, o] ![1, 512] inb) (ix2 0 cc) = x6 (ix2 0 ⟨o + cc.val, by omega⟩) := by
  show x6 _ = x6 _
  refine congrArg x6 (funext fun a => Fin.ext ?_)
  match a with
  | ⟨0, _⟩ => show 0 + 1 * (0 : Fin 1).val = (0 : Fin 1).val; rfl
  | ⟨1, _⟩ => show o + 1 * cc.val = o + cc.val; omega

/-- A store's value from its three ingredients: the second hidden layer of row r, and the weight and bias slices
    reading column q of the whole arrays. -/
theorem piece_final (x0 : Vec Ideal S256x128 .f32) (x1 : Vec Ideal S128x256 .bf16) (x2 : Vec Ideal S1x256 .f32) (x3 : Vec Ideal S256x256 .bf16) (x4 : Vec Ideal S1x256 .f32) (x5 : Vec Ideal S256x6144 .bf16) (x6 : Vec Ideal S1x6144 .f32) (v27 : FVec Ideal S256x256 .bf16) (w : Vec Ideal S256x512 .bf16) (b : Vec Ideal S1x512 .f32)
    (r : Fin 256) (cc : Fin 512) (q : Fin 6144)
    (hv : ∀ k : Fin 256, v27 (ix2 r k) = Cert.Spec.hid2 (fun k => x0 (ix2 r k)) (fun k j => x1 (ix2 k j)) (fun j => x2 (ix2 0 j)) (fun k j => x3 (ix2 k j)) (fun j => x4 (ix2 0 j)) k)
    (hw : ∀ k : Fin 256, w (ix2 k cc) = x5 (ix2 k q)) (hb : b (ix2 0 cc) = x6 (ix2 0 q)) :
    Ideal.logistic (Cert.Spec.dense (fun k => v27 (ix2 r k)) (fun k => w (ix2 k cc)) (b (ix2 0 cc))) = ptsAt x0 x1 x2 x3 x4 x5 x6 r q := by
  unfold ptsAt Cert.Spec.head Cert.Spec.logit
  rw [funext hv, funext hw, hb]

end Cert.KernelIdeal.Hand

end
-- ==== Proof.OutPtsI.lean ====
/-
  What the body leaves in the points block is the points perceptron of the block's rows: each of the twelve stores
  holds, at (r, c), the perceptron of row r at column (its offset + c), and the twelve rectangles tile the block.
-/
import proofs.«169947_j35682588295463_2_alg».proof.Proof.PtsPieceI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx

set_option maxHeartbeats 1600000 in
/-- Entry y of the points block after the body is the points perceptron of row (y 0) at column (y 1). -/
theorem out13_apply (c : Dev nD) (i : grid0.Coords) (arg1 : Memref sig .tc .vmem S256x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x6144 .bf16) (harg6 : arg6.IsWhole) (arg7 : Memref sig .tc .vmem S1x6144 .f32) (harg7 : arg7.IsWhole) (arg8 : Memref sig .tc .vmem S128x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S1x256 .f32) (harg11 : arg11.IsWhole) (arg12 : Memref sig .tc .vmem S256x3 .bf16) (harg12 : arg12.IsWhole) (arg13 : Memref sig .tc .vmem S1x3 .f32) (harg13 : arg13.IsWhole) (arg14 : Memref sig .tc .vmem S256x6144 .f32) (harg14 : arg14.IsWhole) (arg15 : Memref sig .tc .vmem S256x1 .f32) (harg15 : arg15.IsWhole) (arg16 : Memref sig .tc .vmem S256x3 .f32) (harg16 : arg16.IsWhole)
    (x0 : Vec Ideal S256x128 .f32) (x1 : Vec Ideal S128x256 .bf16) (x2 : Vec Ideal S1x256 .f32) (x3 : Vec Ideal S256x256 .bf16) (x4 : Vec Ideal S1x256 .f32) (x5 : Vec Ideal S256x6144 .bf16) (x6 : Vec Ideal S1x6144 .f32) (x7 : Vec Ideal S128x256 .bf16) (x8 : Vec Ideal S1x256 .f32) (x9 : Vec Ideal S256x256 .bf16) (x10 : Vec Ideal S1x256 .f32) (x11 : Vec Ideal S256x3 .bf16) (x12 : Vec Ideal S1x3 .f32) (y : S256x6144.Idx) :
    out13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 y = ptsBlk x0 x1 x2 x3 x4 x5 x6 y := by
  unfold out13
  rw [View.read_writes_eq_canon _ _ _ (cover13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12)]
  refine View.canon_apply_of_pieces (ptsBlk x0 x1 x2 x3 x4 x5 x6) _ ?_ y (cover13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 y)
  unfold bodyRun
  dsimp only
  sl_unfold_run_names
  simp only [View.readAt_eq_ld, harg1.read_unread, harg2.read_unread, harg3.read_unread, harg4.read_unread, harg5.read_unread, harg6.read_unread, harg7.read_unread, View.ld_unit_zero (S := S256x128) hz2, View.ld_unit_zero (S := S128x256) hz2, View.ld_unit_zero (S := S1x256) hz2, View.ld_unit_zero (S := S256x256) hz2]
  intro p hp x
  simp only [List.mem_cons, List.mem_nil_iff, or_false] at hp
  rcases hp with rfl | rfl | rfl | rfl | rfl | rfl | rfl | rfl | rfl | rfl | rfl | rfl
  · obtain ⟨r, cc, rfl⟩ : ∃ (r : Fin 256) (cc : Fin 512), x = ix2 r cc := ⟨x 0, x 1, eq_ix2 x⟩
    refine ((Cert.KernelIdeal.PayValue.pay50_apply _ _ _ r cc).trans ?_).trans (ptsBlk_emb x0 x1 x2 x3 x4 x5 x6 5632 (by omega) (by intro a; fin_cases a <;> decide) r cc).symm
    exact piece_final x0 x1 x2 x3 x4 x5 x6 _ _ _ r cc _ (fun k => Cert.KernelIdeal.PayValue.pay3_apply x0 x1 x2 x3 x4 r k)
      (fun k => ld5 x5 5632 (by omega) (by intro a; fin_cases a <;> decide) k cc) (ld6 x6 5632 (by omega) (by intro a; fin_cases a <;> decide) cc)
  · obtain ⟨r, cc, rfl⟩ : ∃ (r : Fin 256) (cc : Fin 512), x = ix2 r cc := ⟨x 0, x 1, eq_ix2 x⟩
    refine ((Cert.KernelIdeal.PayValue.pay48_apply _ _ _ r cc).trans ?_).trans (ptsBlk_emb x0 x1 x2 x3 x4 x5 x6 3584 (by omega) (by intro a; fin_cases a <;> decide) r cc).symm
    exact piece_final x0 x1 x2 x3 x4 x5 x6 _ _ _ r cc _ (fun k => Cert.KernelIdeal.PayValue.pay3_apply x0 x1 x2 x3 x4 r k)
      (fun k => ld5 x5 3584 (by omega) (by intro a; fin_cases a <;> decide) k cc) (ld6 x6 3584 (by omega) (by intro a; fin_cases a <;> decide) cc)
  · obtain ⟨r, cc, rfl⟩ : ∃ (r : Fin 256) (cc : Fin 512), x = ix2 r cc := ⟨x 0, x 1, eq_ix2 x⟩
    refine ((Cert.KernelIdeal.PayValue.pay47_apply _ _ _ r cc).trans ?_).trans (ptsBlk_emb x0 x1 x2 x3 x4 x5 x6 1536 (by omega) (by intro a; fin_cases a <;> decide) r cc).symm
    exact piece_final x0 x1 x2 x3 x4 x5 x6 _ _ _ r cc _ (fun k => Cert.KernelIdeal.PayValue.pay3_apply x0 x1 x2 x3 x4 r k)
      (fun k => ld5 x5 1536 (by omega) (by intro a; fin_cases a <;> decide) k cc) (ld6 x6 1536 (by omega) (by intro a; fin_cases a <;> decide) cc)
  · obtain ⟨r, cc, rfl⟩ : ∃ (r : Fin 256) (cc : Fin 512), x = ix2 r cc := ⟨x 0, x 1, eq_ix2 x⟩
    refine ((Cert.KernelIdeal.PayValue.pay37_apply _ _ _ r cc).trans ?_).trans (ptsBlk_emb x0 x1 x2 x3 x4 x5 x6 5120 (by omega) (by intro a; fin_cases a <;> decide) r cc).symm
    exact piece_final x0 x1 x2 x3 x4 x5 x6 _ _ _ r cc _ (fun k => Cert.KernelIdeal.PayValue.pay3_apply x0 x1 x2 x3 x4 r k)
      (fun k => ld5 x5 5120 (by omega) (by intro a; fin_cases a <;> decide) k cc) (ld6 x6 5120 (by omega) (by intro a; fin_cases a <;> decide) cc)
  · obtain ⟨r, cc, rfl⟩ : ∃ (r : Fin 256) (cc : Fin 512), x = ix2 r cc := ⟨x 0, x 1, eq_ix2 x⟩
    refine ((Cert.KernelIdeal.PayValue.pay36_apply _ _ _ r cc).trans ?_).trans (ptsBlk_emb x0 x1 x2 x3 x4 x5 x6 3072 (by omega) (by intro a; fin_cases a <;> decide) r cc).symm
    exact piece_final x0 x1 x2 x3 x4 x5 x6 _ _ _ r cc _ (fun k => Cert.KernelIdeal.PayValue.pay3_apply x0 x1 x2 x3 x4 r k)
      (fun k => ld5 x5 3072 (by omega) (by intro a; fin_cases a <;> decide) k cc) (ld6 x6 3072 (by omega) (by intro a; fin_cases a <;> decide) cc)
  · obtain ⟨r, cc, rfl⟩ : ∃ (r : Fin 256) (cc : Fin 512), x = ix2 r cc := ⟨x 0, x 1, eq_ix2 x⟩
    refine ((Cert.KernelIdeal.PayValue.pay33_apply _ _ _ r cc).trans ?_).trans (ptsBlk_emb x0 x1 x2 x3 x4 x5 x6 1024 (by omega) (by intro a; fin_cases a <;> decide) r cc).symm
    exact piece_final x0 x1 x2 x3 x4 x5 x6 _ _ _ r cc _ (fun k => Cert.KernelIdeal.PayValue.pay3_apply x0 x1 x2 x3 x4 r k)
      (fun k => ld5 x5 1024 (by omega) (by intro a; fin_cases a <;> decide) k cc) (ld6 x6 1024 (by omega) (by intro a; fin_cases a <;> decide) cc)
  · obtain ⟨r, cc, rfl⟩ : ∃ (r : Fin 256) (cc : Fin 512), x = ix2 r cc := ⟨x 0, x 1, eq_ix2 x⟩
    refine ((Cert.KernelIdeal.PayValue.pay23_apply _ _ _ r cc).trans ?_).trans (ptsBlk_emb x0 x1 x2 x3 x4 x5 x6 4608 (by omega) (by intro a; fin_cases a <;> decide) r cc).symm
    exact piece_final x0 x1 x2 x3 x4 x5 x6 _ _ _ r cc _ (fun k => Cert.KernelIdeal.PayValue.pay3_apply x0 x1 x2 x3 x4 r k)
      (fun k => ld5 x5 4608 (by omega) (by intro a; fin_cases a <;> decide) k cc) (ld6 x6 4608 (by omega) (by intro a; fin_cases a <;> decide) cc)
  · obtain ⟨r, cc, rfl⟩ : ∃ (r : Fin 256) (cc : Fin 512), x = ix2 r cc := ⟨x 0, x 1, eq_ix2 x⟩
    refine ((Cert.KernelIdeal.PayValue.pay22_apply _ _ _ r cc).trans ?_).trans (ptsBlk_emb x0 x1 x2 x3 x4 x5 x6 2560 (by omega) (by intro a; fin_cases a <;> decide) r cc).symm
    exact piece_final x0 x1 x2 x3 x4 x5 x6 _ _ _ r cc _ (fun k => Cert.KernelIdeal.PayValue.pay3_apply x0 x1 x2 x3 x4 r k)
      (fun k => ld5 x5 2560 (by omega) (by intro a; fin_cases a <;> decide) k cc) (ld6 x6 2560 (by omega) (by intro a; fin_cases a <;> decide) cc)
  · obtain ⟨r, cc, rfl⟩ : ∃ (r : Fin 256) (cc : Fin 512), x = ix2 r cc := ⟨x 0, x 1, eq_ix2 x⟩
    refine ((Cert.KernelIdeal.PayValue.pay21_pay20_apply _ _ _ r cc).trans ?_).trans (ptsBlk_emb x0 x1 x2 x3 x4 x5 x6 512 (by omega) (by intro a; fin_cases a <;> decide) r cc).symm
    exact piece_final x0 x1 x2 x3 x4 x5 x6 _ _ _ r cc _ (fun k => Cert.KernelIdeal.PayValue.pay3_apply x0 x1 x2 x3 x4 r k)
      (fun k => ld5 x5 512 (by omega) (by intro a; fin_cases a <;> decide) k cc) (ld6 x6 512 (by omega) (by intro a; fin_cases a <;> decide) cc)
  · obtain ⟨r, cc, rfl⟩ : ∃ (r : Fin 256) (cc : Fin 512), x = ix2 r cc := ⟨x 0, x 1, eq_ix2 x⟩
    refine ((Cert.KernelIdeal.PayValue.pay13_apply _ _ _ r cc).trans ?_).trans (ptsBlk_emb x0 x1 x2 x3 x4 x5 x6 4096 (by omega) (by intro a; fin_cases a <;> decide) r cc).symm
    exact piece_final x0 x1 x2 x3 x4 x5 x6 _ _ _ r cc _ (fun k => Cert.KernelIdeal.PayValue.pay3_apply x0 x1 x2 x3 x4 r k)
      (fun k => ld5 x5 4096 (by omega) (by intro a; fin_cases a <;> decide) k cc) (ld6 x6 4096 (by omega) (by intro a; fin_cases a <;> decide) cc)
  · obtain ⟨r, cc, rfl⟩ : ∃ (r : Fin 256) (cc : Fin 512), x = ix2 r cc := ⟨x 0, x 1, eq_ix2 x⟩
    refine ((Cert.KernelIdeal.PayValue.pay12_apply _ _ _ r cc).trans ?_).trans (ptsBlk_emb x0 x1 x2 x3 x4 x5 x6 2048 (by omega) (by intro a; fin_cases a <;> decide) r cc).symm
    exact piece_final x0 x1 x2 x3 x4 x5 x6 _ _ _ r cc _ (fun k => Cert.KernelIdeal.PayValue.pay3_apply x0 x1 x2 x3 x4 r k)
      (fun k => ld5 x5 2048 (by omega) (by intro a; fin_cases a <;> decide) k cc) (ld6 x6 2048 (by omega) (by intro a; fin_cases a <;> decide) cc)
  · obtain ⟨r, cc, rfl⟩ : ∃ (r : Fin 256) (cc : Fin 512), x = ix2 r cc := ⟨x 0, x 1, eq_ix2 x⟩
    refine ((Cert.KernelIdeal.PayValue.pay11_apply _ _ _ r cc).trans ?_).trans (ptsBlk_emb x0 x1 x2 x3 x4 x5 x6 0 (by omega) (by intro a; fin_cases a <;> decide) r cc).symm
    exact piece_final x0 x1 x2 x3 x4 x5 x6 _ _ _ r cc _ (fun k => Cert.KernelIdeal.PayValue.pay3_apply x0 x1 x2 x3 x4 r k)
      (fun k => ld5 x5 0 (by omega) (by intro a; fin_cases a <;> decide) k cc) (ld6 x6 0 (by omega) (by intro a; fin_cases a <;> decide) cc)

end Cert.KernelIdeal.Hand

end
-- ==== Proof.FlushI.lean ====
/-
  From blocks to arrays.  What grid point t writes back of the points (extents) block is block t of ONE function of
  the whole array's index — row R, column q ↦ the points (cuboid) perceptron of row R —, and the sixteen blocks of
  256 rows cover the 4096 rows; so the array ends holding that function.
-/
import proofs.«169947_j35682588295463_2_alg».proof.Proof.RowsI
import proofs.«169947_j35682588295463_2_alg».proof.Proof.OutPtsI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx

variable (m : (ℓ : Loc nD τ sig) → Buf (Elt Ideal) ℓ)

/-- The points array after the run: (R, q) ↦ row R's point coordinate at column q. -/
def G13 (c : Dev nD) : S4096x6144.Idx → EReal := fun i => rowPts m c ⟨(i 0).val, idx2_lt0 i⟩ ⟨(i 1).val, idx2_lt1 i⟩
/-- The extents array after the run: (R, a) ↦ row R's extent at channel a. -/
def G15 (c : Dev nD) : S4096x3.Idx → EReal := fun i => rowCub m c ⟨(i 0).val, idx2_lt0 i⟩ ⟨(i 1).val, idx2_lt1 i⟩

theorem idx_13 : ∀ t : Fin cfg0.N, win0_13.index t 0 = t.val ∧ win0_13.index t 1 = 0 := by
  intro t; rcases fin_N0 t with rfl | rfl | rfl | rfl | rfl | rfl | rfl | rfl | rfl | rfl | rfl | rfl | rfl | rfl | rfl | rfl <;> decide
theorem idx_15 : ∀ t : Fin cfg0.N, win0_15.index t 0 = t.val ∧ win0_15.index t 1 = 0 := by
  intro t; rcases fin_N0 t with rfl | rfl | rfl | rfl | rfl | rfl | rfl | rfl | rfl | rfl | rfl | rfl | rfl | rfl | rfl | rfl <;> decide

set_option maxHeartbeats 800000 in
/-- What point t writes back of the points block is block t of the array function. -/
theorem flushed13_eq (c : Dev nD) (t : Fin cfg0.N) :
    (dats m 0 c).flushed 13 t = ((cfg0.win 13).blk t).view.read (Elt Ideal) (G13 m c) := by
  show (cfg0.win 13).cut (grid0.coords t) ((dats m 0 c).after 13 t) = _
  rw [after0_13]
  have hi := idx_13 t
  have hN : t.val < 16 := lt_of_lt_of_eq t.isLt (show cfg0.N = 16 from N_0)
  funext y
  rw [View.read_apply]
  show out13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = G13 m c (((cfg0.win 13).blk t).view.emb y)
  rw [out13_apply]
  unfold ptsBlk G13
  have hy0 : (y 0).val < 256 := idx2_lt0 y
  rw [ptsAt_iblk m c t ⟨(y 0).val, idx2_lt0 y⟩ ⟨256 * t.val + (y 0).val, by omega⟩ rfl]
  congr 1 <;> apply Fin.ext
  · show 256 * t.val + (y 0).val = win0_13.index t 0 * 256 + 1 * (y 0).val; rw [hi.1]; omega
  · show (y 1).val = win0_13.index t 1 * 6144 + 1 * (y 1).val; rw [hi.2]; omega

set_option maxHeartbeats 800000 in
/-- What point t writes back of the extents block is block t of the array function. -/
theorem flushed15_eq (c : Dev nD) (t : Fin cfg0.N) :
    (dats m 0 c).flushed 15 t = ((cfg0.win 15).blk t).view.read (Elt Ideal) (G15 m c) := by
  show (cfg0.win 15).cut (grid0.coords t) ((dats m 0 c).after 15 t) = _
  rw [after0_15]
  have hi := idx_15 t
  have hN : t.val < 16 := lt_of_lt_of_eq t.isLt (show cfg0.N = 16 from N_0)
  funext y
  rw [View.read_apply]
  obtain ⟨r, a, rfl⟩ : ∃ (r : Fin 256) (a : Fin 3), y = ix2 r a := ⟨y 0, y 1, eq_ix2 y⟩
  show out15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r a) = G15 m c (((cfg0.win 15).blk t).view.emb (ix2 r a))
  rw [out15_apply]
  unfold G15
  rw [cubAt_iblk m c t r ⟨256 * t.val + r.val, by have := r.isLt; omega⟩ rfl]
  congr 1 <;> apply Fin.ext
  · show 256 * t.val + r.val = win0_15.index t 0 * 256 + 1 * r.val; rw [hi.1]; omega
  · show a.val = win0_15.index t 1 * 3 + 1 * a.val; rw [hi.2]; omega

/-- An index of the array is in point t's block iff each coordinate is in the block's range. -/
theorem mem_blk13 (t : Fin cfg0.N) (i : S4096x6144.Idx) :
    i ∈ ((cfg0.win 13).blk t).view.set ↔ ∀ a : Fin 2, win0_13.index t a * S256x6144.size a ≤ (i a).val ∧ (i a).val < win0_13.index t a * S256x6144.size a + S256x6144.size a := by
  show i ∈ ((View.whole main_v12_0).slice (win0_13.rect t)).set ↔ _
  rw [View.set_slice_whole, Rect.mem_set_unit]
  exact Iff.rfl

/-- Every index of the array is in the block of the point its row belongs to. -/
theorem covered13 (i : S4096x6144.Idx) : ∃ t : Fin cfg0.N, (cfg0.win 13).flush t = true ∧ i ∈ ((cfg0.win 13).blk t).view.set := by
  have hi0 : (i 0).val < 4096 := idx2_lt0 i
  have hi1 : (i 1).val < 6144 := idx2_lt1 i
  have hN : cfg0.N = 16 := N_0
  have hlt : (i 0).val / 256 < cfg0.N := by rw [hN]; omega
  refine ⟨⟨(i 0).val / 256, hlt⟩, flush0_13 _, ?_⟩
  rw [mem_blk13]
  have hi := idx_13 ⟨(i 0).val / 256, hlt⟩
  intro a
  match a with
  | ⟨0, _⟩ =>
    show win0_13.index ⟨(i 0).val / 256, hlt⟩ 0 * 256 ≤ (i 0).val ∧ (i 0).val < win0_13.index ⟨(i 0).val / 256, hlt⟩ 0 * 256 + 256
    rw [hi.1]; show (i 0).val / 256 * 256 ≤ (i 0).val ∧ (i 0).val < (i 0).val / 256 * 256 + 256; omega
  | ⟨1, _⟩ =>
    show win0_13.index ⟨(i 0).val / 256, hlt⟩ 1 * 6144 ≤ (i 1).val ∧ (i 1).val < win0_13.index ⟨(i 0).val / 256, hlt⟩ 1 * 6144 + 6144
    rw [hi.2]; omega

/-- An index of the array is in point t's block iff each coordinate is in the block's range. -/
theorem mem_blk15 (t : Fin cfg0.N) (i : S4096x3.Idx) :
    i ∈ ((cfg0.win 15).blk t).view.set ↔ ∀ a : Fin 2, win0_15.index t a * S256x3.size a ≤ (i a).val ∧ (i a).val < win0_15.index t a * S256x3.size a + S256x3.size a := by
  show i ∈ ((View.whole main_v12_2).slice (win0_15.rect t)).set ↔ _
  rw [View.set_slice_whole, Rect.mem_set_unit]
  exact Iff.rfl

/-- Every index of the array is in the block of the point its row belongs to. -/
theorem covered15 (i : S4096x3.Idx) : ∃ t : Fin cfg0.N, (cfg0.win 15).flush t = true ∧ i ∈ ((cfg0.win 15).blk t).view.set := by
  have hi0 : (i 0).val < 4096 := idx2_lt0 i
  have hi1 : (i 1).val < 3 := idx2_lt1 i
  have hN : cfg0.N = 16 := N_0
  have hlt : (i 0).val / 256 < cfg0.N := by rw [hN]; omega
  refine ⟨⟨(i 0).val / 256, hlt⟩, flush0_15 _, ?_⟩
  rw [mem_blk15]
  have hi := idx_15 ⟨(i 0).val / 256, hlt⟩
  intro a
  match a with
  | ⟨0, _⟩ =>
    show win0_15.index ⟨(i 0).val / 256, hlt⟩ 0 * 256 ≤ (i 0).val ∧ (i 0).val < win0_15.index ⟨(i 0).val / 256, hlt⟩ 0 * 256 + 256
    rw [hi.1]; show (i 0).val / 256 * 256 ≤ (i 0).val ∧ (i 0).val < (i 0).val / 256 * 256 + 256; omega
  | ⟨1, _⟩ =>
    show win0_15.index ⟨(i 0).val / 256, hlt⟩ 1 * 3 ≤ (i 1).val ∧ (i 1).val < win0_15.index ⟨(i 0).val / 256, hlt⟩ 1 * 3 + 3
    rw [hi.2]; omega

/-- The points array ends holding the array function. -/
theorem final13 (c : Dev nD) : (dats m 0 c).arrAt 13 cfg0.N = G13 m c :=
  (dats m 0 c).arrAt_eq_of_cover 13 (G13 m c) (fun t _ => flushed13_eq m c t) covered13
/-- The extents array ends holding the array function. -/
theorem final15 (c : Dev nD) : (dats m 0 c).arrAt 15 cfg0.N = G15 m c :=
  (dats m 0 c).arrAt_eq_of_cover 15 (G15 m c) (fun t _ => flushed15_eq m c t) covered15

end Cert.KernelIdeal.Hand

end
-- ==== Proof.LibTileSum.lean ====
/-
  A sum over a * b consecutive positions, taken tile by tile.

  Position i of a row-major range of a * b positions lies in tile i / b at place i % b. Summing first inside each
  tile and then over the tiles is summing over all positions, in any commutative monoid — in particular on the
  extended reals, whose addition is commutative and associative at the infinities too.
-/
import Mathlib.Algebra.BigOperators.Fin
import Mathlib.Logic.Equiv.Fin.Basic

namespace Cert.LibTileSum

open scoped BigOperators

/-- The sum over the tiles of the sums inside each tile is the sum over all positions, for any way of naming
    position (t, r) whose number is t * b + r. -/
theorem sum_tiles {α : Type} [AddCommMonoid α] {a b n : ℕ} (hn : a * b = n) (idx : Fin a → Fin b → Fin n)
    (hidx : ∀ t r, (idx t r).val = t.val * b + r.val) (f : Fin n → α) :
    ∑ t : Fin a, ∑ r : Fin b, f (idx t r) = ∑ i : Fin n, f i := by
  subst hn
  rw [← Equiv.sum_comp finProdFinEquiv f, Fintype.sum_prod_type]
  refine Finset.sum_congr rfl fun t _ => Finset.sum_congr rfl fun r _ => ?_
  congr 1
  apply Fin.ext
  rw [hidx, finProdFinEquiv_apply_val]
  show t.val * b + r.val = r.val + b * t.val
  rw [Nat.mul_comm, Nat.add_comm]

end Cert.LibTileSum
-- ==== Proof.LibColumnLayout.lean ====
/-
  Column layouts read at an index given by coordinates.

  A vector of length `a` viewed as a column `[a, 1]`, a column viewed as a vector again, and a column repeated along a
  new last axis to `[a, b]` (a per-row quantity met with a per-column one, as after a sum that keeps its axis): each
  reads, at an index written by its coordinates, the operand at the evident index. They complete the library's
  leading-unit-axis casts and its row broadcast; like those they are the general layout lemmas with the coordinate
  arithmetic discharged once.
-/
import Idealize.ShloMosaic.Lib.ValueLayout

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `o` of an `[a, n]` matrix, taken as a slice `[a, 1]`, flattened to `[a]` and made a column again (how a
    per-row parameter is picked out of a small parameter table), reads at `(i, 0)` the matrix at `(i, o)`. -/
theorem column_apply {a n : ℕ} (o : ℕ) (v : (⟨2, ![a, n]⟩ : Shape).Idx → α)
    (hs : (⟨2, ![a, n]⟩ : Shape).Slices ![0, o] ⟨2, ![a, 1]⟩) (h1 : (⟨2, ![a, 1]⟩ : Shape).ShapeCasts ⟨1, ![a]⟩)
    (h2 : (⟨1, ![a]⟩ : Shape).ShapeCasts ⟨2, ![a, 1]⟩) (i : Fin a) (d : Fin n) (hd : d.val = o) :
    shapeCast ⟨2, ![a, 1]⟩ (shapeCast ⟨1, ![a]⟩ (extractStridedSlice ⟨2, ![a, 1]⟩ ![0, o] v hs) h1) h2 (ix2 i (0 : Fin 1))
      = v (ix2 i d) :=
  (shapeCast_a_a1_apply _ _ i 0).trans ((shapeCast_a1_a_apply _ _ i).trans
    (slice2_axis1_apply o v hs i (0 : Fin 1) d (by rw [hd]; rfl)))

end Idealize.ShloMosaic.ValueIdx
-- ==== Proof.PayChunk.lean ====
/-
  One chunk of 512 points: what it adds to a row's running sum, read at the ideal values.

  From the chunk's three pieces P0 P1 P2 (one per channel) and the three extents repeated along the columns B0 B1 B2, the
  body forms per point the distances |B a - P a|, the inlier bits P a <= B a, their count, and selects the inlier minimum
  or the outlier maximum. Every one of these operations acts point by point, so at a point the selected value is the
  specification's contribution of that point's three coordinates and the three extents. The chunk then sums the selected
  values along the 512 columns of each row and adds the row sums to the running sum.
-/
import proofs.«169947_j35682588295463_2_alg».proof.Proof.Gen.KernelIdeal.Skeleton
import proofs.«169947_j35682588295463_2_alg».proof.Proof.Spec
import proofs.«169947_j35682588295463_2_alg».proof.Proof.LibColumnLayout
import Idealize.ShloMosaic.PureOps.Ideal.Laws
import Idealize.ShloMosaic.Lib.ValueLayout

noncomputable section

open scoped BigOperators

namespace Cert.KernelIdeal.PayValue

open Idealize.ShloMosaic Idealize.ShloMosaic.ValueIdx Cert.KernelIdeal

/-- The distance of a coordinate from its extent, |B - P|, as the body spells it. -/
def absD (B P : FVec Ideal S256x512 .f32) : FVec Ideal S256x512 .f32 := absf (subf B P)

/-- The inlier bit of a channel. -/
def inl (B P : FVec Ideal S256x512 .f32) : IVec S256x512 1 := cmpf .ole P B

/-- The outlier term of a channel: zero for an inlier coordinate, else the larger of the coordinate and its distance. -/
def far (B P : FVec Ideal S256x512 .f32) : FVec Ideal S256x512 .f32 :=
  select (inl B P) (broadcast S256x512 (Scalar.ofBits (F := Ideal) .f32 0x00000000#32)) (maximumf P (absD B P))

/-- The all-inlier bit: the three inlier bits, as numbers, sum above 2.5. -/
def allIn (P0 P1 P2 B0 B1 B2 : FVec Ideal S256x512 .f32) : IVec S256x512 1 :=
  cmpf .ogt
    (addf (addf (sitofp .f32 (extui 32 (inl B0 P0) Gen.natLt_1_32)) (sitofp .f32 (extui 32 (inl B1 P1) Gen.natLt_1_32)))
      (sitofp .f32 (extui 32 (inl B2 P2) Gen.natLt_1_32)))
    (broadcast S256x512 (Scalar.ofBits (F := Ideal) .f32 0x40200000#32))

/-- The chunk's selected value: the inlier minimum where all three coordinates are inliers, else the outlier maximum. -/
def selV (P0 P1 P2 B0 B1 B2 : FVec Ideal S256x512 .f32) : FVec Ideal S256x512 .f32 :=
  select (allIn P0 P1 P2 B0 B1 B2)
    (minimumf (minimumf (minimumf P0 (absD B0 P0)) (minimumf P1 (absD B1 P1))) (minimumf P2 (absD B2 P2)))
    (maximumf (maximumf (far B0 P0) (far B1 P1)) (far B2 P2))

/-- At a point the selected value is the specification's contribution of the point's coordinates and the extents. -/
theorem selV_apply (P0 P1 P2 B0 B1 B2 : FVec Ideal S256x512 .f32) (i : S256x512.Idx) :
    selV P0 P1 P2 B0 B1 B2 i = Cert.Spec.contrib ![P0 i, P1 i, P2 i] ![B0 i, B1 i, B2 i] := rfl

/-- The sum along the 512 columns, from the zero word: row r's entry is the sum of the row. -/
theorem lane_sum (src : FVec Ideal S256x512 .f32) (r : Fin 256) :
    multiReduction (F := Ideal) .add [1] S256 src 0x00000000#32 Gen.reduces_S256x512_S256 (.inl rfl) rfl (ix1 r)
      = ∑ c : Fin 512, src (ix2 r c) := by
  refine (Ideal.multiReduction_add_single src 0x00000000#32 Gen.reduces_S256x512_S256 (.inl rfl) rfl (ix1 r)).trans ?_
  show ∑ c : Fin 512, src (Gen.reduces_S256x512_S256.lift (ix1 r) c) = _
  refine Finset.sum_congr rfl fun c _ => congrArg src ?_
  funext ax; apply Fin.ext
  match ax with
  | ⟨0, _⟩ => rfl
  | ⟨1, _⟩ => rfl

/-- One step of the running sum: the chunk's row sums, as a column, added to the sum so far. -/
def accStep (acc : FVec Ideal S256x1 .f32) (P0 P1 P2 : FVec Ideal S256x512 .f32) (c0 c1 c2 : FVec Ideal S256x1 .f32) :
    FVec Ideal S256x1 .f32 :=
  addf acc (shapeCast S256x1
    (multiReduction (F := Ideal) .add [1] S256
      (selV P0 P1 P2 (broadcastTo S256x512 c0 Gen.broadcasts_S256x1_S256x512)
        (broadcastTo S256x512 c1 Gen.broadcasts_S256x1_S256x512) (broadcastTo S256x512 c2 Gen.broadcasts_S256x1_S256x512))
      0x00000000#32 Gen.reduces_S256x512_S256 (.inl rfl) rfl)
    Gen.shapeCasts_S256_S256x1)

/-- Row r's contribution sum of a chunk: over its 512 points, the contribution of the point's three coordinates. -/
abbrev chunkSum (P0 P1 P2 : FVec Ideal S256x512 .f32) (c0 c1 c2 : FVec Ideal S256x1 .f32) (r : Fin 256) : EReal :=
  ∑ c : Fin 512, Cert.Spec.contrib ![P0 (ix2 r c), P1 (ix2 r c), P2 (ix2 r c)] ![c0 (ix2 r 0), c1 (ix2 r 0), c2 (ix2 r 0)]

/-- A step of the running sum at row r: the sum so far plus the chunk's contribution sum. -/
theorem accStep_apply (acc : FVec Ideal S256x1 .f32) (P0 P1 P2 : FVec Ideal S256x512 .f32) (c0 c1 c2 : FVec Ideal S256x1 .f32)
    (r : Fin 256) (u : Fin 1) :
    accStep acc P0 P1 P2 c0 c1 c2 (ix2 r u) = acc (ix2 r u) + chunkSum P0 P1 P2 c0 c1 c2 r := by
  show acc (ix2 r u) + shapeCast S256x1 _ Gen.shapeCasts_S256_S256x1 (ix2 r u) = _
  refine congrArg (acc (ix2 r u) + ·) ?_
  refine (shapeCast_a_a1_apply _ Gen.shapeCasts_S256_S256x1 r u).trans ?_
  refine (lane_sum _ r).trans ?_
  refine Finset.sum_congr rfl fun c _ => ?_
  refine (selV_apply _ _ _ _ _ _ (ix2 r c)).trans ?_
  rw [broadcastTo_a1_ab_apply c0 Gen.broadcasts_S256x1_S256x512 r c, broadcastTo_a1_ab_apply c1 Gen.broadcasts_S256x1_S256x512 r c,
    broadcastTo_a1_ab_apply c2 Gen.broadcasts_S256x1_S256x512 r c]

end Cert.KernelIdeal.PayValue

end
-- ==== Proof.PayAcc.lean ====
/-
  The running sum of a row's contributions through the four chunks, and the stored mean, read at the ideal values.

  The body spreads each chunk's arithmetic over several stretches (pieces, distances, inlier bits, partial counts, outlier
  terms), differently in each chunk, but composed they are four times the same step: the chunk's selected values summed
  along the columns and added to the sum so far. The stored value is the last sum divided by 2048.
-/
import proofs.«169947_j35682588295463_2_alg».proof.Proof.Gen.KernelIdeal.Skeleton
import proofs.«169947_j35682588295463_2_alg».proof.Proof.Spec
import proofs.«169947_j35682588295463_2_alg».proof.Proof.PayChunk

noncomputable section

open scoped BigOperators

namespace Cert.KernelIdeal.PayValue

open Idealize.ShloMosaic Idealize.ShloMosaic.ValueIdx Cert.KernelIdeal

section chunks
variable (v27 : FVec Ideal S256x256 .bf16) (c0 c1 c2 z : FVec Ideal S256x1 .f32)
variable (w00 w01 w02 w10 w11 w12 w20 w21 w22 w30 w31 w32 : Vec Ideal S256x512 .bf16)
variable (b00 b01 b02 b10 b11 b12 b20 b21 b22 b30 b31 b32 : Vec Ideal S1x512 .f32)

/-- The running sum after chunk 0, as the body composes it from the loaded slices. -/
abbrev acc1 : FVec Ideal S256x1 .f32 :=
  Gen.k0_pay19 c2 z (Gen.k0_pay11 v27 w00 b00) (Gen.k0_pay12 v27 w01 b01) (Gen.k0_pay13 v27 w02 b02)
    (Gen.k0_pay14 v27 c0 w00 b00) (Gen.k0_pay15 v27 c1 w01 b01) (Gen.k0_pay16 v27 c2 w02 b02)
    (Gen.k0_pay17 v27 c0 w00 b00) (Gen.k0_pay18 c1)

/-- The running sum after chunk 0 is one step from the initial sum. -/
theorem acc1_eq :
    acc1 v27 c0 c1 c2 z w00 w01 w02 b00 b01 b02
      = accStep z (Gen.k0_pay11 v27 w00 b00) (Gen.k0_pay12 v27 w01 b01) (Gen.k0_pay13 v27 w02 b02) c0 c1 c2 := rfl

/-- The running sum after chunk 1. -/
abbrev acc2 (a1 : FVec Ideal S256x1 .f32) : FVec Ideal S256x1 .f32 :=
  Gen.k0_pay32 a1 (Gen.k0_pay21 (Gen.k0_pay20 v27 w10 b10)) (Gen.k0_pay22 v27 w11 b11) (Gen.k0_pay23 v27 w12 b12)
    (Gen.k0_pay24 c0 (Gen.k0_pay20 v27 w10 b10)) (Gen.k0_pay25 v27 c1 w11 b11) (Gen.k0_pay26 v27 c2 w12 b12)
    (Gen.k0_pay27 c0 (Gen.k0_pay20 v27 w10 b10)) (Gen.k0_pay28 v27 c1 w11 b11) (Gen.k0_pay29 v27 c2 w12 b12)
    (Gen.k0_pay30 v27 c0 c1 (Gen.k0_pay20 v27 w10 b10) w11 b11) (Gen.k0_pay31 v27 c2 w12 b12)

/-- The running sum after chunk 1 is one step from the sum before it. -/
theorem acc2_eq (a1 : FVec Ideal S256x1 .f32) :
    acc2 v27 c0 c1 c2 w10 w11 w12 b10 b11 b12 a1
      = accStep a1 (Gen.k0_pay21 (Gen.k0_pay20 v27 w10 b10)) (Gen.k0_pay22 v27 w11 b11) (Gen.k0_pay23 v27 w12 b12) c0 c1 c2 := rfl

/-- The running sum after chunk 2. -/
abbrev acc3 (a2 : FVec Ideal S256x1 .f32) : FVec Ideal S256x1 .f32 :=
  Gen.k0_pay46 a2 (Gen.k0_pay33 v27 w20 b20) (Gen.k0_pay36 v27 (Gen.k0_pay34 w21) (Gen.k0_pay35 b21)) (Gen.k0_pay37 v27 w22 b22)
    (Gen.k0_pay38 c0 (Gen.k0_pay33 v27 w20 b20)) (Gen.k0_pay39 v27 c1 (Gen.k0_pay34 w21) (Gen.k0_pay35 b21))
    (Gen.k0_pay40 v27 c2 w22 b22) (Gen.k0_pay42 v27 c1 (Gen.k0_pay34 w21) (Gen.k0_pay35 b21)) (Gen.k0_pay43 v27 c2 w22 b22)
    (Gen.k0_pay44 v27 c0 c1 c2 (Gen.k0_pay33 v27 w20 b20) (Gen.k0_pay34 w21) (Gen.k0_pay35 b21) w22 b22)
    (Gen.k0_pay45 c0 (Gen.k0_pay33 v27 w20 b20))

/-- The running sum after chunk 2 is one step from the sum before it. -/
theorem acc3_eq (a2 : FVec Ideal S256x1 .f32) :
    acc3 v27 c0 c1 c2 w20 w21 w22 b20 b21 b22 a2
      = accStep a2 (Gen.k0_pay33 v27 w20 b20) (Gen.k0_pay36 v27 (Gen.k0_pay34 w21) (Gen.k0_pay35 b21)) (Gen.k0_pay37 v27 w22 b22)
          c0 c1 c2 := rfl

/-- The stored value: the running sum after chunk 3, divided by 2048. -/
abbrev stored (a3 : FVec Ideal S256x1 .f32) : FVec Ideal S256x1 .f32 :=
  Gen.k0_pay1 a3 (Gen.k0_pay47 v27 w30 b30) (Gen.k0_pay48 v27 w31 b31) (Gen.k0_pay50 v27 (Gen.k0_pay49 w32) b32)
    (Gen.k0_pay51 c0 (Gen.k0_pay47 v27 w30 b30)) (Gen.k0_pay52 c1 (Gen.k0_pay48 v27 w31 b31))
    (Gen.k0_pay53 v27 c2 (Gen.k0_pay49 w32) b32)
    (Gen.k0_pay57 v27 c0 c1 c2 (Gen.k0_pay47 v27 w30 b30) (Gen.k0_pay48 v27 w31 b31) (Gen.k0_pay49 w32) b32)
    (Gen.k0_pay58 v27 c2 (Gen.k0_pay49 w32) b32) (Gen.k0_pay59 c0 c1 (Gen.k0_pay47 v27 w30 b30) (Gen.k0_pay48 v27 w31 b31))

/-- The stored value is one more step, then the division by the word of 2048. -/
theorem stored_eq (a3 : FVec Ideal S256x1 .f32) :
    stored v27 c0 c1 c2 w30 w31 w32 b30 b31 b32 a3
      = divf (accStep a3 (Gen.k0_pay47 v27 w30 b30) (Gen.k0_pay48 v27 w31 b31) (Gen.k0_pay50 v27 (Gen.k0_pay49 w32) b32) c0 c1 c2)
          (broadcast S256x1 (Scalar.ofBits (F := Ideal) .f32 0x45000000#32)) := rfl

/-- The stored value at row r, from the initial sum z through the four chunks:
    ((((z + S0) + S1) + S2) + S3) / 2048 with S j the contribution sum of chunk j. -/
theorem stored_apply (r : Fin 256) (u : Fin 1) :
    stored v27 c0 c1 c2 w30 w31 w32 b30 b31 b32
        (acc3 v27 c0 c1 c2 w20 w21 w22 b20 b21 b22
          (acc2 v27 c0 c1 c2 w10 w11 w12 b10 b11 b12
            (acc1 v27 c0 c1 c2 z w00 w01 w02 b00 b01 b02))) (ix2 r u)
      = Ideal.div
          ((((z (ix2 r u)
              + chunkSum (Gen.k0_pay11 v27 w00 b00) (Gen.k0_pay12 v27 w01 b01) (Gen.k0_pay13 v27 w02 b02) c0 c1 c2 r)
              + chunkSum (Gen.k0_pay21 (Gen.k0_pay20 v27 w10 b10)) (Gen.k0_pay22 v27 w11 b11) (Gen.k0_pay23 v27 w12 b12) c0 c1 c2 r)
              + chunkSum (Gen.k0_pay33 v27 w20 b20) (Gen.k0_pay36 v27 (Gen.k0_pay34 w21) (Gen.k0_pay35 b21))
                  (Gen.k0_pay37 v27 w22 b22) c0 c1 c2 r)
              + chunkSum (Gen.k0_pay47 v27 w30 b30) (Gen.k0_pay48 v27 w31 b31) (Gen.k0_pay50 v27 (Gen.k0_pay49 w32) b32) c0 c1 c2 r)
          (Ideal.ofBits .f32 0x45000000#32) := by
  rw [stored_eq, acc3_eq, acc2_eq, acc1_eq]
  show Ideal.div (accStep _ _ _ _ c0 c1 c2 (ix2 r u)) (Ideal.ofBits .f32 0x45000000#32) = _
  rw [accStep_apply, accStep_apply, accStep_apply, accStep_apply]
end chunks

end Cert.KernelIdeal.PayValue

end
-- ==== Proof.PayDist.lean ====
/-
  The stored distance of a row is the specification's row distance.

  Chunk j holds points j * 512 .. j * 512 + 511 of each channel, so the four chunk sums together are the sum over all 2048
  points (a sum over 4 * 512 consecutive positions taken tile by tile), the initial sum being the zero word. Whenever each
  chunk piece reads the row's point coordinates at its channel and point, and the three extent columns read the row's
  extents, the stored value is the mean contribution of the row's 2048 points.
-/
import proofs.«169947_j35682588295463_2_alg».proof.Proof.Gen.KernelIdeal.Skeleton
import proofs.«169947_j35682588295463_2_alg».proof.Proof.Spec
import proofs.«169947_j35682588295463_2_alg».proof.Proof.LibTileSum
import proofs.«169947_j35682588295463_2_alg».proof.Proof.PayChunk
import proofs.«169947_j35682588295463_2_alg».proof.Proof.PayAcc

noncomputable section

open scoped BigOperators

namespace Cert.KernelIdeal.PayValue

open Idealize.ShloMosaic Idealize.ShloMosaic.ValueIdx Cert.KernelIdeal

/-- Point c of chunk j, among a channel's 2048 points. -/
def pt (j : Fin 4) (c : Fin 512) : Fin 2048 := ⟨j.val * 512 + c.val, by have := j.isLt; have := c.isLt; omega⟩

theorem pt_val (j : Fin 4) (c : Fin 512) : (pt j c).val = j.val * 512 + c.val := rfl

/-- From zero, the sums over the four chunks add up to the sum over all points. -/
theorem four_chunks (f : Fin 2048 → EReal) :
    ((((0 : EReal) + ∑ c : Fin 512, f (pt 0 c)) + ∑ c : Fin 512, f (pt 1 c)) + ∑ c : Fin 512, f (pt 2 c))
        + ∑ c : Fin 512, f (pt 3 c) = ∑ p : Fin 2048, f p := by
  rw [zero_add, ← Cert.LibTileSum.sum_tiles (a := 4) (b := 512) (n := 2048) (by norm_num) pt pt_val f, Fin.sum_univ_four]

/-- A chunk's contribution sum in terms of the row's point coordinates and extents. -/
theorem chunkSum_eq (P0 P1 P2 : FVec Ideal S256x512 .f32) (c0 c1 c2 : FVec Ideal S256x1 .f32) (r : Fin 256)
    (pts : Fin 6144 → EReal) (cub : Fin 3 → EReal) (j : Fin 4)
    (h0 : ∀ c : Fin 512, P0 (ix2 r c) = pts (Cert.Spec.col 0 (pt j c)))
    (h1 : ∀ c : Fin 512, P1 (ix2 r c) = pts (Cert.Spec.col 1 (pt j c)))
    (h2 : ∀ c : Fin 512, P2 (ix2 r c) = pts (Cert.Spec.col 2 (pt j c)))
    (hc0 : c0 (ix2 r 0) = cub 0) (hc1 : c1 (ix2 r 0) = cub 1) (hc2 : c2 (ix2 r 0) = cub 2) :
    chunkSum P0 P1 P2 c0 c1 c2 r
      = ∑ c : Fin 512, Cert.Spec.contrib (fun a => pts (Cert.Spec.col a (pt j c))) cub := by
  refine Finset.sum_congr rfl fun c _ => ?_
  have eP : (![P0 (ix2 r c), P1 (ix2 r c), P2 (ix2 r c)] : Fin 3 → EReal) = fun a => pts (Cert.Spec.col a (pt j c)) := by
    funext a
    match a with
    | ⟨0, _⟩ => exact h0 c
    | ⟨1, _⟩ => exact h1 c
    | ⟨2, _⟩ => exact h2 c
  have eC : (![c0 (ix2 r 0), c1 (ix2 r 0), c2 (ix2 r 0)] : Fin 3 → EReal) = cub := by
    funext a
    match a with
    | ⟨0, _⟩ => exact hc0
    | ⟨1, _⟩ => exact hc1
    | ⟨2, _⟩ => exact hc2
  rw [eP, eC]

section dist
variable (v27 : FVec Ideal S256x256 .bf16) (c0 c1 c2 z : FVec Ideal S256x1 .f32)
variable (w00 w01 w02 w10 w11 w12 w20 w21 w22 w30 w31 w32 : Vec Ideal S256x512 .bf16)
variable (b00 b01 b02 b10 b11 b12 b20 b21 b22 b30 b31 b32 : Vec Ideal S1x512 .f32)

/-- The stored value at row r is the row distance of the row's point coordinates pts and extents cub, given that the
    initial sum is the zero word, each piece of chunk j and channel a reads pts at (a, j * 512 + c), and the extent
    columns read cub. -/
theorem stored_rowDist (r : Fin 256) (u : Fin 1) (pts : Fin 6144 → EReal) (cub : Fin 3 → EReal)
    (hz : z (ix2 r u) = Ideal.ofBits .f32 0x00000000#32)
    (hc0 : c0 (ix2 r 0) = cub 0) (hc1 : c1 (ix2 r 0) = cub 1) (hc2 : c2 (ix2 r 0) = cub 2)
    (h00 : ∀ c : Fin 512, Gen.k0_pay11 v27 w00 b00 (ix2 r c) = pts (Cert.Spec.col 0 (pt 0 c)))
    (h01 : ∀ c : Fin 512, Gen.k0_pay12 v27 w01 b01 (ix2 r c) = pts (Cert.Spec.col 1 (pt 0 c)))
    (h02 : ∀ c : Fin 512, Gen.k0_pay13 v27 w02 b02 (ix2 r c) = pts (Cert.Spec.col 2 (pt 0 c)))
    (h10 : ∀ c : Fin 512, Gen.k0_pay21 (Gen.k0_pay20 v27 w10 b10) (ix2 r c) = pts (Cert.Spec.col 0 (pt 1 c)))
    (h11 : ∀ c : Fin 512, Gen.k0_pay22 v27 w11 b11 (ix2 r c) = pts (Cert.Spec.col 1 (pt 1 c)))
    (h12 : ∀ c : Fin 512, Gen.k0_pay23 v27 w12 b12 (ix2 r c) = pts (Cert.Spec.col 2 (pt 1 c)))
    (h20 : ∀ c : Fin 512, Gen.k0_pay33 v27 w20 b20 (ix2 r c) = pts (Cert.Spec.col 0 (pt 2 c)))
    (h21 : ∀ c : Fin 512, Gen.k0_pay36 v27 (Gen.k0_pay34 w21) (Gen.k0_pay35 b21) (ix2 r c) = pts (Cert.Spec.col 1 (pt 2 c)))
    (h22 : ∀ c : Fin 512, Gen.k0_pay37 v27 w22 b22 (ix2 r c) = pts (Cert.Spec.col 2 (pt 2 c)))
    (h30 : ∀ c : Fin 512, Gen.k0_pay47 v27 w30 b30 (ix2 r c) = pts (Cert.Spec.col 0 (pt 3 c)))
    (h31 : ∀ c : Fin 512, Gen.k0_pay48 v27 w31 b31 (ix2 r c) = pts (Cert.Spec.col 1 (pt 3 c)))
    (h32 : ∀ c : Fin 512, Gen.k0_pay50 v27 (Gen.k0_pay49 w32) b32 (ix2 r c) = pts (Cert.Spec.col 2 (pt 3 c))) :
    stored v27 c0 c1 c2 w30 w31 w32 b30 b31 b32
        (acc3 v27 c0 c1 c2 w20 w21 w22 b20 b21 b22
          (acc2 v27 c0 c1 c2 w10 w11 w12 b10 b11 b12
            (acc1 v27 c0 c1 c2 z w00 w01 w02 b00 b01 b02))) (ix2 r u)
      = Cert.Spec.rowDist pts cub := by
  refine (stored_apply v27 c0 c1 c2 z w00 w01 w02 w10 w11 w12 w20 w21 w22 w30 w31 w32
    b00 b01 b02 b10 b11 b12 b20 b21 b22 b30 b31 b32 r u).trans ?_
  unfold Cert.Spec.rowDist
  refine congrArg (fun s => Ideal.div s (Ideal.ofBits .f32 0x45000000#32)) ?_
  rw [hz, Ideal.ofBits_zero_f32,
    chunkSum_eq _ _ _ c0 c1 c2 r pts cub 0 h00 h01 h02 hc0 hc1 hc2,
    chunkSum_eq _ _ _ c0 c1 c2 r pts cub 1 h10 h11 h12 hc0 hc1 hc2,
    chunkSum_eq _ _ _ c0 c1 c2 r pts cub 2 h20 h21 h22 hc0 hc1 hc2,
    chunkSum_eq _ _ _ c0 c1 c2 r pts cub 3 h30 h31 h32 hc0 hc1 hc2]
  exact four_chunks (fun p => Cert.Spec.contrib (fun a => pts (Cert.Spec.col a p)) cub)
end dist

end Cert.KernelIdeal.PayValue

end
-- ==== Proof.PayFinal.lean ====
/-
  The stored distance of a row, from the loaded arrays alone.

  The second hidden layer of the points perceptron feeds the twelve pieces; the cuboid block's three columns are the
  extents; the running sum starts at the zero word. When each loaded slice of the third layer's weights and bias holds
  the columns of its channel and chunk, each piece reads the row's point coordinates (the points perceptron's head at
  that column), and the stored value is the row distance of the row's points and extents.
-/
import proofs.«169947_j35682588295463_2_alg».proof.Proof.Gen.KernelIdeal.Skeleton
import proofs.«169947_j35682588295463_2_alg».proof.Proof.Spec
import proofs.«169947_j35682588295463_2_alg».proof.Proof.PayHidden
import proofs.«169947_j35682588295463_2_alg».proof.Proof.PayPieces
import proofs.«169947_j35682588295463_2_alg».proof.Proof.PayCub
import proofs.«169947_j35682588295463_2_alg».proof.Proof.PayDist

noncomputable section

open scoped BigOperators

namespace Cert.KernelIdeal.PayValue

open Idealize.ShloMosaic Idealize.ShloMosaic.ValueIdx Cert.KernelIdeal

section final
variable (x0 : Vec Ideal S256x128 .f32) (w1 : Vec Ideal S128x256 .bf16) (bb1 : Vec Ideal S1x256 .f32)
variable (w2 : Vec Ideal S256x256 .bf16) (bb2 : Vec Ideal S1x256 .f32)
variable (W3 : Fin 256 → Fin 6144 → EReal) (B3 : Fin 6144 → EReal)

/-- Row r's 6144 point coordinates, from the loaded block and the points perceptron's parameters. -/
abbrev ptsOf (r : Fin 256) (q : Fin 6144) : EReal :=
  Cert.Spec.head (fun k => x0 (ix2 r k)) (fun k j => w1 (ix2 k j)) (fun j => bb1 (ix2 0 j))
    (fun k j => w2 (ix2 k j)) (fun j => bb2 (ix2 0 j)) W3 B3 q

/-- A piece whose slices hold the columns of channel a, chunk j reads the row's point coordinate at that column. -/
theorem piece_pts (w : Vec Ideal S256x512 .bf16) (b : Vec Ideal S1x512 .f32) (a : Fin 3) (j : Fin 4)
    (hw : ∀ (k : Fin 256) (c : Fin 512), w (ix2 k c) = W3 k (Cert.Spec.col a (pt j c)))
    (hb : ∀ c : Fin 512, b (ix2 0 c) = B3 (Cert.Spec.col a (pt j c))) (r : Fin 256) (c : Fin 512) :
    Ideal.logistic (Cert.Spec.dense (fun k => Gen.k0_pay3 x0 w1 bb1 w2 bb2 (ix2 r k)) (fun k => w (ix2 k c)) (b (ix2 0 c)))
      = ptsOf x0 w1 bb1 w2 bb2 W3 B3 r (Cert.Spec.col a (pt j c)) := by
  have e1 : (fun k => Gen.k0_pay3 x0 w1 bb1 w2 bb2 (ix2 r k))
      = Cert.Spec.hid2 (fun k => x0 (ix2 r k)) (fun k j => w1 (ix2 k j)) (fun j => bb1 (ix2 0 j))
          (fun k j => w2 (ix2 k j)) (fun j => bb2 (ix2 0 j)) := funext fun k => pay3_apply x0 w1 bb1 w2 bb2 r k
  have e2 : (fun k => w (ix2 k c)) = fun k => W3 k (Cert.Spec.col a (pt j c)) := funext fun k => hw k c
  rw [e1, e2, hb c]
  rfl

variable (cw1 : Vec Ideal S128x256 .bf16) (cb1 : Vec Ideal S1x256 .f32) (cw2 : Vec Ideal S256x256 .bf16)
variable (cb2 : Vec Ideal S1x256 .f32) (cw3 : Vec Ideal S256x3 .bf16) (cb3 : Vec Ideal S1x3 .f32)
variable (w00 w01 w02 w10 w11 w12 w20 w21 w22 w30 w31 w32 : Vec Ideal S256x512 .bf16)
variable (b00 b01 b02 b10 b11 b12 b20 b21 b22 b30 b31 b32 : Vec Ideal S1x512 .f32)

/-- The stored value at row r, composed from the loads as the body composes it, is the row distance of the row's point
    coordinates and extents, when slice (j, a) of the third layer holds columns a * 2048 + j * 512 + c. -/
theorem stored_spec (r : Fin 256) (u : Fin 1)
    (hw00 : ∀ (k : Fin 256) (c : Fin 512), w00 (ix2 k c) = W3 k (Cert.Spec.col 0 (pt 0 c)))
    (hb00 : ∀ c : Fin 512, b00 (ix2 0 c) = B3 (Cert.Spec.col 0 (pt 0 c)))
    (hw01 : ∀ (k : Fin 256) (c : Fin 512), w01 (ix2 k c) = W3 k (Cert.Spec.col 1 (pt 0 c)))
    (hb01 : ∀ c : Fin 512, b01 (ix2 0 c) = B3 (Cert.Spec.col 1 (pt 0 c)))
    (hw02 : ∀ (k : Fin 256) (c : Fin 512), w02 (ix2 k c) = W3 k (Cert.Spec.col 2 (pt 0 c)))
    (hb02 : ∀ c : Fin 512, b02 (ix2 0 c) = B3 (Cert.Spec.col 2 (pt 0 c)))
    (hw10 : ∀ (k : Fin 256) (c : Fin 512), w10 (ix2 k c) = W3 k (Cert.Spec.col 0 (pt 1 c)))
    (hb10 : ∀ c : Fin 512, b10 (ix2 0 c) = B3 (Cert.Spec.col 0 (pt 1 c)))
    (hw11 : ∀ (k : Fin 256) (c : Fin 512), w11 (ix2 k c) = W3 k (Cert.Spec.col 1 (pt 1 c)))
    (hb11 : ∀ c : Fin 512, b11 (ix2 0 c) = B3 (Cert.Spec.col 1 (pt 1 c)))
    (hw12 : ∀ (k : Fin 256) (c : Fin 512), w12 (ix2 k c) = W3 k (Cert.Spec.col 2 (pt 1 c)))
    (hb12 : ∀ c : Fin 512, b12 (ix2 0 c) = B3 (Cert.Spec.col 2 (pt 1 c)))
    (hw20 : ∀ (k : Fin 256) (c : Fin 512), w20 (ix2 k c) = W3 k (Cert.Spec.col 0 (pt 2 c)))
    (hb20 : ∀ c : Fin 512, b20 (ix2 0 c) = B3 (Cert.Spec.col 0 (pt 2 c)))
    (hw21 : ∀ (k : Fin 256) (c : Fin 512), w21 (ix2 k c) = W3 k (Cert.Spec.col 1 (pt 2 c)))
    (hb21 : ∀ c : Fin 512, b21 (ix2 0 c) = B3 (Cert.Spec.col 1 (pt 2 c)))
    (hw22 : ∀ (k : Fin 256) (c : Fin 512), w22 (ix2 k c) = W3 k (Cert.Spec.col 2 (pt 2 c)))
    (hb22 : ∀ c : Fin 512, b22 (ix2 0 c) = B3 (Cert.Spec.col 2 (pt 2 c)))
    (hw30 : ∀ (k : Fin 256) (c : Fin 512), w30 (ix2 k c) = W3 k (Cert.Spec.col 0 (pt 3 c)))
    (hb30 : ∀ c : Fin 512, b30 (ix2 0 c) = B3 (Cert.Spec.col 0 (pt 3 c)))
    (hw31 : ∀ (k : Fin 256) (c : Fin 512), w31 (ix2 k c) = W3 k (Cert.Spec.col 1 (pt 3 c)))
    (hb31 : ∀ c : Fin 512, b31 (ix2 0 c) = B3 (Cert.Spec.col 1 (pt 3 c)))
    (hw32 : ∀ (k : Fin 256) (c : Fin 512), w32 (ix2 k c) = W3 k (Cert.Spec.col 2 (pt 3 c)))
    (hb32 : ∀ c : Fin 512, b32 (ix2 0 c) = B3 (Cert.Spec.col 2 (pt 3 c))) :
    stored (Gen.k0_pay3 x0 w1 bb1 w2 bb2)
        (Gen.k0_pay7 (Gen.k0_pay4 x0 cw1 cb1) (Scalar.ofBits (F := Ideal) .f32 0x3C23D70A#32) (Gen.k0_pay5 (F := Ideal)) cw2 cb2 cw3 cb3)
        (Gen.k0_pay8 (Gen.k0_pay4 x0 cw1 cb1) (Scalar.ofBits (F := Ideal) .f32 0x3C23D70A#32) (Gen.k0_pay5 (F := Ideal)) cw2 cb2 cw3 cb3)
        (Gen.k0_pay9 (Gen.k0_pay4 x0 cw1 cb1) (Scalar.ofBits (F := Ideal) .f32 0x3C23D70A#32) (Gen.k0_pay5 (F := Ideal)) cw2 cb2 cw3 cb3)
        w30 w31 w32 b30 b31 b32
        (acc3 (Gen.k0_pay3 x0 w1 bb1 w2 bb2)
          (Gen.k0_pay7 (Gen.k0_pay4 x0 cw1 cb1) (Scalar.ofBits (F := Ideal) .f32 0x3C23D70A#32) (Gen.k0_pay5 (F := Ideal)) cw2 cb2 cw3 cb3)
          (Gen.k0_pay8 (Gen.k0_pay4 x0 cw1 cb1) (Scalar.ofBits (F := Ideal) .f32 0x3C23D70A#32) (Gen.k0_pay5 (F := Ideal)) cw2 cb2 cw3 cb3)
          (Gen.k0_pay9 (Gen.k0_pay4 x0 cw1 cb1) (Scalar.ofBits (F := Ideal) .f32 0x3C23D70A#32) (Gen.k0_pay5 (F := Ideal)) cw2 cb2 cw3 cb3)
          w20 w21 w22 b20 b21 b22
          (acc2 (Gen.k0_pay3 x0 w1 bb1 w2 bb2)
            (Gen.k0_pay7 (Gen.k0_pay4 x0 cw1 cb1) (Scalar.ofBits (F := Ideal) .f32 0x3C23D70A#32) (Gen.k0_pay5 (F := Ideal)) cw2 cb2 cw3 cb3)
            (Gen.k0_pay8 (Gen.k0_pay4 x0 cw1 cb1) (Scalar.ofBits (F := Ideal) .f32 0x3C23D70A#32) (Gen.k0_pay5 (F := Ideal)) cw2 cb2 cw3 cb3)
            (Gen.k0_pay9 (Gen.k0_pay4 x0 cw1 cb1) (Scalar.ofBits (F := Ideal) .f32 0x3C23D70A#32) (Gen.k0_pay5 (F := Ideal)) cw2 cb2 cw3 cb3)
            w10 w11 w12 b10 b11 b12
            (acc1 (Gen.k0_pay3 x0 w1 bb1 w2 bb2)
              (Gen.k0_pay7 (Gen.k0_pay4 x0 cw1 cb1) (Scalar.ofBits (F := Ideal) .f32 0x3C23D70A#32) (Gen.k0_pay5 (F := Ideal)) cw2 cb2 cw3 cb3)
              (Gen.k0_pay8 (Gen.k0_pay4 x0 cw1 cb1) (Scalar.ofBits (F := Ideal) .f32 0x3C23D70A#32) (Gen.k0_pay5 (F := Ideal)) cw2 cb2 cw3 cb3)
              (Gen.k0_pay9 (Gen.k0_pay4 x0 cw1 cb1) (Scalar.ofBits (F := Ideal) .f32 0x3C23D70A#32) (Gen.k0_pay5 (F := Ideal)) cw2 cb2 cw3 cb3)
              (Gen.k0_pay10 (F := Ideal)) w00 w01 w02 b00 b01 b02))) (ix2 r u)
      = Cert.Spec.rowDist (ptsOf x0 w1 bb1 w2 bb2 W3 B3 r) (cubOf x0 cw1 cb1 cw2 cb2 cw3 cb3 r) :=
  stored_rowDist _ _ _ _ _ w00 w01 w02 w10 w11 w12 w20 w21 w22 w30 w31 w32 b00 b01 b02 b10 b11 b12 b20 b21 b22 b30 b31 b32
    r u (ptsOf x0 w1 bb1 w2 bb2 W3 B3 r) (cubOf x0 cw1 cb1 cw2 cb2 cw3 cb3 r)
    rfl
    (pay7_head x0 cw1 cb1 cw2 cb2 cw3 cb3 r 0) (pay8_head x0 cw1 cb1 cw2 cb2 cw3 cb3 r 0) (pay9_head x0 cw1 cb1 cw2 cb2 cw3 cb3 r 0)
    (fun c => (pay11_apply _ w00 b00 r c).trans (piece_pts x0 w1 bb1 w2 bb2 W3 B3 w00 b00 0 0 hw00 hb00 r c))
    (fun c => (pay12_apply _ w01 b01 r c).trans (piece_pts x0 w1 bb1 w2 bb2 W3 B3 w01 b01 1 0 hw01 hb01 r c))
    (fun c => (pay13_apply _ w02 b02 r c).trans (piece_pts x0 w1 bb1 w2 bb2 W3 B3 w02 b02 2 0 hw02 hb02 r c))
    (fun c => (pay21_pay20_apply _ w10 b10 r c).trans (piece_pts x0 w1 bb1 w2 bb2 W3 B3 w10 b10 0 1 hw10 hb10 r c))
    (fun c => (pay22_apply _ w11 b11 r c).trans (piece_pts x0 w1 bb1 w2 bb2 W3 B3 w11 b11 1 1 hw11 hb11 r c))
    (fun c => (pay23_apply _ w12 b12 r c).trans (piece_pts x0 w1 bb1 w2 bb2 W3 B3 w12 b12 2 1 hw12 hb12 r c))
    (fun c => (pay33_apply _ w20 b20 r c).trans (piece_pts x0 w1 bb1 w2 bb2 W3 B3 w20 b20 0 2 hw20 hb20 r c))
    (fun c => (pay36_apply _ w21 b21 r c).trans (piece_pts x0 w1 bb1 w2 bb2 W3 B3 w21 b21 1 2 hw21 hb21 r c))
    (fun c => (pay37_apply _ w22 b22 r c).trans (piece_pts x0 w1 bb1 w2 bb2 W3 B3 w22 b22 2 2 hw22 hb22 r c))
    (fun c => (pay47_apply _ w30 b30 r c).trans (piece_pts x0 w1 bb1 w2 bb2 W3 B3 w30 b30 0 3 hw30 hb30 r c))
    (fun c => (pay48_apply _ w31 b31 r c).trans (piece_pts x0 w1 bb1 w2 bb2 W3 B3 w31 b31 1 3 hw31 hb31 r c))
    (fun c => (pay50_apply _ w32 b32 r c).trans (piece_pts x0 w1 bb1 w2 bb2 W3 B3 w32 b32 2 3 hw32 hb32 r c))
end final

end Cert.KernelIdeal.PayValue

end
-- ==== Proof.OutDistI.lean ====
/-
  What the body leaves in the distance block: entry (r, 0) is row r's distance — the mean, over the row's 2048
  points, of each point's contribution — computed from the row's 6144 point coordinates and 3 extents.  The body
  walks the points in four chunks of 512, reading for chunk J and channel A the columns A·2048 + J·512 … + 511 of the
  third layer; those are the columns of channel A's points J·512 … J·512 + 511.
-/
import proofs.«169947_j35682588295463_2_alg».proof.Proof.PtsPieceI
import proofs.«169947_j35682588295463_2_alg».proof.Proof.OutCubI
import proofs.«169947_j35682588295463_2_alg».proof.Proof.PayFinal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx
open Cert.KernelIdeal.PayValue (pt)

/-- The weight slice of chunk J, channel A reads column (channel A, point J·512 + c) of the whole array. -/
theorem ld5col (x5 : Vec Ideal S256x6144 .bf16) (A : Fin 3) (J : Fin 4) (o : ℕ) (ho : o = A.val * 2048 + J.val * 512)
    (inb : ∀ a, (![0, o] : Fin 2 → ℕ) a + (![256, 512] : Fin 2 → ℕ) a ≤ S256x6144.size a) (k : Fin 256) (cc : Fin 512) :
    View.ld x5 (Rect.unit (s := S256x6144) ![0, o] ![256, 512] inb) (ix2 k cc) = x5 (ix2 k (Cert.Spec.col A (pt J cc))) := by
  have h512 : o + 512 ≤ 6144 := by have := A.isLt; have := J.isLt; omega
  refine (ld5 x5 o h512 inb k cc).trans ?_
  refine congrArg (fun q => x5 (ix2 k q)) (Fin.ext ?_)
  show o + cc.val = A.val * 2048 + (J.val * 512 + cc.val)
  omega

/-- The bias slice of chunk J, channel A reads column (channel A, point J·512 + c) of the whole row. -/
theorem ld6col (x6 : Vec Ideal S1x6144 .f32) (A : Fin 3) (J : Fin 4) (o : ℕ) (ho : o = A.val * 2048 + J.val * 512)
    (inb : ∀ a, (![0, o] : Fin 2 → ℕ) a + (![1, 512] : Fin 2 → ℕ) a ≤ S1x6144.size a) (cc : Fin 512) :
    View.ld x6 (Rect.unit (s := S1x6144) ![0, o] ![1, 512] inb) (ix2 0 cc) = x6 (ix2 0 (Cert.Spec.col A (pt J cc))) := by
  have h512 : o + 512 ≤ 6144 := by have := A.isLt; have := J.isLt; omega
  refine (ld6 x6 o h512 inb cc).trans ?_
  refine congrArg (fun q => x6 (ix2 0 q)) (Fin.ext ?_)
  show o + cc.val = A.val * 2048 + (J.val * 512 + cc.val)
  omega

set_option maxHeartbeats 3200000 in
/-- Entry (r, u) of the distance block after the body is row r's distance. -/
theorem out14_apply (c : Dev nD) (i : grid0.Coords) (arg1 : Memref sig .tc .vmem S256x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x6144 .bf16) (harg6 : arg6.IsWhole) (arg7 : Memref sig .tc .vmem S1x6144 .f32) (harg7 : arg7.IsWhole) (arg8 : Memref sig .tc .vmem S128x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S1x256 .f32) (harg11 : arg11.IsWhole) (arg12 : Memref sig .tc .vmem S256x3 .bf16) (harg12 : arg12.IsWhole) (arg13 : Memref sig .tc .vmem S1x3 .f32) (harg13 : arg13.IsWhole) (arg14 : Memref sig .tc .vmem S256x6144 .f32) (harg14 : arg14.IsWhole) (arg15 : Memref sig .tc .vmem S256x1 .f32) (harg15 : arg15.IsWhole) (arg16 : Memref sig .tc .vmem S256x3 .f32) (harg16 : arg16.IsWhole)
    (x0 : Vec Ideal S256x128 .f32) (x1 : Vec Ideal S128x256 .bf16) (x2 : Vec Ideal S1x256 .f32) (x3 : Vec Ideal S256x256 .bf16) (x4 : Vec Ideal S1x256 .f32) (x5 : Vec Ideal S256x6144 .bf16) (x6 : Vec Ideal S1x6144 .f32) (x7 : Vec Ideal S128x256 .bf16) (x8 : Vec Ideal S1x256 .f32) (x9 : Vec Ideal S256x256 .bf16) (x10 : Vec Ideal S1x256 .f32) (x11 : Vec Ideal S256x3 .bf16) (x12 : Vec Ideal S1x3 .f32) (r : Fin 256) (u : Fin 1) :
    out14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 (ix2 r u)
      = Cert.Spec.rowDist (ptsAt x0 x1 x2 x3 x4 x5 x6 r) (cubAt x0 x7 x8 x9 x10 x11 x12 r) := by
  unfold out14
  rw [View.read_writes_eq_canon _ _ _ (cover14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12)]
  unfold bodyRun
  dsimp only
  sl_unfold_run_names
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x128) hz2, View.ld_unit_zero (S := S128x256) hz2, View.ld_unit_zero (S := S1x256) hz2, View.ld_unit_zero (S := S256x256) hz2, View.ld_unit_zero (S := S256x3) hz2, View.ld_unit_zero (S := S1x3) hz2]
  exact Cert.KernelIdeal.PayValue.stored_spec x0 x1 x2 x3 x4 (fun k q => x5 (ix2 k q)) (fun q => x6 (ix2 0 q)) x7 x8 x9 x10 x11 x12
    _ _ _ _ _ _ _ _ _ _ _ _ _ _ _ _ _ _ _ _ _ _ _ _ r u
    (fun k cc => ld5col x5 0 0 0 (by decide) (by intro a; fin_cases a <;> decide) k cc)
    (fun cc => ld6col x6 0 0 0 (by decide) (by intro a; fin_cases a <;> decide) cc)
    (fun k cc => ld5col x5 1 0 2048 (by decide) (by intro a; fin_cases a <;> decide) k cc)
    (fun cc => ld6col x6 1 0 2048 (by decide) (by intro a; fin_cases a <;> decide) cc)
    (fun k cc => ld5col x5 2 0 4096 (by decide) (by intro a; fin_cases a <;> decide) k cc)
    (fun cc => ld6col x6 2 0 4096 (by decide) (by intro a; fin_cases a <;> decide) cc)
    (fun k cc => ld5col x5 0 1 512 (by decide) (by intro a; fin_cases a <;> decide) k cc)
    (fun cc => ld6col x6 0 1 512 (by decide) (by intro a; fin_cases a <;> decide) cc)
    (fun k cc => ld5col x5 1 1 2560 (by decide) (by intro a; fin_cases a <;> decide) k cc)
    (fun cc => ld6col x6 1 1 2560 (by decide) (by intro a; fin_cases a <;> decide) cc)
    (fun k cc => ld5col x5 2 1 4608 (by decide) (by intro a; fin_cases a <;> decide) k cc)
    (fun cc => ld6col x6 2 1 4608 (by decide) (by intro a; fin_cases a <;> decide) cc)
    (fun k cc => ld5col x5 0 2 1024 (by decide) (by intro a; fin_cases a <;> decide) k cc)
    (fun cc => ld6col x6 0 2 1024 (by decide) (by intro a; fin_cases a <;> decide) cc)
    (fun k cc => ld5col x5 1 2 3072 (by decide) (by intro a; fin_cases a <;> decide) k cc)
    (fun cc => ld6col x6 1 2 3072 (by decide) (by intro a; fin_cases a <;> decide) cc)
    (fun k cc => ld5col x5 2 2 5120 (by decide) (by intro a; fin_cases a <;> decide) k cc)
    (fun cc => ld6col x6 2 2 5120 (by decide) (by intro a; fin_cases a <;> decide) cc)
    (fun k cc => ld5col x5 0 3 1536 (by decide) (by intro a; fin_cases a <;> decide) k cc)
    (fun cc => ld6col x6 0 3 1536 (by decide) (by intro a; fin_cases a <;> decide) cc)
    (fun k cc => ld5col x5 1 3 3584 (by decide) (by intro a; fin_cases a <;> decide) k cc)
    (fun cc => ld6col x6 1 3 3584 (by decide) (by intro a; fin_cases a <;> decide) cc)
    (fun k cc => ld5col x5 2 3 5632 (by decide) (by intro a; fin_cases a <;> decide) k cc)
    (fun cc => ld6col x6 2 3 5632 (by decide) (by intro a; fin_cases a <;> decide) cc)

end Cert.KernelIdeal.Hand

end
-- ==== Proof.FlushDistI.lean ====
/-
  The distance array.  What grid point t writes back of the distance block is block t of the function
  (R, 0) ↦ row R's distance, and the sixteen blocks of 256 rows cover the 4096 rows; so the array ends holding it.
-/
import proofs.«169947_j35682588295463_2_alg».proof.Proof.RowsI
import proofs.«169947_j35682588295463_2_alg».proof.Proof.OutDistI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx

variable (m : (ℓ : Loc nD τ sig) → Buf (Elt Ideal) ℓ)

/-- The distance array after the run: (R, 0) ↦ row R's distance. -/
def G14 (c : Dev nD) : S4096x1.Idx → EReal := fun i =>
  Cert.Spec.rowDist (rowPts m c ⟨(i 0).val, idx2_lt0 i⟩) (rowCub m c ⟨(i 0).val, idx2_lt0 i⟩)

theorem idx_14 : ∀ t : Fin cfg0.N, win0_14.index t 0 = t.val ∧ win0_14.index t 1 = 0 := by
  intro t; rcases fin_N0 t with rfl | rfl | rfl | rfl | rfl | rfl | rfl | rfl | rfl | rfl | rfl | rfl | rfl | rfl | rfl | rfl <;> decide

set_option maxHeartbeats 800000 in
/-- What point t writes back of the distance block is block t of the array function. -/
theorem flushed14_eq (c : Dev nD) (t : Fin cfg0.N) :
    (dats m 0 c).flushed 14 t = ((cfg0.win 14).blk t).view.read (Elt Ideal) (G14 m c) := by
  show (cfg0.win 14).cut (grid0.coords t) ((dats m 0 c).after 14 t) = _
  rw [after0_14]
  have hi := idx_14 t
  have hN : t.val < 16 := lt_of_lt_of_eq t.isLt (show cfg0.N = 16 from N_0)
  funext y
  rw [View.read_apply]
  obtain ⟨r, u, rfl⟩ : ∃ (r : Fin 256) (u : Fin 1), y = ix2 r u := ⟨y 0, y 1, eq_ix2 y⟩
  show out14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r u) = G14 m c (((cfg0.win 14).blk t).view.emb (ix2 r u))
  rw [out14_apply]
  unfold G14
  have hR : ∀ R : Fin 4096, R.val = 256 * t.val + r.val →
      Cert.Spec.rowDist (ptsAt (iblk m c 0 t) (iblk m c 1 t) (iblk m c 2 t) (iblk m c 3 t) (iblk m c 4 t) (iblk m c 5 t) (iblk m c 6 t) r)
        (cubAt (iblk m c 0 t) (iblk m c 7 t) (iblk m c 8 t) (iblk m c 9 t) (iblk m c 10 t) (iblk m c 11 t) (iblk m c 12 t) r)
      = Cert.Spec.rowDist (rowPts m c R) (rowCub m c R) := by
    intro R hR
    rw [show ptsAt (iblk m c 0 t) (iblk m c 1 t) (iblk m c 2 t) (iblk m c 3 t) (iblk m c 4 t) (iblk m c 5 t) (iblk m c 6 t) r = rowPts m c R from funext fun q => ptsAt_iblk m c t r R hR q,
      show cubAt (iblk m c 0 t) (iblk m c 7 t) (iblk m c 8 t) (iblk m c 9 t) (iblk m c 10 t) (iblk m c 11 t) (iblk m c 12 t) r = rowCub m c R from funext fun a => cubAt_iblk m c t r R hR a]
  refine (hR ⟨256 * t.val + r.val, by have := r.isLt; omega⟩ rfl).trans ?_
  have hE : (⟨256 * t.val + r.val, by have := r.isLt; omega⟩ : Fin 4096)
      = ⟨((((cfg0.win 14).blk t).view.emb (ix2 r u)) 0).val, idx2_lt0 _⟩ :=
    Fin.ext (show 256 * t.val + r.val = win0_14.index t 0 * 256 + 1 * r.val by rw [hi.1]; omega)
  rw [hE]

/-- An index of the array is in point t's block iff each coordinate is in the block's range. -/
theorem mem_blk14 (t : Fin cfg0.N) (i : S4096x1.Idx) :
    i ∈ ((cfg0.win 14).blk t).view.set ↔ ∀ a : Fin 2, win0_14.index t a * S256x1.size a ≤ (i a).val ∧ (i a).val < win0_14.index t a * S256x1.size a + S256x1.size a := by
  show i ∈ ((View.whole main_v12_1).slice (win0_14.rect t)).set ↔ _
  rw [View.set_slice_whole, Rect.mem_set_unit]
  exact Iff.rfl

/-- Every index of the array is in the block of the point its row belongs to. -/
theorem covered14 (i : S4096x1.Idx) : ∃ t : Fin cfg0.N, (cfg0.win 14).flush t = true ∧ i ∈ ((cfg0.win 14).blk t).view.set := by
  have hi0 : (i 0).val < 4096 := idx2_lt0 i
  have hi1 : (i 1).val < 1 := idx2_lt1 i
  have hN : cfg0.N = 16 := N_0
  have hlt : (i 0).val / 256 < cfg0.N := by rw [hN]; omega
  refine ⟨⟨(i 0).val / 256, hlt⟩, flush0_14 _, ?_⟩
  rw [mem_blk14]
  have hi := idx_14 ⟨(i 0).val / 256, hlt⟩
  intro a
  match a with
  | ⟨0, _⟩ =>
    show win0_14.index ⟨(i 0).val / 256, hlt⟩ 0 * 256 ≤ (i 0).val ∧ (i 0).val < win0_14.index ⟨(i 0).val / 256, hlt⟩ 0 * 256 + 256
    rw [hi.1]; show (i 0).val / 256 * 256 ≤ (i 0).val ∧ (i 0).val < (i 0).val / 256 * 256 + 256; omega
  | ⟨1, _⟩ =>
    show win0_14.index ⟨(i 0).val / 256, hlt⟩ 1 * 1 ≤ (i 1).val ∧ (i 1).val < win0_14.index ⟨(i 0).val / 256, hlt⟩ 1 * 1 + 1
    rw [hi.2]; omega

/-- The distance array ends holding the array function. -/
theorem final14 (c : Dev nD) : (dats m 0 c).arrAt 14 cfg0.N = G14 m c :=
  (dats m 0 c).arrAt_eq_of_cover 14 (G14 m c) (fun t _ => flushed14_eq m c t) covered14

end Cert.KernelIdeal.Hand

end
-- ==== Proof.HostInI.lean ====
/-
  The arrays the kernel launch finds: the host lines before it lay each bias vector out as a one-row matrix and
  change each weight matrix to the narrower float format; the input rows are passed as they are.
-/
import proofs.«169947_j35682588295463_2_alg».proof.Proof.Gen.KernelIdeal.Frame
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- The bias row main_v0: the argument vector laid out as one row. -/
theorem V_main_v0 (c : Dev nD) : (V m c main_v0 : (⟨S1x256, .f32⟩ : BufTy).Contents (Elt F)) = shapeCast S1x256 (m ((c : Thread nD τ).loc main_arg2)) shapeCasts_S256_S1x256 := by
  show StableHlo.after hostOps0 (fun b => m (c, b)) (Proc.devRef .tc main_v0) = _
  after_results
  rfl
/-- The bias row main_v1: the argument vector laid out as one row. -/
theorem V_main_v1 (c : Dev nD) : (V m c main_v1 : (⟨S1x256, .f32⟩ : BufTy).Contents (Elt F)) = shapeCast S1x256 (m ((c : Thread nD τ).loc main_arg4)) shapeCasts_S256_S1x256 := by
  show StableHlo.after hostOps0 (fun b => m (c, b)) (Proc.devRef .tc main_v1) = _
  after_results
  rfl
/-- The bias row main_v2: the argument vector laid out as one row. -/
theorem V_main_v2 (c : Dev nD) : (V m c main_v2 : (⟨S1x6144, .f32⟩ : BufTy).Contents (Elt F)) = shapeCast S1x6144 (m ((c : Thread nD τ).loc main_arg6)) shapeCasts_S6144_S1x6144 := by
  show StableHlo.after hostOps0 (fun b => m (c, b)) (Proc.devRef .tc main_v2) = _
  after_results
  rfl
/-- The bias row main_v3: the argument vector laid out as one row. -/
theorem V_main_v3 (c : Dev nD) : (V m c main_v3 : (⟨S1x256, .f32⟩ : BufTy).Contents (Elt F)) = shapeCast S1x256 (m ((c : Thread nD τ).loc main_arg8)) shapeCasts_S256_S1x256 := by
  show StableHlo.after hostOps0 (fun b => m (c, b)) (Proc.devRef .tc main_v3) = _
  after_results
  rfl
/-- The bias row main_v4: the argument vector laid out as one row. -/
theorem V_main_v4 (c : Dev nD) : (V m c main_v4 : (⟨S1x256, .f32⟩ : BufTy).Contents (Elt F)) = shapeCast S1x256 (m ((c : Thread nD τ).loc main_arg10)) shapeCasts_S256_S1x256 := by
  show StableHlo.after hostOps0 (fun b => m (c, b)) (Proc.devRef .tc main_v4) = _
  after_results
  rfl
/-- The bias row main_v5: the argument vector laid out as one row. -/
theorem V_main_v5 (c : Dev nD) : (V m c main_v5 : (⟨S1x3, .f32⟩ : BufTy).Contents (Elt F)) = shapeCast S1x3 (m ((c : Thread nD τ).loc main_arg12)) shapeCasts_S3_S1x3 := by
  show StableHlo.after hostOps0 (fun b => m (c, b)) (Proc.devRef .tc main_v5) = _
  after_results
  rfl
/-- The weight matrix main_v6: the argument matrix in the narrower float format. -/
theorem V_main_v6 (c : Dev nD) : (V m c main_v6 : (⟨S128x256, .bf16⟩ : BufTy).Contents (Elt F)) = truncf .bf16 (m ((c : Thread nD τ).loc main_arg1)) bitsLt_bf16_f32 := by
  show StableHlo.after hostOps0 (fun b => m (c, b)) (Proc.devRef .tc main_v6) = _
  after_results
/-- The weight matrix main_v7: the argument matrix in the narrower float format. -/
theorem V_main_v7 (c : Dev nD) : (V m c main_v7 : (⟨S256x256, .bf16⟩ : BufTy).Contents (Elt F)) = truncf .bf16 (m ((c : Thread nD τ).loc main_arg3)) bitsLt_bf16_f32 := by
  show StableHlo.after hostOps0 (fun b => m (c, b)) (Proc.devRef .tc main_v7) = _
  after_results
/-- The weight matrix main_v8: the argument matrix in the narrower float format. -/
theorem V_main_v8 (c : Dev nD) : (V m c main_v8 : (⟨S256x6144, .bf16⟩ : BufTy).Contents (Elt F)) = truncf .bf16 (m ((c : Thread nD τ).loc main_arg5)) bitsLt_bf16_f32 := by
  show StableHlo.after hostOps0 (fun b => m (c, b)) (Proc.devRef .tc main_v8) = _
  after_results
/-- The weight matrix main_v9: the argument matrix in the narrower float format. -/
theorem V_main_v9 (c : Dev nD) : (V m c main_v9 : (⟨S128x256, .bf16⟩ : BufTy).Contents (Elt F)) = truncf .bf16 (m ((c : Thread nD τ).loc main_arg7)) bitsLt_bf16_f32 := by
  show StableHlo.after hostOps0 (fun b => m (c, b)) (Proc.devRef .tc main_v9) = _
  after_results
/-- The weight matrix main_v10: the argument matrix in the narrower float format. -/
theorem V_main_v10 (c : Dev nD) : (V m c main_v10 : (⟨S256x256, .bf16⟩ : BufTy).Contents (Elt F)) = truncf .bf16 (m ((c : Thread nD τ).loc main_arg9)) bitsLt_bf16_f32 := by
  show StableHlo.after hostOps0 (fun b => m (c, b)) (Proc.devRef .tc main_v10) = _
  after_results
/-- The weight matrix main_v11: the argument matrix in the narrower float format. -/
theorem V_main_v11 (c : Dev nD) : (V m c main_v11 : (⟨S256x3, .bf16⟩ : BufTy).Contents (Elt F)) = truncf .bf16 (m ((c : Thread nD τ).loc main_arg11)) bitsLt_bf16_f32 := by
  show StableHlo.after hostOps0 (fun b => m (c, b)) (Proc.devRef .tc main_v11) = _
  after_results

end Cert.KernelIdeal.Hand

end
-- ==== Proof.ArgsI.lean ====
/-
  The rows in terms of the thirteen arguments.  At the exact reading a change of float format is the identity and a
  bias laid out as one row reads its vector, so row R's point coordinates and extents are the specification's
  functions of the argument arrays.
-/
import proofs.«169947_j35682588295463_2_alg».proof.Proof.RowsI
import proofs.«169947_j35682588295463_2_alg».proof.Proof.HostInI
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx

variable (m : (ℓ : Loc nD τ sig) → Buf (Elt Ideal) ℓ)

/-- Row R's point coordinates are the specification's. -/
theorem rowPts_eq (c : Dev nD) (R : Fin 4096) (q : Fin 6144) :
    rowPts m c R q = Cert.Spec.ptsRow (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) R q := by
  unfold rowPts Cert.Spec.ptsRow
  rw [V_main_arg0, V_main_v6, V_main_v0, V_main_v7, V_main_v1, V_main_v8, V_main_v2]
  simp only [truncf_apply, shapeCast_a_1a_apply]

/-- Row R's extents are the specification's. -/
theorem rowCub_eq (c : Dev nD) (R : Fin 4096) (a : Fin 3) :
    rowCub m c R a = Cert.Spec.cubRow (m ((c : Thread nD τ).loc main_arg0)) (m ((c : Thread nD τ).loc main_arg7)) (m ((c : Thread nD τ).loc main_arg8))
      (m ((c : Thread nD τ).loc main_arg9)) (m ((c : Thread nD τ).loc main_arg10)) (m ((c : Thread nD τ).loc main_arg11)) (m ((c : Thread nD τ).loc main_arg12)) R a := by
  unfold rowCub Cert.Spec.cubRow
  rw [V_main_arg0, V_main_v9, V_main_v3, V_main_v10, V_main_v4, V_main_v11, V_main_v5]
  simp only [truncf_apply, shapeCast_a_1a_apply]

end Cert.KernelIdeal.Hand

end
-- ==== Proof.RefLaws.lean ====
/-
  Scalar laws on the extended reals that join the reference's arithmetic to the specification's case analysis.

  An indicator is a one-bit word b.  As a number it is 0 or 1, whether the word is read unsigned or widened and read
  signed; comparing that number with one half recovers the bit.  A maximum from −∞ and a minimum from +∞ are the other
  operand.  Selecting under one bit commutes with a maximum when the selected branch is shared.  And the blend
  x · I + (1 − I) · y with I the indicator of a bit is the selection of x or y by that bit: at I = 1 it is
  x · 1 + 0 · y = x, at I = 0 it is x · 0 + 1 · y = y — on ALL extended reals, the infinities included, since
  0 · y = 0 and x + 0 = x there.
-/
import proofs.«169947_j35682588295463_2_alg».proof.Proof.Spec

namespace Cert.RefLaws

open Idealize.ShloMosaic Cert.Spec

/-! ## The words the reference names -/

theorem ofBits_one : Ideal.ofBits .f32 0x3F800000#32 = 1 := by
  simp [Ideal.ofBits, Ideal.ieee, -EReal.coe_mul]; norm_num
theorem ofBits_zero : Ideal.ofBits .f32 0x00000000#32 = 0 := by simp [Ideal.ofBits, Ideal.ieee]
theorem ofBits_half : Ideal.ofBits .f32 0x3F000000#32 = ((1 / 2 : ℝ) : EReal) := by
  simp [Ideal.ofBits, Ideal.ieee, -EReal.coe_mul]; norm_num
theorem ofBits_negInf : Ideal.ofBits .f32 0xFF800000#32 = ⊥ := by simp [Ideal.ofBits, Ideal.ieee]
theorem ofBits_posInf : Ideal.ofBits .f32 0x7F800000#32 = ⊤ := by simp [Ideal.ofBits, Ideal.ieee]

/-! ## Indicators -/

theorem ind_zero : ind 0#1 = 0 := by simp [ind]
theorem ind_one : ind 1#1 = 1 := by simp [ind]

/-- A one-bit word read unsigned is the indicator. -/
theorem uitofp_eq_ind (b : BitVec 1) : ((b.toNat : ℝ) : EReal) = ind b := by
  rcases BitVec.eq_zero_or_eq_one b with rfl | rfl
  · rw [ind_zero]; simp
  · rw [ind_one]; simp

/-- Comparing an indicator with one half recovers the bit. -/
theorem cmp_ogt_ind_half (b : BitVec 1) : Ideal.cmp .ogt (ind b) (Ideal.ofBits .f32 0x3F000000#32) = b := by
  rw [ofBits_half]
  rcases BitVec.eq_zero_or_eq_one b with rfl | rfl
  · rw [ind_zero]
    have h : ¬ (((1 / 2 : ℝ) : EReal) < 0) := by
      rw [show (0 : EReal) = ((0 : ℝ) : EReal) from rfl, EReal.coe_lt_coe_iff]; norm_num
    show BitVec.ofBool (decide (((1 / 2 : ℝ) : EReal) < 0)) = 0#1
    rw [decide_eq_false h]; rfl
  · rw [ind_one]
    have h : (((1 / 2 : ℝ) : EReal) < 1) := by
      rw [show (1 : EReal) = ((1 : ℝ) : EReal) from rfl, EReal.coe_lt_coe_iff]; norm_num
    show BitVec.ofBool (decide (((1 / 2 : ℝ) : EReal) < 1)) = 1#1
    rw [decide_eq_true h]; rfl

/-! ## Extremes from the infinities, and selection -/

theorem max_negInf (x : EReal) : max (Ideal.ofBits .f32 0xFF800000#32) x = x := by rw [ofBits_negInf]; exact max_bot_left x
theorem min_posInf (x : EReal) : min (Ideal.ofBits .f32 0x7F800000#32) x = x := by rw [ofBits_posInf]; exact min_top_left x

/-- A maximum of two selections under one bit with a shared branch is the selection of the maximum. -/
theorem max_select (b : BitVec 1) (z p d : EReal) :
    max (Scalar.select b z p) (Scalar.select b z d) = Scalar.select b z (max p d) := by
  rcases BitVec.eq_zero_or_eq_one b with rfl | rfl <;> simp [Scalar.select]

/-- The blend by an indicator is the selection by its bit. -/
theorem blend_eq_select (c : BitVec 1) (x y : EReal) :
    x * ind c + (Ideal.ofBits .f32 0x3F800000#32 - ind c) * y = Scalar.select c x y := by
  rw [ofBits_one]
  rcases BitVec.eq_zero_or_eq_one c with rfl | rfl
  · rw [ind_zero, mul_zero, sub_zero, one_mul, zero_add]; simp [Scalar.select]
  · have h : (1 : EReal) - 1 = 0 := by
      rw [show (1 : EReal) = ((1 : ℝ) : EReal) from rfl, ← EReal.coe_sub, sub_self]; rfl
    rw [ind_one, mul_one, h, zero_mul, add_zero]; simp [Scalar.select]

/-- The count of inliers as the host sums it — from zero, over the three channels — is the specification's. -/
theorem count_eq (u : Fin 3 → EReal) :
    Ideal.ofBits .f32 0x00000000#32 + ∑ a : Fin 3, u a = (u 0 + u 1) + u 2 := by
  rw [ofBits_zero, zero_add, Fin.sum_univ_three]

end Cert.RefLaws
-- ==== Proof.RefDistPure.lean ====
/-
  Layout operations and one-axis reductions of the distance stage, read at an index given by coordinates.

  The stage works on arrays indexed by (row, channel, point) and (row, channel, point, slot): a per-(row, channel)
  quantity is repeated along the points; an array gets a trailing unit axis; two such arrays are laid side by side in
  two slots; a sum over the channels, a maximum or a minimum over the two slots and over the three channels, and a sum
  over the points are taken.  Each of these reads, at an index written by its coordinates, the evident entries of its
  operand.  A maximum taken from −∞ and a minimum taken from +∞ over two or three entries is the plain maximum or
  minimum of those entries.
-/
import proofs.«169947_j35682588295463_2_alg».proof.Proof.Spec
import proofs.«169947_j35682588295463_2_alg».proof.Proof.RefLaws
import Idealize.ShloMosaic.PureOps.Ideal.Laws
import Idealize.ShloMosaic.PureOps.Reduce
import Idealize.ShloMosaic.Lib.ValueIdx
import Idealize.ShloMosaic.Lib.IdealHost
import Idealize.ShloMosaic.Lib.Pipeline.Value

noncomputable section

open scoped BigOperators

namespace Cert.RefDistPure

open Idealize.ShloMosaic Idealize.ShloMosaic.ValueIdx Cert.Spec

abbrev T2 : Shape := ⟨2, ![4096, 3]⟩
abbrev T31 : Shape := ⟨3, ![4096, 3, 1]⟩
abbrev T3 : Shape := ⟨3, ![4096, 3, 2048]⟩
abbrev T41 : Shape := ⟨4, ![4096, 3, 2048, 1]⟩
abbrev T42 : Shape := ⟨4, ![4096, 3, 2048, 2]⟩
abbrev Q2 : Shape := ⟨2, ![4096, 2048]⟩
abbrev Q1 : Shape := ⟨1, ![4096]⟩
abbrev M2 : Shape := ⟨2, ![4096, 6144]⟩

variable {α : Type}

/-! ## Broadcasts -/

/-- A per-(row, channel) array given a unit axis and repeated along the points reads, at (r, a, p), entry (r, a). -/
theorem bcast_cub_apply (h1 : T2.BroadcastsInDim T31 ![0, 1]) (h2 : T31.BroadcastsInDim T3 ![0, 1, 2]) (x : T2.Idx → α)
    (r : Fin 4096) (a : Fin 3) (p : Fin 2048) :
    broadcastInDim T3 ![0, 1, 2] h2 (broadcastInDim T31 ![0, 1] h1 x) (ix3 r a p) = x (ix2 r a) := by
  rw [broadcastInDim_apply ![0, 1, 2] h2 _ (ix3 r a p) (ix3 r a (0 : Fin 1)) (fun c => by
    match c with
    | ⟨0, _⟩ => rfl
    | ⟨1, _⟩ => rfl
    | ⟨2, _⟩ => rfl)]
  exact broadcastInDim_apply ![0, 1] h1 x (ix3 r a (0 : Fin 1)) (ix2 r a) (fun c => by
    match c with
    | ⟨0, _⟩ => rfl
    | ⟨1, _⟩ => rfl)

/-- A trailing unit axis added: at (r, a, p, u) the operand at (r, a, p). -/
theorem bcast_unit_apply (h : T3.BroadcastsInDim T41 ![0, 1, 2]) (x : T3.Idx → α)
    (r : Fin 4096) (a : Fin 3) (p : Fin 2048) (u : Fin 1) :
    broadcastInDim T41 ![0, 1, 2] h x (ix4 r a p u) = x (ix3 r a p) :=
  broadcastInDim_apply ![0, 1, 2] h x (ix4 r a p u) (ix3 r a p) (fun c => by
    match c with
    | ⟨0, _⟩ => rfl
    | ⟨1, _⟩ => rfl
    | ⟨2, _⟩ => rfl)

/-- The unit slot axis repeated to two slots: at (r, a, p, t) the operand at (r, a, p, 0). -/
theorem bcast_slots_apply (h : T41.BroadcastsInDim T42 ![0, 1, 2, 3]) (x : T41.Idx → α)
    (r : Fin 4096) (a : Fin 3) (p : Fin 2048) (t : Fin 2) :
    broadcastInDim T42 ![0, 1, 2, 3] h x (ix4 r a p t) = x (ix4 r a p (0 : Fin 1)) :=
  broadcastInDim_apply ![0, 1, 2, 3] h x (ix4 r a p t) (ix4 r a p (0 : Fin 1)) (fun c => by
    match c with
    | ⟨0, _⟩ => rfl
    | ⟨1, _⟩ => rfl
    | ⟨2, _⟩ => rfl
    | ⟨3, _⟩ => rfl)

/-! ## Two arrays side by side in two slots -/

theorem concat_slot0 (h : Shape.Concatenates [T41, T41] T42 3) (x₁ x₂ : T41.Idx → α)
    (r : Fin 4096) (a : Fin 3) (p : Fin 2048) :
    concatenate T42 3 [⟨T41, x₁⟩, ⟨T41, x₂⟩] h (ix4 r a p (0 : Fin 2)) = x₁ (ix4 r a p (0 : Fin 1)) :=
  concatenate_pair_apply_left 3 x₁ x₂ h (ix4 r a p (0 : Fin 2)) rfl (ix4 r a p (0 : Fin 1)) (fun b => by
    match b with
    | ⟨0, _⟩ => rfl
    | ⟨1, _⟩ => rfl
    | ⟨2, _⟩ => rfl
    | ⟨3, _⟩ => rfl)

theorem concat_slot1 (h : Shape.Concatenates [T41, T41] T42 3) (x₁ x₂ : T41.Idx → α)
    (r : Fin 4096) (a : Fin 3) (p : Fin 2048) :
    concatenate T42 3 [⟨T41, x₁⟩, ⟨T41, x₂⟩] h (ix4 r a p (1 : Fin 2)) = x₂ (ix4 r a p (0 : Fin 1)) :=
  concatenate_pair_apply_right 3 x₁ x₂ h (ix4 r a p (1 : Fin 2)) rfl rfl (ix4 r a p (0 : Fin 1)) (fun b hb => by
    match b, hb with
    | ⟨0, _⟩, _ => rfl
    | ⟨1, _⟩, _ => rfl
    | ⟨2, _⟩, _ => rfl
    | ⟨3, _⟩, hb => exact absurd rfl hb) rfl

/-! ## The reshape of a flat row to three channels -/

theorem reshape_apply (h : M2.ShapeCasts T3) (x : M2.Idx → α) (r : Fin 4096) (a : Fin 3) (p : Fin 2048) :
    shapeCast T3 x h (ix3 r a p) = x (ix2 r (col a p)) :=
  shapeCast_apply x h (ix3 r a p) (ix2 r (col a p)) (by
    rw [Shape.rowMajor_val_two, Shape.rowMajor_val_three]
    show r.val * 6144 + (a.val * 2048 + p.val) = (r.val * 3 + a.val) * 2048 + p.val
    omega)

/-! ## Folds over two and three entries -/

theorem fold_fin2 (f : α → α → α) [Std.Commutative f] [Std.Associative f] (b : α) (g : Fin 2 → α) :
    (Finset.univ : Finset (Fin 2)).fold f b g = f (g 0) (f (g 1) b) := by
  simp only [Fin.univ_succ, Finset.fold_cons, Finset.fold_map, Finset.univ_unique, Finset.fold_singleton]
  rfl

theorem fold_fin3 (f : α → α → α) [Std.Commutative f] [Std.Associative f] (b : α) (g : Fin 3 → α) :
    (Finset.univ : Finset (Fin 3)).fold f b g = f (g 0) (f (g 1) (f (g 2) b)) := by
  simp only [Fin.univ_succ, Finset.fold_cons, Finset.fold_map, Finset.univ_unique, Finset.fold_singleton]
  rfl

/-! ## The reductions -/

private theorem lift_slot (h : T42.Reduces [3] T3) (r : Fin 4096) (a : Fin 3) (p : Fin 2048) (k : Fin (T42.size 3)) :
    h.lift (ix3 r a p) k = ix4 r a p (⟨k.val, k.isLt⟩ : Fin 2) := by
  funext c; apply Fin.ext
  match c with
  | ⟨0, _⟩ => rfl
  | ⟨1, _⟩ => rfl
  | ⟨2, _⟩ => rfl
  | ⟨3, _⟩ => rfl

private theorem lift_chan (h : T3.Reduces [1] Q2) (r : Fin 4096) (p : Fin 2048) (k : Fin (T3.size 1)) :
    h.lift (ix2 r p) k = ix3 r (⟨k.val, k.isLt⟩ : Fin 3) p := by
  funext c; apply Fin.ext
  match c with
  | ⟨0, _⟩ => rfl
  | ⟨1, _⟩ => rfl
  | ⟨2, _⟩ => rfl

private theorem lift_point (h : Q2.Reduces [1] Q1) (r : Fin 4096) (k : Fin (Q2.size 1)) :
    h.lift (ix1 r) k = ix2 r (⟨k.val, k.isLt⟩ : Fin 2048) := by
  funext c; apply Fin.ext
  match c with
  | ⟨0, _⟩ => rfl
  | ⟨1, _⟩ => rfl

/-- The host's sum over the channels, at (r, p): the initial value plus the three channels' entries. -/
theorem sum_chan_apply (h' : T3.ReducesTo [1] Q2) (hu : 0 < (⟨0, ![]⟩ : Shape).numel) (x : FVec Ideal T3 .f32)
    (init : FVec Ideal ⟨0, ![]⟩ .f32) (r : Fin 4096) (p : Fin 2048) :
    Host.reduceAdd (F := Ideal) x init h' hu (ix2 r p) = init (Shape.Idx.first hu) + ∑ a : Fin 3, x (ix3 r a p) := by
  have h : T3.Reduces [1] Q2 := by decide
  rw [hostReduceAdd_apply, Ideal.hostReduceAdd_single h' h]
  exact congrArg (init (Shape.Idx.first hu) + ·) (Finset.sum_congr rfl fun k _ => congrArg x (lift_chan h r p k))

/-- The host's sum over the points, at r: the initial value plus the 2048 points' entries. -/
theorem sum_point_apply (h' : Q2.ReducesTo [1] Q1) (hu : 0 < (⟨0, ![]⟩ : Shape).numel) (x : FVec Ideal Q2 .f32)
    (init : FVec Ideal ⟨0, ![]⟩ .f32) (r : Fin 4096) :
    Host.reduceAdd (F := Ideal) x init h' hu (ix1 r) = init (Shape.Idx.first hu) + ∑ p : Fin 2048, x (ix2 r p) := by
  have h : Q2.Reduces [1] Q1 := by decide
  rw [hostReduceAdd_apply, Ideal.hostReduceAdd_single h' h]
  exact congrArg (init (Shape.Idx.first hu) + ·) (Finset.sum_congr rfl fun k _ => congrArg x (lift_point h r k))

/-- The maximum over the two slots taken from −∞, at (r, a, p). -/
theorem max_slot_apply (h' : T42.ReducesTo [3] T3) (hu : 0 < (⟨0, ![]⟩ : Shape).numel) (x : FVec Ideal T42 .f32)
    (r : Fin 4096) (a : Fin 3) (p : Fin 2048) :
    Host.reduce (FloatOps.maximumf (F := Ideal) (φ := .f32)) x (constant (F := Ideal) ⟨0, ![]⟩ .f32 0xFF800000#32) h' hu (ix3 r a p)
      = max (x (ix4 r a p (0 : Fin 2))) (x (ix4 r a p (1 : Fin 2))) := by
  have h : T42.Reduces [3] T3 := by decide
  rw [Host.reduce_eq_fold_single _ x _ h' h hu]
  have hf : (x ∘ h.lift (ix3 r a p)) = fun k : Fin 2 => x (ix4 r a p k) := funext fun k => congrArg x (lift_slot h r a p k)
  refine (congrArg (fun f => Finset.fold (FloatOps.maximumf (F := Ideal) (φ := .f32)) _ f (Finset.univ : Finset (Fin 2))) hf).trans ?_
  rw [fold_fin2]
  show max _ (max _ (Ideal.ofBits .f32 0xFF800000#32)) = _
  rw [Cert.RefLaws.ofBits_negInf, max_bot_right]

/-- The minimum over the two slots taken from +∞, at (r, a, p). -/
theorem min_slot_apply (h' : T42.ReducesTo [3] T3) (hu : 0 < (⟨0, ![]⟩ : Shape).numel) (x : FVec Ideal T42 .f32)
    (r : Fin 4096) (a : Fin 3) (p : Fin 2048) :
    Host.reduce (FloatOps.minimumf (F := Ideal) (φ := .f32)) x (constant (F := Ideal) ⟨0, ![]⟩ .f32 0x7F800000#32) h' hu (ix3 r a p)
      = min (x (ix4 r a p (0 : Fin 2))) (x (ix4 r a p (1 : Fin 2))) := by
  have h : T42.Reduces [3] T3 := by decide
  rw [Host.reduce_eq_fold_single _ x _ h' h hu]
  have hf : (x ∘ h.lift (ix3 r a p)) = fun k : Fin 2 => x (ix4 r a p k) := funext fun k => congrArg x (lift_slot h r a p k)
  refine (congrArg (fun f => Finset.fold (FloatOps.minimumf (F := Ideal) (φ := .f32)) _ f (Finset.univ : Finset (Fin 2))) hf).trans ?_
  rw [fold_fin2]
  show min _ (min _ (Ideal.ofBits .f32 0x7F800000#32)) = _
  rw [Cert.RefLaws.ofBits_posInf, min_top_right]

/-- The maximum over the three channels taken from −∞, at (r, p). -/
theorem max_chan_apply (h' : T3.ReducesTo [1] Q2) (hu : 0 < (⟨0, ![]⟩ : Shape).numel) (x : FVec Ideal T3 .f32)
    (r : Fin 4096) (p : Fin 2048) :
    Host.reduce (FloatOps.maximumf (F := Ideal) (φ := .f32)) x (constant (F := Ideal) ⟨0, ![]⟩ .f32 0xFF800000#32) h' hu (ix2 r p)
      = max (max (x (ix3 r 0 p)) (x (ix3 r 1 p))) (x (ix3 r 2 p)) := by
  have h : T3.Reduces [1] Q2 := by decide
  rw [Host.reduce_eq_fold_single _ x _ h' h hu]
  have hf : (x ∘ h.lift (ix2 r p)) = fun k : Fin 3 => x (ix3 r k p) := funext fun k => congrArg x (lift_chan h r p k)
  refine (congrArg (fun f => Finset.fold (FloatOps.maximumf (F := Ideal) (φ := .f32)) _ f (Finset.univ : Finset (Fin 3))) hf).trans ?_
  rw [fold_fin3]
  show max _ (max _ (max _ (Ideal.ofBits .f32 0xFF800000#32))) = _
  rw [Cert.RefLaws.ofBits_negInf, max_bot_right, max_assoc]

/-- The minimum over the three channels taken from +∞, at (r, p). -/
theorem min_chan_apply (h' : T3.ReducesTo [1] Q2) (hu : 0 < (⟨0, ![]⟩ : Shape).numel) (x : FVec Ideal T3 .f32)
    (r : Fin 4096) (p : Fin 2048) :
    Host.reduce (FloatOps.minimumf (F := Ideal) (φ := .f32)) x (constant (F := Ideal) ⟨0, ![]⟩ .f32 0x7F800000#32) h' hu (ix2 r p)
      = min (min (x (ix3 r 0 p)) (x (ix3 r 1 p))) (x (ix3 r 2 p)) := by
  have h : T3.Reduces [1] Q2 := by decide
  rw [Host.reduce_eq_fold_single _ x _ h' h hu]
  have hf : (x ∘ h.lift (ix2 r p)) = fun k : Fin 3 => x (ix3 r k p) := funext fun k => congrArg x (lift_chan h r p k)
  refine (congrArg (fun f => Finset.fold (FloatOps.minimumf (F := Ideal) (φ := .f32)) _ f (Finset.univ : Finset (Fin 3))) hf).trans ?_
  rw [fold_fin3]
  show min _ (min _ (min _ (Ideal.ofBits .f32 0x7F800000#32))) = _
  rw [Cert.RefLaws.ofBits_posInf, min_top_right, min_assoc]

end Cert.RefDistPure

end
-- ==== Proof.ResultsI.lean ====
/-
  The three computed results as the specification's functions of the thirteen arguments: the extents array as it
  is, the points array read as (row, channel, point), the distance column read as a vector.
-/
import proofs.«169947_j35682588295463_2_alg».proof.Proof.FlushI
import proofs.«169947_j35682588295463_2_alg».proof.Proof.FlushDistI
import proofs.«169947_j35682588295463_2_alg».proof.Proof.ArgsI
import proofs.«169947_j35682588295463_2_alg».proof.Proof.RefDistPure
import proofs.«169947_j35682588295463_2_alg».proof.Proof.LibColumnLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx

variable (m : (ℓ : Loc nD τ sig) → Buf (Elt Ideal) ℓ)

/-- The extents array is the specification's extents. -/
theorem G15_eq (c : Dev nD) :
    G15 m c = Cert.Spec.extents (m ((c : Thread nD τ).loc main_arg0)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext i
  unfold G15 Cert.Spec.extents
  rw [rowCub_eq]
  rfl

/-- The points array, read as (row, channel, point), is the specification's points. -/
theorem G13_reshape (c : Dev nD) (h : S4096x6144.ShapeCasts S4096x3x2048) :
    shapeCast S4096x3x2048 (G13 m c) h = Cert.Spec.points (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨R, a, p, rfl⟩ : ∃ (R : Fin 4096) (a : Fin 3) (p : Fin 2048), i = ix3 R a p := ⟨i 0, i 1, i 2, eq_ix3 i⟩
  rw [Cert.RefDistPure.reshape_apply]
  unfold G13 Cert.Spec.points
  rw [rowPts_eq]

/-- The distance column, read as a vector, is the specification's distances. -/
theorem G14_reshape (c : Dev nD) (h : S4096x1.ShapeCasts S4096) :
    shapeCast S4096 (G14 m c) h = Cert.Spec.dists (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext i
  obtain ⟨R, rfl⟩ : ∃ R : Fin 4096, i = ix1 R := ⟨i 0, eq_ix1 i⟩
  rw [shapeCast_a1_a_apply]
  unfold G14 Cert.Spec.dists
  rw [show rowPts m c ⟨((ix2 R (0 : Fin 1) : S4096x1.Idx) 0).val, idx2_lt0 _⟩ = Cert.Spec.ptsRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) R from funext fun q => rowPts_eq m c _ q,
    show rowCub m c ⟨((ix2 R (0 : Fin 1) : S4096x1.Idx) 0).val, idx2_lt0 _⟩ = Cert.Spec.cubRow (m ((c : Thread nD τ).loc main_arg0)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) R from funext fun a => rowCub_eq m c _ a]

end Cert.KernelIdeal.Hand

end
-- ==== Proof.TailI.lean ====
/-
  What the host lines after the kernel launch leave in the program's results.

  The launch writes three arrays: the points as a flat 4096 x 6144 slab, the distances as a 4096 x 1 column, and the
  extents. After it the host lines view the slab as 4096 x 3 x 2048 and the column as a vector of 4096, and build the
  3 x 3 identity (row number plus zero compared with column number, as a float) repeated for each of the 4096 rows.
  None of these lines computes with floats beyond the change of an indicator to a number, so each result is a layout
  of what the launch left, or a constant.
-/
import proofs.«169947_j35682588295463_2_alg».proof.Proof.FrameI
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- The points result is no array of the launch, so it ends at what the host lines after the launch leave there. -/
theorem mem_v13 : main_v13 ∈ Pipeline.restRefs sig (cfgs 0).spec :=
  Pipeline.mem_restRefs_of main_v13 (by decide) (by decide)
/-- Likewise the distances result. -/
theorem mem_v14 : main_v14 ∈ Pipeline.restRefs sig (cfgs 0).spec :=
  Pipeline.mem_restRefs_of main_v14 (by decide) (by decide)
/-- Likewise the repeated identity. -/
theorem mem_v21 : main_v21 ∈ Pipeline.restRefs sig (cfgs 0).spec :=
  Pipeline.mem_restRefs_of main_v21 (by decide) (by decide)

/-- Where the launch's arrays stand among the buffers after it: the flat points slab is the array of output 13. -/
theorem arr13 (c : Dev nD) :
    (Pipeline.withArrays (cfgs 0).spec c (V0 m c) (fun w => (dats m 0 c).arrAt w (cfgs 0).N) (Proc.tc.devRef main_v12_0)
        : (⟨S4096x6144, .f32⟩ : BufTy).Contents (Elt F))
      = ((dats m 0 c).arrAt 13 cfg0.N : (⟨S4096x6144, .f32⟩ : BufTy).Contents (Elt F)) :=
  Pipeline.withArrays_arr (cfgs 0).spec launch0.win.arr_inj c (V0 m c) (fun w => (dats m 0 c).arrAt w (cfgs 0).N) 13

/-- The distances column is the array of output 14. -/
theorem arr14 (c : Dev nD) :
    (Pipeline.withArrays (cfgs 0).spec c (V0 m c) (fun w => (dats m 0 c).arrAt w (cfgs 0).N) (Proc.tc.devRef main_v12_1)
        : (⟨S4096x1, .f32⟩ : BufTy).Contents (Elt F))
      = ((dats m 0 c).arrAt 14 cfg0.N : (⟨S4096x1, .f32⟩ : BufTy).Contents (Elt F)) :=
  Pipeline.withArrays_arr (cfgs 0).spec launch0.win.arr_inj c (V0 m c) (fun w => (dats m 0 c).arrAt w (cfgs 0).N) 14

/-- The points result: the launch's flat slab viewed as 4096 x 3 x 2048. -/
theorem tail_v13 (c : Dev nD) :
    (Pipeline.afterTail₀ cfgs (dats m) 0 (V0 m) [hostOps1] c main_v13 : (⟨S4096x3x2048, .f32⟩ : BufTy).Contents (Elt F))
      = shapeCast S4096x3x2048 ((dats m 0 c).arrAt 13 cfg0.N : (⟨S4096x6144, .f32⟩ : BufTy).Contents (Elt F))
          shapeCasts_S4096x6144_S4096x3x2048 := by
  unfold Pipeline.afterTail₀
  show StableHlo.after hostOps1 _ (Proc.devRef .tc main_v13) = _
  after_results
  exact congrArg (fun x : (⟨S4096x6144, .f32⟩ : BufTy).Contents (Elt F) =>
    shapeCast S4096x3x2048 x shapeCasts_S4096x6144_S4096x3x2048) (arr13 m c)

/-- The distances result: the launch's 4096 x 1 column viewed as a vector of 4096. -/
theorem tail_v14 (c : Dev nD) :
    (Pipeline.afterTail₀ cfgs (dats m) 0 (V0 m) [hostOps1] c main_v14 : (⟨S4096, .f32⟩ : BufTy).Contents (Elt F))
      = shapeCast S4096 ((dats m 0 c).arrAt 14 cfg0.N : (⟨S4096x1, .f32⟩ : BufTy).Contents (Elt F))
          shapeCasts_S4096x1_S4096 := by
  unfold Pipeline.afterTail₀
  show StableHlo.after hostOps1 _ (Proc.devRef .tc main_v14) = _
  after_results
  exact congrArg (fun x : (⟨S4096x1, .f32⟩ : BufTy).Contents (Elt F) =>
    shapeCast S4096 x shapeCasts_S4096x1_S4096) (arr14 m c)

/-- The fourth result: the 3 x 3 identity, as (row number + 0 = column number) read as a float, repeated 4096 times. -/
theorem tail_v21 (c : Dev nD) :
    (Pipeline.afterTail₀ cfgs (dats m) 0 (V0 m) [hostOps1] c main_v21 : (⟨S4096x3x3, .f32⟩ : BufTy).Contents (Elt F))
      = (broadcastInDim S4096x3x3 ![1, 2] bcast_S3x3_S4096x3x3_1_2 : (⟨S3x3, .f32⟩ : BufTy).Contents (Elt F) → (⟨S4096x3x3, .f32⟩ : BufTy).Contents (Elt F))
          ((uitofp .f32 : (⟨S3x3, .i1⟩ : BufTy).Contents (Elt F) → (⟨S3x3, .f32⟩ : BufTy).Contents (Elt F))
            ((cmpi .eq : (⟨S3x3, .i32⟩ : BufTy).Contents (Elt F) → (⟨S3x3, .i32⟩ : BufTy).Contents (Elt F) → (⟨S3x3, .i1⟩ : BufTy).Contents (Elt F))
              ((addi : (⟨S3x3, .i32⟩ : BufTy).Contents (Elt F) → (⟨S3x3, .i32⟩ : BufTy).Contents (Elt F) → (⟨S3x3, .i32⟩ : BufTy).Contents (Elt F))
                (iotaInDim S3x3 32 0)
                ((broadcastInDim S3x3 ![] bcast_S_S3x3 : (⟨S_, .i32⟩ : BufTy).Contents (Elt F) → (⟨S3x3, .i32⟩ : BufTy).Contents (Elt F))
                  (constantI S_ 32 0#32)))
              (iotaInDim S3x3 32 1))) := by
  unfold Pipeline.afterTail₀
  show StableHlo.after hostOps1 _ (Proc.devRef .tc main_v21) = _
  after_results

end Cert.KernelIdeal.Hand

end
-- ==== Proof.KernelSpecI.lean ====
/-
  The idealized kernel program's run, read: every weakly fair execution terminates with the points, distances and
  extents results at the specification's functions of the thirteen arguments, the fourth result at the host lines'
  identity rows, and every argument unchanged.
-/
import proofs.«169947_j35682588295463_2_alg».proof.Proof.ResultsI
import proofs.«169947_j35682588295463_2_alg».proof.Proof.TailI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx

/-- The fourth result: the 3×3 identity, as the host lines compose it, repeated for every row. -/
abbrev eyeRows : (⟨S4096x3x3, .f32⟩ : BufTy).Contents (Elt F) :=
  ((broadcastInDim S4096x3x3 ![1, 2] bcast_S3x3_S4096x3x3_1_2 : (⟨S3x3, .f32⟩ : BufTy).Contents (Elt F) → (⟨S4096x3x3, .f32⟩ : BufTy).Contents (Elt F)) ((uitofp .f32 : (⟨S3x3, .i1⟩ : BufTy).Contents (Elt F) → (⟨S3x3, .f32⟩ : BufTy).Contents (Elt F)) ((cmpi .eq : (⟨S3x3, .i32⟩ : BufTy).Contents (Elt F) → (⟨S3x3, .i32⟩ : BufTy).Contents (Elt F) → (⟨S3x3, .i1⟩ : BufTy).Contents (Elt F)) ((addi : (⟨S3x3, .i32⟩ : BufTy).Contents (Elt F) → (⟨S3x3, .i32⟩ : BufTy).Contents (Elt F) → (⟨S3x3, .i32⟩ : BufTy).Contents (Elt F)) (iotaInDim S3x3 32 0) ((broadcastInDim S3x3 ![] bcast_S_S3x3 : (⟨S_, .i32⟩ : BufTy).Contents (Elt F) → (⟨S3x3, .i32⟩ : BufTy).Contents (Elt F)) (constantI S_ 32 0#32))) (iotaInDim S3x3 32 1))))

variable (m : (ℓ : Loc nD τ sig) → Buf (Elt Ideal) ℓ) (ρ : Dev nD → PrngReg)

set_option maxHeartbeats 1600000 in
theorem run_spec : θ_run defs (onTc (τ := τ) (main (F := Ideal))) ⟨m, fun _ => 0, ρ⟩ (fun r => ∀ c : Dev nD,
      r.2.mem ((c.tc : Thread nD τ).loc main_v13) = Cert.Spec.points (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v14) = Cert.Spec.dists (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v12_2) = Cert.Spec.extents (m ((c.tc : Thread nD τ).loc main_arg0)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v21) = eyeRows (F := Ideal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨
      ((h c).2 main_v13 mem_v13).trans ((tail_v13 m c).trans (by rw [final13]; exact G13_reshape m c _)),
      ((h c).2 main_v14 mem_v14).trans ((tail_v14 m c).trans (by rw [final14]; exact G14_reshape m c _)),
      ((h c).1 15).trans ((final15 m c).trans (G15_eq m c)),
      ((h c).2 main_v21 mem_v21).trans (tail_v21 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c)⟩) (run_main m ρ)

end Cert.KernelIdeal.Hand

end
-- ==== Proof.RefOps.lean ====
/-
  The reference program's host function as ONE straight line of operations.

  The function is a sequence of elementwise, layout, contraction and reduction operations, five of them calls of
  local functions (the leaky rectifier four times, a select with a scalar branch once).  A call executes the callee's
  operations on the caller's operands, each value of the callee's body in a buffer of its own; so the whole function is
  the list below, the callees' operations written at their call sites.
-/
import proofs.«169947_j35682588295463_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The function's 125 operations, in order. -/
abbrev ops : List (HloOp τ sig (Elt F)) :=
  [ StableHlo.binary main_arg0 main_arg1 main_v0 ((fun l r => Host.dotGeneral dot_S4096x128_S128x256_S4096x256_1_0_0_1_n_n none l r) : (⟨S4096x128, .f32⟩ : BufTy).Contents (Elt F) → (⟨S128x256, .f32⟩ : BufTy).Contents (Elt F) → (⟨S4096x256, .f32⟩ : BufTy).Contents (Elt F)),
    StableHlo.unary main_arg2 main_v1 (broadcastInDim S1x256 ![1] bcast_S256_S1x256_1 : (⟨S256, .f32⟩ : BufTy).Contents (Elt F) → (⟨S1x256, .f32⟩ : BufTy).Contents (Elt F)),
    StableHlo.unary main_v1 main_v2 (broadcastInDim S4096x256 ![0, 1] bcast_S1x256_S4096x256_0_1 : (⟨S1x256, .f32⟩ : BufTy).Contents (Elt F) → (⟨S4096x256, .f32⟩ : BufTy).Contents (Elt F)),
    StableHlo.binary main_v0 main_v2 main_v3 (addf : (⟨S4096x256, .f32⟩ : BufTy).Contents (Elt F) → (⟨S4096x256, .f32⟩ : BufTy).Contents (Elt F) → (⟨S4096x256, .f32⟩ : BufTy).Contents (Elt F)),
    StableHlo.nullary main_cst (constant S_ .f32 0x3C23D70A#32),
    StableHlo.TRef.nullary main_call0.cst (constant S_ .f32 0x00000000#32),
    StableHlo.TRef.unary main_call0.cst main_call0.v0 (broadcastInDim S4096x256 ![] bcast_S_S4096x256),
    StableHlo.TRef.binary (.of main_v3 : TRef sig ⟨S4096x256, .f32⟩) main_call0.v0 main_call0.v1 (cmpf .oge),
    StableHlo.TRef.unary (.of main_cst : TRef sig ⟨S_, .f32⟩) main_call0.v2 id,
    StableHlo.TRef.unary main_call0.v2 main_call0.v3 (broadcastInDim S4096x256 ![] bcast_S_S4096x256),
    StableHlo.TRef.binary main_call0.v3 (.of main_v3 : TRef sig ⟨S4096x256, .f32⟩) main_call0.v4 mulf,
    StableHlo.TRef.ternary main_call0.v1 (.of main_v3 : TRef sig ⟨S4096x256, .f32⟩) main_call0.v4 main_call0.call0.v0 select,
    StableHlo.binary main_v4 main_arg3 main_v5 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    StableHlo.unary main_arg4 main_v6 (broadcastInDim S1x256 ![1] bcast_S256_S1x256_1 : (⟨S256, .f32⟩ : BufTy).Contents (Elt F) → (⟨S1x256, .f32⟩ : BufTy).Contents (Elt F)),
    StableHlo.unary main_v6 main_v7 (broadcastInDim S4096x256 ![0, 1] bcast_S1x256_S4096x256_0_1 : (⟨S1x256, .f32⟩ : BufTy).Contents (Elt F) → (⟨S4096x256, .f32⟩ : BufTy).Contents (Elt F)),
    StableHlo.binary main_v5 main_v7 main_v8 (addf : (⟨S4096x256, .f32⟩ : BufTy).Contents (Elt F) → (⟨S4096x256, .f32⟩ : BufTy).Contents (Elt F) → (⟨S4096x256, .f32⟩ : BufTy).Contents (Elt F)),
    StableHlo.nullary main_cst_0 (constant S_ .f32 0x3C23D70A#32),
    StableHlo.TRef.nullary main_call1.cst (constant S_ .f32 0x00000000#32),
    StableHlo.TRef.unary main_call1.cst main_call1.v0 (broadcastInDim S4096x256 ![] bcast_S_S4096x256),
    StableHlo.TRef.binary (.of main_v8 : TRef sig ⟨S4096x256, .f32⟩) main_call1.v0 main_call1.v1 (cmpf .oge),
    StableHlo.TRef.unary (.of main_cst_0 : TRef sig ⟨S_, .f32⟩) main_call1.v2 id,
    StableHlo.TRef.unary main_call1.v2 main_call1.v3 (broadcastInDim S4096x256 ![] bcast_S_S4096x256),
    StableHlo.TRef.binary main_call1.v3 (.of main_v8 : TRef sig ⟨S4096x256, .f32⟩) main_call1.v4 mulf,
    StableHlo.TRef.ternary main_call1.v1 (.of main_v8 : TRef sig ⟨S4096x256, .f32⟩) main_call1.v4 main_call1.call0.v0 select,
    StableHlo.binary main_v9 main_arg5 main_v10 ((fun l r => Host.dotGeneral dot_S4096x256_S256x6144_S4096x6144_1_0_0_1_n_n none l r) : (⟨S4096x256, .f32⟩ : BufTy).Contents (Elt F) → (⟨S256x6144, .f32⟩ : BufTy).Contents (Elt F) → (⟨S4096x6144, .f32⟩ : BufTy).Contents (Elt F)),
    StableHlo.unary main_arg6 main_v11 (broadcastInDim S1x6144 ![1] bcast_S6144_S1x6144_1 : (⟨S6144, .f32⟩ : BufTy).Contents (Elt F) → (⟨S1x6144, .f32⟩ : BufTy).Contents (Elt F)),
    StableHlo.unary main_v11 main_v12 (broadcastInDim S4096x6144 ![0, 1] bcast_S1x6144_S4096x6144_0_1 : (⟨S1x6144, .f32⟩ : BufTy).Contents (Elt F) → (⟨S4096x6144, .f32⟩ : BufTy).Contents (Elt F)),
    StableHlo.binary main_v10 main_v12 main_v13 (addf : (⟨S4096x6144, .f32⟩ : BufTy).Contents (Elt F) → (⟨S4096x6144, .f32⟩ : BufTy).Contents (Elt F) → (⟨S4096x6144, .f32⟩ : BufTy).Contents (Elt F)),
    StableHlo.unary main_v13 main_v14 (Host.negf : (⟨S4096x6144, .f32⟩ : BufTy).Contents (Elt F) → (⟨S4096x6144, .f32⟩ : BufTy).Contents (Elt F)),
    StableHlo.unary main_v14 main_v15 (Host.exp : (⟨S4096x6144, .f32⟩ : BufTy).Contents (Elt F) → (⟨S4096x6144, .f32⟩ : BufTy).Contents (Elt F)),
    StableHlo.nullary main_cst_1 (constant S_ .f32 0x3F800000#32),
    StableHlo.unary main_cst_1 main_v16 (broadcastInDim S4096x6144 ![] bcast_S_S4096x6144 : (⟨S_, .f32⟩ : BufTy).Contents (Elt F) → (⟨S4096x6144, .f32⟩ : BufTy).Contents (Elt F)),
    StableHlo.binary main_v16 main_v15 main_v17 (addf : (⟨S4096x6144, .f32⟩ : BufTy).Contents (Elt F) → (⟨S4096x6144, .f32⟩ : BufTy).Contents (Elt F) → (⟨S4096x6144, .f32⟩ : BufTy).Contents (Elt F)),
    StableHlo.nullary main_cst_2 (constant S_ .f32 0x3F800000#32),
    StableHlo.unary main_cst_2 main_v18 (broadcastInDim S4096x6144 ![] bcast_S_S4096x6144 : (⟨S_, .f32⟩ : BufTy).Contents (Elt F) → (⟨S4096x6144, .f32⟩ : BufTy).Contents (Elt F)),
    StableHlo.binary main_v18 main_v17 main_v19 (Host.divf : (⟨S4096x6144, .f32⟩ : BufTy).Contents (Elt F) → (⟨S4096x6144, .f32⟩ : BufTy).Contents (Elt F) → (⟨S4096x6144, .f32⟩ : BufTy).Contents (Elt F)),
    StableHlo.reshape main_v19 main_v20 rfl shapeCasts_S4096x6144_S4096x3x2048,
    StableHlo.binary main_arg0 main_arg7 main_v21 ((fun l r => Host.dotGeneral dot_S4096x128_S128x256_S4096x256_1_0_0_1_n_n none l r) : (⟨S4096x128, .f32⟩ : BufTy).Contents (Elt F) → (⟨S128x256, .f32⟩ : BufTy).Contents (Elt F) → (⟨S4096x256, .f32⟩ : BufTy).Contents (Elt F)),
    StableHlo.unary main_arg8 main_v22 (broadcastInDim S1x256 ![1] bcast_S256_S1x256_1 : (⟨S256, .f32⟩ : BufTy).Contents (Elt F) → (⟨S1x256, .f32⟩ : BufTy).Contents (Elt F)),
    StableHlo.unary main_v22 main_v23 (broadcastInDim S4096x256 ![0, 1] bcast_S1x256_S4096x256_0_1 : (⟨S1x256, .f32⟩ : BufTy).Contents (Elt F) → (⟨S4096x256, .f32⟩ : BufTy).Contents (Elt F)),
    StableHlo.binary main_v21 main_v23 main_v24 (addf : (⟨S4096x256, .f32⟩ : BufTy).Contents (Elt F) → (⟨S4096x256, .f32⟩ : BufTy).Contents (Elt F) → (⟨S4096x256, .f32⟩ : BufTy).Contents (Elt F)),
    StableHlo.nullary main_cst_3 (constant S_ .f32 0x3C23D70A#32),
    StableHlo.TRef.nullary main_call2.cst (constant S_ .f32 0x00000000#32),
    StableHlo.TRef.unary main_call2.cst main_call2.v0 (broadcastInDim S4096x256 ![] bcast_S_S4096x256),
    StableHlo.TRef.binary (.of main_v24 : TRef sig ⟨S4096x256, .f32⟩) main_call2.v0 main_call2.v1 (cmpf .oge),
    StableHlo.TRef.unary (.of main_cst_3 : TRef sig ⟨S_, .f32⟩) main_call2.v2 id,
    StableHlo.TRef.unary main_call2.v2 main_call2.v3 (broadcastInDim S4096x256 ![] bcast_S_S4096x256),
    StableHlo.TRef.binary main_call2.v3 (.of main_v24 : TRef sig ⟨S4096x256, .f32⟩) main_call2.v4 mulf,
    StableHlo.TRef.ternary main_call2.v1 (.of main_v24 : TRef sig ⟨S4096x256, .f32⟩) main_call2.v4 main_call2.call0.v0 select,
    StableHlo.binary main_v25 main_arg9 main_v26 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    StableHlo.unary main_arg10 main_v27 (broadcastInDim S1x256 ![1] bcast_S256_S1x256_1 : (⟨S256, .f32⟩ : BufTy).Contents (Elt F) → (⟨S1x256, .f32⟩ : BufTy).Contents (Elt F)),
    StableHlo.unary main_v27 main_v28 (broadcastInDim S4096x256 ![0, 1] bcast_S1x256_S4096x256_0_1 : (⟨S1x256, .f32⟩ : BufTy).Contents (Elt F) → (⟨S4096x256, .f32⟩ : BufTy).Contents (Elt F)),
    StableHlo.binary main_v26 main_v28 main_v29 (addf : (⟨S4096x256, .f32⟩ : BufTy).Contents (Elt F) → (⟨S4096x256, .f32⟩ : BufTy).Contents (Elt F) → (⟨S4096x256, .f32⟩ : BufTy).Contents (Elt F)),
    StableHlo.nullary main_cst_4 (constant S_ .f32 0x3C23D70A#32),
    StableHlo.TRef.nullary main_call3.cst (constant S_ .f32 0x00000000#32),
    StableHlo.TRef.unary main_call3.cst main_call3.v0 (broadcastInDim S4096x256 ![] bcast_S_S4096x256),
    StableHlo.TRef.binary (.of main_v29 : TRef sig ⟨S4096x256, .f32⟩) main_call3.v0 main_call3.v1 (cmpf .oge),
    StableHlo.TRef.unary (.of main_cst_4 : TRef sig ⟨S_, .f32⟩) main_call3.v2 id,
    StableHlo.TRef.unary main_call3.v2 main_call3.v3 (broadcastInDim S4096x256 ![] bcast_S_S4096x256),
    StableHlo.TRef.binary main_call3.v3 (.of main_v29 : TRef sig ⟨S4096x256, .f32⟩) main_call3.v4 mulf,
    StableHlo.TRef.ternary main_call3.v1 (.of main_v29 : TRef sig ⟨S4096x256, .f32⟩) main_call3.v4 main_call3.call0.v0 select,
    StableHlo.binary main_v30 main_arg11 main_v31 ((fun l r => Host.dotGeneral dot_S4096x256_S256x3_S4096x3_1_0_0_1_n_n none l r) : (⟨S4096x256, .f32⟩ : BufTy).Contents (Elt F) → (⟨S256x3, .f32⟩ : BufTy).Contents (Elt F) → (⟨S4096x3, .f32⟩ : BufTy).Contents (Elt F)),
    StableHlo.unary main_arg12 main_v32 (broadcastInDim S1x3 ![1] bcast_S3_S1x3_1 : (⟨S3, .f32⟩ : BufTy).Contents (Elt F) → (⟨S1x3, .f32⟩ : BufTy).Contents (Elt F)),
    StableHlo.unary main_v32 main_v33 (broadcastInDim S4096x3 ![0, 1] bcast_S1x3_S4096x3_0_1 : (⟨S1x3, .f32⟩ : BufTy).Contents (Elt F) → (⟨S4096x3, .f32⟩ : BufTy).Contents (Elt F)),
    StableHlo.binary main_v31 main_v33 main_v34 (addf : (⟨S4096x3, .f32⟩ : BufTy).Contents (Elt F) → (⟨S4096x3, .f32⟩ : BufTy).Contents (Elt F) → (⟨S4096x3, .f32⟩ : BufTy).Contents (Elt F)),
    StableHlo.unary main_v34 main_v35 (Host.negf : (⟨S4096x3, .f32⟩ : BufTy).Contents (Elt F) → (⟨S4096x3, .f32⟩ : BufTy).Contents (Elt F)),
    StableHlo.unary main_v35 main_v36 (Host.exp : (⟨S4096x3, .f32⟩ : BufTy).Contents (Elt F) → (⟨S4096x3, .f32⟩ : BufTy).Contents (Elt F)),
    StableHlo.nullary main_cst_5 (constant S_ .f32 0x3F800000#32),
    StableHlo.unary main_cst_5 main_v37 (broadcastInDim S4096x3 ![] bcast_S_S4096x3 : (⟨S_, .f32⟩ : BufTy).Contents (Elt F) → (⟨S4096x3, .f32⟩ : BufTy).Contents (Elt F)),
    StableHlo.binary main_v37 main_v36 main_v38 (addf : (⟨S4096x3, .f32⟩ : BufTy).Contents (Elt F) → (⟨S4096x3, .f32⟩ : BufTy).Contents (Elt F) → (⟨S4096x3, .f32⟩ : BufTy).Contents (Elt F)),
    StableHlo.nullary main_cst_6 (constant S_ .f32 0x3F800000#32),
    StableHlo.unary main_cst_6 main_v39 (broadcastInDim S4096x3 ![] bcast_S_S4096x3 : (⟨S_, .f32⟩ : BufTy).Contents (Elt F) → (⟨S4096x3, .f32⟩ : BufTy).Contents (Elt F)),
    StableHlo.binary main_v39 main_v38 main_v40 (Host.divf : (⟨S4096x3, .f32⟩ : BufTy).Contents (Elt F) → (⟨S4096x3, .f32⟩ : BufTy).Contents (Elt F) → (⟨S4096x3, .f32⟩ : BufTy).Contents (Elt F)),
    StableHlo.nullary main_v41 (iotaInDim S3x3 32 0),
    StableHlo.nullary main_v42 (iotaInDim S3x3 32 1),
    StableHlo.nullary main_c (constantI S_ 32 0#32),
    StableHlo.unary main_c main_v43 (broadcastInDim S3x3 ![] bcast_S_S3x3 : (⟨S_, .i32⟩ : BufTy).Contents (Elt F) → (⟨S3x3, .i32⟩ : BufTy).Contents (Elt F)),
    StableHlo.binary main_v41 main_v43 main_v44 (addi : (⟨S3x3, .i32⟩ : BufTy).Contents (Elt F) → (⟨S3x3, .i32⟩ : BufTy).Contents (Elt F) → (⟨S3x3, .i32⟩ : BufTy).Contents (Elt F)),
    StableHlo.binary main_v44 main_v42 main_v45 (cmpi .eq : (⟨S3x3, .i32⟩ : BufTy).Contents (Elt F) → (⟨S3x3, .i32⟩ : BufTy).Contents (Elt F) → (⟨S3x3, .i1⟩ : BufTy).Contents (Elt F)),
    StableHlo.unary main_v45 main_v46 (uitofp .f32 : (⟨S3x3, .i1⟩ : BufTy).Contents (Elt F) → (⟨S3x3, .f32⟩ : BufTy).Contents (Elt F)),
    StableHlo.unary main_v46 main_v47 (broadcastInDim S4096x3x3 ![1, 2] bcast_S3x3_S4096x3x3_1_2 : (⟨S3x3, .f32⟩ : BufTy).Contents (Elt F) → (⟨S4096x3x3, .f32⟩ : BufTy).Contents (Elt F)),
    StableHlo.unary main_v40 main_v48 (broadcastInDim S4096x3x1 ![0, 1] bcast_S4096x3_S4096x3x1_0_1 : (⟨S4096x3, .f32⟩ : BufTy).Contents (Elt F) → (⟨S4096x3x1, .f32⟩ : BufTy).Contents (Elt F)),
    StableHlo.unary main_v48 main_v49 (broadcastInDim S4096x3x2048 ![0, 1, 2] bcast_S4096x3x1_S4096x3x2048_0_1_2 : (⟨S4096x3x1, .f32⟩ : BufTy).Contents (Elt F) → (⟨S4096x3x2048, .f32⟩ : BufTy).Contents (Elt F)),
    StableHlo.binary main_v49 main_v20 main_v50 (subf : (⟨S4096x3x2048, .f32⟩ : BufTy).Contents (Elt F) → (⟨S4096x3x2048, .f32⟩ : BufTy).Contents (Elt F) → (⟨S4096x3x2048, .f32⟩ : BufTy).Contents (Elt F)),
    StableHlo.unary main_v50 main_v51 (Host.absf : (⟨S4096x3x2048, .f32⟩ : BufTy).Contents (Elt F) → (⟨S4096x3x2048, .f32⟩ : BufTy).Contents (Elt F)),
    StableHlo.unary main_v20 main_v52 (broadcastInDim S4096x3x2048x1 ![0, 1, 2] bcast_S4096x3x2048_S4096x3x2048x1_0_1_2 : (⟨S4096x3x2048, .f32⟩ : BufTy).Contents (Elt F) → (⟨S4096x3x2048x1, .f32⟩ : BufTy).Contents (Elt F)),
    StableHlo.unary main_v51 main_v53 (broadcastInDim S4096x3x2048x1 ![0, 1, 2] bcast_S4096x3x2048_S4096x3x2048x1_0_1_2 : (⟨S4096x3x2048, .f32⟩ : BufTy).Contents (Elt F) → (⟨S4096x3x2048x1, .f32⟩ : BufTy).Contents (Elt F)),
    StableHlo.binary main_v52 main_v53 main_v54 ((fun a b => concatenate S4096x3x2048x2 3 [⟨S4096x3x2048x1, a⟩, ⟨S4096x3x2048x1, b⟩] concatenates_S4096x3x2048x1_S4096x3x2048x1_S4096x3x2048x2_d3) : (⟨S4096x3x2048x1, .f32⟩ : BufTy).Contents (Elt F) → (⟨S4096x3x2048x1, .f32⟩ : BufTy).Contents (Elt F) → (⟨S4096x3x2048x2, .f32⟩ : BufTy).Contents (Elt F)),
    StableHlo.unary main_v48 main_v55 (broadcastInDim S4096x3x2048 ![0, 1, 2] bcast_S4096x3x1_S4096x3x2048_0_1_2 : (⟨S4096x3x1, .f32⟩ : BufTy).Contents (Elt F) → (⟨S4096x3x2048, .f32⟩ : BufTy).Contents (Elt F)),
    StableHlo.binary main_v20 main_v55 main_v56 (cmpf .ole : (⟨S4096x3x2048, .f32⟩ : BufTy).Contents (Elt F) → (⟨S4096x3x2048, .f32⟩ : BufTy).Contents (Elt F) → (⟨S4096x3x2048, .i1⟩ : BufTy).Contents (Elt F)),
    StableHlo.unary main_v56 main_v57 (uitofp .f32 : (⟨S4096x3x2048, .i1⟩ : BufTy).Contents (Elt F) → (⟨S4096x3x2048, .f32⟩ : BufTy).Contents (Elt F)),
    StableHlo.nullary main_cst_7 (constant S_ .f32 0x00000000#32),
    StableHlo.binary main_v57 main_cst_7 main_v58 ((fun x v => Host.reduceAdd x v reducesTo_S4096x3x2048_S4096x2048_d1 h_S_) : (⟨S4096x3x2048, .f32⟩ : BufTy).Contents (Elt F) → (⟨S_, .f32⟩ : BufTy).Contents (Elt F) → (⟨S4096x2048, .f32⟩ : BufTy).Contents (Elt F)),
    StableHlo.nullary main_cst_8 (constant S_ .f32 0x40200000#32),
    StableHlo.unary main_cst_8 main_v59 (broadcastInDim S4096x2048 ![] bcast_S_S4096x2048 : (⟨S_, .f32⟩ : BufTy).Contents (Elt F) → (⟨S4096x2048, .f32⟩ : BufTy).Contents (Elt F)),
    StableHlo.binary main_v58 main_v59 main_v60 (cmpf .ogt : (⟨S4096x2048, .f32⟩ : BufTy).Contents (Elt F) → (⟨S4096x2048, .f32⟩ : BufTy).Contents (Elt F) → (⟨S4096x2048, .i1⟩ : BufTy).Contents (Elt F)),
    StableHlo.unary main_v60 main_v61 (uitofp .f32 : (⟨S4096x2048, .i1⟩ : BufTy).Contents (Elt F) → (⟨S4096x2048, .f32⟩ : BufTy).Contents (Elt F)),
    StableHlo.unary main_v57 main_v62 (broadcastInDim S4096x3x2048x1 ![0, 1, 2] bcast_S4096x3x2048_S4096x3x2048x1_0_1_2 : (⟨S4096x3x2048, .f32⟩ : BufTy).Contents (Elt F) → (⟨S4096x3x2048x1, .f32⟩ : BufTy).Contents (Elt F)),
    StableHlo.nullary main_cst_9 (constant S_ .f32 0x3F000000#32),
    StableHlo.unary main_cst_9 main_v63 (broadcastInDim S4096x3x2048x1 ![] bcast_S_S4096x3x2048x1 : (⟨S_, .f32⟩ : BufTy).Contents (Elt F) → (⟨S4096x3x2048x1, .f32⟩ : BufTy).Contents (Elt F)),
    StableHlo.binary main_v62 main_v63 main_v64 (cmpf .ogt : (⟨S4096x3x2048x1, .f32⟩ : BufTy).Contents (Elt F) → (⟨S4096x3x2048x1, .f32⟩ : BufTy).Contents (Elt F) → (⟨S4096x3x2048x1, .i1⟩ : BufTy).Contents (Elt F)),
    StableHlo.nullary main_cst_10 (constant S_ .f32 0x00000000#32),
    StableHlo.TRef.unary (.of main_cst_10 : TRef sig ⟨S_, .f32⟩) main_call4.v0 id,
    StableHlo.TRef.unary (.of main_v64 : TRef sig ⟨S4096x3x2048x1, .i1⟩) main_call4.v1 (broadcastInDim S4096x3x2048x2 ![0, 1, 2, 3] bcast_S4096x3x2048x1_S4096x3x2048x2_0_1_2_3),
    StableHlo.TRef.unary main_call4.v0 main_call4.v2 (broadcastInDim S4096x3x2048x2 ![] bcast_S_S4096x3x2048x2),
    StableHlo.TRef.ternary main_call4.v1 main_call4.v2 (.of main_v54 : TRef sig ⟨S4096x3x2048x2, .f32⟩) main_call4.v3 select,
    StableHlo.nullary main_cst_11 (constant S_ .f32 0xFF800000#32),
    StableHlo.binary main_v65 main_cst_11 main_v66 ((fun x v => Host.reduce FloatOps.maximumf x v reducesTo_S4096x3x2048x2_S4096x3x2048_d3 h_S_) : (⟨S4096x3x2048x2, .f32⟩ : BufTy).Contents (Elt F) → (⟨S_, .f32⟩ : BufTy).Contents (Elt F) → (⟨S4096x3x2048, .f32⟩ : BufTy).Contents (Elt F)),
    StableHlo.nullary main_cst_12 (constant S_ .f32 0xFF800000#32),
    StableHlo.binary main_v66 main_cst_12 main_v67 ((fun x v => Host.reduce FloatOps.maximumf x v reducesTo_S4096x3x2048_S4096x2048_d1 h_S_) : (⟨S4096x3x2048, .f32⟩ : BufTy).Contents (Elt F) → (⟨S_, .f32⟩ : BufTy).Contents (Elt F) → (⟨S4096x2048, .f32⟩ : BufTy).Contents (Elt F)),
    StableHlo.nullary main_cst_13 (constant S_ .f32 0x7F800000#32),
    StableHlo.binary main_v54 main_cst_13 main_v68 ((fun x v => Host.reduce FloatOps.minimumf x v reducesTo_S4096x3x2048x2_S4096x3x2048_d3 h_S_) : (⟨S4096x3x2048x2, .f32⟩ : BufTy).Contents (Elt F) → (⟨S_, .f32⟩ : BufTy).Contents (Elt F) → (⟨S4096x3x2048, .f32⟩ : BufTy).Contents (Elt F)),
    StableHlo.nullary main_cst_14 (constant S_ .f32 0x7F800000#32),
    StableHlo.binary main_v68 main_cst_14 main_v69 ((fun x v => Host.reduce FloatOps.minimumf x v reducesTo_S4096x3x2048_S4096x2048_d1 h_S_) : (⟨S4096x3x2048, .f32⟩ : BufTy).Contents (Elt F) → (⟨S_, .f32⟩ : BufTy).Contents (Elt F) → (⟨S4096x2048, .f32⟩ : BufTy).Contents (Elt F)),
    StableHlo.binary main_v69 main_v61 main_v70 (mulf : (⟨S4096x2048, .f32⟩ : BufTy).Contents (Elt F) → (⟨S4096x2048, .f32⟩ : BufTy).Contents (Elt F) → (⟨S4096x2048, .f32⟩ : BufTy).Contents (Elt F)),
    StableHlo.nullary main_cst_15 (constant S_ .f32 0x3F800000#32),
    StableHlo.unary main_cst_15 main_v71 (broadcastInDim S4096x2048 ![] bcast_S_S4096x2048 : (⟨S_, .f32⟩ : BufTy).Contents (Elt F) → (⟨S4096x2048, .f32⟩ : BufTy).Contents (Elt F)),
    StableHlo.binary main_v71 main_v61 main_v72 (subf : (⟨S4096x2048, .f32⟩ : BufTy).Contents (Elt F) → (⟨S4096x2048, .f32⟩ : BufTy).Contents (Elt F) → (⟨S4096x2048, .f32⟩ : BufTy).Contents (Elt F)),
    StableHlo.binary main_v72 main_v67 main_v73 (mulf : (⟨S4096x2048, .f32⟩ : BufTy).Contents (Elt F) → (⟨S4096x2048, .f32⟩ : BufTy).Contents (Elt F) → (⟨S4096x2048, .f32⟩ : BufTy).Contents (Elt F)),
    StableHlo.binary main_v70 main_v73 main_v74 (addf : (⟨S4096x2048, .f32⟩ : BufTy).Contents (Elt F) → (⟨S4096x2048, .f32⟩ : BufTy).Contents (Elt F) → (⟨S4096x2048, .f32⟩ : BufTy).Contents (Elt F)),
    StableHlo.nullary main_cst_16 (constant S_ .f32 0x00000000#32),
    StableHlo.binary main_v74 main_cst_16 main_v75 ((fun x v => Host.reduceAdd x v reducesTo_S4096x2048_S4096_d1 h_S_) : (⟨S4096x2048, .f32⟩ : BufTy).Contents (Elt F) → (⟨S_, .f32⟩ : BufTy).Contents (Elt F) → (⟨S4096, .f32⟩ : BufTy).Contents (Elt F)),
    StableHlo.nullary main_cst_17 (constant S_ .f32 0x45000000#32),
    StableHlo.unary main_cst_17 main_v76 (broadcastInDim S4096 ![] bcast_S_S4096 : (⟨S_, .f32⟩ : BufTy).Contents (Elt F) → (⟨S4096, .f32⟩ : BufTy).Contents (Elt F)),
    StableHlo.binary main_v75 main_v76 main_v77 (Host.divf : (⟨S4096, .f32⟩ : BufTy).Contents (Elt F) → (⟨S4096, .f32⟩ : BufTy).Contents (Elt F) → (⟨S4096, .f32⟩ : BufTy).Contents (Elt F)) ]

set_option maxRecDepth 8192 in
set_option maxHeartbeats 4000000 in
/-- The function is that straight line: the two halves and the callees unfolded, sequencing reassociated. -/
theorem main_eq (c : Dev nD) : main (F := F) c = seq ops := by
  simp only [main, main_part0, main_part1, fn_leaky_relu.body, fn_where.body, fn_where_0.body, seq, bind_assoc, pure_bind]

/-- The buffer each operation writes, in order: every operation writes one buffer of its own. -/
abbrev written : List (Ref sig .tc) :=
  [ main_v0, main_v1, main_v2, main_v3, main_cst, main_call0_cst, main_call0_v0, main_call0_v1, main_call0_v2, main_call0_v3, main_call0_v4, main_v4, main_v5, main_v6, main_v7, main_v8, main_cst_0, main_call1_cst, main_call1_v0, main_call1_v1, main_call1_v2, main_call1_v3, main_call1_v4, main_v9, main_v10, main_v11, main_v12, main_v13, main_v14, main_v15, main_cst_1, main_v16, main_v17, main_cst_2, main_v18, main_v19, main_v20, main_v21, main_v22, main_v23, main_v24, main_cst_3, main_call2_cst, main_call2_v0, main_call2_v1, main_call2_v2, main_call2_v3, main_call2_v4, main_v25, main_v26, main_v27, main_v28, main_v29, main_cst_4, main_call3_cst, main_call3_v0, main_call3_v1, main_call3_v2, main_call3_v3, main_call3_v4, main_v30, main_v31, main_v32, main_v33, main_v34, main_v35, main_v36, main_cst_5, main_v37, main_v38, main_cst_6, main_v39, main_v40, main_v41, main_v42, main_c, main_v43, main_v44, main_v45, main_v46, main_v47, main_v48, main_v49, main_v50, main_v51, main_v52, main_v53, main_v54, main_v55, main_v56, main_v57, main_cst_7, main_v58, main_cst_8, main_v59, main_v60, main_v61, main_v62, main_cst_9, main_v63, main_v64, main_cst_10, main_call4_v0, main_call4_v1, main_call4_v2, main_v65, main_cst_11, main_v66, main_cst_12, main_v67, main_cst_13, main_v68, main_cst_14, main_v69, main_v70, main_cst_15, main_v71, main_v72, main_v73, main_v74, main_cst_16, main_v75, main_cst_17, main_v76, main_v77 ]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., nullary_bufs_sub .., nullary_bufs_sub .., unary_bufs_sub .., binary_bufs_sub .., binary_bufs_sub .., unary_bufs_sub .., unary_bufs_sub .., unary_bufs_sub .., unary_bufs_sub .., binary_bufs_sub .., unary_bufs_sub .., unary_bufs_sub .., unary_bufs_sub .., binary_bufs_sub .., unary_bufs_sub .., binary_bufs_sub .., unary_bufs_sub .., nullary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., unary_bufs_sub .., unary_bufs_sub .., ternary_bufs_sub .., nullary_bufs_sub .., binary_bufs_sub .., nullary_bufs_sub .., binary_bufs_sub .., nullary_bufs_sub .., binary_bufs_sub .., nullary_bufs_sub .., binary_bufs_sub .., binary_bufs_sub .., nullary_bufs_sub .., unary_bufs_sub .., binary_bufs_sub .., binary_bufs_sub .., binary_bufs_sub .., nullary_bufs_sub .., binary_bufs_sub .., nullary_bufs_sub .., unary_bufs_sub .., binary_bufs_sub ..⟩

/-- Each operation writes exactly the buffer listed at its position. -/
theorem writesAt : List.Forall₂ (fun (op : HloOp τ sig (Elt F)) w => op.writes = {Proc.devRef (τ := τ) .tc w}) ops written :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))))))))))))))))))))))))))))))))))))))))))))))))))))))))))))))))))))

/-- At the compiled mesh, for any float values, from any memory with zero counters: every weakly fair execution of the
    function terminates, and every final state has each buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.LibReadBack.lean ====
/-
  A single-assignment line of host operations read back one operation at a time.

  A line of host operations in which every operation writes one buffer of its own, listed at its position (`WritesAt`),
  leaves in each buffer what the operation writing it computed from what ITS operands held at that point — and an operand
  not written from that point on still holds the same at the end. So at the end of the line (and after any further
  computation `G` that leaves the buffers in question alone) the contents satisfy one equation per operation,
  `result = f (operand₁) (operand₂) …`, every buffer read at the END: `read0` … `read3`, `readReshape`, and
  `read_result` / `read_operand` for an operation of any other form. Such equations compose by rewriting, with no fold
  in sight.

  General in the topology, the reference signature and the element values.
-/
import Idealize.ShloMosaic.Lib.StableHlo.Run
import Idealize.ShloMosaic.Lib.Pipeline.Frame
import Mathlib.Data.List.Forall2

namespace Cert.ReadBack

open Idealize.ShloMosaic Idealize.ShloMosaic.StableHlo

variable {τ : Topo} {sig : RefSig} {Val : EltTy → Type}

/-- Each operation of `l` writes exactly the buffer `W` lists at its position. -/
abbrev WritesAt (l : List (HloOp τ sig Val)) (W : List (Ref sig .tc)) : Prop :=
  List.Forall₂ (fun op w => op.writes = {Proc.devRef (τ := τ) .tc w}) l W

/-- A buffer not listed is written by no operation. -/
theorem WritesAt.not_mem {l : List (HloOp τ sig Val)} {W : List (Ref sig .tc)} (h : WritesAt l W) {r : Ref sig .tc}
    (hr : r ∉ W) : ∀ op ∈ l, Proc.devRef (τ := τ) .tc r ∉ op.writes := by
  induction h with
  | nil => intro op hop; cases hop
  | cons hw _ ih =>
    intro op hop
    rcases List.mem_cons.mp hop with rfl | hop
    · rw [hw, Finset.mem_singleton]
      exact devRef_ne_of_ne fun e => hr (e ▸ List.mem_cons_self)
    · exact ih (fun hm => hr (List.mem_cons_of_mem _ hm)) op hop

/-- A buffer not listed keeps its contents through the line. -/
theorem WritesAt.keep {l : List (HloOp τ sig Val)} {W : List (Ref sig .tc)} (h : WritesAt l W) {r : Ref sig .tc}
    (hr : r ∉ W) (V : Valuation τ sig Val) : after l V (Proc.devRef .tc r) = V (Proc.devRef .tc r) :=
  after_of_forall_not_mem l V (WritesAt.not_mem h hr)

/-- A buffer not written from position `j` on holds at the end what it held after the first `j` operations. -/
theorem WritesAt.after_take {l : List (HloOp τ sig Val)} {W : List (Ref sig .tc)} (h : WritesAt l W) (j : Nat)
    (V : Valuation τ sig Val) {r : Ref sig .tc} (hr : r ∉ W.drop j) :
    after l V (Proc.devRef .tc r) = after (l.take j) V (Proc.devRef .tc r) := by
  conv_lhs => rw [← List.take_append_drop j l, StableHlo.after_append]
  exact WritesAt.keep (List.forall₂_drop j h) hr _

/-- A buffer not written after position `j` holds at the end what the operation at `j` left in it. -/
theorem WritesAt.after_at {l : List (HloOp τ sig Val)} {W : List (Ref sig .tc)} (h : WritesAt l W) (j : Nat)
    (op : HloOp τ sig Val) (hop : l[j]? = some op) (V : Valuation τ sig Val) {r : Ref sig .tc} (hr : r ∉ W.drop (j + 1)) :
    after l V (Proc.devRef .tc r) = op.result (after (l.take j) V) (Proc.devRef .tc r) := by
  rw [WritesAt.after_take h (j + 1) V hr, List.take_succ, hop, Option.toList_some, StableHlo.after_append]
  rfl

section Read

variable {l : List (HloOp τ sig Val)} {W : List (Ref sig .tc)} (h : WritesAt l W)
  (G : Valuation τ sig Val → Valuation τ sig Val) (W' : List (Ref sig .tc))
  (hG : ∀ (X : Valuation τ sig Val) (r : Ref sig .tc), r ∉ W' → G X (Proc.devRef .tc r) = X (Proc.devRef .tc r))
  (j : Nat) (V : Valuation τ sig Val)

include h hG

/-- After the line and `G`: the result buffer of the operation at `j` holds what that operation left in it. -/
theorem read_result (op : HloOp τ sig Val) (hop : l[j]? = some op) {y : Ref sig .tc} (ny : y ∉ W.drop (j + 1) ++ W') :
    G (after l V) (Proc.devRef .tc y) = op.result (after (l.take j) V) (Proc.devRef .tc y) :=
  (hG _ y fun hm => ny (List.mem_append.mpr (Or.inr hm))).trans
    (WritesAt.after_at h j op hop V fun hm => ny (List.mem_append.mpr (Or.inl hm)))

/-- After the line and `G`: a buffer not written from `j` on holds what the operation at `j` read in it. -/
theorem read_operand {a : Ref sig .tc} (na : a ∉ W.drop j ++ W') :
    G (after l V) (Proc.devRef .tc a) = after (l.take j) V (Proc.devRef .tc a) :=
  (hG _ a fun hm => na (List.mem_append.mpr (Or.inr hm))).trans
    (WritesAt.after_take h j V fun hm => na (List.mem_append.mpr (Or.inl hm)))

theorem read0 (y : Ref sig .tc) (v : y.ty.Contents Val) (hy) (hop : l[j]? = some (nullary y v hy))
    (ny : y ∉ W.drop (j + 1) ++ W') : G (after l V) (Proc.devRef .tc y) = v :=
  (read_result h G W' hG j V _ hop ny).trans (nullary_result y v hy _)

theorem read1 (x y : Ref sig .tc) (f : x.ty.Contents Val → y.ty.Contents Val) (hx hy) (hop : l[j]? = some (unary x y f hx hy))
    (ny : y ∉ W.drop (j + 1) ++ W') (nx : x ∉ W.drop j ++ W') :
    G (after l V) (Proc.devRef .tc y) = f (G (after l V) (Proc.devRef .tc x)) := by
  rw [read_operand h G W' hG j V nx]
  exact (read_result h G W' hG j V _ hop ny).trans (unary_result x y f hx hy _)

theorem read2 (a b y : Ref sig .tc) (f : a.ty.Contents Val → b.ty.Contents Val → y.ty.Contents Val) (ha hb hy)
    (hop : l[j]? = some (binary a b y f ha hb hy))
    (ny : y ∉ W.drop (j + 1) ++ W') (na : a ∉ W.drop j ++ W') (nb : b ∉ W.drop j ++ W') :
    G (after l V) (Proc.devRef .tc y) = f (G (after l V) (Proc.devRef .tc a)) (G (after l V) (Proc.devRef .tc b)) := by
  rw [read_operand h G W' hG j V na, read_operand h G W' hG j V nb]
  exact (read_result h G W' hG j V _ hop ny).trans (binary_result a b y f ha hb hy _)

theorem read3 (c a b y : Ref sig .tc) (f : c.ty.Contents Val → a.ty.Contents Val → b.ty.Contents Val → y.ty.Contents Val)
    (hc ha hb hy) (hop : l[j]? = some (ternary c a b y f hc ha hb hy))
    (ny : y ∉ W.drop (j + 1) ++ W') (nc : c ∉ W.drop j ++ W') (na : a ∉ W.drop j ++ W') (nb : b ∉ W.drop j ++ W') :
    G (after l V) (Proc.devRef .tc y)
      = f (G (after l V) (Proc.devRef .tc c)) (G (after l V) (Proc.devRef .tc a)) (G (after l V) (Proc.devRef .tc b)) := by
  rw [read_operand h G W' hG j V nc, read_operand h G W' hG j V na, read_operand h G W' hG j V nb]
  exact (read_result h G W' hG j V _ hop ny).trans (ternary_result c a b y f hc ha hb hy _)

theorem readReshape (x y : Ref sig .tc) (he hn hx hy) (hop : l[j]? = some (reshape (Val := Val) x y he hn hx hy))
    (ny : y ∉ W.drop (j + 1) ++ W') (nx : x ∉ W.drop j ++ W') :
    G (after l V) (Proc.devRef .tc y) = fun i => he ▸ shapeCast y.ty.shape (G (after l V) (Proc.devRef .tc x)) hn i := by
  rw [read_operand h G W' hG j V nx]
  exact (read_result h G W' hG j V _ hop ny).trans (reshape_result x y he hn hx hy _)

end Read

end Cert.ReadBack
-- ==== Proof.LibReadEnd.lean ====
/-
  Host operations read back against an END valuation.

  A program's host operations come in lines; after a line, later lines and kernel regions may run, each rewriting
  buffers of its own. Let `E` be the contents at the very end, and suppose `E` agrees with the contents right after
  the line `l` (run from `V`) on every buffer outside a list `later` — the buffers anything after the line writes.
  Then every operation of `l` whose result and operands are written neither later in `l` nor in `later` satisfies
  its defining equation with EVERY buffer read at the end: `E y = f (E a) (E b)`. Equations of this form, for two
  programs, compose by rewriting: equal operations of equal operands have equal results.

  Side conditions of the form `a ∉ L` over long literal lists are meant to be discharged through `nk` (numbers compared,
  not references).

  General in the topology, the reference signature and the element values.
-/
import proofs.«169947_j35682588295463_2_alg».proof.Proof.LibReadBack

namespace Cert.ReadEnd

open Idealize.ShloMosaic Idealize.ShloMosaic.StableHlo Cert.ReadBack

variable {τ : Topo} {sig : RefSig} {Val : EltTy → Type}

/-- The number a buffer reference carries within its memory space. -/
abbrev key (r : Ref sig .tc) : Nat := r.idx.val

/-- A reference whose number is not among the listed references' numbers is not listed: non-membership in a long list
    of references decided on numerals alone. -/
theorem nk {a : Ref sig .tc} {L : List (Ref sig .tc)} (h : key a ∉ L.map key) : a ∉ L :=
  fun hm => h (List.mem_map.mpr ⟨a, hm, rfl⟩)

section

variable {l : List (HloOp τ sig Val)} {W : List (Ref sig .tc)} (h : WritesAt l W)
  (V E : Valuation τ sig Val) (later : List (Ref sig .tc))
  (T : ∀ r : Ref sig .tc, r ∉ later → E (Proc.devRef .tc r) = after l V (Proc.devRef .tc r))
  (j : Nat)

include h T

private theorem notIn_nil {r : Ref sig .tc} {L : List (Ref sig .tc)} (hr : r ∉ L ++ later) : r ∉ L ++ [] := by
  simpa using fun hm => hr (List.mem_append.mpr (Or.inl hm))

private theorem notIn_later {r : Ref sig .tc} {L : List (Ref sig .tc)} (hr : r ∉ L ++ later) : r ∉ later :=
  fun hm => hr (List.mem_append.mpr (Or.inr hm))

/-- A constant: at the end its buffer holds the constant. -/
theorem end0 (y : Ref sig .tc) (v : y.ty.Contents Val) (hy) (hop : l[j]? = some (nullary y v hy))
    (ny : y ∉ W.drop (j + 1) ++ later) : E (Proc.devRef .tc y) = v := by
  rw [T y (notIn_later h V E later T ny)]
  exact read0 h id [] (fun _ _ _ => rfl) j V y v hy hop (notIn_nil h V E later T ny)

/-- A one-operand operation: at the end its result is the function of its operand at the end. -/
theorem end1 (x y : Ref sig .tc) (f : x.ty.Contents Val → y.ty.Contents Val) (hx hy)
    (hop : l[j]? = some (unary x y f hx hy))
    (ny : y ∉ W.drop (j + 1) ++ later) (nx : x ∉ W.drop j ++ later) :
    E (Proc.devRef .tc y) = f (E (Proc.devRef .tc x)) := by
  rw [T y (notIn_later h V E later T ny), T x (notIn_later h V E later T nx)]
  exact read1 h id [] (fun _ _ _ => rfl) j V x y f hx hy hop (notIn_nil h V E later T ny) (notIn_nil h V E later T nx)

/-- A two-operand operation read at the end. -/
theorem end2 (a b y : Ref sig .tc) (f : a.ty.Contents Val → b.ty.Contents Val → y.ty.Contents Val) (ha hb hy)
    (hop : l[j]? = some (binary a b y f ha hb hy))
    (ny : y ∉ W.drop (j + 1) ++ later) (na : a ∉ W.drop j ++ later) (nb : b ∉ W.drop j ++ later) :
    E (Proc.devRef .tc y) = f (E (Proc.devRef .tc a)) (E (Proc.devRef .tc b)) := by
  rw [T y (notIn_later h V E later T ny), T a (notIn_later h V E later T na), T b (notIn_later h V E later T nb)]
  exact read2 h id [] (fun _ _ _ => rfl) j V a b y f ha hb hy hop (notIn_nil h V E later T ny)
    (notIn_nil h V E later T na) (notIn_nil h V E later T nb)

/-- A three-operand operation read at the end. -/
theorem end3 (c a b y : Ref sig .tc)
    (f : c.ty.Contents Val → a.ty.Contents Val → b.ty.Contents Val → y.ty.Contents Val) (hc ha hb hy)
    (hop : l[j]? = some (ternary c a b y f hc ha hb hy))
    (ny : y ∉ W.drop (j + 1) ++ later) (nc : c ∉ W.drop j ++ later) (na : a ∉ W.drop j ++ later)
    (nb : b ∉ W.drop j ++ later) :
    E (Proc.devRef .tc y) = f (E (Proc.devRef .tc c)) (E (Proc.devRef .tc a)) (E (Proc.devRef .tc b)) := by
  rw [T y (notIn_later h V E later T ny), T c (notIn_later h V E later T nc), T a (notIn_later h V E later T na),
    T b (notIn_later h V E later T nb)]
  exact read3 h id [] (fun _ _ _ => rfl) j V c a b y f hc ha hb hy hop (notIn_nil h V E later T ny)
    (notIn_nil h V E later T nc) (notIn_nil h V E later T na) (notIn_nil h V E later T nb)

/-- A reshape read at the end: the operand's contents re-indexed. -/
theorem endReshape (x y : Ref sig .tc) (he hn hx hy) (hop : l[j]? = some (reshape (Val := Val) x y he hn hx hy))
    (ny : y ∉ W.drop (j + 1) ++ later) (nx : x ∉ W.drop j ++ later) :
    E (Proc.devRef .tc y) = fun i => he ▸ shapeCast y.ty.shape (E (Proc.devRef .tc x)) hn i := by
  rw [T y (notIn_later h V E later T ny), T x (notIn_later h V E later T nx)]
  exact readReshape h id [] (fun _ _ _ => rfl) j V x y he hn hx hy hop (notIn_nil h V E later T ny)
    (notIn_nil h V E later T nx)

end

end Cert.ReadEnd
-- ==== Proof.RefFrame.lean ====
/-
  The reference function leaves its thirteen argument arrays unchanged: none of them is among the buffers its
  operations write, and a buffer no operation writes holds at the end what it held at the start.
-/
import proofs.«169947_j35682588295463_2_alg».proof.Defs
import proofs.«169947_j35682588295463_2_alg».proof.Proof.Gen.Pre_finite_inputs
import proofs.«169947_j35682588295463_2_alg».proof.Proof.RefOps
import proofs.«169947_j35682588295463_2_alg».proof.Proof.LibReadEnd

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Argument 0 is written by no operation. -/
theorem keep_arg0 (V : Valuation τ sig (Elt F)) :
    after (ops (F := F)) V (Proc.devRef .tc main_arg0 : DevRef τ sig) = V (Proc.devRef .tc main_arg0 : DevRef τ sig) :=
  Cert.ReadBack.WritesAt.keep (writesAt (F := F)) (Cert.ReadEnd.nk (by decide)) V

/-- Argument 1 is written by no operation. -/
theorem keep_arg1 (V : Valuation τ sig (Elt F)) :
    after (ops (F := F)) V (Proc.devRef .tc main_arg1 : DevRef τ sig) = V (Proc.devRef .tc main_arg1 : DevRef τ sig) :=
  Cert.ReadBack.WritesAt.keep (writesAt (F := F)) (Cert.ReadEnd.nk (by decide)) V

/-- Argument 2 is written by no operation. -/
theorem keep_arg2 (V : Valuation τ sig (Elt F)) :
    after (ops (F := F)) V (Proc.devRef .tc main_arg2 : DevRef τ sig) = V (Proc.devRef .tc main_arg2 : DevRef τ sig) :=
  Cert.ReadBack.WritesAt.keep (writesAt (F := F)) (Cert.ReadEnd.nk (by decide)) V

/-- Argument 3 is written by no operation. -/
theorem keep_arg3 (V : Valuation τ sig (Elt F)) :
    after (ops (F := F)) V (Proc.devRef .tc main_arg3 : DevRef τ sig) = V (Proc.devRef .tc main_arg3 : DevRef τ sig) :=
  Cert.ReadBack.WritesAt.keep (writesAt (F := F)) (Cert.ReadEnd.nk (by decide)) V

/-- Argument 4 is written by no operation. -/
theorem keep_arg4 (V : Valuation τ sig (Elt F)) :
    after (ops (F := F)) V (Proc.devRef .tc main_arg4 : DevRef τ sig) = V (Proc.devRef .tc main_arg4 : DevRef τ sig) :=
  Cert.ReadBack.WritesAt.keep (writesAt (F := F)) (Cert.ReadEnd.nk (by decide)) V

/-- Argument 5 is written by no operation. -/
theorem keep_arg5 (V : Valuation τ sig (Elt F)) :
    after (ops (F := F)) V (Proc.devRef .tc main_arg5 : DevRef τ sig) = V (Proc.devRef .tc main_arg5 : DevRef τ sig) :=
  Cert.ReadBack.WritesAt.keep (writesAt (F := F)) (Cert.ReadEnd.nk (by decide)) V

/-- Argument 6 is written by no operation. -/
theorem keep_arg6 (V : Valuation τ sig (Elt F)) :
    after (ops (F := F)) V (Proc.devRef .tc main_arg6 : DevRef τ sig) = V (Proc.devRef .tc main_arg6 : DevRef τ sig) :=
  Cert.ReadBack.WritesAt.keep (writesAt (F := F)) (Cert.ReadEnd.nk (by decide)) V

/-- Argument 7 is written by no operation. -/
theorem keep_arg7 (V : Valuation τ sig (Elt F)) :
    after (ops (F := F)) V (Proc.devRef .tc main_arg7 : DevRef τ sig) = V (Proc.devRef .tc main_arg7 : DevRef τ sig) :=
  Cert.ReadBack.WritesAt.keep (writesAt (F := F)) (Cert.ReadEnd.nk (by decide)) V

/-- Argument 8 is written by no operation. -/
theorem keep_arg8 (V : Valuation τ sig (Elt F)) :
    after (ops (F := F)) V (Proc.devRef .tc main_arg8 : DevRef τ sig) = V (Proc.devRef .tc main_arg8 : DevRef τ sig) :=
  Cert.ReadBack.WritesAt.keep (writesAt (F := F)) (Cert.ReadEnd.nk (by decide)) V

/-- Argument 9 is written by no operation. -/
theorem keep_arg9 (V : Valuation τ sig (Elt F)) :
    after (ops (F := F)) V (Proc.devRef .tc main_arg9 : DevRef τ sig) = V (Proc.devRef .tc main_arg9 : DevRef τ sig) :=
  Cert.ReadBack.WritesAt.keep (writesAt (F := F)) (Cert.ReadEnd.nk (by decide)) V

/-- Argument 10 is written by no operation. -/
theorem keep_arg10 (V : Valuation τ sig (Elt F)) :
    after (ops (F := F)) V (Proc.devRef .tc main_arg10 : DevRef τ sig) = V (Proc.devRef .tc main_arg10 : DevRef τ sig) :=
  Cert.ReadBack.WritesAt.keep (writesAt (F := F)) (Cert.ReadEnd.nk (by decide)) V

/-- Argument 11 is written by no operation. -/
theorem keep_arg11 (V : Valuation τ sig (Elt F)) :
    after (ops (F := F)) V (Proc.devRef .tc main_arg11 : DevRef τ sig) = V (Proc.devRef .tc main_arg11 : DevRef τ sig) :=
  Cert.ReadBack.WritesAt.keep (writesAt (F := F)) (Cert.ReadEnd.nk (by decide)) V

/-- Argument 12 is written by no operation. -/
theorem keep_arg12 (V : Valuation τ sig (Elt F)) :
    after (ops (F := F)) V (Proc.devRef .tc main_arg12 : DevRef τ sig) = V (Proc.devRef .tc main_arg12 : DevRef τ sig) :=
  Cert.ReadBack.WritesAt.keep (writesAt (F := F)) (Cert.ReadEnd.nk (by decide)) V

/-- The function runs and its argument arrays end unchanged. -/
theorem frame : Cert.frame_ReferenceIdeal := fun m g _ =>
  (θ_run (defs (F := Ideal)) _ _).mono (fun _ h c =>
    ⟨(h c main_arg0).trans (keep_arg0 _),
     (h c main_arg1).trans (keep_arg1 _),
     (h c main_arg2).trans (keep_arg2 _),
     (h c main_arg3).trans (keep_arg3 _),
     (h c main_arg4).trans (keep_arg4 _),
     (h c main_arg5).trans (keep_arg5 _),
     (h c main_arg6).trans (keep_arg6 _),
     (h c main_arg7).trans (keep_arg7 _),
     (h c main_arg8).trans (keep_arg8 _),
     (h c main_arg9).trans (keep_arg9 _),
     (h c main_arg10).trans (keep_arg10 _),
     (h c main_arg11).trans (keep_arg11 _),
     (h c main_arg12).trans (keep_arg12 _)⟩)
    (run (F := Ideal) m g)

end Cert.ReferenceIdeal.RefValue

end
-- ==== Proof.RefEnd0.lean ====
/-
  The contents of every buffer at the END of the reference function, as a valuation E, and the arguments in it.

  E is the fold of the function's operations over the starting contents V.  An argument array is written by no
  operation, so E holds V there.  The modules that follow read each operation back against E: since every buffer is
  written once, the buffer an operation writes holds at the end that operation's function of what its operands hold at
  the end.
-/
import proofs.«169947_j35682588295463_2_alg».proof.Proof.RefOps
import proofs.«169947_j35682588295463_2_alg».proof.Proof.LibReadEnd
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable (V : Valuation τ sig (Elt Ideal))

/-- The buffers' contents at the end of the function run from contents V. -/
def E : Valuation τ sig (Elt Ideal) := after (ops (F := Ideal)) V

/-- Nothing runs after the function: E is the contents after its operations, on every buffer. -/
theorem E_T : ∀ r : Ref sig .tc, r ∉ ([] : List (Ref sig .tc)) → E V (Proc.devRef .tc r) = after (ops (F := Ideal)) V (Proc.devRef .tc r) :=
  fun _ _ => rfl

theorem e_main_arg0 : E V (Proc.devRef .tc main_arg0 : DevRef τ sig) = V (Proc.devRef .tc main_arg0 : DevRef τ sig) :=
  Cert.ReadBack.WritesAt.keep (writesAt (F := Ideal)) (Cert.ReadEnd.nk (by decide)) V

theorem e_main_arg1 : E V (Proc.devRef .tc main_arg1 : DevRef τ sig) = V (Proc.devRef .tc main_arg1 : DevRef τ sig) :=
  Cert.ReadBack.WritesAt.keep (writesAt (F := Ideal)) (Cert.ReadEnd.nk (by decide)) V

theorem e_main_arg2 : E V (Proc.devRef .tc main_arg2 : DevRef τ sig) = V (Proc.devRef .tc main_arg2 : DevRef τ sig) :=
  Cert.ReadBack.WritesAt.keep (writesAt (F := Ideal)) (Cert.ReadEnd.nk (by decide)) V

theorem e_main_arg3 : E V (Proc.devRef .tc main_arg3 : DevRef τ sig) = V (Proc.devRef .tc main_arg3 : DevRef τ sig) :=
  Cert.ReadBack.WritesAt.keep (writesAt (F := Ideal)) (Cert.ReadEnd.nk (by decide)) V

theorem e_main_arg4 : E V (Proc.devRef .tc main_arg4 : DevRef τ sig) = V (Proc.devRef .tc main_arg4 : DevRef τ sig) :=
  Cert.ReadBack.WritesAt.keep (writesAt (F := Ideal)) (Cert.ReadEnd.nk (by decide)) V

theorem e_main_arg5 : E V (Proc.devRef .tc main_arg5 : DevRef τ sig) = V (Proc.devRef .tc main_arg5 : DevRef τ sig) :=
  Cert.ReadBack.WritesAt.keep (writesAt (F := Ideal)) (Cert.ReadEnd.nk (by decide)) V

theorem e_main_arg6 : E V (Proc.devRef .tc main_arg6 : DevRef τ sig) = V (Proc.devRef .tc main_arg6 : DevRef τ sig) :=
  Cert.ReadBack.WritesAt.keep (writesAt (F := Ideal)) (Cert.ReadEnd.nk (by decide)) V

theorem e_main_arg7 : E V (Proc.devRef .tc main_arg7 : DevRef τ sig) = V (Proc.devRef .tc main_arg7 : DevRef τ sig) :=
  Cert.ReadBack.WritesAt.keep (writesAt (F := Ideal)) (Cert.ReadEnd.nk (by decide)) V

theorem e_main_arg8 : E V (Proc.devRef .tc main_arg8 : DevRef τ sig) = V (Proc.devRef .tc main_arg8 : DevRef τ sig) :=
  Cert.ReadBack.WritesAt.keep (writesAt (F := Ideal)) (Cert.ReadEnd.nk (by decide)) V

theorem e_main_arg9 : E V (Proc.devRef .tc main_arg9 : DevRef τ sig) = V (Proc.devRef .tc main_arg9 : DevRef τ sig) :=
  Cert.ReadBack.WritesAt.keep (writesAt (F := Ideal)) (Cert.ReadEnd.nk (by decide)) V

theorem e_main_arg10 : E V (Proc.devRef .tc main_arg10 : DevRef τ sig) = V (Proc.devRef .tc main_arg10 : DevRef τ sig) :=
  Cert.ReadBack.WritesAt.keep (writesAt (F := Ideal)) (Cert.ReadEnd.nk (by decide)) V

theorem e_main_arg11 : E V (Proc.devRef .tc main_arg11 : DevRef τ sig) = V (Proc.devRef .tc main_arg11 : DevRef τ sig) :=
  Cert.ReadBack.WritesAt.keep (writesAt (F := Ideal)) (Cert.ReadEnd.nk (by decide)) V

theorem e_main_arg12 : E V (Proc.devRef .tc main_arg12 : DevRef τ sig) = V (Proc.devRef .tc main_arg12 : DevRef τ sig) :=
  Cert.ReadBack.WritesAt.keep (writesAt (F := Ideal)) (Cert.ReadEnd.nk (by decide)) V

end Cert.ReferenceIdeal.RefValue

end
-- ==== Proof.RefEnd2.lean ====
/-
  The operations of the cuboid perceptron and of the repeated 3×3 identity read back at the end of the function: one
  equation per operation.
-/
import proofs.«169947_j35682588295463_2_alg».proof.Proof.RefEnd0
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable (V : Valuation τ sig (Elt Ideal))

theorem e_main_v21 : E V (Proc.devRef .tc main_v21 : DevRef τ sig) = ((fun l r => Host.dotGeneral (F := Ideal) (φ₁ := .f32) (φ₂ := .f32) dot_S4096x128_S128x256_S4096x256_1_0_0_1_n_n none l r) : (⟨S4096x128, .f32⟩ : BufTy).Contents (Elt Ideal) → (⟨S128x256, .f32⟩ : BufTy).Contents (Elt Ideal) → (⟨S4096x256, .f32⟩ : BufTy).Contents (Elt Ideal)) (E V (Proc.devRef .tc main_arg0 : DevRef τ sig)) (E V (Proc.devRef .tc main_arg7 : DevRef τ sig)) :=
  Cert.ReadEnd.end2 (writesAt (F := Ideal)) V (E V) [] (E_T V) 37 _ _ _ _ _ _ _ rfl (Cert.ReadEnd.nk (by decide)) (Cert.ReadEnd.nk (by decide)) (Cert.ReadEnd.nk (by decide))

theorem e_main_v22 : E V (Proc.devRef .tc main_v22 : DevRef τ sig) = ((broadcastInDim S1x256 ![1] bcast_S256_S1x256_1) : (⟨S256, .f32⟩ : BufTy).Contents (Elt Ideal) → (⟨S1x256, .f32⟩ : BufTy).Contents (Elt Ideal)) (E V (Proc.devRef .tc main_arg8 : DevRef τ sig)) :=
  Cert.ReadEnd.end1 (writesAt (F := Ideal)) V (E V) [] (E_T V) 38 _ _ _ _ _ rfl (Cert.ReadEnd.nk (by decide)) (Cert.ReadEnd.nk (by decide))

theorem e_main_v23 : E V (Proc.devRef .tc main_v23 : DevRef τ sig) = ((broadcastInDim S4096x256 ![0, 1] bcast_S1x256_S4096x256_0_1) : (⟨S1x256, .f32⟩ : BufTy).Contents (Elt Ideal) → (⟨S4096x256, .f32⟩ : BufTy).Contents (Elt Ideal)) (E V (Proc.devRef .tc main_v22 : DevRef τ sig)) :=
  Cert.ReadEnd.end1 (writesAt (F := Ideal)) V (E V) [] (E_T V) 39 _ _ _ _ _ rfl (Cert.ReadEnd.nk (by decide)) (Cert.ReadEnd.nk (by decide))

theorem e_main_v24 : E V (Proc.devRef .tc main_v24 : DevRef τ sig) = (addf (F := Ideal) (φ := .f32) : (⟨S4096x256, .f32⟩ : BufTy).Contents (Elt Ideal) → (⟨S4096x256, .f32⟩ : BufTy).Contents (Elt Ideal) → (⟨S4096x256, .f32⟩ : BufTy).Contents (Elt Ideal)) (E V (Proc.devRef .tc main_v21 : DevRef τ sig)) (E V (Proc.devRef .tc main_v23 : DevRef τ sig)) :=
  Cert.ReadEnd.end2 (writesAt (F := Ideal)) V (E V) [] (E_T V) 40 _ _ _ _ _ _ _ rfl (Cert.ReadEnd.nk (by decide)) (Cert.ReadEnd.nk (by decide)) (Cert.ReadEnd.nk (by decide))

theorem e_main_cst_3 : E V (Proc.devRef .tc main_cst_3 : DevRef τ sig) = ((constant (F := Ideal) S_ .f32 0x3C23D70A#32) : (⟨S_, .f32⟩ : BufTy).Contents (Elt Ideal)) :=
  Cert.ReadEnd.end0 (writesAt (F := Ideal)) V (E V) [] (E_T V) 41 _ _ _ rfl (Cert.ReadEnd.nk (by decide))

theorem e_main_call2_cst : E V (Proc.devRef .tc main_call2_cst : DevRef τ sig) = ((constant (F := Ideal) S_ .f32 0x00000000#32) : (⟨S_, .f32⟩ : BufTy).Contents (Elt Ideal)) :=
  Cert.ReadEnd.end0 (writesAt (F := Ideal)) V (E V) [] (E_T V) 42 _ _ _ rfl (Cert.ReadEnd.nk (by decide))

theorem e_main_call2_v0 : E V (Proc.devRef .tc main_call2_v0 : DevRef τ sig) = ((broadcastInDim S4096x256 ![] bcast_S_S4096x256) : (⟨S_, .f32⟩ : BufTy).Contents (Elt Ideal) → (⟨S4096x256, .f32⟩ : BufTy).Contents (Elt Ideal)) (E V (Proc.devRef .tc main_call2_cst : DevRef τ sig)) :=
  Cert.ReadEnd.end1 (writesAt (F := Ideal)) V (E V) [] (E_T V) 43 _ _ _ _ _ rfl (Cert.ReadEnd.nk (by decide)) (Cert.ReadEnd.nk (by decide))

theorem e_main_call2_v1 : E V (Proc.devRef .tc main_call2_v1 : DevRef τ sig) = ((cmpf (F := Ideal) (φ := .f32) .oge) : (⟨S4096x256, .f32⟩ : BufTy).Contents (Elt Ideal) → (⟨S4096x256, .f32⟩ : BufTy).Contents (Elt Ideal) → (⟨S4096x256, .i1⟩ : BufTy).Contents (Elt Ideal)) (E V (Proc.devRef .tc main_v24 : DevRef τ sig)) (E V (Proc.devRef .tc main_call2_v0 : DevRef τ sig)) :=
  Cert.ReadEnd.end2 (writesAt (F := Ideal)) V (E V) [] (E_T V) 44 _ _ _ _ _ _ _ rfl (Cert.ReadEnd.nk (by decide)) (Cert.ReadEnd.nk (by decide)) (Cert.ReadEnd.nk (by decide))

theorem e_main_call2_v2 : E V (Proc.devRef .tc main_call2_v2 : DevRef τ sig) = (id : (⟨S_, .f32⟩ : BufTy).Contents (Elt Ideal) → (⟨S_, .f32⟩ : BufTy).Contents (Elt Ideal)) (E V (Proc.devRef .tc main_cst_3 : DevRef τ sig)) :=
  Cert.ReadEnd.end1 (writesAt (F := Ideal)) V (E V) [] (E_T V) 45 _ _ _ _ _ rfl (Cert.ReadEnd.nk (by decide)) (Cert.ReadEnd.nk (by decide))

theorem e_main_call2_v3 : E V (Proc.devRef .tc main_call2_v3 : DevRef τ sig) = ((broadcastInDim S4096x256 ![] bcast_S_S4096x256) : (⟨S_, .f32⟩ : BufTy).Contents (Elt Ideal) → (⟨S4096x256, .f32⟩ : BufTy).Contents (Elt Ideal)) (E V (Proc.devRef .tc main_call2_v2 : DevRef τ sig)) :=
  Cert.ReadEnd.end1 (writesAt (F := Ideal)) V (E V) [] (E_T V) 46 _ _ _ _ _ rfl (Cert.ReadEnd.nk (by decide)) (Cert.ReadEnd.nk (by decide))

theorem e_main_call2_v4 : E V (Proc.devRef .tc main_call2_v4 : DevRef τ sig) = (mulf (F := Ideal) (φ := .f32) : (⟨S4096x256, .f32⟩ : BufTy).Contents (Elt Ideal) → (⟨S4096x256, .f32⟩ : BufTy).Contents (Elt Ideal) → (⟨S4096x256, .f32⟩ : BufTy).Contents (Elt Ideal)) (E V (Proc.devRef .tc main_call2_v3 : DevRef τ sig)) (E V (Proc.devRef .tc main_v24 : DevRef τ sig)) :=
  Cert.ReadEnd.end2 (writesAt (F := Ideal)) V (E V) [] (E_T V) 47 _ _ _ _ _ _ _ rfl (Cert.ReadEnd.nk (by decide)) (Cert.ReadEnd.nk (by decide)) (Cert.ReadEnd.nk (by decide))

theorem e_main_v25 : E V (Proc.devRef .tc main_v25 : DevRef τ sig) = (select : (⟨S4096x256, .i1⟩ : BufTy).Contents (Elt Ideal) → (⟨S4096x256, .f32⟩ : BufTy).Contents (Elt Ideal) → (⟨S4096x256, .f32⟩ : BufTy).Contents (Elt Ideal) → (⟨S4096x256, .f32⟩ : BufTy).Contents (Elt Ideal)) (E V (Proc.devRef .tc main_call2_v1 : DevRef τ sig)) (E V (Proc.devRef .tc main_v24 : DevRef τ sig)) (E V (Proc.devRef .tc main_call2_v4 : DevRef τ sig)) :=
  Cert.ReadEnd.end3 (writesAt (F := Ideal)) V (E V) [] (E_T V) 48 _ _ _ _ _ _ _ _ _ rfl (Cert.ReadEnd.nk (by decide)) (Cert.ReadEnd.nk (by decide)) (Cert.ReadEnd.nk (by decide)) (Cert.ReadEnd.nk (by decide))

theorem e_main_v26 : E V (Proc.devRef .tc main_v26 : DevRef τ sig) = ((fun l r => Host.dotGeneral (F := Ideal) (φ₁ := .f32) (φ₂ := .f32) dot_S4096x256_S256x256_S4096x256_1_0_0_1_n_n none l r) : (⟨S4096x256, .f32⟩ : BufTy).Contents (Elt Ideal) → (⟨S256x256, .f32⟩ : BufTy).Contents (Elt Ideal) → (⟨S4096x256, .f32⟩ : BufTy).Contents (Elt Ideal)) (E V (Proc.devRef .tc main_v25 : DevRef τ sig)) (E V (Proc.devRef .tc main_arg9 : DevRef τ sig)) :=
  Cert.ReadEnd.end2 (writesAt (F := Ideal)) V (E V) [] (E_T V) 49 _ _ _ _ _ _ _ rfl (Cert.ReadEnd.nk (by decide)) (Cert.ReadEnd.nk (by decide)) (Cert.ReadEnd.nk (by decide))

theorem e_main_v27 : E V (Proc.devRef .tc main_v27 : DevRef τ sig) = ((broadcastInDim S1x256 ![1] bcast_S256_S1x256_1) : (⟨S256, .f32⟩ : BufTy).Contents (Elt Ideal) → (⟨S1x256, .f32⟩ : BufTy).Contents (Elt Ideal)) (E V (Proc.devRef .tc main_arg10 : DevRef τ sig)) :=
  Cert.ReadEnd.end1 (writesAt (F := Ideal)) V (E V) [] (E_T V) 50 _ _ _ _ _ rfl (Cert.ReadEnd.nk (by decide)) (Cert.ReadEnd.nk (by decide))

theorem e_main_v28 : E V (Proc.devRef .tc main_v28 : DevRef τ sig) = ((broadcastInDim S4096x256 ![0, 1] bcast_S1x256_S4096x256_0_1) : (⟨S1x256, .f32⟩ : BufTy).Contents (Elt Ideal) → (⟨S4096x256, .f32⟩ : BufTy).Contents (Elt Ideal)) (E V (Proc.devRef .tc main_v27 : DevRef τ sig)) :=
  Cert.ReadEnd.end1 (writesAt (F := Ideal)) V (E V) [] (E_T V) 51 _ _ _ _ _ rfl (Cert.ReadEnd.nk (by decide)) (Cert.ReadEnd.nk (by decide))

theorem e_main_v29 : E V (Proc.devRef .tc main_v29 : DevRef τ sig) = (addf (F := Ideal) (φ := .f32) : (⟨S4096x256, .f32⟩ : BufTy).Contents (Elt Ideal) → (⟨S4096x256, .f32⟩ : BufTy).Contents (Elt Ideal) → (⟨S4096x256, .f32⟩ : BufTy).Contents (Elt Ideal)) (E V (Proc.devRef .tc main_v26 : DevRef τ sig)) (E V (Proc.devRef .tc main_v28 : DevRef τ sig)) :=
  Cert.ReadEnd.end2 (writesAt (F := Ideal)) V (E V) [] (E_T V) 52 _ _ _ _ _ _ _ rfl (Cert.ReadEnd.nk (by decide)) (Cert.ReadEnd.nk (by decide)) (Cert.ReadEnd.nk (by decide))

theorem e_main_cst_4 : E V (Proc.devRef .tc main_cst_4 : DevRef τ sig) = ((constant (F := Ideal) S_ .f32 0x3C23D70A#32) : (⟨S_, .f32⟩ : BufTy).Contents (Elt Ideal)) :=
  Cert.ReadEnd.end0 (writesAt (F := Ideal)) V (E V) [] (E_T V) 53 _ _ _ rfl (Cert.ReadEnd.nk (by decide))

theorem e_main_call3_cst : E V (Proc.devRef .tc main_call3_cst : DevRef τ sig) = ((constant (F := Ideal) S_ .f32 0x00000000#32) : (⟨S_, .f32⟩ : BufTy).Contents (Elt Ideal)) :=
  Cert.ReadEnd.end0 (writesAt (F := Ideal)) V (E V) [] (E_T V) 54 _ _ _ rfl (Cert.ReadEnd.nk (by decide))

theorem e_main_call3_v0 : E V (Proc.devRef .tc main_call3_v0 : DevRef τ sig) = ((broadcastInDim S4096x256 ![] bcast_S_S4096x256) : (⟨S_, .f32⟩ : BufTy).Contents (Elt Ideal) → (⟨S4096x256, .f32⟩ : BufTy).Contents (Elt Ideal)) (E V (Proc.devRef .tc main_call3_cst : DevRef τ sig)) :=
  Cert.ReadEnd.end1 (writesAt (F := Ideal)) V (E V) [] (E_T V) 55 _ _ _ _ _ rfl (Cert.ReadEnd.nk (by decide)) (Cert.ReadEnd.nk (by decide))

theorem e_main_call3_v1 : E V (Proc.devRef .tc main_call3_v1 : DevRef τ sig) = ((cmpf (F := Ideal) (φ := .f32) .oge) : (⟨S4096x256, .f32⟩ : BufTy).Contents (Elt Ideal) → (⟨S4096x256, .f32⟩ : BufTy).Contents (Elt Ideal) → (⟨S4096x256, .i1⟩ : BufTy).Contents (Elt Ideal)) (E V (Proc.devRef .tc main_v29 : DevRef τ sig)) (E V (Proc.devRef .tc main_call3_v0 : DevRef τ sig)) :=
  Cert.ReadEnd.end2 (writesAt (F := Ideal)) V (E V) [] (E_T V) 56 _ _ _ _ _ _ _ rfl (Cert.ReadEnd.nk (by decide)) (Cert.ReadEnd.nk (by decide)) (Cert.ReadEnd.nk (by decide))

theorem e_main_call3_v2 : E V (Proc.devRef .tc main_call3_v2 : DevRef τ sig) = (id : (⟨S_, .f32⟩ : BufTy).Contents (Elt Ideal) → (⟨S_, .f32⟩ : BufTy).Contents (Elt Ideal)) (E V (Proc.devRef .tc main_cst_4 : DevRef τ sig)) :=
  Cert.ReadEnd.end1 (writesAt (F := Ideal)) V (E V) [] (E_T V) 57 _ _ _ _ _ rfl (Cert.ReadEnd.nk (by decide)) (Cert.ReadEnd.nk (by decide))

theorem e_main_call3_v3 : E V (Proc.devRef .tc main_call3_v3 : DevRef τ sig) = ((broadcastInDim S4096x256 ![] bcast_S_S4096x256) : (⟨S_, .f32⟩ : BufTy).Contents (Elt Ideal) → (⟨S4096x256, .f32⟩ : BufTy).Contents (Elt Ideal)) (E V (Proc.devRef .tc main_call3_v2 : DevRef τ sig)) :=
  Cert.ReadEnd.end1 (writesAt (F := Ideal)) V (E V) [] (E_T V) 58 _ _ _ _ _ rfl (Cert.ReadEnd.nk (by decide)) (Cert.ReadEnd.nk (by decide))

theorem e_main_call3_v4 : E V (Proc.devRef .tc main_call3_v4 : DevRef τ sig) = (mulf (F := Ideal) (φ := .f32) : (⟨S4096x256, .f32⟩ : BufTy).Contents (Elt Ideal) → (⟨S4096x256, .f32⟩ : BufTy).Contents (Elt Ideal) → (⟨S4096x256, .f32⟩ : BufTy).Contents (Elt Ideal)) (E V (Proc.devRef .tc main_call3_v3 : DevRef τ sig)) (E V (Proc.devRef .tc main_v29 : DevRef τ sig)) :=
  Cert.ReadEnd.end2 (writesAt (F := Ideal)) V (E V) [] (E_T V) 59 _ _ _ _ _ _ _ rfl (Cert.ReadEnd.nk (by decide)) (Cert.ReadEnd.nk (by decide)) (Cert.ReadEnd.nk (by decide))

theorem e_main_v30 : E V (Proc.devRef .tc main_v30 : DevRef τ sig) = (select : (⟨S4096x256, .i1⟩ : BufTy).Contents (Elt Ideal) → (⟨S4096x256, .f32⟩ : BufTy).Contents (Elt Ideal) → (⟨S4096x256, .f32⟩ : BufTy).Contents (Elt Ideal) → (⟨S4096x256, .f32⟩ : BufTy).Contents (Elt Ideal)) (E V (Proc.devRef .tc main_call3_v1 : DevRef τ sig)) (E V (Proc.devRef .tc main_v29 : DevRef τ sig)) (E V (Proc.devRef .tc main_call3_v4 : DevRef τ sig)) :=
  Cert.ReadEnd.end3 (writesAt (F := Ideal)) V (E V) [] (E_T V) 60 _ _ _ _ _ _ _ _ _ rfl (Cert.ReadEnd.nk (by decide)) (Cert.ReadEnd.nk (by decide)) (Cert.ReadEnd.nk (by decide)) (Cert.ReadEnd.nk (by decide))

theorem e_main_v31 : E V (Proc.devRef .tc main_v31 : DevRef τ sig) = ((fun l r => Host.dotGeneral (F := Ideal) (φ₁ := .f32) (φ₂ := .f32) dot_S4096x256_S256x3_S4096x3_1_0_0_1_n_n none l r) : (⟨S4096x256, .f32⟩ : BufTy).Contents (Elt Ideal) → (⟨S256x3, .f32⟩ : BufTy).Contents (Elt Ideal) → (⟨S4096x3, .f32⟩ : BufTy).Contents (Elt Ideal)) (E V (Proc.devRef .tc main_v30 : DevRef τ sig)) (E V (Proc.devRef .tc main_arg11 : DevRef τ sig)) :=
  Cert.ReadEnd.end2 (writesAt (F := Ideal)) V (E V) [] (E_T V) 61 _ _ _ _ _ _ _ rfl (Cert.ReadEnd.nk (by decide)) (Cert.ReadEnd.nk (by decide)) (Cert.ReadEnd.nk (by decide))

theorem e_main_v32 : E V (Proc.devRef .tc main_v32 : DevRef τ sig) = ((broadcastInDim S1x3 ![1] bcast_S3_S1x3_1) : (⟨S3, .f32⟩ : BufTy).Contents (Elt Ideal) → (⟨S1x3, .f32⟩ : BufTy).Contents (Elt Ideal)) (E V (Proc.devRef .tc main_arg12 : DevRef τ sig)) :=
  Cert.ReadEnd.end1 (writesAt (F := Ideal)) V (E V) [] (E_T V) 62 _ _ _ _ _ rfl (Cert.ReadEnd.nk (by decide)) (Cert.ReadEnd.nk (by decide))

theorem e_main_v33 : E V (Proc.devRef .tc main_v33 : DevRef τ sig) = ((broadcastInDim S4096x3 ![0, 1] bcast_S1x3_S4096x3_0_1) : (⟨S1x3, .f32⟩ : BufTy).Contents (Elt Ideal) → (⟨S4096x3, .f32⟩ : BufTy).Contents (Elt Ideal)) (E V (Proc.devRef .tc main_v32 : DevRef τ sig)) :=
  Cert.ReadEnd.end1 (writesAt (F := Ideal)) V (E V) [] (E_T V) 63 _ _ _ _ _ rfl (Cert.ReadEnd.nk (by decide)) (Cert.ReadEnd.nk (by decide))

theorem e_main_v34 : E V (Proc.devRef .tc main_v34 : DevRef τ sig) = (addf (F := Ideal) (φ := .f32) : (⟨S4096x3, .f32⟩ : BufTy).Contents (Elt Ideal) → (⟨S4096x3, .f32⟩ : BufTy).Contents (Elt Ideal) → (⟨S4096x3, .f32⟩ : BufTy).Contents (Elt Ideal)) (E V (Proc.devRef .tc main_v31 : DevRef τ sig)) (E V (Proc.devRef .tc main_v33 : DevRef τ sig)) :=
  Cert.ReadEnd.end2 (writesAt (F := Ideal)) V (E V) [] (E_T V) 64 _ _ _ _ _ _ _ rfl (Cert.ReadEnd.nk (by decide)) (Cert.ReadEnd.nk (by decide)) (Cert.ReadEnd.nk (by decide))

theorem e_main_v35 : E V (Proc.devRef .tc main_v35 : DevRef τ sig) = (Host.negf (F := Ideal) (φ := .f32) : (⟨S4096x3, .f32⟩ : BufTy).Contents (Elt Ideal) → (⟨S4096x3, .f32⟩ : BufTy).Contents (Elt Ideal)) (E V (Proc.devRef .tc main_v34 : DevRef τ sig)) :=
  Cert.ReadEnd.end1 (writesAt (F := Ideal)) V (E V) [] (E_T V) 65 _ _ _ _ _ rfl (Cert.ReadEnd.nk (by decide)) (Cert.ReadEnd.nk (by decide))

theorem e_main_v36 : E V (Proc.devRef .tc main_v36 : DevRef τ sig) = (Host.exp (F := Ideal) (φ := .f32) : (⟨S4096x3, .f32⟩ : BufTy).Contents (Elt Ideal) → (⟨S4096x3, .f32⟩ : BufTy).Contents (Elt Ideal)) (E V (Proc.devRef .tc main_v35 : DevRef τ sig)) :=
  Cert.ReadEnd.end1 (writesAt (F := Ideal)) V (E V) [] (E_T V) 66 _ _ _ _ _ rfl (Cert.ReadEnd.nk (by decide)) (Cert.ReadEnd.nk (by decide))

theorem e_main_cst_5 : E V (Proc.devRef .tc main_cst_5 : DevRef τ sig) = ((constant (F := Ideal) S_ .f32 0x3F800000#32) : (⟨S_, .f32⟩ : BufTy).Contents (Elt Ideal)) :=
  Cert.ReadEnd.end0 (writesAt (F := Ideal)) V (E V) [] (E_T V) 67 _ _ _ rfl (Cert.ReadEnd.nk (by decide))

theorem e_main_v37 : E V (Proc.devRef .tc main_v37 : DevRef τ sig) = ((broadcastInDim S4096x3 ![] bcast_S_S4096x3) : (⟨S_, .f32⟩ : BufTy).Contents (Elt Ideal) → (⟨S4096x3, .f32⟩ : BufTy).Contents (Elt Ideal)) (E V (Proc.devRef .tc main_cst_5 : DevRef τ sig)) :=
  Cert.ReadEnd.end1 (writesAt (F := Ideal)) V (E V) [] (E_T V) 68 _ _ _ _ _ rfl (Cert.ReadEnd.nk (by decide)) (Cert.ReadEnd.nk (by decide))

theorem e_main_v38 : E V (Proc.devRef .tc main_v38 : DevRef τ sig) = (addf (F := Ideal) (φ := .f32) : (⟨S4096x3, .f32⟩ : BufTy).Contents (Elt Ideal) → (⟨S4096x3, .f32⟩ : BufTy).Contents (Elt Ideal) → (⟨S4096x3, .f32⟩ : BufTy).Contents (Elt Ideal)) (E V (Proc.devRef .tc main_v37 : DevRef τ sig)) (E V (Proc.devRef .tc main_v36 : DevRef τ sig)) :=
  Cert.ReadEnd.end2 (writesAt (F := Ideal)) V (E V) [] (E_T V) 69 _ _ _ _ _ _ _ rfl (Cert.ReadEnd.nk (by decide)) (Cert.ReadEnd.nk (by decide)) (Cert.ReadEnd.nk (by decide))

theorem e_main_cst_6 : E V (Proc.devRef .tc main_cst_6 : DevRef τ sig) = ((constant (F := Ideal) S_ .f32 0x3F800000#32) : (⟨S_, .f32⟩ : BufTy).Contents (Elt Ideal)) :=
  Cert.ReadEnd.end0 (writesAt (F := Ideal)) V (E V) [] (E_T V) 70 _ _ _ rfl (Cert.ReadEnd.nk (by decide))

theorem e_main_v39 : E V (Proc.devRef .tc main_v39 : DevRef τ sig) = ((broadcastInDim S4096x3 ![] bcast_S_S4096x3) : (⟨S_, .f32⟩ : BufTy).Contents (Elt Ideal) → (⟨S4096x3, .f32⟩ : BufTy).Contents (Elt Ideal)) (E V (Proc.devRef .tc main_cst_6 : DevRef τ sig)) :=
  Cert.ReadEnd.end1 (writesAt (F := Ideal)) V (E V) [] (E_T V) 71 _ _ _ _ _ rfl (Cert.ReadEnd.nk (by decide)) (Cert.ReadEnd.nk (by decide))

theorem e_main_v40 : E V (Proc.devRef .tc main_v40 : DevRef τ sig) = (Host.divf (F := Ideal) (φ := .f32) : (⟨S4096x3, .f32⟩ : BufTy).Contents (Elt Ideal) → (⟨S4096x3, .f32⟩ : BufTy).Contents (Elt Ideal) → (⟨S4096x3, .f32⟩ : BufTy).Contents (Elt Ideal)) (E V (Proc.devRef .tc main_v39 : DevRef τ sig)) (E V (Proc.devRef .tc main_v38 : DevRef τ sig)) :=
  Cert.ReadEnd.end2 (writesAt (F := Ideal)) V (E V) [] (E_T V) 72 _ _ _ _ _ _ _ rfl (Cert.ReadEnd.nk (by decide)) (Cert.ReadEnd.nk (by decide)) (Cert.ReadEnd.nk (by decide))

theorem e_main_v41 : E V (Proc.devRef .tc main_v41 : DevRef τ sig) = ((iotaInDim S3x3 32 0) : (⟨S3x3, .i32⟩ : BufTy).Contents (Elt Ideal)) :=
  Cert.ReadEnd.end0 (writesAt (F := Ideal)) V (E V) [] (E_T V) 73 _ _ _ rfl (Cert.ReadEnd.nk (by decide))

theorem e_main_v42 : E V (Proc.devRef .tc main_v42 : DevRef τ sig) = ((iotaInDim S3x3 32 1) : (⟨S3x3, .i32⟩ : BufTy).Contents (Elt Ideal)) :=
  Cert.ReadEnd.end0 (writesAt (F := Ideal)) V (E V) [] (E_T V) 74 _ _ _ rfl (Cert.ReadEnd.nk (by decide))

theorem e_main_c : E V (Proc.devRef .tc main_c : DevRef τ sig) = ((constantI S_ 32 0#32) : (⟨S_, .i32⟩ : BufTy).Contents (Elt Ideal)) :=
  Cert.ReadEnd.end0 (writesAt (F := Ideal)) V (E V) [] (E_T V) 75 _ _ _ rfl (Cert.ReadEnd.nk (by decide))

theorem e_main_v43 : E V (Proc.devRef .tc main_v43 : DevRef τ sig) = ((broadcastInDim S3x3 ![] bcast_S_S3x3) : (⟨S_, .i32⟩ : BufTy).Contents (Elt Ideal) → (⟨S3x3, .i32⟩ : BufTy).Contents (Elt Ideal)) (E V (Proc.devRef .tc main_c : DevRef τ sig)) :=
  Cert.ReadEnd.end1 (writesAt (F := Ideal)) V (E V) [] (E_T V) 76 _ _ _ _ _ rfl (Cert.ReadEnd.nk (by decide)) (Cert.ReadEnd.nk (by decide))

theorem e_main_v44 : E V (Proc.devRef .tc main_v44 : DevRef τ sig) = (addi : (⟨S3x3, .i32⟩ : BufTy).Contents (Elt Ideal) → (⟨S3x3, .i32⟩ : BufTy).Contents (Elt Ideal) → (⟨S3x3, .i32⟩ : BufTy).Contents (Elt Ideal)) (E V (Proc.devRef .tc main_v41 : DevRef τ sig)) (E V (Proc.devRef .tc main_v43 : DevRef τ sig)) :=
  Cert.ReadEnd.end2 (writesAt (F := Ideal)) V (E V) [] (E_T V) 77 _ _ _ _ _ _ _ rfl (Cert.ReadEnd.nk (by decide)) (Cert.ReadEnd.nk (by decide)) (Cert.ReadEnd.nk (by decide))

theorem e_main_v45 : E V (Proc.devRef .tc main_v45 : DevRef τ sig) = ((cmpi .eq) : (⟨S3x3, .i32⟩ : BufTy).Contents (Elt Ideal) → (⟨S3x3, .i32⟩ : BufTy).Contents (Elt Ideal) → (⟨S3x3, .i1⟩ : BufTy).Contents (Elt Ideal)) (E V (Proc.devRef .tc main_v44 : DevRef τ sig)) (E V (Proc.devRef .tc main_v42 : DevRef τ sig)) :=
  Cert.ReadEnd.end2 (writesAt (F := Ideal)) V (E V) [] (E_T V) 78 _ _ _ _ _ _ _ rfl (Cert.ReadEnd.nk (by decide)) (Cert.ReadEnd.nk (by decide)) (Cert.ReadEnd.nk (by decide))

theorem e_main_v46 : E V (Proc.devRef .tc main_v46 : DevRef τ sig) = ((uitofp (F := Ideal) .f32) : (⟨S3x3, .i1⟩ : BufTy).Contents (Elt Ideal) → (⟨S3x3, .f32⟩ : BufTy).Contents (Elt Ideal)) (E V (Proc.devRef .tc main_v45 : DevRef τ sig)) :=
  Cert.ReadEnd.end1 (writesAt (F := Ideal)) V (E V) [] (E_T V) 79 _ _ _ _ _ rfl (Cert.ReadEnd.nk (by decide)) (Cert.ReadEnd.nk (by decide))

theorem e_main_v47 : E V (Proc.devRef .tc main_v47 : DevRef τ sig) = ((broadcastInDim S4096x3x3 ![1, 2] bcast_S3x3_S4096x3x3_1_2) : (⟨S3x3, .f32⟩ : BufTy).Contents (Elt Ideal) → (⟨S4096x3x3, .f32⟩ : BufTy).Contents (Elt Ideal)) (E V (Proc.devRef .tc main_v46 : DevRef τ sig)) :=
  Cert.ReadEnd.end1 (writesAt (F := Ideal)) V (E V) [] (E_T V) 80 _ _ _ _ _ rfl (Cert.ReadEnd.nk (by decide)) (Cert.ReadEnd.nk (by decide))

end Cert.ReferenceIdeal.RefValue

end
-- ==== Proof.RefEnd1.lean ====
/-
  The operations of the points perceptron (three dense layers, two leaky rectifiers, the logistic function, the
  reshape to three channels) read back at the end of the function: one equation per operation.
-/
import proofs.«169947_j35682588295463_2_alg».proof.Proof.RefEnd0
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable (V : Valuation τ sig (Elt Ideal))

theorem e_main_v0 : E V (Proc.devRef .tc main_v0 : DevRef τ sig) = ((fun l r => Host.dotGeneral (F := Ideal) (φ₁ := .f32) (φ₂ := .f32) dot_S4096x128_S128x256_S4096x256_1_0_0_1_n_n none l r) : (⟨S4096x128, .f32⟩ : BufTy).Contents (Elt Ideal) → (⟨S128x256, .f32⟩ : BufTy).Contents (Elt Ideal) → (⟨S4096x256, .f32⟩ : BufTy).Contents (Elt Ideal)) (E V (Proc.devRef .tc main_arg0 : DevRef τ sig)) (E V (Proc.devRef .tc main_arg1 : DevRef τ sig)) :=
  Cert.ReadEnd.end2 (writesAt (F := Ideal)) V (E V) [] (E_T V) 0 _ _ _ _ _ _ _ rfl (Cert.ReadEnd.nk (by decide)) (Cert.ReadEnd.nk (by decide)) (Cert.ReadEnd.nk (by decide))

theorem e_main_v1 : E V (Proc.devRef .tc main_v1 : DevRef τ sig) = ((broadcastInDim S1x256 ![1] bcast_S256_S1x256_1) : (⟨S256, .f32⟩ : BufTy).Contents (Elt Ideal) → (⟨S1x256, .f32⟩ : BufTy).Contents (Elt Ideal)) (E V (Proc.devRef .tc main_arg2 : DevRef τ sig)) :=
  Cert.ReadEnd.end1 (writesAt (F := Ideal)) V (E V) [] (E_T V) 1 _ _ _ _ _ rfl (Cert.ReadEnd.nk (by decide)) (Cert.ReadEnd.nk (by decide))

theorem e_main_v2 : E V (Proc.devRef .tc main_v2 : DevRef τ sig) = ((broadcastInDim S4096x256 ![0, 1] bcast_S1x256_S4096x256_0_1) : (⟨S1x256, .f32⟩ : BufTy).Contents (Elt Ideal) → (⟨S4096x256, .f32⟩ : BufTy).Contents (Elt Ideal)) (E V (Proc.devRef .tc main_v1 : DevRef τ sig)) :=
  Cert.ReadEnd.end1 (writesAt (F := Ideal)) V (E V) [] (E_T V) 2 _ _ _ _ _ rfl (Cert.ReadEnd.nk (by decide)) (Cert.ReadEnd.nk (by decide))

theorem e_main_v3 : E V (Proc.devRef .tc main_v3 : DevRef τ sig) = (addf (F := Ideal) (φ := .f32) : (⟨S4096x256, .f32⟩ : BufTy).Contents (Elt Ideal) → (⟨S4096x256, .f32⟩ : BufTy).Contents (Elt Ideal) → (⟨S4096x256, .f32⟩ : BufTy).Contents (Elt Ideal)) (E V (Proc.devRef .tc main_v0 : DevRef τ sig)) (E V (Proc.devRef .tc main_v2 : DevRef τ sig)) :=
  Cert.ReadEnd.end2 (writesAt (F := Ideal)) V (E V) [] (E_T V) 3 _ _ _ _ _ _ _ rfl (Cert.ReadEnd.nk (by decide)) (Cert.ReadEnd.nk (by decide)) (Cert.ReadEnd.nk (by decide))

theorem e_main_cst : E V (Proc.devRef .tc main_cst : DevRef τ sig) = ((constant (F := Ideal) S_ .f32 0x3C23D70A#32) : (⟨S_, .f32⟩ : BufTy).Contents (Elt Ideal)) :=
  Cert.ReadEnd.end0 (writesAt (F := Ideal)) V (E V) [] (E_T V) 4 _ _ _ rfl (Cert.ReadEnd.nk (by decide))

theorem e_main_call0_cst : E V (Proc.devRef .tc main_call0_cst : DevRef τ sig) = ((constant (F := Ideal) S_ .f32 0x00000000#32) : (⟨S_, .f32⟩ : BufTy).Contents (Elt Ideal)) :=
  Cert.ReadEnd.end0 (writesAt (F := Ideal)) V (E V) [] (E_T V) 5 _ _ _ rfl (Cert.ReadEnd.nk (by decide))

theorem e_main_call0_v0 : E V (Proc.devRef .tc main_call0_v0 : DevRef τ sig) = ((broadcastInDim S4096x256 ![] bcast_S_S4096x256) : (⟨S_, .f32⟩ : BufTy).Contents (Elt Ideal) → (⟨S4096x256, .f32⟩ : BufTy).Contents (Elt Ideal)) (E V (Proc.devRef .tc main_call0_cst : DevRef τ sig)) :=
  Cert.ReadEnd.end1 (writesAt (F := Ideal)) V (E V) [] (E_T V) 6 _ _ _ _ _ rfl (Cert.ReadEnd.nk (by decide)) (Cert.ReadEnd.nk (by decide))

theorem e_main_call0_v1 : E V (Proc.devRef .tc main_call0_v1 : DevRef τ sig) = ((cmpf (F := Ideal) (φ := .f32) .oge) : (⟨S4096x256, .f32⟩ : BufTy).Contents (Elt Ideal) → (⟨S4096x256, .f32⟩ : BufTy).Contents (Elt Ideal) → (⟨S4096x256, .i1⟩ : BufTy).Contents (Elt Ideal)) (E V (Proc.devRef .tc main_v3 : DevRef τ sig)) (E V (Proc.devRef .tc main_call0_v0 : DevRef τ sig)) :=
  Cert.ReadEnd.end2 (writesAt (F := Ideal)) V (E V) [] (E_T V) 7 _ _ _ _ _ _ _ rfl (Cert.ReadEnd.nk (by decide)) (Cert.ReadEnd.nk (by decide)) (Cert.ReadEnd.nk (by decide))

theorem e_main_call0_v2 : E V (Proc.devRef .tc main_call0_v2 : DevRef τ sig) = (id : (⟨S_, .f32⟩ : BufTy).Contents (Elt Ideal) → (⟨S_, .f32⟩ : BufTy).Contents (Elt Ideal)) (E V (Proc.devRef .tc main_cst : DevRef τ sig)) :=
  Cert.ReadEnd.end1 (writesAt (F := Ideal)) V (E V) [] (E_T V) 8 _ _ _ _ _ rfl (Cert.ReadEnd.nk (by decide)) (Cert.ReadEnd.nk (by decide))

theorem e_main_call0_v3 : E V (Proc.devRef .tc main_call0_v3 : DevRef τ sig) = ((broadcastInDim S4096x256 ![] bcast_S_S4096x256) : (⟨S_, .f32⟩ : BufTy).Contents (Elt Ideal) → (⟨S4096x256, .f32⟩ : BufTy).Contents (Elt Ideal)) (E V (Proc.devRef .tc main_call0_v2 : DevRef τ sig)) :=
  Cert.ReadEnd.end1 (writesAt (F := Ideal)) V (E V) [] (E_T V) 9 _ _ _ _ _ rfl (Cert.ReadEnd.nk (by decide)) (Cert.ReadEnd.nk (by decide))

theorem e_main_call0_v4 : E V (Proc.devRef .tc main_call0_v4 : DevRef τ sig) = (mulf (F := Ideal) (φ := .f32) : (⟨S4096x256, .f32⟩ : BufTy).Contents (Elt Ideal) → (⟨S4096x256, .f32⟩ : BufTy).Contents (Elt Ideal) → (⟨S4096x256, .f32⟩ : BufTy).Contents (Elt Ideal)) (E V (Proc.devRef .tc main_call0_v3 : DevRef τ sig)) (E V (Proc.devRef .tc main_v3 : DevRef τ sig)) :=
  Cert.ReadEnd.end2 (writesAt (F := Ideal)) V (E V) [] (E_T V) 10 _ _ _ _ _ _ _ rfl (Cert.ReadEnd.nk (by decide)) (Cert.ReadEnd.nk (by decide)) (Cert.ReadEnd.nk (by decide))

theorem e_main_v4 : E V (Proc.devRef .tc main_v4 : DevRef τ sig) = (select : (⟨S4096x256, .i1⟩ : BufTy).Contents (Elt Ideal) → (⟨S4096x256, .f32⟩ : BufTy).Contents (Elt Ideal) → (⟨S4096x256, .f32⟩ : BufTy).Contents (Elt Ideal) → (⟨S4096x256, .f32⟩ : BufTy).Contents (Elt Ideal)) (E V (Proc.devRef .tc main_call0_v1 : DevRef τ sig)) (E V (Proc.devRef .tc main_v3 : DevRef τ sig)) (E V (Proc.devRef .tc main_call0_v4 : DevRef τ sig)) :=
  Cert.ReadEnd.end3 (writesAt (F := Ideal)) V (E V) [] (E_T V) 11 _ _ _ _ _ _ _ _ _ rfl (Cert.ReadEnd.nk (by decide)) (Cert.ReadEnd.nk (by decide)) (Cert.ReadEnd.nk (by decide)) (Cert.ReadEnd.nk (by decide))

theorem e_main_v5 : E V (Proc.devRef .tc main_v5 : DevRef τ sig) = ((fun l r => Host.dotGeneral (F := Ideal) (φ₁ := .f32) (φ₂ := .f32) dot_S4096x256_S256x256_S4096x256_1_0_0_1_n_n none l r) : (⟨S4096x256, .f32⟩ : BufTy).Contents (Elt Ideal) → (⟨S256x256, .f32⟩ : BufTy).Contents (Elt Ideal) → (⟨S4096x256, .f32⟩ : BufTy).Contents (Elt Ideal)) (E V (Proc.devRef .tc main_v4 : DevRef τ sig)) (E V (Proc.devRef .tc main_arg3 : DevRef τ sig)) :=
  Cert.ReadEnd.end2 (writesAt (F := Ideal)) V (E V) [] (E_T V) 12 _ _ _ _ _ _ _ rfl (Cert.ReadEnd.nk (by decide)) (Cert.ReadEnd.nk (by decide)) (Cert.ReadEnd.nk (by decide))

theorem e_main_v6 : E V (Proc.devRef .tc main_v6 : DevRef τ sig) = ((broadcastInDim S1x256 ![1] bcast_S256_S1x256_1) : (⟨S256, .f32⟩ : BufTy).Contents (Elt Ideal) → (⟨S1x256, .f32⟩ : BufTy).Contents (Elt Ideal)) (E V (Proc.devRef .tc main_arg4 : DevRef τ sig)) :=
  Cert.ReadEnd.end1 (writesAt (F := Ideal)) V (E V) [] (E_T V) 13 _ _ _ _ _ rfl (Cert.ReadEnd.nk (by decide)) (Cert.ReadEnd.nk (by decide))

theorem e_main_v7 : E V (Proc.devRef .tc main_v7 : DevRef τ sig) = ((broadcastInDim S4096x256 ![0, 1] bcast_S1x256_S4096x256_0_1) : (⟨S1x256, .f32⟩ : BufTy).Contents (Elt Ideal) → (⟨S4096x256, .f32⟩ : BufTy).Contents (Elt Ideal)) (E V (Proc.devRef .tc main_v6 : DevRef τ sig)) :=
  Cert.ReadEnd.end1 (writesAt (F := Ideal)) V (E V) [] (E_T V) 14 _ _ _ _ _ rfl (Cert.ReadEnd.nk (by decide)) (Cert.ReadEnd.nk (by decide))

theorem e_main_v8 : E V (Proc.devRef .tc main_v8 : DevRef τ sig) = (addf (F := Ideal) (φ := .f32) : (⟨S4096x256, .f32⟩ : BufTy).Contents (Elt Ideal) → (⟨S4096x256, .f32⟩ : BufTy).Contents (Elt Ideal) → (⟨S4096x256, .f32⟩ : BufTy).Contents (Elt Ideal)) (E V (Proc.devRef .tc main_v5 : DevRef τ sig)) (E V (Proc.devRef .tc main_v7 : DevRef τ sig)) :=
  Cert.ReadEnd.end2 (writesAt (F := Ideal)) V (E V) [] (E_T V) 15 _ _ _ _ _ _ _ rfl (Cert.ReadEnd.nk (by decide)) (Cert.ReadEnd.nk (by decide)) (Cert.ReadEnd.nk (by decide))

theorem e_main_cst_0 : E V (Proc.devRef .tc main_cst_0 : DevRef τ sig) = ((constant (F := Ideal) S_ .f32 0x3C23D70A#32) : (⟨S_, .f32⟩ : BufTy).Contents (Elt Ideal)) :=
  Cert.ReadEnd.end0 (writesAt (F := Ideal)) V (E V) [] (E_T V) 16 _ _ _ rfl (Cert.ReadEnd.nk (by decide))

theorem e_main_call1_cst : E V (Proc.devRef .tc main_call1_cst : DevRef τ sig) = ((constant (F := Ideal) S_ .f32 0x00000000#32) : (⟨S_, .f32⟩ : BufTy).Contents (Elt Ideal)) :=
  Cert.ReadEnd.end0 (writesAt (F := Ideal)) V (E V) [] (E_T V) 17 _ _ _ rfl (Cert.ReadEnd.nk (by decide))

theorem e_main_call1_v0 : E V (Proc.devRef .tc main_call1_v0 : DevRef τ sig) = ((broadcastInDim S4096x256 ![] bcast_S_S4096x256) : (⟨S_, .f32⟩ : BufTy).Contents (Elt Ideal) → (⟨S4096x256, .f32⟩ : BufTy).Contents (Elt Ideal)) (E V (Proc.devRef .tc main_call1_cst : DevRef τ sig)) :=
  Cert.ReadEnd.end1 (writesAt (F := Ideal)) V (E V) [] (E_T V) 18 _ _ _ _ _ rfl (Cert.ReadEnd.nk (by decide)) (Cert.ReadEnd.nk (by decide))

theorem e_main_call1_v1 : E V (Proc.devRef .tc main_call1_v1 : DevRef τ sig) = ((cmpf (F := Ideal) (φ := .f32) .oge) : (⟨S4096x256, .f32⟩ : BufTy).Contents (Elt Ideal) → (⟨S4096x256, .f32⟩ : BufTy).Contents (Elt Ideal) → (⟨S4096x256, .i1⟩ : BufTy).Contents (Elt Ideal)) (E V (Proc.devRef .tc main_v8 : DevRef τ sig)) (E V (Proc.devRef .tc main_call1_v0 : DevRef τ sig)) :=
  Cert.ReadEnd.end2 (writesAt (F := Ideal)) V (E V) [] (E_T V) 19 _ _ _ _ _ _ _ rfl (Cert.ReadEnd.nk (by decide)) (Cert.ReadEnd.nk (by decide)) (Cert.ReadEnd.nk (by decide))

theorem e_main_call1_v2 : E V (Proc.devRef .tc main_call1_v2 : DevRef τ sig) = (id : (⟨S_, .f32⟩ : BufTy).Contents (Elt Ideal) → (⟨S_, .f32⟩ : BufTy).Contents (Elt Ideal)) (E V (Proc.devRef .tc main_cst_0 : DevRef τ sig)) :=
  Cert.ReadEnd.end1 (writesAt (F := Ideal)) V (E V) [] (E_T V) 20 _ _ _ _ _ rfl (Cert.ReadEnd.nk (by decide)) (Cert.ReadEnd.nk (by decide))

theorem e_main_call1_v3 : E V (Proc.devRef .tc main_call1_v3 : DevRef τ sig) = ((broadcastInDim S4096x256 ![] bcast_S_S4096x256) : (⟨S_, .f32⟩ : BufTy).Contents (Elt Ideal) → (⟨S4096x256, .f32⟩ : BufTy).Contents (Elt Ideal)) (E V (Proc.devRef .tc main_call1_v2 : DevRef τ sig)) :=
  Cert.ReadEnd.end1 (writesAt (F := Ideal)) V (E V) [] (E_T V) 21 _ _ _ _ _ rfl (Cert.ReadEnd.nk (by decide)) (Cert.ReadEnd.nk (by decide))

theorem e_main_call1_v4 : E V (Proc.devRef .tc main_call1_v4 : DevRef τ sig) = (mulf (F := Ideal) (φ := .f32) : (⟨S4096x256, .f32⟩ : BufTy).Contents (Elt Ideal) → (⟨S4096x256, .f32⟩ : BufTy).Contents (Elt Ideal) → (⟨S4096x256, .f32⟩ : BufTy).Contents (Elt Ideal)) (E V (Proc.devRef .tc main_call1_v3 : DevRef τ sig)) (E V (Proc.devRef .tc main_v8 : DevRef τ sig)) :=
  Cert.ReadEnd.end2 (writesAt (F := Ideal)) V (E V) [] (E_T V) 22 _ _ _ _ _ _ _ rfl (Cert.ReadEnd.nk (by decide)) (Cert.ReadEnd.nk (by decide)) (Cert.ReadEnd.nk (by decide))

theorem e_main_v9 : E V (Proc.devRef .tc main_v9 : DevRef τ sig) = (select : (⟨S4096x256, .i1⟩ : BufTy).Contents (Elt Ideal) → (⟨S4096x256, .f32⟩ : BufTy).Contents (Elt Ideal) → (⟨S4096x256, .f32⟩ : BufTy).Contents (Elt Ideal) → (⟨S4096x256, .f32⟩ : BufTy).Contents (Elt Ideal)) (E V (Proc.devRef .tc main_call1_v1 : DevRef τ sig)) (E V (Proc.devRef .tc main_v8 : DevRef τ sig)) (E V (Proc.devRef .tc main_call1_v4 : DevRef τ sig)) :=
  Cert.ReadEnd.end3 (writesAt (F := Ideal)) V (E V) [] (E_T V) 23 _ _ _ _ _ _ _ _ _ rfl (Cert.ReadEnd.nk (by decide)) (Cert.ReadEnd.nk (by decide)) (Cert.ReadEnd.nk (by decide)) (Cert.ReadEnd.nk (by decide))

theorem e_main_v10 : E V (Proc.devRef .tc main_v10 : DevRef τ sig) = ((fun l r => Host.dotGeneral (F := Ideal) (φ₁ := .f32) (φ₂ := .f32) dot_S4096x256_S256x6144_S4096x6144_1_0_0_1_n_n none l r) : (⟨S4096x256, .f32⟩ : BufTy).Contents (Elt Ideal) → (⟨S256x6144, .f32⟩ : BufTy).Contents (Elt Ideal) → (⟨S4096x6144, .f32⟩ : BufTy).Contents (Elt Ideal)) (E V (Proc.devRef .tc main_v9 : DevRef τ sig)) (E V (Proc.devRef .tc main_arg5 : DevRef τ sig)) :=
  Cert.ReadEnd.end2 (writesAt (F := Ideal)) V (E V) [] (E_T V) 24 _ _ _ _ _ _ _ rfl (Cert.ReadEnd.nk (by decide)) (Cert.ReadEnd.nk (by decide)) (Cert.ReadEnd.nk (by decide))

theorem e_main_v11 : E V (Proc.devRef .tc main_v11 : DevRef τ sig) = ((broadcastInDim S1x6144 ![1] bcast_S6144_S1x6144_1) : (⟨S6144, .f32⟩ : BufTy).Contents (Elt Ideal) → (⟨S1x6144, .f32⟩ : BufTy).Contents (Elt Ideal)) (E V (Proc.devRef .tc main_arg6 : DevRef τ sig)) :=
  Cert.ReadEnd.end1 (writesAt (F := Ideal)) V (E V) [] (E_T V) 25 _ _ _ _ _ rfl (Cert.ReadEnd.nk (by decide)) (Cert.ReadEnd.nk (by decide))

theorem e_main_v12 : E V (Proc.devRef .tc main_v12 : DevRef τ sig) = ((broadcastInDim S4096x6144 ![0, 1] bcast_S1x6144_S4096x6144_0_1) : (⟨S1x6144, .f32⟩ : BufTy).Contents (Elt Ideal) → (⟨S4096x6144, .f32⟩ : BufTy).Contents (Elt Ideal)) (E V (Proc.devRef .tc main_v11 : DevRef τ sig)) :=
  Cert.ReadEnd.end1 (writesAt (F := Ideal)) V (E V) [] (E_T V) 26 _ _ _ _ _ rfl (Cert.ReadEnd.nk (by decide)) (Cert.ReadEnd.nk (by decide))

theorem e_main_v13 : E V (Proc.devRef .tc main_v13 : DevRef τ sig) = (addf (F := Ideal) (φ := .f32) : (⟨S4096x6144, .f32⟩ : BufTy).Contents (Elt Ideal) → (⟨S4096x6144, .f32⟩ : BufTy).Contents (Elt Ideal) → (⟨S4096x6144, .f32⟩ : BufTy).Contents (Elt Ideal)) (E V (Proc.devRef .tc main_v10 : DevRef τ sig)) (E V (Proc.devRef .tc main_v12 : DevRef τ sig)) :=
  Cert.ReadEnd.end2 (writesAt (F := Ideal)) V (E V) [] (E_T V) 27 _ _ _ _ _ _ _ rfl (Cert.ReadEnd.nk (by decide)) (Cert.ReadEnd.nk (by decide)) (Cert.ReadEnd.nk (by decide))

theorem e_main_v14 : E V (Proc.devRef .tc main_v14 : DevRef τ sig) = (Host.negf (F := Ideal) (φ := .f32) : (⟨S4096x6144, .f32⟩ : BufTy).Contents (Elt Ideal) → (⟨S4096x6144, .f32⟩ : BufTy).Contents (Elt Ideal)) (E V (Proc.devRef .tc main_v13 : DevRef τ sig)) :=
  Cert.ReadEnd.end1 (writesAt (F := Ideal)) V (E V) [] (E_T V) 28 _ _ _ _ _ rfl (Cert.ReadEnd.nk (by decide)) (Cert.ReadEnd.nk (by decide))

theorem e_main_v15 : E V (Proc.devRef .tc main_v15 : DevRef τ sig) = (Host.exp (F := Ideal) (φ := .f32) : (⟨S4096x6144, .f32⟩ : BufTy).Contents (Elt Ideal) → (⟨S4096x6144, .f32⟩ : BufTy).Contents (Elt Ideal)) (E V (Proc.devRef .tc main_v14 : DevRef τ sig)) :=
  Cert.ReadEnd.end1 (writesAt (F := Ideal)) V (E V) [] (E_T V) 29 _ _ _ _ _ rfl (Cert.ReadEnd.nk (by decide)) (Cert.ReadEnd.nk (by decide))

theorem e_main_cst_1 : E V (Proc.devRef .tc main_cst_1 : DevRef τ sig) = ((constant (F := Ideal) S_ .f32 0x3F800000#32) : (⟨S_, .f32⟩ : BufTy).Contents (Elt Ideal)) :=
  Cert.ReadEnd.end0 (writesAt (F := Ideal)) V (E V) [] (E_T V) 30 _ _ _ rfl (Cert.ReadEnd.nk (by decide))

theorem e_main_v16 : E V (Proc.devRef .tc main_v16 : DevRef τ sig) = ((broadcastInDim S4096x6144 ![] bcast_S_S4096x6144) : (⟨S_, .f32⟩ : BufTy).Contents (Elt Ideal) → (⟨S4096x6144, .f32⟩ : BufTy).Contents (Elt Ideal)) (E V (Proc.devRef .tc main_cst_1 : DevRef τ sig)) :=
  Cert.ReadEnd.end1 (writesAt (F := Ideal)) V (E V) [] (E_T V) 31 _ _ _ _ _ rfl (Cert.ReadEnd.nk (by decide)) (Cert.ReadEnd.nk (by decide))

theorem e_main_v17 : E V (Proc.devRef .tc main_v17 : DevRef τ sig) = (addf (F := Ideal) (φ := .f32) : (⟨S4096x6144, .f32⟩ : BufTy).Contents (Elt Ideal) → (⟨S4096x6144, .f32⟩ : BufTy).Contents (Elt Ideal) → (⟨S4096x6144, .f32⟩ : BufTy).Contents (Elt Ideal)) (E V (Proc.devRef .tc main_v16 : DevRef τ sig)) (E V (Proc.devRef .tc main_v15 : DevRef τ sig)) :=
  Cert.ReadEnd.end2 (writesAt (F := Ideal)) V (E V) [] (E_T V) 32 _ _ _ _ _ _ _ rfl (Cert.ReadEnd.nk (by decide)) (Cert.ReadEnd.nk (by decide)) (Cert.ReadEnd.nk (by decide))

theorem e_main_cst_2 : E V (Proc.devRef .tc main_cst_2 : DevRef τ sig) = ((constant (F := Ideal) S_ .f32 0x3F800000#32) : (⟨S_, .f32⟩ : BufTy).Contents (Elt Ideal)) :=
  Cert.ReadEnd.end0 (writesAt (F := Ideal)) V (E V) [] (E_T V) 33 _ _ _ rfl (Cert.ReadEnd.nk (by decide))

theorem e_main_v18 : E V (Proc.devRef .tc main_v18 : DevRef τ sig) = ((broadcastInDim S4096x6144 ![] bcast_S_S4096x6144) : (⟨S_, .f32⟩ : BufTy).Contents (Elt Ideal) → (⟨S4096x6144, .f32⟩ : BufTy).Contents (Elt Ideal)) (E V (Proc.devRef .tc main_cst_2 : DevRef τ sig)) :=
  Cert.ReadEnd.end1 (writesAt (F := Ideal)) V (E V) [] (E_T V) 34 _ _ _ _ _ rfl (Cert.ReadEnd.nk (by decide)) (Cert.ReadEnd.nk (by decide))

theorem e_main_v19 : E V (Proc.devRef .tc main_v19 : DevRef τ sig) = (Host.divf (F := Ideal) (φ := .f32) : (⟨S4096x6144, .f32⟩ : BufTy).Contents (Elt Ideal) → (⟨S4096x6144, .f32⟩ : BufTy).Contents (Elt Ideal) → (⟨S4096x6144, .f32⟩ : BufTy).Contents (Elt Ideal)) (E V (Proc.devRef .tc main_v18 : DevRef τ sig)) (E V (Proc.devRef .tc main_v17 : DevRef τ sig)) :=
  Cert.ReadEnd.end2 (writesAt (F := Ideal)) V (E V) [] (E_T V) 35 _ _ _ _ _ _ _ rfl (Cert.ReadEnd.nk (by decide)) (Cert.ReadEnd.nk (by decide)) (Cert.ReadEnd.nk (by decide))

theorem e_main_v20 : E V (Proc.devRef .tc main_v20 : DevRef τ sig) = shapeCast S4096x3x2048 (E V (Proc.devRef .tc main_v19 : DevRef τ sig)) shapeCasts_S4096x6144_S4096x3x2048 :=
  Cert.ReadEnd.endReshape (writesAt (F := Ideal)) V (E V) [] (E_T V) 36 _ _ _ _ _ _ rfl (Cert.ReadEnd.nk (by decide)) (Cert.ReadEnd.nk (by decide))

end Cert.ReferenceIdeal.RefValue

end
-- ==== Proof.RefPure.lean ====
/-
  The reference's layers as pure functions of arrays, read at an index.

  A dense layer is the host's matrix product of a [a, n] array with a [n, b] array plus a bias of b entries repeated
  along the rows: at (r, c) it is the sum over k of X (r, k) · W (k, c), plus B c.  The leaky rectifier and the
  logistic function as the reference spells them (a comparison with a broadcast zero and a select; one over one plus
  the exponential of the negation) are pointwise, and at each index they are the specification's scalar functions.
-/
import proofs.«169947_j35682588295463_2_alg».proof.Proof.Spec
import proofs.«169947_j35682588295463_2_alg».proof.Proof.RefLaws
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.RefPure

open Idealize.ShloMosaic Idealize.ShloMosaic.ValueIdx Cert.Spec

/-- The host's product of a [a, n] array with a [n, b] array, at (r, c): the sum over the contracted coordinate. -/
theorem dot_plain_apply {a n b : ℕ}
    (wf : DotDims.WF (⟨2, ![a, n]⟩ : Shape) ⟨2, ![n, b]⟩ ⟨2, ![a, b]⟩ [1] [0] [0] [1] [] [])
    (L : FVec Ideal ⟨2, ![a, n]⟩ .f32) (R : FVec Ideal ⟨2, ![n, b]⟩ .f32) (r : Fin a) (c : Fin b) :
    Host.dotGeneral (F := Ideal) (⟨[1], [0], [0], [1], [], [], wf⟩ : DotDims (⟨2, ![a, n]⟩ : Shape) ⟨2, ![n, b]⟩ ⟨2, ![a, b]⟩) none L R (ix2 r c)
      = ∑ k : Fin n, L (ix2 r k) * R (ix2 k c) := by
  let d : DotDims (⟨2, ![a, n]⟩ : Shape) ⟨2, ![n, b]⟩ ⟨2, ![a, b]⟩ := ⟨[1], [0], [0], [1], [], [], wf⟩
  have hr : d.contr.rank = 1 := rfl
  have hs : d.contr.size ⟨0, by omega⟩ = n := rfl
  show FloatOps.dotGeneral d none .single L R (ix2 r c) = _
  rw [Ideal.dotGeneral_apply, ← Equiv.sum_comp (contrEquiv1 d n hr hs).symm]
  refine Finset.sum_congr rfl fun k _ => ?_
  have hl : d.lhsIdx (ix2 r c) ((contrEquiv1 d n hr hs).symm k) = ix2 r k := by
    funext x; apply Fin.ext
    match x with
    | ⟨0, _⟩ => rfl
    | ⟨1, _⟩ => exact (d.lhsIdx_val_of_single (cl := 1) rfl _ _).trans (contrEquiv1_symm_val d n hr hs k)
  have hR : d.rhsIdx (ix2 r c) ((contrEquiv1 d n hr hs).symm k) = ix2 k c := by
    funext x; apply Fin.ext
    match x with
    | ⟨0, _⟩ => exact (d.rhsIdx_val_of_single (cr := 0) rfl _ _).trans (contrEquiv1_symm_val d n hr hs k)
    | ⟨1, _⟩ => rfl
  rw [hl, hR]

/-- A bias of b entries made a row and repeated along a rows reads, at (r, c), entry c. -/
theorem bias_apply {α : Type} {a b : ℕ} (h1 : (⟨1, ![b]⟩ : Shape).BroadcastsInDim ⟨2, ![1, b]⟩ ![1])
    (h2 : (⟨2, ![1, b]⟩ : Shape).BroadcastsInDim ⟨2, ![a, b]⟩ ![0, 1]) (B : (⟨1, ![b]⟩ : Shape).Idx → α) (r : Fin a) (c : Fin b) :
    broadcastInDim ⟨2, ![a, b]⟩ ![0, 1] h2 (broadcastInDim ⟨2, ![1, b]⟩ ![1] h1 B) (ix2 r c) = B (ix1 c) := by
  rw [broadcastInDim_apply ![0, 1] h2 _ (ix2 r c) (ix2 (0 : Fin 1) c) (fun x => by
    match x with
    | ⟨0, _⟩ => rfl
    | ⟨1, _⟩ =>
      show c.val = if b = 1 then 0 else c.val
      split
      · have := c.isLt; omega
      · rfl)]
  exact broadcastInDim_apply ![1] h1 B (ix2 (0 : Fin 1) c) (ix1 c) (fun x => by
    match x with
    | ⟨0, _⟩ =>
      show c.val = if b = 1 then 0 else c.val
      split
      · have := c.isLt; omega
      · rfl)

/-- A dense layer at (r, c). -/
theorem dense_apply {a n b : ℕ}
    (wf : DotDims.WF (⟨2, ![a, n]⟩ : Shape) ⟨2, ![n, b]⟩ ⟨2, ![a, b]⟩ [1] [0] [0] [1] [] [])
    (h1 : (⟨1, ![b]⟩ : Shape).BroadcastsInDim ⟨2, ![1, b]⟩ ![1])
    (h2 : (⟨2, ![1, b]⟩ : Shape).BroadcastsInDim ⟨2, ![a, b]⟩ ![0, 1])
    (X : FVec Ideal ⟨2, ![a, n]⟩ .f32) (W : FVec Ideal ⟨2, ![n, b]⟩ .f32) (B : FVec Ideal ⟨1, ![b]⟩ .f32) (r : Fin a) (c : Fin b) :
    addf (F := Ideal) (Host.dotGeneral (F := Ideal) (⟨[1], [0], [0], [1], [], [], wf⟩ : DotDims (⟨2, ![a, n]⟩ : Shape) ⟨2, ![n, b]⟩ ⟨2, ![a, b]⟩) none X W)
        (broadcastInDim ⟨2, ![a, b]⟩ ![0, 1] h2 (broadcastInDim ⟨2, ![1, b]⟩ ![1] h1 B)) (ix2 r c)
      = dense (fun k => X (ix2 r k)) (fun k => W (ix2 k c)) (B (ix1 c)) := by
  show _ + _ = _
  rw [dot_plain_apply wf X W r c, bias_apply h1 h2 B r c]
  rfl

/-- The leaky rectifier as the reference spells it, at an index. -/
theorem lrelu_apply {s : Shape} (h : (⟨0, ![]⟩ : Shape).BroadcastsInDim s ![]) (x : FVec Ideal s .f32) (i : s.Idx) :
    select (cmpf (F := Ideal) .oge x (broadcastInDim s ![] h (constant (F := Ideal) ⟨0, ![]⟩ .f32 0x00000000#32))) x
        (mulf (F := Ideal) (broadcastInDim s ![] h (id (constant (F := Ideal) ⟨0, ![]⟩ .f32 0x3C23D70A#32))) x) i
      = lrelu (x i) := rfl

/-- The logistic function as the reference spells it, at an index. -/
theorem logistic_apply {s : Shape} (h : (⟨0, ![]⟩ : Shape).BroadcastsInDim s ![]) (x : FVec Ideal s .f32) (i : s.Idx) :
    Host.divf (F := Ideal) (broadcastInDim s ![] h (constant (F := Ideal) ⟨0, ![]⟩ .f32 0x3F800000#32))
        (addf (F := Ideal) (broadcastInDim s ![] h (constant (F := Ideal) ⟨0, ![]⟩ .f32 0x3F800000#32)) (Host.exp (F := Ideal) (Host.negf (F := Ideal) x))) i
      = Ideal.logistic (x i) := by
  show Ideal.div (Ideal.ofBits .f32 0x3F800000#32) (Ideal.ofBits .f32 0x3F800000#32 + Ideal.exp (-(x i))) = _
  rw [Cert.RefLaws.ofBits_one]
  rfl

end Cert.RefPure

end
-- ==== Proof.RefPoints.lean ====
/-
  The points perceptron of the reference, layer by layer at an index, and its result as the specification's function of
  the argument arrays: the flat 6144-wide row reshaped to three channels of 2048 points.
-/
import proofs.«169947_j35682588295463_2_alg».proof.Proof.RefEnd1
import proofs.«169947_j35682588295463_2_alg».proof.Proof.RefPure
import proofs.«169947_j35682588295463_2_alg».proof.Proof.RefDistPure

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.Spec

variable (V : Valuation τ sig (Elt Ideal))

/-! ## The points perceptron -/

/-- Its first layer before the rectifier, at (r, j). -/
theorem main_v3_at (r : Fin 4096) (j : Fin 256) :
    E V (Proc.devRef .tc main_v3 : DevRef τ sig) (ix2 r j) = dense (fun k => (V (Proc.devRef .tc main_arg0 : DevRef τ sig)) (ix2 r k)) (fun k => (V (Proc.devRef .tc main_arg1 : DevRef τ sig)) (ix2 k j)) ((V (Proc.devRef .tc main_arg2 : DevRef τ sig)) (ix1 j)) := by
  have h : E V (Proc.devRef .tc main_v3 : DevRef τ sig) = addf (F := Ideal) (φ := .f32) (Host.dotGeneral (F := Ideal) (φ₁ := .f32) (φ₂ := .f32) dot_S4096x128_S128x256_S4096x256_1_0_0_1_n_n none (V (Proc.devRef .tc main_arg0 : DevRef τ sig)) (V (Proc.devRef .tc main_arg1 : DevRef τ sig))) ((broadcastInDim S4096x256 ![0, 1] bcast_S1x256_S4096x256_0_1) ((broadcastInDim S1x256 ![1] bcast_S256_S1x256_1) (V (Proc.devRef .tc main_arg2 : DevRef τ sig)))) := by
    rw [e_main_v3, e_main_v2, e_main_v1, e_main_v0, e_main_arg0, e_main_arg1, e_main_arg2]
  rw [h]
  exact Cert.RefPure.dense_apply _ _ _ _ _ _ r j

/-- Its first hidden layer, at (r, j). -/
theorem main_v4_at (r : Fin 4096) (j : Fin 256) :
    E V (Proc.devRef .tc main_v4 : DevRef τ sig) (ix2 r j) = hid1 (fun k => (V (Proc.devRef .tc main_arg0 : DevRef τ sig)) (ix2 r k)) (fun k j => (V (Proc.devRef .tc main_arg1 : DevRef τ sig)) (ix2 k j)) (fun j => (V (Proc.devRef .tc main_arg2 : DevRef τ sig)) (ix1 j)) j := by
  have h : E V (Proc.devRef .tc main_v4 : DevRef τ sig) = select ((cmpf (F := Ideal) (φ := .f32) .oge) (E V (Proc.devRef .tc main_v3 : DevRef τ sig)) ((broadcastInDim S4096x256 ![] bcast_S_S4096x256) (constant (F := Ideal) S_ .f32 0x00000000#32))) (E V (Proc.devRef .tc main_v3 : DevRef τ sig)) (mulf (F := Ideal) (φ := .f32) ((broadcastInDim S4096x256 ![] bcast_S_S4096x256) (id (constant (F := Ideal) S_ .f32 0x3C23D70A#32))) (E V (Proc.devRef .tc main_v3 : DevRef τ sig))) := by
    rw [e_main_v4, e_main_call0_v4, e_main_call0_v3, e_main_call0_v2, e_main_call0_v1, e_main_call0_v0, e_main_call0_cst, e_main_cst]
  rw [h]
  refine (Cert.RefPure.lrelu_apply _ _ _).trans ?_
  rw [main_v3_at]
  rfl

/-- Its second layer before the rectifier, at (r, j). -/
theorem main_v8_at (r : Fin 4096) (j : Fin 256) :
    E V (Proc.devRef .tc main_v8 : DevRef τ sig) (ix2 r j) = dense (hid1 (fun k => (V (Proc.devRef .tc main_arg0 : DevRef τ sig)) (ix2 r k)) (fun k j => (V (Proc.devRef .tc main_arg1 : DevRef τ sig)) (ix2 k j)) (fun j => (V (Proc.devRef .tc main_arg2 : DevRef τ sig)) (ix1 j))) (fun k => (V (Proc.devRef .tc main_arg3 : DevRef τ sig)) (ix2 k j)) ((V (Proc.devRef .tc main_arg4 : DevRef τ sig)) (ix1 j)) := by
  have h : E V (Proc.devRef .tc main_v8 : DevRef τ sig) = addf (F := Ideal) (φ := .f32) (Host.dotGeneral (F := Ideal) (φ₁ := .f32) (φ₂ := .f32) dot_S4096x256_S256x256_S4096x256_1_0_0_1_n_n none (E V (Proc.devRef .tc main_v4 : DevRef τ sig)) (V (Proc.devRef .tc main_arg3 : DevRef τ sig))) ((broadcastInDim S4096x256 ![0, 1] bcast_S1x256_S4096x256_0_1) ((broadcastInDim S1x256 ![1] bcast_S256_S1x256_1) (V (Proc.devRef .tc main_arg4 : DevRef τ sig)))) := by
    rw [e_main_v8, e_main_v7, e_main_v6, e_main_v5, e_main_arg3, e_main_arg4]
  rw [h]
  refine (Cert.RefPure.dense_apply _ _ _ _ _ _ r j).trans ?_
  rw [show (fun k => E V (Proc.devRef .tc main_v4 : DevRef τ sig) (ix2 r k)) = hid1 (fun k => (V (Proc.devRef .tc main_arg0 : DevRef τ sig)) (ix2 r k)) (fun k j => (V (Proc.devRef .tc main_arg1 : DevRef τ sig)) (ix2 k j)) (fun j => (V (Proc.devRef .tc main_arg2 : DevRef τ sig)) (ix1 j)) from funext fun k => main_v4_at V r k]

/-- Its second hidden layer, at (r, j). -/
theorem main_v9_at (r : Fin 4096) (j : Fin 256) :
    E V (Proc.devRef .tc main_v9 : DevRef τ sig) (ix2 r j) = hid2 (fun k => (V (Proc.devRef .tc main_arg0 : DevRef τ sig)) (ix2 r k)) (fun k j => (V (Proc.devRef .tc main_arg1 : DevRef τ sig)) (ix2 k j)) (fun j => (V (Proc.devRef .tc main_arg2 : DevRef τ sig)) (ix1 j)) (fun k j => (V (Proc.devRef .tc main_arg3 : DevRef τ sig)) (ix2 k j)) (fun j => (V (Proc.devRef .tc main_arg4 : DevRef τ sig)) (ix1 j)) j := by
  have h : E V (Proc.devRef .tc main_v9 : DevRef τ sig) = select ((cmpf (F := Ideal) (φ := .f32) .oge) (E V (Proc.devRef .tc main_v8 : DevRef τ sig)) ((broadcastInDim S4096x256 ![] bcast_S_S4096x256) (constant (F := Ideal) S_ .f32 0x00000000#32))) (E V (Proc.devRef .tc main_v8 : DevRef τ sig)) (mulf (F := Ideal) (φ := .f32) ((broadcastInDim S4096x256 ![] bcast_S_S4096x256) (id (constant (F := Ideal) S_ .f32 0x3C23D70A#32))) (E V (Proc.devRef .tc main_v8 : DevRef τ sig))) := by
    rw [e_main_v9, e_main_call1_v4, e_main_call1_v3, e_main_call1_v2, e_main_call1_v1, e_main_call1_v0, e_main_call1_cst, e_main_cst_0]
  rw [h]
  refine (Cert.RefPure.lrelu_apply _ _ _).trans ?_
  rw [main_v8_at]
  rfl

/-- Its third layer, at (r, q). -/
theorem main_v13_at (r : Fin 4096) (q : Fin 6144) :
    E V (Proc.devRef .tc main_v13 : DevRef τ sig) (ix2 r q) = logit (fun k => (V (Proc.devRef .tc main_arg0 : DevRef τ sig)) (ix2 r k)) (fun k j => (V (Proc.devRef .tc main_arg1 : DevRef τ sig)) (ix2 k j)) (fun j => (V (Proc.devRef .tc main_arg2 : DevRef τ sig)) (ix1 j)) (fun k j => (V (Proc.devRef .tc main_arg3 : DevRef τ sig)) (ix2 k j)) (fun j => (V (Proc.devRef .tc main_arg4 : DevRef τ sig)) (ix1 j)) (fun k q => (V (Proc.devRef .tc main_arg5 : DevRef τ sig)) (ix2 k q)) (fun q => (V (Proc.devRef .tc main_arg6 : DevRef τ sig)) (ix1 q)) q := by
  have h : E V (Proc.devRef .tc main_v13 : DevRef τ sig) = addf (F := Ideal) (φ := .f32) (Host.dotGeneral (F := Ideal) (φ₁ := .f32) (φ₂ := .f32) dot_S4096x256_S256x6144_S4096x6144_1_0_0_1_n_n none (E V (Proc.devRef .tc main_v9 : DevRef τ sig)) (V (Proc.devRef .tc main_arg5 : DevRef τ sig))) ((broadcastInDim S4096x6144 ![0, 1] bcast_S1x6144_S4096x6144_0_1) ((broadcastInDim S1x6144 ![1] bcast_S6144_S1x6144_1) (V (Proc.devRef .tc main_arg6 : DevRef τ sig)))) := by
    rw [e_main_v13, e_main_v12, e_main_v11, e_main_v10, e_main_arg5, e_main_arg6]
  rw [h]
  refine (Cert.RefPure.dense_apply _ _ _ _ _ _ r q).trans ?_
  rw [show (fun k => E V (Proc.devRef .tc main_v9 : DevRef τ sig) (ix2 r k)) = hid2 (fun k => (V (Proc.devRef .tc main_arg0 : DevRef τ sig)) (ix2 r k)) (fun k j => (V (Proc.devRef .tc main_arg1 : DevRef τ sig)) (ix2 k j)) (fun j => (V (Proc.devRef .tc main_arg2 : DevRef τ sig)) (ix1 j)) (fun k j => (V (Proc.devRef .tc main_arg3 : DevRef τ sig)) (ix2 k j)) (fun j => (V (Proc.devRef .tc main_arg4 : DevRef τ sig)) (ix1 j)) from funext fun k => main_v9_at V r k]
  rfl

/-- Its output, at (r, q). -/
theorem main_v19_at (r : Fin 4096) (q : Fin 6144) :
    E V (Proc.devRef .tc main_v19 : DevRef τ sig) (ix2 r q) = head (fun k => (V (Proc.devRef .tc main_arg0 : DevRef τ sig)) (ix2 r k)) (fun k j => (V (Proc.devRef .tc main_arg1 : DevRef τ sig)) (ix2 k j)) (fun j => (V (Proc.devRef .tc main_arg2 : DevRef τ sig)) (ix1 j)) (fun k j => (V (Proc.devRef .tc main_arg3 : DevRef τ sig)) (ix2 k j)) (fun j => (V (Proc.devRef .tc main_arg4 : DevRef τ sig)) (ix1 j)) (fun k q => (V (Proc.devRef .tc main_arg5 : DevRef τ sig)) (ix2 k q)) (fun q => (V (Proc.devRef .tc main_arg6 : DevRef τ sig)) (ix1 q)) q := by
  have h : E V (Proc.devRef .tc main_v19 : DevRef τ sig) = Host.divf (F := Ideal) (φ := .f32) ((broadcastInDim S4096x6144 ![] bcast_S_S4096x6144) (constant (F := Ideal) S_ .f32 0x3F800000#32)) (addf (F := Ideal) (φ := .f32) ((broadcastInDim S4096x6144 ![] bcast_S_S4096x6144) (constant (F := Ideal) S_ .f32 0x3F800000#32)) (Host.exp (F := Ideal) (φ := .f32) (Host.negf (F := Ideal) (φ := .f32) (E V (Proc.devRef .tc main_v13 : DevRef τ sig))))) := by
    rw [e_main_v19, e_main_v18, e_main_cst_2, e_main_v17, e_main_v16, e_main_cst_1, e_main_v15, e_main_v14]
  rw [h]
  refine (Cert.RefPure.logistic_apply _ _ _).trans ?_
  rw [main_v13_at]
  rfl

/-- The points, at (r, a, p). -/
theorem main_v20_at (r : Fin 4096) (a : Fin 3) (p : Fin 2048) :
    E V (Proc.devRef .tc main_v20 : DevRef τ sig) (ix3 r a p) = ptsRow (V (Proc.devRef .tc main_arg0 : DevRef τ sig)) (V (Proc.devRef .tc main_arg1 : DevRef τ sig)) (V (Proc.devRef .tc main_arg2 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig)) r (col a p) := by
  rw [e_main_v20]
  refine (Cert.RefDistPure.reshape_apply _ _ r a p).trans ?_
  rw [main_v19_at]
  rfl

/-- Result 0: the points are the specification's. -/
theorem points_eq : E V (Proc.devRef .tc main_v20 : DevRef τ sig) = points (V (Proc.devRef .tc main_arg0 : DevRef τ sig)) (V (Proc.devRef .tc main_arg1 : DevRef τ sig)) (V (Proc.devRef .tc main_arg2 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig)) := by
  funext i
  rw [eq_ix3 i]
  exact main_v20_at V (i 0) (i 1) (i 2)

end Cert.ReferenceIdeal.RefValue

end
-- ==== Proof.RefCub.lean ====
/-
  The cuboid perceptron of the reference, layer by layer at an index, and its result as the specification's function of
  the argument arrays.
-/
import proofs.«169947_j35682588295463_2_alg».proof.Proof.RefEnd2
import proofs.«169947_j35682588295463_2_alg».proof.Proof.RefPure

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.Spec

variable (V : Valuation τ sig (Elt Ideal))

/-! ## The cuboid perceptron -/

/-- Its first layer before the rectifier, at (r, j). -/
theorem main_v24_at (r : Fin 4096) (j : Fin 256) :
    E V (Proc.devRef .tc main_v24 : DevRef τ sig) (ix2 r j) = dense (fun k => (V (Proc.devRef .tc main_arg0 : DevRef τ sig)) (ix2 r k)) (fun k => (V (Proc.devRef .tc main_arg7 : DevRef τ sig)) (ix2 k j)) ((V (Proc.devRef .tc main_arg8 : DevRef τ sig)) (ix1 j)) := by
  have h : E V (Proc.devRef .tc main_v24 : DevRef τ sig) = addf (F := Ideal) (φ := .f32) (Host.dotGeneral (F := Ideal) (φ₁ := .f32) (φ₂ := .f32) dot_S4096x128_S128x256_S4096x256_1_0_0_1_n_n none (V (Proc.devRef .tc main_arg0 : DevRef τ sig)) (V (Proc.devRef .tc main_arg7 : DevRef τ sig))) ((broadcastInDim S4096x256 ![0, 1] bcast_S1x256_S4096x256_0_1) ((broadcastInDim S1x256 ![1] bcast_S256_S1x256_1) (V (Proc.devRef .tc main_arg8 : DevRef τ sig)))) := by
    rw [e_main_v24, e_main_v23, e_main_v22, e_main_v21, e_main_arg0, e_main_arg7, e_main_arg8]
  rw [h]
  exact Cert.RefPure.dense_apply _ _ _ _ _ _ r j

/-- Its first hidden layer, at (r, j). -/
theorem main_v25_at (r : Fin 4096) (j : Fin 256) :
    E V (Proc.devRef .tc main_v25 : DevRef τ sig) (ix2 r j) = hid1 (fun k => (V (Proc.devRef .tc main_arg0 : DevRef τ sig)) (ix2 r k)) (fun k j => (V (Proc.devRef .tc main_arg7 : DevRef τ sig)) (ix2 k j)) (fun j => (V (Proc.devRef .tc main_arg8 : DevRef τ sig)) (ix1 j)) j := by
  have h : E V (Proc.devRef .tc main_v25 : DevRef τ sig) = select ((cmpf (F := Ideal) (φ := .f32) .oge) (E V (Proc.devRef .tc main_v24 : DevRef τ sig)) ((broadcastInDim S4096x256 ![] bcast_S_S4096x256) (constant (F := Ideal) S_ .f32 0x00000000#32))) (E V (Proc.devRef .tc main_v24 : DevRef τ sig)) (mulf (F := Ideal) (φ := .f32) ((broadcastInDim S4096x256 ![] bcast_S_S4096x256) (id (constant (F := Ideal) S_ .f32 0x3C23D70A#32))) (E V (Proc.devRef .tc main_v24 : DevRef τ sig))) := by
    rw [e_main_v25, e_main_call2_v4, e_main_call2_v3, e_main_call2_v2, e_main_call2_v1, e_main_call2_v0, e_main_call2_cst, e_main_cst_3]
  rw [h]
  refine (Cert.RefPure.lrelu_apply _ _ _).trans ?_
  rw [main_v24_at]
  rfl

/-- Its second layer before the rectifier, at (r, j). -/
theorem main_v29_at (r : Fin 4096) (j : Fin 256) :
    E V (Proc.devRef .tc main_v29 : DevRef τ sig) (ix2 r j) = dense (hid1 (fun k => (V (Proc.devRef .tc main_arg0 : DevRef τ sig)) (ix2 r k)) (fun k j => (V (Proc.devRef .tc main_arg7 : DevRef τ sig)) (ix2 k j)) (fun j => (V (Proc.devRef .tc main_arg8 : DevRef τ sig)) (ix1 j))) (fun k => (V (Proc.devRef .tc main_arg9 : DevRef τ sig)) (ix2 k j)) ((V (Proc.devRef .tc main_arg10 : DevRef τ sig)) (ix1 j)) := by
  have h : E V (Proc.devRef .tc main_v29 : DevRef τ sig) = addf (F := Ideal) (φ := .f32) (Host.dotGeneral (F := Ideal) (φ₁ := .f32) (φ₂ := .f32) dot_S4096x256_S256x256_S4096x256_1_0_0_1_n_n none (E V (Proc.devRef .tc main_v25 : DevRef τ sig)) (V (Proc.devRef .tc main_arg9 : DevRef τ sig))) ((broadcastInDim S4096x256 ![0, 1] bcast_S1x256_S4096x256_0_1) ((broadcastInDim S1x256 ![1] bcast_S256_S1x256_1) (V (Proc.devRef .tc main_arg10 : DevRef τ sig)))) := by
    rw [e_main_v29, e_main_v28, e_main_v27, e_main_v26, e_main_arg10, e_main_arg9]
  rw [h]
  refine (Cert.RefPure.dense_apply _ _ _ _ _ _ r j).trans ?_
  rw [show (fun k => E V (Proc.devRef .tc main_v25 : DevRef τ sig) (ix2 r k)) = hid1 (fun k => (V (Proc.devRef .tc main_arg0 : DevRef τ sig)) (ix2 r k)) (fun k j => (V (Proc.devRef .tc main_arg7 : DevRef τ sig)) (ix2 k j)) (fun j => (V (Proc.devRef .tc main_arg8 : DevRef τ sig)) (ix1 j)) from funext fun k => main_v25_at V r k]

/-- Its second hidden layer, at (r, j). -/
theorem main_v30_at (r : Fin 4096) (j : Fin 256) :
    E V (Proc.devRef .tc main_v30 : DevRef τ sig) (ix2 r j) = hid2 (fun k => (V (Proc.devRef .tc main_arg0 : DevRef τ sig)) (ix2 r k)) (fun k j => (V (Proc.devRef .tc main_arg7 : DevRef τ sig)) (ix2 k j)) (fun j => (V (Proc.devRef .tc main_arg8 : DevRef τ sig)) (ix1 j)) (fun k j => (V (Proc.devRef .tc main_arg9 : DevRef τ sig)) (ix2 k j)) (fun j => (V (Proc.devRef .tc main_arg10 : DevRef τ sig)) (ix1 j)) j := by
  have h : E V (Proc.devRef .tc main_v30 : DevRef τ sig) = select ((cmpf (F := Ideal) (φ := .f32) .oge) (E V (Proc.devRef .tc main_v29 : DevRef τ sig)) ((broadcastInDim S4096x256 ![] bcast_S_S4096x256) (constant (F := Ideal) S_ .f32 0x00000000#32))) (E V (Proc.devRef .tc main_v29 : DevRef τ sig)) (mulf (F := Ideal) (φ := .f32) ((broadcastInDim S4096x256 ![] bcast_S_S4096x256) (id (constant (F := Ideal) S_ .f32 0x3C23D70A#32))) (E V (Proc.devRef .tc main_v29 : DevRef τ sig))) := by
    rw [e_main_v30, e_main_call3_v4, e_main_call3_v3, e_main_call3_v2, e_main_call3_v1, e_main_call3_v0, e_main_call3_cst, e_main_cst_4]
  rw [h]
  refine (Cert.RefPure.lrelu_apply _ _ _).trans ?_
  rw [main_v29_at]
  rfl

/-- Its third layer, at (r, q). -/
theorem main_v34_at (r : Fin 4096) (q : Fin 3) :
    E V (Proc.devRef .tc main_v34 : DevRef τ sig) (ix2 r q) = logit (fun k => (V (Proc.devRef .tc main_arg0 : DevRef τ sig)) (ix2 r k)) (fun k j => (V (Proc.devRef .tc main_arg7 : DevRef τ sig)) (ix2 k j)) (fun j => (V (Proc.devRef .tc main_arg8 : DevRef τ sig)) (ix1 j)) (fun k j => (V (Proc.devRef .tc main_arg9 : DevRef τ sig)) (ix2 k j)) (fun j => (V (Proc.devRef .tc main_arg10 : DevRef τ sig)) (ix1 j)) (fun k q => (V (Proc.devRef .tc main_arg11 : DevRef τ sig)) (ix2 k q)) (fun q => (V (Proc.devRef .tc main_arg12 : DevRef τ sig)) (ix1 q)) q := by
  have h : E V (Proc.devRef .tc main_v34 : DevRef τ sig) = addf (F := Ideal) (φ := .f32) (Host.dotGeneral (F := Ideal) (φ₁ := .f32) (φ₂ := .f32) dot_S4096x256_S256x3_S4096x3_1_0_0_1_n_n none (E V (Proc.devRef .tc main_v30 : DevRef τ sig)) (V (Proc.devRef .tc main_arg11 : DevRef τ sig))) ((broadcastInDim S4096x3 ![0, 1] bcast_S1x3_S4096x3_0_1) ((broadcastInDim S1x3 ![1] bcast_S3_S1x3_1) (V (Proc.devRef .tc main_arg12 : DevRef τ sig)))) := by
    rw [e_main_v34, e_main_v33, e_main_v32, e_main_v31, e_main_arg11, e_main_arg12]
  rw [h]
  refine (Cert.RefPure.dense_apply _ _ _ _ _ _ r q).trans ?_
  rw [show (fun k => E V (Proc.devRef .tc main_v30 : DevRef τ sig) (ix2 r k)) = hid2 (fun k => (V (Proc.devRef .tc main_arg0 : DevRef τ sig)) (ix2 r k)) (fun k j => (V (Proc.devRef .tc main_arg7 : DevRef τ sig)) (ix2 k j)) (fun j => (V (Proc.devRef .tc main_arg8 : DevRef τ sig)) (ix1 j)) (fun k j => (V (Proc.devRef .tc main_arg9 : DevRef τ sig)) (ix2 k j)) (fun j => (V (Proc.devRef .tc main_arg10 : DevRef τ sig)) (ix1 j)) from funext fun k => main_v30_at V r k]
  rfl

/-- Its output, at (r, q). -/
theorem main_v40_at (r : Fin 4096) (q : Fin 3) :
    E V (Proc.devRef .tc main_v40 : DevRef τ sig) (ix2 r q) = head (fun k => (V (Proc.devRef .tc main_arg0 : DevRef τ sig)) (ix2 r k)) (fun k j => (V (Proc.devRef .tc main_arg7 : DevRef τ sig)) (ix2 k j)) (fun j => (V (Proc.devRef .tc main_arg8 : DevRef τ sig)) (ix1 j)) (fun k j => (V (Proc.devRef .tc main_arg9 : DevRef τ sig)) (ix2 k j)) (fun j => (V (Proc.devRef .tc main_arg10 : DevRef τ sig)) (ix1 j)) (fun k q => (V (Proc.devRef .tc main_arg11 : DevRef τ sig)) (ix2 k q)) (fun q => (V (Proc.devRef .tc main_arg12 : DevRef τ sig)) (ix1 q)) q := by
  have h : E V (Proc.devRef .tc main_v40 : DevRef τ sig) = Host.divf (F := Ideal) (φ := .f32) ((broadcastInDim S4096x3 ![] bcast_S_S4096x3) (constant (F := Ideal) S_ .f32 0x3F800000#32)) (addf (F := Ideal) (φ := .f32) ((broadcastInDim S4096x3 ![] bcast_S_S4096x3) (constant (F := Ideal) S_ .f32 0x3F800000#32)) (Host.exp (F := Ideal) (φ := .f32) (Host.negf (F := Ideal) (φ := .f32) (E V (Proc.devRef .tc main_v34 : DevRef τ sig))))) := by
    rw [e_main_v40, e_main_v39, e_main_cst_6, e_main_v38, e_main_v37, e_main_cst_5, e_main_v36, e_main_v35]
  rw [h]
  refine (Cert.RefPure.logistic_apply _ _ _).trans ?_
  rw [main_v34_at]
  rfl

/-- Result 2: the extents are the specification's. -/
theorem extents_eq : E V (Proc.devRef .tc main_v40 : DevRef τ sig) = extents (V (Proc.devRef .tc main_arg0 : DevRef τ sig)) (V (Proc.devRef .tc main_arg7 : DevRef τ sig)) (V (Proc.devRef .tc main_arg8 : DevRef τ sig)) (V (Proc.devRef .tc main_arg9 : DevRef τ sig)) (V (Proc.devRef .tc main_arg10 : DevRef τ sig)) (V (Proc.devRef .tc main_arg11 : DevRef τ sig)) (V (Proc.devRef .tc main_arg12 : DevRef τ sig)) := by
  funext i
  rw [eq_ix2 i]
  exact main_v40_at V (i 0) (i 1)

end Cert.ReferenceIdeal.RefValue

end
-- ==== Proof.RefEnd3.lean ====
/-
  The operations of the distance stage (differences, indicators, the select, the four extreme reductions, the blend
  and the mean) read back at the end of the function: one equation per operation.
-/
import proofs.«169947_j35682588295463_2_alg».proof.Proof.RefEnd0
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable (V : Valuation τ sig (Elt Ideal))

theorem e_main_v48 : E V (Proc.devRef .tc main_v48 : DevRef τ sig) = ((broadcastInDim S4096x3x1 ![0, 1] bcast_S4096x3_S4096x3x1_0_1) : (⟨S4096x3, .f32⟩ : BufTy).Contents (Elt Ideal) → (⟨S4096x3x1, .f32⟩ : BufTy).Contents (Elt Ideal)) (E V (Proc.devRef .tc main_v40 : DevRef τ sig)) :=
  Cert.ReadEnd.end1 (writesAt (F := Ideal)) V (E V) [] (E_T V) 81 _ _ _ _ _ rfl (Cert.ReadEnd.nk (by decide)) (Cert.ReadEnd.nk (by decide))

theorem e_main_v49 : E V (Proc.devRef .tc main_v49 : DevRef τ sig) = ((broadcastInDim S4096x3x2048 ![0, 1, 2] bcast_S4096x3x1_S4096x3x2048_0_1_2) : (⟨S4096x3x1, .f32⟩ : BufTy).Contents (Elt Ideal) → (⟨S4096x3x2048, .f32⟩ : BufTy).Contents (Elt Ideal)) (E V (Proc.devRef .tc main_v48 : DevRef τ sig)) :=
  Cert.ReadEnd.end1 (writesAt (F := Ideal)) V (E V) [] (E_T V) 82 _ _ _ _ _ rfl (Cert.ReadEnd.nk (by decide)) (Cert.ReadEnd.nk (by decide))

theorem e_main_v50 : E V (Proc.devRef .tc main_v50 : DevRef τ sig) = (subf (F := Ideal) (φ := .f32) : (⟨S4096x3x2048, .f32⟩ : BufTy).Contents (Elt Ideal) → (⟨S4096x3x2048, .f32⟩ : BufTy).Contents (Elt Ideal) → (⟨S4096x3x2048, .f32⟩ : BufTy).Contents (Elt Ideal)) (E V (Proc.devRef .tc main_v49 : DevRef τ sig)) (E V (Proc.devRef .tc main_v20 : DevRef τ sig)) :=
  Cert.ReadEnd.end2 (writesAt (F := Ideal)) V (E V) [] (E_T V) 83 _ _ _ _ _ _ _ rfl (Cert.ReadEnd.nk (by decide)) (Cert.ReadEnd.nk (by decide)) (Cert.ReadEnd.nk (by decide))

theorem e_main_v51 : E V (Proc.devRef .tc main_v51 : DevRef τ sig) = (Host.absf (F := Ideal) (φ := .f32) : (⟨S4096x3x2048, .f32⟩ : BufTy).Contents (Elt Ideal) → (⟨S4096x3x2048, .f32⟩ : BufTy).Contents (Elt Ideal)) (E V (Proc.devRef .tc main_v50 : DevRef τ sig)) :=
  Cert.ReadEnd.end1 (writesAt (F := Ideal)) V (E V) [] (E_T V) 84 _ _ _ _ _ rfl (Cert.ReadEnd.nk (by decide)) (Cert.ReadEnd.nk (by decide))

theorem e_main_v52 : E V (Proc.devRef .tc main_v52 : DevRef τ sig) = ((broadcastInDim S4096x3x2048x1 ![0, 1, 2] bcast_S4096x3x2048_S4096x3x2048x1_0_1_2) : (⟨S4096x3x2048, .f32⟩ : BufTy).Contents (Elt Ideal) → (⟨S4096x3x2048x1, .f32⟩ : BufTy).Contents (Elt Ideal)) (E V (Proc.devRef .tc main_v20 : DevRef τ sig)) :=
  Cert.ReadEnd.end1 (writesAt (F := Ideal)) V (E V) [] (E_T V) 85 _ _ _ _ _ rfl (Cert.ReadEnd.nk (by decide)) (Cert.ReadEnd.nk (by decide))

theorem e_main_v53 : E V (Proc.devRef .tc main_v53 : DevRef τ sig) = ((broadcastInDim S4096x3x2048x1 ![0, 1, 2] bcast_S4096x3x2048_S4096x3x2048x1_0_1_2) : (⟨S4096x3x2048, .f32⟩ : BufTy).Contents (Elt Ideal) → (⟨S4096x3x2048x1, .f32⟩ : BufTy).Contents (Elt Ideal)) (E V (Proc.devRef .tc main_v51 : DevRef τ sig)) :=
  Cert.ReadEnd.end1 (writesAt (F := Ideal)) V (E V) [] (E_T V) 86 _ _ _ _ _ rfl (Cert.ReadEnd.nk (by decide)) (Cert.ReadEnd.nk (by decide))

theorem e_main_v54 : E V (Proc.devRef .tc main_v54 : DevRef τ sig) = ((fun a b => concatenate S4096x3x2048x2 3 [⟨S4096x3x2048x1, a⟩, ⟨S4096x3x2048x1, b⟩] concatenates_S4096x3x2048x1_S4096x3x2048x1_S4096x3x2048x2_d3) : (⟨S4096x3x2048x1, .f32⟩ : BufTy).Contents (Elt Ideal) → (⟨S4096x3x2048x1, .f32⟩ : BufTy).Contents (Elt Ideal) → (⟨S4096x3x2048x2, .f32⟩ : BufTy).Contents (Elt Ideal)) (E V (Proc.devRef .tc main_v52 : DevRef τ sig)) (E V (Proc.devRef .tc main_v53 : DevRef τ sig)) :=
  Cert.ReadEnd.end2 (writesAt (F := Ideal)) V (E V) [] (E_T V) 87 _ _ _ _ _ _ _ rfl (Cert.ReadEnd.nk (by decide)) (Cert.ReadEnd.nk (by decide)) (Cert.ReadEnd.nk (by decide))

theorem e_main_v55 : E V (Proc.devRef .tc main_v55 : DevRef τ sig) = ((broadcastInDim S4096x3x2048 ![0, 1, 2] bcast_S4096x3x1_S4096x3x2048_0_1_2) : (⟨S4096x3x1, .f32⟩ : BufTy).Contents (Elt Ideal) → (⟨S4096x3x2048, .f32⟩ : BufTy).Contents (Elt Ideal)) (E V (Proc.devRef .tc main_v48 : DevRef τ sig)) :=
  Cert.ReadEnd.end1 (writesAt (F := Ideal)) V (E V) [] (E_T V) 88 _ _ _ _ _ rfl (Cert.ReadEnd.nk (by decide)) (Cert.ReadEnd.nk (by decide))

theorem e_main_v56 : E V (Proc.devRef .tc main_v56 : DevRef τ sig) = ((cmpf (F := Ideal) (φ := .f32) .ole) : (⟨S4096x3x2048, .f32⟩ : BufTy).Contents (Elt Ideal) → (⟨S4096x3x2048, .f32⟩ : BufTy).Contents (Elt Ideal) → (⟨S4096x3x2048, .i1⟩ : BufTy).Contents (Elt Ideal)) (E V (Proc.devRef .tc main_v20 : DevRef τ sig)) (E V (Proc.devRef .tc main_v55 : DevRef τ sig)) :=
  Cert.ReadEnd.end2 (writesAt (F := Ideal)) V (E V) [] (E_T V) 89 _ _ _ _ _ _ _ rfl (Cert.ReadEnd.nk (by decide)) (Cert.ReadEnd.nk (by decide)) (Cert.ReadEnd.nk (by decide))

theorem e_main_v57 : E V (Proc.devRef .tc main_v57 : DevRef τ sig) = ((uitofp (F := Ideal) .f32) : (⟨S4096x3x2048, .i1⟩ : BufTy).Contents (Elt Ideal) → (⟨S4096x3x2048, .f32⟩ : BufTy).Contents (Elt Ideal)) (E V (Proc.devRef .tc main_v56 : DevRef τ sig)) :=
  Cert.ReadEnd.end1 (writesAt (F := Ideal)) V (E V) [] (E_T V) 90 _ _ _ _ _ rfl (Cert.ReadEnd.nk (by decide)) (Cert.ReadEnd.nk (by decide))

theorem e_main_cst_7 : E V (Proc.devRef .tc main_cst_7 : DevRef τ sig) = ((constant (F := Ideal) S_ .f32 0x00000000#32) : (⟨S_, .f32⟩ : BufTy).Contents (Elt Ideal)) :=
  Cert.ReadEnd.end0 (writesAt (F := Ideal)) V (E V) [] (E_T V) 91 _ _ _ rfl (Cert.ReadEnd.nk (by decide))

theorem e_main_v58 : E V (Proc.devRef .tc main_v58 : DevRef τ sig) = ((fun x v => Host.reduceAdd (F := Ideal) (φ := .f32) x v reducesTo_S4096x3x2048_S4096x2048_d1 h_S_) : (⟨S4096x3x2048, .f32⟩ : BufTy).Contents (Elt Ideal) → (⟨S_, .f32⟩ : BufTy).Contents (Elt Ideal) → (⟨S4096x2048, .f32⟩ : BufTy).Contents (Elt Ideal)) (E V (Proc.devRef .tc main_v57 : DevRef τ sig)) (E V (Proc.devRef .tc main_cst_7 : DevRef τ sig)) :=
  Cert.ReadEnd.end2 (writesAt (F := Ideal)) V (E V) [] (E_T V) 92 _ _ _ _ _ _ _ rfl (Cert.ReadEnd.nk (by decide)) (Cert.ReadEnd.nk (by decide)) (Cert.ReadEnd.nk (by decide))

theorem e_main_cst_8 : E V (Proc.devRef .tc main_cst_8 : DevRef τ sig) = ((constant (F := Ideal) S_ .f32 0x40200000#32) : (⟨S_, .f32⟩ : BufTy).Contents (Elt Ideal)) :=
  Cert.ReadEnd.end0 (writesAt (F := Ideal)) V (E V) [] (E_T V) 93 _ _ _ rfl (Cert.ReadEnd.nk (by decide))

theorem e_main_v59 : E V (Proc.devRef .tc main_v59 : DevRef τ sig) = ((broadcastInDim S4096x2048 ![] bcast_S_S4096x2048) : (⟨S_, .f32⟩ : BufTy).Contents (Elt Ideal) → (⟨S4096x2048, .f32⟩ : BufTy).Contents (Elt Ideal)) (E V (Proc.devRef .tc main_cst_8 : DevRef τ sig)) :=
  Cert.ReadEnd.end1 (writesAt (F := Ideal)) V (E V) [] (E_T V) 94 _ _ _ _ _ rfl (Cert.ReadEnd.nk (by decide)) (Cert.ReadEnd.nk (by decide))

theorem e_main_v60 : E V (Proc.devRef .tc main_v60 : DevRef τ sig) = ((cmpf (F := Ideal) (φ := .f32) .ogt) : (⟨S4096x2048, .f32⟩ : BufTy).Contents (Elt Ideal) → (⟨S4096x2048, .f32⟩ : BufTy).Contents (Elt Ideal) → (⟨S4096x2048, .i1⟩ : BufTy).Contents (Elt Ideal)) (E V (Proc.devRef .tc main_v58 : DevRef τ sig)) (E V (Proc.devRef .tc main_v59 : DevRef τ sig)) :=
  Cert.ReadEnd.end2 (writesAt (F := Ideal)) V (E V) [] (E_T V) 95 _ _ _ _ _ _ _ rfl (Cert.ReadEnd.nk (by decide)) (Cert.ReadEnd.nk (by decide)) (Cert.ReadEnd.nk (by decide))

theorem e_main_v61 : E V (Proc.devRef .tc main_v61 : DevRef τ sig) = ((uitofp (F := Ideal) .f32) : (⟨S4096x2048, .i1⟩ : BufTy).Contents (Elt Ideal) → (⟨S4096x2048, .f32⟩ : BufTy).Contents (Elt Ideal)) (E V (Proc.devRef .tc main_v60 : DevRef τ sig)) :=
  Cert.ReadEnd.end1 (writesAt (F := Ideal)) V (E V) [] (E_T V) 96 _ _ _ _ _ rfl (Cert.ReadEnd.nk (by decide)) (Cert.ReadEnd.nk (by decide))

theorem e_main_v62 : E V (Proc.devRef .tc main_v62 : DevRef τ sig) = ((broadcastInDim S4096x3x2048x1 ![0, 1, 2] bcast_S4096x3x2048_S4096x3x2048x1_0_1_2) : (⟨S4096x3x2048, .f32⟩ : BufTy).Contents (Elt Ideal) → (⟨S4096x3x2048x1, .f32⟩ : BufTy).Contents (Elt Ideal)) (E V (Proc.devRef .tc main_v57 : DevRef τ sig)) :=
  Cert.ReadEnd.end1 (writesAt (F := Ideal)) V (E V) [] (E_T V) 97 _ _ _ _ _ rfl (Cert.ReadEnd.nk (by decide)) (Cert.ReadEnd.nk (by decide))

theorem e_main_cst_9 : E V (Proc.devRef .tc main_cst_9 : DevRef τ sig) = ((constant (F := Ideal) S_ .f32 0x3F000000#32) : (⟨S_, .f32⟩ : BufTy).Contents (Elt Ideal)) :=
  Cert.ReadEnd.end0 (writesAt (F := Ideal)) V (E V) [] (E_T V) 98 _ _ _ rfl (Cert.ReadEnd.nk (by decide))

theorem e_main_v63 : E V (Proc.devRef .tc main_v63 : DevRef τ sig) = ((broadcastInDim S4096x3x2048x1 ![] bcast_S_S4096x3x2048x1) : (⟨S_, .f32⟩ : BufTy).Contents (Elt Ideal) → (⟨S4096x3x2048x1, .f32⟩ : BufTy).Contents (Elt Ideal)) (E V (Proc.devRef .tc main_cst_9 : DevRef τ sig)) :=
  Cert.ReadEnd.end1 (writesAt (F := Ideal)) V (E V) [] (E_T V) 99 _ _ _ _ _ rfl (Cert.ReadEnd.nk (by decide)) (Cert.ReadEnd.nk (by decide))

theorem e_main_v64 : E V (Proc.devRef .tc main_v64 : DevRef τ sig) = ((cmpf (F := Ideal) (φ := .f32) .ogt) : (⟨S4096x3x2048x1, .f32⟩ : BufTy).Contents (Elt Ideal) → (⟨S4096x3x2048x1, .f32⟩ : BufTy).Contents (Elt Ideal) → (⟨S4096x3x2048x1, .i1⟩ : BufTy).Contents (Elt Ideal)) (E V (Proc.devRef .tc main_v62 : DevRef τ sig)) (E V (Proc.devRef .tc main_v63 : DevRef τ sig)) :=
  Cert.ReadEnd.end2 (writesAt (F := Ideal)) V (E V) [] (E_T V) 100 _ _ _ _ _ _ _ rfl (Cert.ReadEnd.nk (by decide)) (Cert.ReadEnd.nk (by decide)) (Cert.ReadEnd.nk (by decide))

theorem e_main_cst_10 : E V (Proc.devRef .tc main_cst_10 : DevRef τ sig) = ((constant (F := Ideal) S_ .f32 0x00000000#32) : (⟨S_, .f32⟩ : BufTy).Contents (Elt Ideal)) :=
  Cert.ReadEnd.end0 (writesAt (F := Ideal)) V (E V) [] (E_T V) 101 _ _ _ rfl (Cert.ReadEnd.nk (by decide))

theorem e_main_call4_v0 : E V (Proc.devRef .tc main_call4_v0 : DevRef τ sig) = (id : (⟨S_, .f32⟩ : BufTy).Contents (Elt Ideal) → (⟨S_, .f32⟩ : BufTy).Contents (Elt Ideal)) (E V (Proc.devRef .tc main_cst_10 : DevRef τ sig)) :=
  Cert.ReadEnd.end1 (writesAt (F := Ideal)) V (E V) [] (E_T V) 102 _ _ _ _ _ rfl (Cert.ReadEnd.nk (by decide)) (Cert.ReadEnd.nk (by decide))

theorem e_main_call4_v1 : E V (Proc.devRef .tc main_call4_v1 : DevRef τ sig) = ((broadcastInDim S4096x3x2048x2 ![0, 1, 2, 3] bcast_S4096x3x2048x1_S4096x3x2048x2_0_1_2_3) : (⟨S4096x3x2048x1, .i1⟩ : BufTy).Contents (Elt Ideal) → (⟨S4096x3x2048x2, .i1⟩ : BufTy).Contents (Elt Ideal)) (E V (Proc.devRef .tc main_v64 : DevRef τ sig)) :=
  Cert.ReadEnd.end1 (writesAt (F := Ideal)) V (E V) [] (E_T V) 103 _ _ _ _ _ rfl (Cert.ReadEnd.nk (by decide)) (Cert.ReadEnd.nk (by decide))

theorem e_main_call4_v2 : E V (Proc.devRef .tc main_call4_v2 : DevRef τ sig) = ((broadcastInDim S4096x3x2048x2 ![] bcast_S_S4096x3x2048x2) : (⟨S_, .f32⟩ : BufTy).Contents (Elt Ideal) → (⟨S4096x3x2048x2, .f32⟩ : BufTy).Contents (Elt Ideal)) (E V (Proc.devRef .tc main_call4_v0 : DevRef τ sig)) :=
  Cert.ReadEnd.end1 (writesAt (F := Ideal)) V (E V) [] (E_T V) 104 _ _ _ _ _ rfl (Cert.ReadEnd.nk (by decide)) (Cert.ReadEnd.nk (by decide))

theorem e_main_v65 : E V (Proc.devRef .tc main_v65 : DevRef τ sig) = (select : (⟨S4096x3x2048x2, .i1⟩ : BufTy).Contents (Elt Ideal) → (⟨S4096x3x2048x2, .f32⟩ : BufTy).Contents (Elt Ideal) → (⟨S4096x3x2048x2, .f32⟩ : BufTy).Contents (Elt Ideal) → (⟨S4096x3x2048x2, .f32⟩ : BufTy).Contents (Elt Ideal)) (E V (Proc.devRef .tc main_call4_v1 : DevRef τ sig)) (E V (Proc.devRef .tc main_call4_v2 : DevRef τ sig)) (E V (Proc.devRef .tc main_v54 : DevRef τ sig)) :=
  Cert.ReadEnd.end3 (writesAt (F := Ideal)) V (E V) [] (E_T V) 105 _ _ _ _ _ _ _ _ _ rfl (Cert.ReadEnd.nk (by decide)) (Cert.ReadEnd.nk (by decide)) (Cert.ReadEnd.nk (by decide)) (Cert.ReadEnd.nk (by decide))

theorem e_main_cst_11 : E V (Proc.devRef .tc main_cst_11 : DevRef τ sig) = ((constant (F := Ideal) S_ .f32 0xFF800000#32) : (⟨S_, .f32⟩ : BufTy).Contents (Elt Ideal)) :=
  Cert.ReadEnd.end0 (writesAt (F := Ideal)) V (E V) [] (E_T V) 106 _ _ _ rfl (Cert.ReadEnd.nk (by decide))

theorem e_main_v66 : E V (Proc.devRef .tc main_v66 : DevRef τ sig) = ((fun x v => Host.reduce (FloatOps.maximumf (F := Ideal) (φ := .f32)) x v reducesTo_S4096x3x2048x2_S4096x3x2048_d3 h_S_) : (⟨S4096x3x2048x2, .f32⟩ : BufTy).Contents (Elt Ideal) → (⟨S_, .f32⟩ : BufTy).Contents (Elt Ideal) → (⟨S4096x3x2048, .f32⟩ : BufTy).Contents (Elt Ideal)) (E V (Proc.devRef .tc main_v65 : DevRef τ sig)) (E V (Proc.devRef .tc main_cst_11 : DevRef τ sig)) :=
  Cert.ReadEnd.end2 (writesAt (F := Ideal)) V (E V) [] (E_T V) 107 _ _ _ _ _ _ _ rfl (Cert.ReadEnd.nk (by decide)) (Cert.ReadEnd.nk (by decide)) (Cert.ReadEnd.nk (by decide))

theorem e_main_cst_12 : E V (Proc.devRef .tc main_cst_12 : DevRef τ sig) = ((constant (F := Ideal) S_ .f32 0xFF800000#32) : (⟨S_, .f32⟩ : BufTy).Contents (Elt Ideal)) :=
  Cert.ReadEnd.end0 (writesAt (F := Ideal)) V (E V) [] (E_T V) 108 _ _ _ rfl (Cert.ReadEnd.nk (by decide))

theorem e_main_v67 : E V (Proc.devRef .tc main_v67 : DevRef τ sig) = ((fun x v => Host.reduce (FloatOps.maximumf (F := Ideal) (φ := .f32)) x v reducesTo_S4096x3x2048_S4096x2048_d1 h_S_) : (⟨S4096x3x2048, .f32⟩ : BufTy).Contents (Elt Ideal) → (⟨S_, .f32⟩ : BufTy).Contents (Elt Ideal) → (⟨S4096x2048, .f32⟩ : BufTy).Contents (Elt Ideal)) (E V (Proc.devRef .tc main_v66 : DevRef τ sig)) (E V (Proc.devRef .tc main_cst_12 : DevRef τ sig)) :=
  Cert.ReadEnd.end2 (writesAt (F := Ideal)) V (E V) [] (E_T V) 109 _ _ _ _ _ _ _ rfl (Cert.ReadEnd.nk (by decide)) (Cert.ReadEnd.nk (by decide)) (Cert.ReadEnd.nk (by decide))

theorem e_main_cst_13 : E V (Proc.devRef .tc main_cst_13 : DevRef τ sig) = ((constant (F := Ideal) S_ .f32 0x7F800000#32) : (⟨S_, .f32⟩ : BufTy).Contents (Elt Ideal)) :=
  Cert.ReadEnd.end0 (writesAt (F := Ideal)) V (E V) [] (E_T V) 110 _ _ _ rfl (Cert.ReadEnd.nk (by decide))

theorem e_main_v68 : E V (Proc.devRef .tc main_v68 : DevRef τ sig) = ((fun x v => Host.reduce (FloatOps.minimumf (F := Ideal) (φ := .f32)) x v reducesTo_S4096x3x2048x2_S4096x3x2048_d3 h_S_) : (⟨S4096x3x2048x2, .f32⟩ : BufTy).Contents (Elt Ideal) → (⟨S_, .f32⟩ : BufTy).Contents (Elt Ideal) → (⟨S4096x3x2048, .f32⟩ : BufTy).Contents (Elt Ideal)) (E V (Proc.devRef .tc main_v54 : DevRef τ sig)) (E V (Proc.devRef .tc main_cst_13 : DevRef τ sig)) :=
  Cert.ReadEnd.end2 (writesAt (F := Ideal)) V (E V) [] (E_T V) 111 _ _ _ _ _ _ _ rfl (Cert.ReadEnd.nk (by decide)) (Cert.ReadEnd.nk (by decide)) (Cert.ReadEnd.nk (by decide))

theorem e_main_cst_14 : E V (Proc.devRef .tc main_cst_14 : DevRef τ sig) = ((constant (F := Ideal) S_ .f32 0x7F800000#32) : (⟨S_, .f32⟩ : BufTy).Contents (Elt Ideal)) :=
  Cert.ReadEnd.end0 (writesAt (F := Ideal)) V (E V) [] (E_T V) 112 _ _ _ rfl (Cert.ReadEnd.nk (by decide))

theorem e_main_v69 : E V (Proc.devRef .tc main_v69 : DevRef τ sig) = ((fun x v => Host.reduce (FloatOps.minimumf (F := Ideal) (φ := .f32)) x v reducesTo_S4096x3x2048_S4096x2048_d1 h_S_) : (⟨S4096x3x2048, .f32⟩ : BufTy).Contents (Elt Ideal) → (⟨S_, .f32⟩ : BufTy).Contents (Elt Ideal) → (⟨S4096x2048, .f32⟩ : BufTy).Contents (Elt Ideal)) (E V (Proc.devRef .tc main_v68 : DevRef τ sig)) (E V (Proc.devRef .tc main_cst_14 : DevRef τ sig)) :=
  Cert.ReadEnd.end2 (writesAt (F := Ideal)) V (E V) [] (E_T V) 113 _ _ _ _ _ _ _ rfl (Cert.ReadEnd.nk (by decide)) (Cert.ReadEnd.nk (by decide)) (Cert.ReadEnd.nk (by decide))

theorem e_main_v70 : E V (Proc.devRef .tc main_v70 : DevRef τ sig) = (mulf (F := Ideal) (φ := .f32) : (⟨S4096x2048, .f32⟩ : BufTy).Contents (Elt Ideal) → (⟨S4096x2048, .f32⟩ : BufTy).Contents (Elt Ideal) → (⟨S4096x2048, .f32⟩ : BufTy).Contents (Elt Ideal)) (E V (Proc.devRef .tc main_v69 : DevRef τ sig)) (E V (Proc.devRef .tc main_v61 : DevRef τ sig)) :=
  Cert.ReadEnd.end2 (writesAt (F := Ideal)) V (E V) [] (E_T V) 114 _ _ _ _ _ _ _ rfl (Cert.ReadEnd.nk (by decide)) (Cert.ReadEnd.nk (by decide)) (Cert.ReadEnd.nk (by decide))

theorem e_main_cst_15 : E V (Proc.devRef .tc main_cst_15 : DevRef τ sig) = ((constant (F := Ideal) S_ .f32 0x3F800000#32) : (⟨S_, .f32⟩ : BufTy).Contents (Elt Ideal)) :=
  Cert.ReadEnd.end0 (writesAt (F := Ideal)) V (E V) [] (E_T V) 115 _ _ _ rfl (Cert.ReadEnd.nk (by decide))

theorem e_main_v71 : E V (Proc.devRef .tc main_v71 : DevRef τ sig) = ((broadcastInDim S4096x2048 ![] bcast_S_S4096x2048) : (⟨S_, .f32⟩ : BufTy).Contents (Elt Ideal) → (⟨S4096x2048, .f32⟩ : BufTy).Contents (Elt Ideal)) (E V (Proc.devRef .tc main_cst_15 : DevRef τ sig)) :=
  Cert.ReadEnd.end1 (writesAt (F := Ideal)) V (E V) [] (E_T V) 116 _ _ _ _ _ rfl (Cert.ReadEnd.nk (by decide)) (Cert.ReadEnd.nk (by decide))

theorem e_main_v72 : E V (Proc.devRef .tc main_v72 : DevRef τ sig) = (subf (F := Ideal) (φ := .f32) : (⟨S4096x2048, .f32⟩ : BufTy).Contents (Elt Ideal) → (⟨S4096x2048, .f32⟩ : BufTy).Contents (Elt Ideal) → (⟨S4096x2048, .f32⟩ : BufTy).Contents (Elt Ideal)) (E V (Proc.devRef .tc main_v71 : DevRef τ sig)) (E V (Proc.devRef .tc main_v61 : DevRef τ sig)) :=
  Cert.ReadEnd.end2 (writesAt (F := Ideal)) V (E V) [] (E_T V) 117 _ _ _ _ _ _ _ rfl (Cert.ReadEnd.nk (by decide)) (Cert.ReadEnd.nk (by decide)) (Cert.ReadEnd.nk (by decide))

theorem e_main_v73 : E V (Proc.devRef .tc main_v73 : DevRef τ sig) = (mulf (F := Ideal) (φ := .f32) : (⟨S4096x2048, .f32⟩ : BufTy).Contents (Elt Ideal) → (⟨S4096x2048, .f32⟩ : BufTy).Contents (Elt Ideal) → (⟨S4096x2048, .f32⟩ : BufTy).Contents (Elt Ideal)) (E V (Proc.devRef .tc main_v72 : DevRef τ sig)) (E V (Proc.devRef .tc main_v67 : DevRef τ sig)) :=
  Cert.ReadEnd.end2 (writesAt (F := Ideal)) V (E V) [] (E_T V) 118 _ _ _ _ _ _ _ rfl (Cert.ReadEnd.nk (by decide)) (Cert.ReadEnd.nk (by decide)) (Cert.ReadEnd.nk (by decide))

theorem e_main_v74 : E V (Proc.devRef .tc main_v74 : DevRef τ sig) = (addf (F := Ideal) (φ := .f32) : (⟨S4096x2048, .f32⟩ : BufTy).Contents (Elt Ideal) → (⟨S4096x2048, .f32⟩ : BufTy).Contents (Elt Ideal) → (⟨S4096x2048, .f32⟩ : BufTy).Contents (Elt Ideal)) (E V (Proc.devRef .tc main_v70 : DevRef τ sig)) (E V (Proc.devRef .tc main_v73 : DevRef τ sig)) :=
  Cert.ReadEnd.end2 (writesAt (F := Ideal)) V (E V) [] (E_T V) 119 _ _ _ _ _ _ _ rfl (Cert.ReadEnd.nk (by decide)) (Cert.ReadEnd.nk (by decide)) (Cert.ReadEnd.nk (by decide))

theorem e_main_cst_16 : E V (Proc.devRef .tc main_cst_16 : DevRef τ sig) = ((constant (F := Ideal) S_ .f32 0x00000000#32) : (⟨S_, .f32⟩ : BufTy).Contents (Elt Ideal)) :=
  Cert.ReadEnd.end0 (writesAt (F := Ideal)) V (E V) [] (E_T V) 120 _ _ _ rfl (Cert.ReadEnd.nk (by decide))

theorem e_main_v75 : E V (Proc.devRef .tc main_v75 : DevRef τ sig) = ((fun x v => Host.reduceAdd (F := Ideal) (φ := .f32) x v reducesTo_S4096x2048_S4096_d1 h_S_) : (⟨S4096x2048, .f32⟩ : BufTy).Contents (Elt Ideal) → (⟨S_, .f32⟩ : BufTy).Contents (Elt Ideal) → (⟨S4096, .f32⟩ : BufTy).Contents (Elt Ideal)) (E V (Proc.devRef .tc main_v74 : DevRef τ sig)) (E V (Proc.devRef .tc main_cst_16 : DevRef τ sig)) :=
  Cert.ReadEnd.end2 (writesAt (F := Ideal)) V (E V) [] (E_T V) 121 _ _ _ _ _ _ _ rfl (Cert.ReadEnd.nk (by decide)) (Cert.ReadEnd.nk (by decide)) (Cert.ReadEnd.nk (by decide))

theorem e_main_cst_17 : E V (Proc.devRef .tc main_cst_17 : DevRef τ sig) = ((constant (F := Ideal) S_ .f32 0x45000000#32) : (⟨S_, .f32⟩ : BufTy).Contents (Elt Ideal)) :=
  Cert.ReadEnd.end0 (writesAt (F := Ideal)) V (E V) [] (E_T V) 122 _ _ _ rfl (Cert.ReadEnd.nk (by decide))

theorem e_main_v76 : E V (Proc.devRef .tc main_v76 : DevRef τ sig) = ((broadcastInDim S4096 ![] bcast_S_S4096) : (⟨S_, .f32⟩ : BufTy).Contents (Elt Ideal) → (⟨S4096, .f32⟩ : BufTy).Contents (Elt Ideal)) (E V (Proc.devRef .tc main_cst_17 : DevRef τ sig)) :=
  Cert.ReadEnd.end1 (writesAt (F := Ideal)) V (E V) [] (E_T V) 123 _ _ _ _ _ rfl (Cert.ReadEnd.nk (by decide)) (Cert.ReadEnd.nk (by decide))

theorem e_main_v77 : E V (Proc.devRef .tc main_v77 : DevRef τ sig) = (Host.divf (F := Ideal) (φ := .f32) : (⟨S4096, .f32⟩ : BufTy).Contents (Elt Ideal) → (⟨S4096, .f32⟩ : BufTy).Contents (Elt Ideal) → (⟨S4096, .f32⟩ : BufTy).Contents (Elt Ideal)) (E V (Proc.devRef .tc main_v75 : DevRef τ sig)) (E V (Proc.devRef .tc main_v76 : DevRef τ sig)) :=
  Cert.ReadEnd.end2 (writesAt (F := Ideal)) V (E V) [] (E_T V) 124 _ _ _ _ _ _ _ rfl (Cert.ReadEnd.nk (by decide)) (Cert.ReadEnd.nk (by decide)) (Cert.ReadEnd.nk (by decide))

end Cert.ReferenceIdeal.RefValue

end
-- ==== Proof.RefDistA.lean ====
/-
  The distance stage of the reference at an index, in terms of the points P = (row, channel, point) and the extents
  C = (row, channel) it starts from, and its result as the specification's function of the argument arrays.

  Per row r and point p, with D a = |C a − P a|: the indicator of P a ≤ C a as a number, their sum over the three
  channels from zero, the comparison of that sum with 2.5; the pair (P a, D a) laid in two slots, the pair with the
  inlier channels zeroed; the maximum of the latter over slots and channels from −∞ and the minimum of the former
  from +∞; the blend of the two by the indicator of "all three inliers", which is the selection of one of them; the
  sum over the points from zero, divided by 2048.
-/
import proofs.«169947_j35682588295463_2_alg».proof.Proof.RefEnd3
import proofs.«169947_j35682588295463_2_alg».proof.Proof.RefPoints
import proofs.«169947_j35682588295463_2_alg».proof.Proof.RefCub
import proofs.«169947_j35682588295463_2_alg».proof.Proof.RefDistPure
import proofs.«169947_j35682588295463_2_alg».proof.Proof.RefLaws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.Spec

variable (V : Valuation τ sig (Elt Ideal))

/-! ## The stage's buffers at their array types

The contents of a buffer are typed by a lookup of the buffer in the program's tables; arithmetic on an entry needs the
entry's type to be visibly the extended reals, so each buffer read below is named once at its array type. -/

/-- Buffer v20 at the end, at its array type. -/
abbrev a_main_v20 : FVec Ideal S4096x3x2048 .f32 := E V (Proc.devRef .tc main_v20 : DevRef τ sig)
/-- Buffer v40 at the end, at its array type. -/
abbrev a_main_v40 : FVec Ideal S4096x3 .f32 := E V (Proc.devRef .tc main_v40 : DevRef τ sig)
/-- Buffer v49 at the end, at its array type. -/
abbrev a_main_v49 : FVec Ideal S4096x3x2048 .f32 := E V (Proc.devRef .tc main_v49 : DevRef τ sig)
/-- Buffer v55 at the end, at its array type. -/
abbrev a_main_v55 : FVec Ideal S4096x3x2048 .f32 := E V (Proc.devRef .tc main_v55 : DevRef τ sig)
/-- Buffer v51 at the end, at its array type. -/
abbrev a_main_v51 : FVec Ideal S4096x3x2048 .f32 := E V (Proc.devRef .tc main_v51 : DevRef τ sig)
/-- Buffer v54 at the end, at its array type. -/
abbrev a_main_v54 : FVec Ideal S4096x3x2048x2 .f32 := E V (Proc.devRef .tc main_v54 : DevRef τ sig)
/-- Buffer v56 at the end, at its array type. -/
abbrev a_main_v56 : IVec S4096x3x2048 1 := E V (Proc.devRef .tc main_v56 : DevRef τ sig)
/-- Buffer v57 at the end, at its array type. -/
abbrev a_main_v57 : FVec Ideal S4096x3x2048 .f32 := E V (Proc.devRef .tc main_v57 : DevRef τ sig)
/-- Buffer v58 at the end, at its array type. -/
abbrev a_main_v58 : FVec Ideal S4096x2048 .f32 := E V (Proc.devRef .tc main_v58 : DevRef τ sig)
/-- Buffer v60 at the end, at its array type. -/
abbrev a_main_v60 : IVec S4096x2048 1 := E V (Proc.devRef .tc main_v60 : DevRef τ sig)
/-- Buffer v61 at the end, at its array type. -/
abbrev a_main_v61 : FVec Ideal S4096x2048 .f32 := E V (Proc.devRef .tc main_v61 : DevRef τ sig)
/-- Buffer v64 at the end, at its array type. -/
abbrev a_main_v64 : IVec S4096x3x2048x1 1 := E V (Proc.devRef .tc main_v64 : DevRef τ sig)
/-- Buffer v65 at the end, at its array type. -/
abbrev a_main_v65 : FVec Ideal S4096x3x2048x2 .f32 := E V (Proc.devRef .tc main_v65 : DevRef τ sig)
/-- Buffer v66 at the end, at its array type. -/
abbrev a_main_v66 : FVec Ideal S4096x3x2048 .f32 := E V (Proc.devRef .tc main_v66 : DevRef τ sig)
/-- Buffer v67 at the end, at its array type. -/
abbrev a_main_v67 : FVec Ideal S4096x2048 .f32 := E V (Proc.devRef .tc main_v67 : DevRef τ sig)
/-- Buffer v68 at the end, at its array type. -/
abbrev a_main_v68 : FVec Ideal S4096x3x2048 .f32 := E V (Proc.devRef .tc main_v68 : DevRef τ sig)
/-- Buffer v69 at the end, at its array type. -/
abbrev a_main_v69 : FVec Ideal S4096x2048 .f32 := E V (Proc.devRef .tc main_v69 : DevRef τ sig)
/-- Buffer v74 at the end, at its array type. -/
abbrev a_main_v74 : FVec Ideal S4096x2048 .f32 := E V (Proc.devRef .tc main_v74 : DevRef τ sig)
/-- Buffer v77 at the end, at its array type. -/
abbrev a_main_v77 : FVec Ideal S4096 .f32 := E V (Proc.devRef .tc main_v77 : DevRef τ sig)

/-! ## The extents repeated along the points, the differences -/

theorem main_v49_at (r : Fin 4096) (a : Fin 3) (p : Fin 2048) : a_main_v49 V (ix3 r a p) = (a_main_v40 V (ix2 r a)) := by
  show E V (Proc.devRef .tc main_v49 : DevRef τ sig) (ix3 r a p) = _
  have h : E V (Proc.devRef .tc main_v49 : DevRef τ sig) = (broadcastInDim S4096x3x2048 ![0, 1, 2] bcast_S4096x3x1_S4096x3x2048_0_1_2) ((broadcastInDim S4096x3x1 ![0, 1] bcast_S4096x3_S4096x3x1_0_1) (E V (Proc.devRef .tc main_v40 : DevRef τ sig))) := by
    rw [e_main_v49, e_main_v48]
  rw [h]
  exact Cert.RefDistPure.bcast_cub_apply _ _ _ r a p

theorem main_v55_at (r : Fin 4096) (a : Fin 3) (p : Fin 2048) : a_main_v55 V (ix3 r a p) = (a_main_v40 V (ix2 r a)) := by
  show E V (Proc.devRef .tc main_v55 : DevRef τ sig) (ix3 r a p) = _
  have h : E V (Proc.devRef .tc main_v55 : DevRef τ sig) = (broadcastInDim S4096x3x2048 ![0, 1, 2] bcast_S4096x3x1_S4096x3x2048_0_1_2) ((broadcastInDim S4096x3x1 ![0, 1] bcast_S4096x3_S4096x3x1_0_1) (E V (Proc.devRef .tc main_v40 : DevRef τ sig))) := by
    rw [e_main_v55, e_main_v48]
  rw [h]
  exact Cert.RefDistPure.bcast_cub_apply _ _ _ r a p

theorem main_v51_at (r : Fin 4096) (a : Fin 3) (p : Fin 2048) : a_main_v51 V (ix3 r a p) = (max ((a_main_v40 V (ix2 r a)) - (a_main_v20 V (ix3 r a p))) (-((a_main_v40 V (ix2 r a)) - (a_main_v20 V (ix3 r a p))))) := by
  show E V (Proc.devRef .tc main_v51 : DevRef τ sig) (ix3 r a p) = _
  have h : E V (Proc.devRef .tc main_v51 : DevRef τ sig) = Host.absf (F := Ideal) (φ := .f32) (subf (F := Ideal) (φ := .f32) (E V (Proc.devRef .tc main_v49 : DevRef τ sig)) (E V (Proc.devRef .tc main_v20 : DevRef τ sig))) := by
    rw [e_main_v51, e_main_v50]
  rw [h]
  show max (a_main_v49 V (ix3 r a p) - (a_main_v20 V (ix3 r a p))) (-(a_main_v49 V (ix3 r a p) - (a_main_v20 V (ix3 r a p)))) = _
  rw [main_v49_at]

/-! ## The two slots -/

theorem main_v54_at0 (r : Fin 4096) (a : Fin 3) (p : Fin 2048) : a_main_v54 V (ix4 r a p (0 : Fin 2)) = (a_main_v20 V (ix3 r a p)) := by
  show E V (Proc.devRef .tc main_v54 : DevRef τ sig) (ix4 r a p (0 : Fin 2)) = _
  have h : E V (Proc.devRef .tc main_v54 : DevRef τ sig) = concatenate S4096x3x2048x2 3 [⟨S4096x3x2048x1, ((broadcastInDim S4096x3x2048x1 ![0, 1, 2] bcast_S4096x3x2048_S4096x3x2048x1_0_1_2) (E V (Proc.devRef .tc main_v20 : DevRef τ sig)))⟩, ⟨S4096x3x2048x1, ((broadcastInDim S4096x3x2048x1 ![0, 1, 2] bcast_S4096x3x2048_S4096x3x2048x1_0_1_2) (E V (Proc.devRef .tc main_v51 : DevRef τ sig)))⟩] concatenates_S4096x3x2048x1_S4096x3x2048x1_S4096x3x2048x2_d3 := by
    rw [e_main_v54, e_main_v53, e_main_v52]
  rw [h, Cert.RefDistPure.concat_slot0]
  exact Cert.RefDistPure.bcast_unit_apply _ _ r a p 0

theorem main_v54_at1 (r : Fin 4096) (a : Fin 3) (p : Fin 2048) : a_main_v54 V (ix4 r a p (1 : Fin 2)) = (max ((a_main_v40 V (ix2 r a)) - (a_main_v20 V (ix3 r a p))) (-((a_main_v40 V (ix2 r a)) - (a_main_v20 V (ix3 r a p))))) := by
  show E V (Proc.devRef .tc main_v54 : DevRef τ sig) (ix4 r a p (1 : Fin 2)) = _
  have h : E V (Proc.devRef .tc main_v54 : DevRef τ sig) = concatenate S4096x3x2048x2 3 [⟨S4096x3x2048x1, ((broadcastInDim S4096x3x2048x1 ![0, 1, 2] bcast_S4096x3x2048_S4096x3x2048x1_0_1_2) (E V (Proc.devRef .tc main_v20 : DevRef τ sig)))⟩, ⟨S4096x3x2048x1, ((broadcastInDim S4096x3x2048x1 ![0, 1, 2] bcast_S4096x3x2048_S4096x3x2048x1_0_1_2) (E V (Proc.devRef .tc main_v51 : DevRef τ sig)))⟩] concatenates_S4096x3x2048x1_S4096x3x2048x1_S4096x3x2048x2_d3 := by
    rw [e_main_v54, e_main_v53, e_main_v52]
  rw [h, Cert.RefDistPure.concat_slot1]
  exact (Cert.RefDistPure.bcast_unit_apply _ _ r a p 0).trans (main_v51_at V r a p)

/-! ## The indicators -/

theorem main_v56_at (r : Fin 4096) (a : Fin 3) (p : Fin 2048) : a_main_v56 V (ix3 r a p) = (Ideal.cmp .ole (a_main_v20 V (ix3 r a p)) (a_main_v40 V (ix2 r a))) := by
  show E V (Proc.devRef .tc main_v56 : DevRef τ sig) (ix3 r a p) = _
  have h : E V (Proc.devRef .tc main_v56 : DevRef τ sig) = (cmpf (F := Ideal) (φ := .f32) .ole) (E V (Proc.devRef .tc main_v20 : DevRef τ sig)) (E V (Proc.devRef .tc main_v55 : DevRef τ sig)) := by
    rw [e_main_v56]
  rw [h]
  show Ideal.cmp .ole (a_main_v20 V (ix3 r a p)) (a_main_v55 V (ix3 r a p)) = _
  rw [main_v55_at]

theorem main_v57_at (r : Fin 4096) (a : Fin 3) (p : Fin 2048) : a_main_v57 V (ix3 r a p) = ind (Ideal.cmp .ole (a_main_v20 V (ix3 r a p)) (a_main_v40 V (ix2 r a))) := by
  show E V (Proc.devRef .tc main_v57 : DevRef τ sig) (ix3 r a p) = _
  have h : E V (Proc.devRef .tc main_v57 : DevRef τ sig) = (uitofp (F := Ideal) .f32) (E V (Proc.devRef .tc main_v56 : DevRef τ sig)) := by
    rw [e_main_v57]
  rw [h]
  show (((BitVec.toNat (a_main_v56 V (ix3 r a p)) : ℝ)) : EReal) = _
  rw [Cert.RefLaws.uitofp_eq_ind, main_v56_at]

theorem main_v58_at (r : Fin 4096) (p : Fin 2048) : a_main_v58 V (ix2 r p) = ((ind (Ideal.cmp .ole (a_main_v20 V (ix3 r 0 p)) (a_main_v40 V (ix2 r 0))) + ind (Ideal.cmp .ole (a_main_v20 V (ix3 r 1 p)) (a_main_v40 V (ix2 r 1)))) + ind (Ideal.cmp .ole (a_main_v20 V (ix3 r 2 p)) (a_main_v40 V (ix2 r 2)))) := by
  show E V (Proc.devRef .tc main_v58 : DevRef τ sig) (ix2 r p) = _
  have h : E V (Proc.devRef .tc main_v58 : DevRef τ sig) = Host.reduceAdd (F := Ideal) (φ := .f32) (E V (Proc.devRef .tc main_v57 : DevRef τ sig)) (constant (F := Ideal) S_ .f32 0x00000000#32) reducesTo_S4096x3x2048_S4096x2048_d1 h_S_ := by
    rw [e_main_v58, e_main_cst_7]
  rw [h, Cert.RefDistPure.sum_chan_apply]
  show Ideal.ofBits .f32 0x00000000#32 + ∑ a : Fin 3, a_main_v57 V (ix3 r a p) = _
  rw [Cert.RefLaws.count_eq, main_v57_at, main_v57_at, main_v57_at]

theorem main_v60_at (r : Fin 4096) (p : Fin 2048) : a_main_v60 V (ix2 r p) = (Ideal.cmp .ogt ((ind (Ideal.cmp .ole (a_main_v20 V (ix3 r 0 p)) (a_main_v40 V (ix2 r 0))) + ind (Ideal.cmp .ole (a_main_v20 V (ix3 r 1 p)) (a_main_v40 V (ix2 r 1)))) + ind (Ideal.cmp .ole (a_main_v20 V (ix3 r 2 p)) (a_main_v40 V (ix2 r 2)))) (Ideal.ofBits .f32 0x40200000#32)) := by
  show E V (Proc.devRef .tc main_v60 : DevRef τ sig) (ix2 r p) = _
  have h : E V (Proc.devRef .tc main_v60 : DevRef τ sig) = (cmpf (F := Ideal) (φ := .f32) .ogt) (E V (Proc.devRef .tc main_v58 : DevRef τ sig)) ((broadcastInDim S4096x2048 ![] bcast_S_S4096x2048) (constant (F := Ideal) S_ .f32 0x40200000#32)) := by
    rw [e_main_v60, e_main_v59, e_main_cst_8]
  rw [h]
  show Ideal.cmp .ogt (a_main_v58 V (ix2 r p)) (Ideal.ofBits .f32 0x40200000#32) = _
  rw [main_v58_at]

theorem main_v61_at (r : Fin 4096) (p : Fin 2048) : a_main_v61 V (ix2 r p) = ind (Ideal.cmp .ogt ((ind (Ideal.cmp .ole (a_main_v20 V (ix3 r 0 p)) (a_main_v40 V (ix2 r 0))) + ind (Ideal.cmp .ole (a_main_v20 V (ix3 r 1 p)) (a_main_v40 V (ix2 r 1)))) + ind (Ideal.cmp .ole (a_main_v20 V (ix3 r 2 p)) (a_main_v40 V (ix2 r 2)))) (Ideal.ofBits .f32 0x40200000#32)) := by
  show E V (Proc.devRef .tc main_v61 : DevRef τ sig) (ix2 r p) = _
  have h : E V (Proc.devRef .tc main_v61 : DevRef τ sig) = (uitofp (F := Ideal) .f32) (E V (Proc.devRef .tc main_v60 : DevRef τ sig)) := by
    rw [e_main_v61]
  rw [h]
  show (((BitVec.toNat (a_main_v60 V (ix2 r p)) : ℝ)) : EReal) = _
  rw [Cert.RefLaws.uitofp_eq_ind, main_v60_at]

theorem main_v64_at (r : Fin 4096) (a : Fin 3) (p : Fin 2048) : a_main_v64 V (ix4 r a p (0 : Fin 1)) = (Ideal.cmp .ole (a_main_v20 V (ix3 r a p)) (a_main_v40 V (ix2 r a))) := by
  show E V (Proc.devRef .tc main_v64 : DevRef τ sig) (ix4 r a p (0 : Fin 1)) = _
  have h : E V (Proc.devRef .tc main_v64 : DevRef τ sig) = (cmpf (F := Ideal) (φ := .f32) .ogt) ((broadcastInDim S4096x3x2048x1 ![0, 1, 2] bcast_S4096x3x2048_S4096x3x2048x1_0_1_2) (E V (Proc.devRef .tc main_v57 : DevRef τ sig))) ((broadcastInDim S4096x3x2048x1 ![] bcast_S_S4096x3x2048x1) (constant (F := Ideal) S_ .f32 0x3F000000#32)) := by
    rw [e_main_v64, e_main_v63, e_main_cst_9, e_main_v62]
  rw [h]
  show Ideal.cmp .ogt (broadcastInDim S4096x3x2048x1 ![0, 1, 2] bcast_S4096x3x2048_S4096x3x2048x1_0_1_2 (a_main_v57 V) (ix4 r a p (0 : Fin 1))) (Ideal.ofBits .f32 0x3F000000#32) = _
  rw [Cert.RefDistPure.bcast_unit_apply, main_v57_at, Cert.RefLaws.cmp_ogt_ind_half]

/-! ## The far and the near distance -/

theorem main_v65_at (r : Fin 4096) (a : Fin 3) (p : Fin 2048) (t : Fin 2) : a_main_v65 V (ix4 r a p t) = Scalar.select (Ideal.cmp .ole (a_main_v20 V (ix3 r a p)) (a_main_v40 V (ix2 r a))) zeroW (a_main_v54 V (ix4 r a p t)) := by
  show E V (Proc.devRef .tc main_v65 : DevRef τ sig) (ix4 r a p t) = _
  have h : E V (Proc.devRef .tc main_v65 : DevRef τ sig) = select ((broadcastInDim S4096x3x2048x2 ![0, 1, 2, 3] bcast_S4096x3x2048x1_S4096x3x2048x2_0_1_2_3) (E V (Proc.devRef .tc main_v64 : DevRef τ sig))) ((broadcastInDim S4096x3x2048x2 ![] bcast_S_S4096x3x2048x2) (id (constant (F := Ideal) S_ .f32 0x00000000#32))) (E V (Proc.devRef .tc main_v54 : DevRef τ sig)) := by
    rw [e_main_v65, e_main_call4_v2, e_main_call4_v1, e_main_call4_v0, e_main_cst_10]
  rw [h]
  show Scalar.select (broadcastInDim S4096x3x2048x2 ![0, 1, 2, 3] bcast_S4096x3x2048x1_S4096x3x2048x2_0_1_2_3 (a_main_v64 V) (ix4 r a p t)) zeroW (a_main_v54 V (ix4 r a p t)) = _
  rw [Cert.RefDistPure.bcast_slots_apply, main_v64_at]

theorem main_v66_at (r : Fin 4096) (a : Fin 3) (p : Fin 2048) : a_main_v66 V (ix3 r a p) = (Scalar.select (Ideal.cmp .ole (a_main_v20 V (ix3 r a p)) (a_main_v40 V (ix2 r a))) zeroW (max (a_main_v20 V (ix3 r a p)) (max ((a_main_v40 V (ix2 r a)) - (a_main_v20 V (ix3 r a p))) (-((a_main_v40 V (ix2 r a)) - (a_main_v20 V (ix3 r a p))))))) := by
  show E V (Proc.devRef .tc main_v66 : DevRef τ sig) (ix3 r a p) = _
  have h : E V (Proc.devRef .tc main_v66 : DevRef τ sig) = Host.reduce (FloatOps.maximumf (F := Ideal) (φ := .f32)) (E V (Proc.devRef .tc main_v65 : DevRef τ sig)) (constant (F := Ideal) S_ .f32 0xFF800000#32) reducesTo_S4096x3x2048x2_S4096x3x2048_d3 h_S_ := by
    rw [e_main_v66, e_main_cst_11]
  rw [h, Cert.RefDistPure.max_slot_apply]
  show max (a_main_v65 V (ix4 r a p (0 : Fin 2))) (a_main_v65 V (ix4 r a p (1 : Fin 2))) = _
  rw [main_v65_at, main_v65_at, main_v54_at0, main_v54_at1, Cert.RefLaws.max_select]

theorem main_v67_at (r : Fin 4096) (p : Fin 2048) : a_main_v67 V (ix2 r p) = (max (max (Scalar.select (Ideal.cmp .ole (a_main_v20 V (ix3 r 0 p)) (a_main_v40 V (ix2 r 0))) zeroW (max (a_main_v20 V (ix3 r 0 p)) (max ((a_main_v40 V (ix2 r 0)) - (a_main_v20 V (ix3 r 0 p))) (-((a_main_v40 V (ix2 r 0)) - (a_main_v20 V (ix3 r 0 p))))))) (Scalar.select (Ideal.cmp .ole (a_main_v20 V (ix3 r 1 p)) (a_main_v40 V (ix2 r 1))) zeroW (max (a_main_v20 V (ix3 r 1 p)) (max ((a_main_v40 V (ix2 r 1)) - (a_main_v20 V (ix3 r 1 p))) (-((a_main_v40 V (ix2 r 1)) - (a_main_v20 V (ix3 r 1 p)))))))) (Scalar.select (Ideal.cmp .ole (a_main_v20 V (ix3 r 2 p)) (a_main_v40 V (ix2 r 2))) zeroW (max (a_main_v20 V (ix3 r 2 p)) (max ((a_main_v40 V (ix2 r 2)) - (a_main_v20 V (ix3 r 2 p))) (-((a_main_v40 V (ix2 r 2)) - (a_main_v20 V (ix3 r 2 p)))))))) := by
  show E V (Proc.devRef .tc main_v67 : DevRef τ sig) (ix2 r p) = _
  have h : E V (Proc.devRef .tc main_v67 : DevRef τ sig) = Host.reduce (FloatOps.maximumf (F := Ideal) (φ := .f32)) (E V (Proc.devRef .tc main_v66 : DevRef τ sig)) (constant (F := Ideal) S_ .f32 0xFF800000#32) reducesTo_S4096x3x2048_S4096x2048_d1 h_S_ := by
    rw [e_main_v67, e_main_cst_12]
  rw [h, Cert.RefDistPure.max_chan_apply]
  show max (max (a_main_v66 V (ix3 r 0 p)) (a_main_v66 V (ix3 r 1 p))) (a_main_v66 V (ix3 r 2 p)) = _
  rw [main_v66_at, main_v66_at, main_v66_at]

theorem main_v68_at (r : Fin 4096) (a : Fin 3) (p : Fin 2048) : a_main_v68 V (ix3 r a p) = (min (a_main_v20 V (ix3 r a p)) (max ((a_main_v40 V (ix2 r a)) - (a_main_v20 V (ix3 r a p))) (-((a_main_v40 V (ix2 r a)) - (a_main_v20 V (ix3 r a p)))))) := by
  show E V (Proc.devRef .tc main_v68 : DevRef τ sig) (ix3 r a p) = _
  have h : E V (Proc.devRef .tc main_v68 : DevRef τ sig) = Host.reduce (FloatOps.minimumf (F := Ideal) (φ := .f32)) (E V (Proc.devRef .tc main_v54 : DevRef τ sig)) (constant (F := Ideal) S_ .f32 0x7F800000#32) reducesTo_S4096x3x2048x2_S4096x3x2048_d3 h_S_ := by
    rw [e_main_v68, e_main_cst_13]
  rw [h, Cert.RefDistPure.min_slot_apply]
  show min (a_main_v54 V (ix4 r a p (0 : Fin 2))) (a_main_v54 V (ix4 r a p (1 : Fin 2))) = _
  rw [main_v54_at0, main_v54_at1]

theorem main_v69_at (r : Fin 4096) (p : Fin 2048) : a_main_v69 V (ix2 r p) = (min (min (min (a_main_v20 V (ix3 r 0 p)) (max ((a_main_v40 V (ix2 r 0)) - (a_main_v20 V (ix3 r 0 p))) (-((a_main_v40 V (ix2 r 0)) - (a_main_v20 V (ix3 r 0 p)))))) (min (a_main_v20 V (ix3 r 1 p)) (max ((a_main_v40 V (ix2 r 1)) - (a_main_v20 V (ix3 r 1 p))) (-((a_main_v40 V (ix2 r 1)) - (a_main_v20 V (ix3 r 1 p))))))) (min (a_main_v20 V (ix3 r 2 p)) (max ((a_main_v40 V (ix2 r 2)) - (a_main_v20 V (ix3 r 2 p))) (-((a_main_v40 V (ix2 r 2)) - (a_main_v20 V (ix3 r 2 p))))))) := by
  show E V (Proc.devRef .tc main_v69 : DevRef τ sig) (ix2 r p) = _
  have h : E V (Proc.devRef .tc main_v69 : DevRef τ sig) = Host.reduce (FloatOps.minimumf (F := Ideal) (φ := .f32)) (E V (Proc.devRef .tc main_v68 : DevRef τ sig)) (constant (F := Ideal) S_ .f32 0x7F800000#32) reducesTo_S4096x3x2048_S4096x2048_d1 h_S_ := by
    rw [e_main_v69, e_main_cst_14]
  rw [h, Cert.RefDistPure.min_chan_apply]
  show min (min (a_main_v68 V (ix3 r 0 p)) (a_main_v68 V (ix3 r 1 p))) (a_main_v68 V (ix3 r 2 p)) = _
  rw [main_v68_at, main_v68_at, main_v68_at]

/-! ## The blend is the specification's contribution -/

end Cert.ReferenceIdeal.RefValue

end
-- ==== Proof.RefDistB.lean ====
/-
  The end of the distance stage: the blend of the near and the far distance by the indicator of "all three channels
  inliers" is the specification's contribution of the point, and the mean of the contributions over the 2048 points is
  the specification's distance of the row.
-/
import proofs.«169947_j35682588295463_2_alg».proof.Proof.RefDistA

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.Spec

-- the end contents are read through the per-operation equations only, never by unfolding the fold
attribute [local irreducible] E

variable (V : Valuation τ sig (Elt Ideal))

/-- The blend as the reference computes it. -/
theorem main_v74_blend (r : Fin 4096) (p : Fin 2048) :
    a_main_v74 V (ix2 r p) = a_main_v69 V (ix2 r p) * a_main_v61 V (ix2 r p) + (Ideal.ofBits .f32 0x3F800000#32 - a_main_v61 V (ix2 r p)) * a_main_v67 V (ix2 r p) := by
  show E V (Proc.devRef .tc main_v74 : DevRef τ sig) (ix2 r p) = _
  have h : E V (Proc.devRef .tc main_v74 : DevRef τ sig) = addf (F := Ideal) (φ := .f32) (mulf (F := Ideal) (φ := .f32) (E V (Proc.devRef .tc main_v69 : DevRef τ sig)) (E V (Proc.devRef .tc main_v61 : DevRef τ sig))) (mulf (F := Ideal) (φ := .f32) (subf (F := Ideal) (φ := .f32) ((broadcastInDim S4096x2048 ![] bcast_S_S4096x2048) (constant (F := Ideal) S_ .f32 0x3F800000#32)) (E V (Proc.devRef .tc main_v61 : DevRef τ sig))) (E V (Proc.devRef .tc main_v67 : DevRef τ sig))) := by
    rw [e_main_v74, e_main_v73, e_main_v72, e_main_v71, e_main_cst_15, e_main_v70]
  rw [h, addf_apply, mulf_apply, mulf_apply, subf_apply, broadcastInDim_scalar_apply, constant_apply]

/-- The blend is the selection of the near or the far distance by the bit "all three channels inliers". -/
theorem main_v74_sel (r : Fin 4096) (p : Fin 2048) :
    a_main_v74 V (ix2 r p) = Scalar.select (Ideal.cmp .ogt ((ind (Ideal.cmp .ole (a_main_v20 V (ix3 r 0 p)) (a_main_v40 V (ix2 r 0))) + ind (Ideal.cmp .ole (a_main_v20 V (ix3 r 1 p)) (a_main_v40 V (ix2 r 1)))) + ind (Ideal.cmp .ole (a_main_v20 V (ix3 r 2 p)) (a_main_v40 V (ix2 r 2)))) (Ideal.ofBits .f32 0x40200000#32)) (min (min (min (a_main_v20 V (ix3 r 0 p)) (max ((a_main_v40 V (ix2 r 0)) - (a_main_v20 V (ix3 r 0 p))) (-((a_main_v40 V (ix2 r 0)) - (a_main_v20 V (ix3 r 0 p)))))) (min (a_main_v20 V (ix3 r 1 p)) (max ((a_main_v40 V (ix2 r 1)) - (a_main_v20 V (ix3 r 1 p))) (-((a_main_v40 V (ix2 r 1)) - (a_main_v20 V (ix3 r 1 p))))))) (min (a_main_v20 V (ix3 r 2 p)) (max ((a_main_v40 V (ix2 r 2)) - (a_main_v20 V (ix3 r 2 p))) (-((a_main_v40 V (ix2 r 2)) - (a_main_v20 V (ix3 r 2 p))))))) (max (max (Scalar.select (Ideal.cmp .ole (a_main_v20 V (ix3 r 0 p)) (a_main_v40 V (ix2 r 0))) zeroW (max (a_main_v20 V (ix3 r 0 p)) (max ((a_main_v40 V (ix2 r 0)) - (a_main_v20 V (ix3 r 0 p))) (-((a_main_v40 V (ix2 r 0)) - (a_main_v20 V (ix3 r 0 p))))))) (Scalar.select (Ideal.cmp .ole (a_main_v20 V (ix3 r 1 p)) (a_main_v40 V (ix2 r 1))) zeroW (max (a_main_v20 V (ix3 r 1 p)) (max ((a_main_v40 V (ix2 r 1)) - (a_main_v20 V (ix3 r 1 p))) (-((a_main_v40 V (ix2 r 1)) - (a_main_v20 V (ix3 r 1 p)))))))) (Scalar.select (Ideal.cmp .ole (a_main_v20 V (ix3 r 2 p)) (a_main_v40 V (ix2 r 2))) zeroW (max (a_main_v20 V (ix3 r 2 p)) (max ((a_main_v40 V (ix2 r 2)) - (a_main_v20 V (ix3 r 2 p))) (-((a_main_v40 V (ix2 r 2)) - (a_main_v20 V (ix3 r 2 p)))))))) := by
  rw [main_v74_blend, main_v61_at, Cert.RefLaws.blend_eq_select, main_v69_at, main_v67_at]

/-- The blend is the specification's contribution of the point. -/
theorem main_v74_at (r : Fin 4096) (p : Fin 2048) : a_main_v74 V (ix2 r p) = contrib (fun a => a_main_v20 V (ix3 r a p)) (fun a => a_main_v40 V (ix2 r a)) := by
  rw [main_v74_sel]
  unfold contrib
  with_reducible rfl

/-- The row's distance. -/
theorem main_v77_at (r : Fin 4096) :
    a_main_v77 V (ix1 r) = rowDist (ptsRow (V (Proc.devRef .tc main_arg0 : DevRef τ sig)) (V (Proc.devRef .tc main_arg1 : DevRef τ sig)) (V (Proc.devRef .tc main_arg2 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig)) r) (cubRow (V (Proc.devRef .tc main_arg0 : DevRef τ sig)) (V (Proc.devRef .tc main_arg7 : DevRef τ sig)) (V (Proc.devRef .tc main_arg8 : DevRef τ sig)) (V (Proc.devRef .tc main_arg9 : DevRef τ sig)) (V (Proc.devRef .tc main_arg10 : DevRef τ sig)) (V (Proc.devRef .tc main_arg11 : DevRef τ sig)) (V (Proc.devRef .tc main_arg12 : DevRef τ sig)) r) := by
  show E V (Proc.devRef .tc main_v77 : DevRef τ sig) (ix1 r) = _
  have h : E V (Proc.devRef .tc main_v77 : DevRef τ sig) = Host.divf (F := Ideal) (φ := .f32) (Host.reduceAdd (F := Ideal) (φ := .f32) (E V (Proc.devRef .tc main_v74 : DevRef τ sig)) (constant (F := Ideal) S_ .f32 0x00000000#32) reducesTo_S4096x2048_S4096_d1 h_S_) ((broadcastInDim S4096 ![] bcast_S_S4096) (constant (F := Ideal) S_ .f32 0x45000000#32)) := by
    rw [e_main_v77, e_main_v76, e_main_cst_17, e_main_v75, e_main_cst_16]
  rw [h, hostDivf_apply, Cert.RefDistPure.sum_point_apply, broadcastInDim_scalar_apply, constant_apply, constant_apply,
    Cert.RefLaws.ofBits_zero, zero_add]
  unfold rowDist
  refine congrArg (fun s => Ideal.div s (Ideal.ofBits .f32 0x45000000#32)) (Finset.sum_congr rfl fun p _ => ?_)
  have h1 : (fun a => a_main_v20 V (ix3 r a p)) = fun a => ptsRow (V (Proc.devRef .tc main_arg0 : DevRef τ sig)) (V (Proc.devRef .tc main_arg1 : DevRef τ sig)) (V (Proc.devRef .tc main_arg2 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig)) r (col a p) := funext fun a => main_v20_at V r a p
  have h2 : (fun a => a_main_v40 V (ix2 r a)) = cubRow (V (Proc.devRef .tc main_arg0 : DevRef τ sig)) (V (Proc.devRef .tc main_arg7 : DevRef τ sig)) (V (Proc.devRef .tc main_arg8 : DevRef τ sig)) (V (Proc.devRef .tc main_arg9 : DevRef τ sig)) (V (Proc.devRef .tc main_arg10 : DevRef τ sig)) (V (Proc.devRef .tc main_arg11 : DevRef τ sig)) (V (Proc.devRef .tc main_arg12 : DevRef τ sig)) r := funext fun a => main_v40_at V r a
  exact (main_v74_at V r p).trans (congrArg₂ contrib h1 h2)

/-- Result 1: the distances are the specification's. -/
theorem dists_eq : E V (Proc.devRef .tc main_v77 : DevRef τ sig) = dists (V (Proc.devRef .tc main_arg0 : DevRef τ sig)) (V (Proc.devRef .tc main_arg1 : DevRef τ sig)) (V (Proc.devRef .tc main_arg2 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig)) (V (Proc.devRef .tc main_arg7 : DevRef τ sig)) (V (Proc.devRef .tc main_arg8 : DevRef τ sig)) (V (Proc.devRef .tc main_arg9 : DevRef τ sig)) (V (Proc.devRef .tc main_arg10 : DevRef τ sig)) (V (Proc.devRef .tc main_arg11 : DevRef τ sig)) (V (Proc.devRef .tc main_arg12 : DevRef τ sig)) := by
  funext i
  rw [eq_ix1 i]
  exact main_v77_at V (i 0)

end Cert.ReferenceIdeal.RefValue

end
-- ==== Proof.RefSpec.lean ====
/-
  The reference function's run, with its four results as the specification's functions of the argument arrays.

  Every weakly fair execution of the function terminates; at the end the points, the distances and the extents are the
  specification's functions of the thirteen argument arrays as they were at the start, the fourth result is the 3×3
  identity (an iota compared with an iota, converted) repeated for every row, spelt as the function's own operations
  compose it, and the argument arrays are unchanged.
-/
import proofs.«169947_j35682588295463_2_alg».proof.Proof.RefOps
import proofs.«169947_j35682588295463_2_alg».proof.Proof.RefFrame
import proofs.«169947_j35682588295463_2_alg».proof.Proof.RefEnd2
import proofs.«169947_j35682588295463_2_alg».proof.Proof.RefPoints
import proofs.«169947_j35682588295463_2_alg».proof.Proof.RefCub
import proofs.«169947_j35682588295463_2_alg».proof.Proof.RefDistB

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.Spec

variable (V : Valuation τ sig (Elt Ideal))

/-- Result 3: the repeated identity, as the operations compose it. -/
theorem ident_eq : E V (Proc.devRef .tc main_v47 : DevRef τ sig) = (broadcastInDim S4096x3x3 ![1, 2] bcast_S3x3_S4096x3x3_1_2) ((uitofp (F := Ideal) .f32) ((cmpi .eq) (addi (iotaInDim S3x3 32 0) ((broadcastInDim S3x3 ![] bcast_S_S3x3) (constantI S_ 32 0#32))) (iotaInDim S3x3 32 1))) := by
  rw [e_main_v47, e_main_v46, e_main_v45, e_main_v44, e_main_v43, e_main_c, e_main_v42, e_main_v41]

end Cert.ReferenceIdeal.RefValue

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.Spec

/-- The run of the reference function against the specification. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v20) = points (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v77) = dists (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v40) = extents (m ((c.tc : Thread nD τ).loc main_arg0)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v47) = (broadcastInDim S4096x3x3 ![1, 2] bcast_S3x3_S4096x3x3_1_2) ((uitofp (F := Ideal) .f32) ((cmpi .eq) (addi (iotaInDim S3x3 32 0) ((broadcastInDim S3x3 ![] bcast_S_S3x3) (constantI S_ 32 0#32))) (iotaInDim S3x3 32 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run (defs (F := Ideal)) _ _).mono (fun _ h c =>
    ⟨(h c main_v20).trans (points_eq (launchContents m c)),
     (h c main_v77).trans (dists_eq (launchContents m c)),
     (h c main_v40).trans (extents_eq (launchContents m c)),
     (h c main_v47).trans (ident_eq (launchContents m c)),
     (h c main_arg0).trans (keep_arg0 _),
     (h c main_arg1).trans (keep_arg1 _),
     (h c main_arg2).trans (keep_arg2 _),
     (h c main_arg3).trans (keep_arg3 _),
     (h c main_arg4).trans (keep_arg4 _),
     (h c main_arg5).trans (keep_arg5 _),
     (h c main_arg6).trans (keep_arg6 _),
     (h c main_arg7).trans (keep_arg7 _),
     (h c main_arg8).trans (keep_arg8 _),
     (h c main_arg9).trans (keep_arg9 _),
     (h c main_arg10).trans (keep_arg10 _),
     (h c main_arg11).trans (keep_arg11 _),
     (h c main_arg12).trans (keep_arg12 _)⟩)
    (run (F := Ideal) m ρ)

end Cert.ReferenceIdeal.RefValue

end
-- ==== Proof.lean ====
/-
  The decoder with a cuboid head: the kernel program against its reference, on the extended reals.

  Both programs compute, from a 4096×128 input and the weights of two three-layer perceptrons, four results:
  the points (4096 × 3 × 2048, a logistic output), each row's distance (the mean over its 2048 points of the
  point's inlier / outlier contribution), the cuboid's extents (4096 × 3, a logistic output), and the 3×3 identity
  repeated for every row.  Proof/Spec.lean states the first three as ONE function each of the thirteen arguments.

  The kernel program launches one kernel over 16 blocks of 256 rows.  Its body is run once, symbolically
  (Proof/BodyRunI.lean, and at the word level Proof/BodyRunB.lean): it stores the points block in twelve 256×512
  rectangles that tile it, and the distance and extents blocks whole.  From that run come the two kernel frames
  (Proof/FrameI.lean, Proof/FrameB.lean) and, at the exact reading, each block as the specification's function of the
  block's rows (Proof/OutPtsI, OutDistI, OutCubI over the payload arithmetic of Proof/Pay*.lean); the sixteen blocks
  cover the arrays (Proof/FlushI, FlushDistI), and the host lines after the launch only re-lay the arrays
  (Proof/TailI, ResultsI, KernelSpecI).
  The reference is one list of 125 host operations; its run is read back operation by operation
  (Proof/RefOps, RefEnd*), each stage at an index (Proof/RefCub, RefPoints, RefDist*), to the same functions
  (Proof/RefSpec).  What joins the two sides: a matrix product into a zero accumulator is the plain sum of products on
  both sides; the kernel's logistic operation is 1 / (1 + e^(−x)); an indicator b gives x·b + (1 − b)·y = (x if b else y)
  on every extended real; maxima from −∞ and minima from +∞ are the plain maxima and minima; and the row's sum over
  2048 points is the sum of its four chunks of 512.  No law used needs a finite input, so the precondition is never opened.
  The idealization pass rewrote nothing, so the kernel's idealization claim is trivial.
-/
import proofs.«169947_j35682588295463_2_alg».proof.Defs
import proofs.«169947_j35682588295463_2_alg».proof.Proof.Gen.Kernel
import proofs.«169947_j35682588295463_2_alg».proof.Proof.Gen.KernelIdeal
import proofs.«169947_j35682588295463_2_alg».proof.Proof.Gen.ReferenceIdeal
import proofs.«169947_j35682588295463_2_alg».proof.Proof.Gen.Pre_finite_inputs
import proofs.«169947_j35682588295463_2_alg».proof.Proof.FrameB
import proofs.«169947_j35682588295463_2_alg».proof.Proof.KernelSpecI
import proofs.«169947_j35682588295463_2_alg».proof.Proof.RefFrame
import proofs.«169947_j35682588295463_2_alg».proof.Proof.RefSpec
import Idealize.ShloMosaic.Adequacy
import Idealize.ShloMosaic.Init

noncomputable section

namespace Cert.Proof

open Idealize.ShloMosaic Idealize.SL.Sem

/-- The word-level kernel program terminates, faults nowhere, and leaves its arguments unchanged. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- So does the idealized reference. -/
theorem frame_ri : Cert.frame_ReferenceIdeal := Cert.ReferenceIdeal.RefValue.frame

/-- The idealization pass rewrote no operation. -/
theorem preserves : Cert.preserves_Kernel_KernelIdeal := trivial

/-- From memories agreeing on the thirteen arguments both idealized programs run to the specification's points,
    distances and extents of those arguments and to the same identity rows. -/
theorem algebraic : Cert.algebraic_KernelIdeal_ReferenceIdeal := by
  intro m ρ m' ρ' _ hagree
  refine ⟨fun c => Cert.Spec.points (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Spec.dists (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.Spec.extents (m ((c.tc : Thread Cert.KernelIdeal.nD Cert.KernelIdeal.τ).loc Cert.KernelIdeal.main_arg0)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun _ => Cert.KernelIdeal.Hand.eyeRows (F := Ideal),
    Cert.KernelIdeal.Hand.run_spec m ρ, ?_⟩
  refine (θ_run Cert.ReferenceIdeal.defs _ _).mono (fun r h c => ?_) (Cert.ReferenceIdeal.RefValue.run_spec m' ρ')
  obtain ⟨e0, e1, e2, e3, e4, e5, e6, e7, e8, e9, e10, e11, e12⟩ := hagree c
  obtain ⟨h0, h1, h2, h3, hargs⟩ := h c
  refine ⟨h0.trans ?_, h1.trans ?_, h2.trans ?_, h3.trans ?_, hargs⟩
  · rw [e0, e1, e2, e3, e4, e5, e6]
  · rw [e0, e1, e2, e3, e4, e5, e6, e7, e8, e9, e10, e11, e12]
  · rw [e0, e7, e8, e9, e10, e11, e12]
  · rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
